-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40000x128 : Shape := ⟨2, ![40000, 128]⟩
abbrev S500000x128 : Shape := ⟨2, ![500000, 128]⟩
abbrev S2x500000 : Shape := ⟨2, ![2, 500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : FVec F S40000x128 .f32) (main_arg2 : FVec F S500000x128 .f32) (main_arg3 : IVec S2x500000 32) (main_arg4 : FVec F S384x128 .f32) (main_arg5 : FVec F S128 .f32) (main_arg6 : FVec F S128x128 .f32) (main_arg7 : FVec F S128 .f32) (main_arg8 : FVec F S128 .f32) (main_arg9 : FVec F S128 .f32) (main_arg10 : FVec F S256x128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S40000x128 : Shape := ⟨2, ![40000, 128]⟩
abbrev S500000x128 : Shape := ⟨2, ![500000, 128]⟩
abbrev S2x500000 : Shape := ⟨2, ![2, 500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S4000x128 : Shape := ⟨2, ![4000, 128]⟩
abbrev S4000 : Shape := ⟨1, ![4000]⟩
abbrev S4000x1 : Shape := ⟨2, ![4000, 1]⟩

abbrev nBuf : Space → Nat
  | .hbm => 67
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S40000x128, .f32⟩
  | .hbm, ⟨2, _⟩ => ⟨S500000x128, .f32⟩
  | .hbm, ⟨3, _⟩ => ⟨S2x500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x500000, .i32⟩
  | .hbm, ⟨17, _⟩ => ⟨S500000, .i32⟩
  | .hbm, ⟨18, _⟩ => ⟨S1x500000, .i32⟩
  | .hbm, ⟨19, _⟩ => ⟨S500000, .i32⟩
  | .hbm, ⟨20, _⟩ => ⟨S40000x128, .bf16⟩
  | .hbm, ⟨21, _⟩ => ⟨S100000x128, .bf16⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .bf16⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x128, .bf16⟩
  | .hbm, ⟨40, _⟩ => ⟨S128x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S128x128, .bf16⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S500000x128, .f32⟩
  | .hbm, ⟨52, _⟩ => ⟨S_, .f32⟩
  | .hbm, ⟨53, _⟩ => ⟨S40000x128, .f32⟩
  | .hbm, ⟨54, _⟩ => ⟨S500000x1, .i32⟩
  | .hbm, ⟨55, _⟩ => ⟨S40000x128, .f32⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S128x128, .bf16⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S40000x128, .f32⟩
  | .hbm, ⟨66, _⟩ => ⟨S100000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S128x128, .bf16⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .bf16⟩
  | .local _ .vmem, ⟨34, _⟩ => ⟨S128x128, .bf16⟩
  | .local _ .vmem, ⟨35, _⟩ => ⟨S1x128, .f32⟩
  | .local _ .vmem, ⟨36, _⟩ => ⟨S128x128, .bf16⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S40000x128 : S_.BroadcastsInDim S40000x128 (![] : Fin 0 → Fin S40000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S40000x128_S500000x1_S500000x128_1_0_n_n_0_1_1128_wf : GatherDims.WF S40000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  scatter_S40000x128_S500000x1_S500000x128_1_0_0_1_wf : ScatterDims.WF S40000x128 S500000x1 S500000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .bf16 = 32 ∨ (Rect.block (s := S500000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S500000x128.size a
  hwx0_11 : ∀ i : grid0.Coords, EltTy.bits .f32 = 32 ∨ (Rect.block (s := S500000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S40000x128.size a
  hwx1_9 : ∀ i : grid1.Coords, EltTy.bits .f32 = 32 ∨ (Rect.block (s := S40000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)

variable [Facts₀]

def gather_S40000x128_S500000x1_S500000x128_1_0_n_n_0_1_1128 : GatherDims S40000x128 S500000x1 S500000x128 where
  offsetDims := [1]
  collapsedSliceDims := [0]
  operandBatchingDims := []
  startIndicesBatchingDims := []
  startIndexMap := [0]
  indexVectorDim := 1
  sliceSizes := ![1, 128]
  wf := gather_S40000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S40000x128_S500000x1_S500000x128_1_0_0_1 : ScatterDims S40000x128 S500000x1 S500000x128 where
  updateWindowDims := [1]
  insertedWindowDims := [0]
  scatterDimsToOperandDims := [0]
  indexVectorDim := 1
  wf := scatter_S40000x128_S500000x1_S500000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v43) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S40000x128 : Shape := ⟨2, ![40000, 128]⟩
abbrev S500000x128 : Shape := ⟨2, ![500000, 128]⟩
abbrev S2x500000 : Shape := ⟨2, ![2, 500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S40000x256 : Shape := ⟨2, ![40000, 256]⟩
abbrev S40000 : Shape := ⟨1, ![40000]⟩
abbrev S40000x1 : Shape := ⟨2, ![40000, 1]⟩
abbrev S100000x256 : Shape := ⟨2, ![100000, 256]⟩
abbrev S100000 : Shape := ⟨1, ![100000]⟩
abbrev S100000x1 : Shape := ⟨2, ![100000, 1]⟩

abbrev nBuf : Space → Nat
  | .hbm => 230
  | .vmem => 0
  | .smem => 0
  | _ => 0

abbrev hbmTy0_0 (i : Nat) : BufTy := match i % 128 with
  | 0 => ⟨S100000x128, .f32⟩
  | 1 => ⟨S40000x128, .f32⟩
  | 2 => ⟨S500000x128, .f32⟩
  | 3 => ⟨S2x500000, .i32⟩
  | 4 => ⟨S384x128, .f32⟩
  | 5 => ⟨S128, .f32⟩
  | 6 => ⟨S128x128, .f32⟩
  | 7 => ⟨S128, .f32⟩
  | 8 => ⟨S128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128, .f32⟩
  | 15 => ⟨S128, .f32⟩
  | 16 => ⟨S1x500000, .i32⟩
  | 17 => ⟨S500000, .i32⟩
  | 18 => ⟨S1x500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S500000x384, .f32⟩
  | 39 => ⟨S500000x128, .f32⟩
  | 40 => ⟨S1x128, .f32⟩
  | 41 => ⟨S500000x128, .f32⟩
  | 42 => ⟨S500000x128, .f32⟩
  | 43 => ⟨S500000x128, .f32⟩
  | 44 => ⟨S500000x128, .f32⟩
  | 45 => ⟨S_, .f32⟩
  | 46 => ⟨S500000x128, .f32⟩
  | 47 => ⟨S500000x128, .f32⟩
  | 48 => ⟨S_, .f32⟩
  | 49 => ⟨S500000x128, .f32⟩
  | 50 => ⟨S500000x128, .f32⟩
  | 51 => ⟨S500000x128, .f32⟩
  | 52 => ⟨S500000x128, .f32⟩
  | 53 => ⟨S1x128, .f32⟩
  | 54 => ⟨S500000x128, .f32⟩
  | 55 => ⟨S500000x128, .f32⟩
  | 56 => ⟨S_, .f32⟩
  | 57 => ⟨S500000, .f32⟩
  | 58 => ⟨S500000x1, .f32⟩
  | 59 => ⟨S_, .f32⟩
  | 60 => ⟨S500000x1, .f32⟩
  | 61 => ⟨S500000x1, .f32⟩
  | 62 => ⟨S_, .i32⟩
  | 63 => ⟨S_, .f32⟩
  | 64 => ⟨S500000, .f32⟩
  | 65 => ⟨S500000x1, .f32⟩
  | 66 => ⟨S_, .f32⟩
  | 67 => ⟨S500000x1, .f32⟩
  | 68 => ⟨S500000x1, .f32⟩
  | 69 => ⟨S500000x128, .f32⟩
  | 70 => ⟨S500000x128, .f32⟩
  | 71 => ⟨S500000x128, .f32⟩
  | 72 => ⟨S_, .f32⟩
  | 73 => ⟨S_, .f32⟩
  | 74 => ⟨S_, .f32⟩
  | 75 => ⟨S_, .f32⟩
  | 76 => ⟨S500000, .f32⟩
  | 77 => ⟨S500000x1, .f32⟩
  | 78 => ⟨S500000x1, .f32⟩
  | 79 => ⟨S500000x1, .f32⟩
  | 80 => ⟨S_, .f32⟩
  | 81 => ⟨S_, .i1⟩
  | 82 => ⟨S_, .f32⟩
  | 83 => ⟨S_, .f32⟩
  | 84 => ⟨S500000x1, .f32⟩
  | 85 => ⟨S500000x1, .f32⟩
  | 86 => ⟨S500000x128, .f32⟩
  | 87 => ⟨S500000x128, .f32⟩
  | 88 => ⟨S_, .f32⟩
  | 89 => ⟨S500000x1, .f32⟩
  | 90 => ⟨S500000x1, .f32⟩
  | 91 => ⟨S500000x1, .f32⟩
  | 92 => ⟨S500000x128, .f32⟩
  | 93 => ⟨S500000x128, .f32⟩
  | 94 => ⟨S1x128, .f32⟩
  | 95 => ⟨S500000x128, .f32⟩
  | 96 => ⟨S500000x128, .f32⟩
  | 97 => ⟨S1x128, .f32⟩
  | 98 => ⟨S500000x128, .f32⟩
  | 99 => ⟨S500000x128, .f32⟩
  | 100 => ⟨S_, .f32⟩
  | 101 => ⟨S40000x128, .f32⟩
  | 102 => ⟨S500000x1, .i32⟩
  | 103 => ⟨S40000x128, .f32⟩
  | 104 => ⟨S40000x256, .f32⟩
  | 105 => ⟨S40000x128, .f32⟩
  | 106 => ⟨S1x128, .f32⟩
  | 107 => ⟨S40000x128, .f32⟩
  | 108 => ⟨S40000x128, .f32⟩
  | 109 => ⟨S40000x128, .f32⟩
  | 110 => ⟨S40000x128, .f32⟩
  | 111 => ⟨S_, .f32⟩
  | 112 => ⟨S40000x128, .f32⟩
  | 113 => ⟨S40000x128, .f32⟩
  | 114 => ⟨S_, .f32⟩
  | 115 => ⟨S40000x128, .f32⟩
  | 116 => ⟨S40000x128, .f32⟩
  | 117 => ⟨S40000x128, .f32⟩
  | 118 => ⟨S40000x128, .f32⟩
  | 119 => ⟨S1x128, .f32⟩
  | 120 => ⟨S40000x128, .f32⟩
  | 121 => ⟨S40000x128, .f32⟩
  | 122 => ⟨S_, .f32⟩
  | 123 => ⟨S40000, .f32⟩
  | 124 => ⟨S40000x1, .f32⟩
  | 125 => ⟨S_, .f32⟩
  | 126 => ⟨S40000x1, .f32⟩
  | 127 => ⟨S40000x1, .f32⟩
  | _ => ⟨S100000x128, .f32⟩

abbrev hbmTy0_1 (i : Nat) : BufTy := match i % 128 with
  | 0 => ⟨S_, .i32⟩
  | 1 => ⟨S_, .f32⟩
  | 2 => ⟨S40000, .f32⟩
  | 3 => ⟨S40000x1, .f32⟩
  | 4 => ⟨S_, .f32⟩
  | 5 => ⟨S40000x1, .f32⟩
  | 6 => ⟨S40000x1, .f32⟩
  | 7 => ⟨S40000x128, .f32⟩
  | 8 => ⟨S40000x128, .f32⟩
  | 9 => ⟨S40000x128, .f32⟩
  | 10 => ⟨S_, .f32⟩
  | 11 => ⟨S_, .f32⟩
  | 12 => ⟨S_, .f32⟩
  | 13 => ⟨S_, .f32⟩
  | 14 => ⟨S40000, .f32⟩
  | 15 => ⟨S40000x1, .f32⟩
  | 16 => ⟨S40000x1, .f32⟩
  | 17 => ⟨S40000x1, .f32⟩
  | 18 => ⟨S_, .f32⟩
  | 19 => ⟨S_, .i1⟩
  | 20 => ⟨S_, .f32⟩
  | 21 => ⟨S_, .f32⟩
  | 22 => ⟨S40000x1, .f32⟩
  | 23 => ⟨S40000x1, .f32⟩
  | 24 => ⟨S40000x128, .f32⟩
  | 25 => ⟨S40000x128, .f32⟩
  | 26 => ⟨S_, .f32⟩
  | 27 => ⟨S40000x1, .f32⟩
  | 28 => ⟨S40000x1, .f32⟩
  | 29 => ⟨S40000x1, .f32⟩
  | 30 => ⟨S40000x128, .f32⟩
  | 31 => ⟨S40000x128, .f32⟩
  | 32 => ⟨S1x128, .f32⟩
  | 33 => ⟨S40000x128, .f32⟩
  | 34 => ⟨S40000x128, .f32⟩
  | 35 => ⟨S1x128, .f32⟩
  | 36 => ⟨S40000x128, .f32⟩
  | 37 => ⟨S40000x128, .f32⟩
  | 38 => ⟨S40000x128, .f32⟩
  | 39 => ⟨S100000x256, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S_, .i32⟩
  | 64 => ⟨S_, .f32⟩
  | 65 => ⟨S100000, .f32⟩
  | 66 => ⟨S100000x1, .f32⟩
  | 67 => ⟨S_, .f32⟩
  | 68 => ⟨S100000x1, .f32⟩
  | 69 => ⟨S100000x1, .f32⟩
  | 70 => ⟨S100000x128, .f32⟩
  | 71 => ⟨S100000x128, .f32⟩
  | 72 => ⟨S100000x128, .f32⟩
  | 73 => ⟨S_, .f32⟩
  | 74 => ⟨S_, .f32⟩
  | 75 => ⟨S_, .f32⟩
  | 76 => ⟨S_, .f32⟩
  | 77 => ⟨S100000, .f32⟩
  | 78 => ⟨S100000x1, .f32⟩
  | 79 => ⟨S100000x1, .f32⟩
  | 80 => ⟨S100000x1, .f32⟩
  | 81 => ⟨S_, .f32⟩
  | 82 => ⟨S_, .i1⟩
  | 83 => ⟨S_, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_c_4 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_cst_2 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_cst_3 : Ref sig .tc := ⟨.hbm, 80, rfl⟩
abbrev main_call1_v13 : Ref sig .tc := ⟨.hbm, 81, rfl⟩
abbrev main_call1_cst_4 : Ref sig .tc := ⟨.hbm, 82, rfl⟩
abbrev main_call1_call0_v0 : Ref sig .tc := ⟨.hbm, 83, rfl⟩
abbrev main_call1_call0_v1 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_5 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_6 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_cst_7 : Ref sig .tc := ⟨.hbm, 122, rfl⟩
abbrev main_v59 : Ref sig .tc := ⟨.hbm, 123, rfl⟩
abbrev main_v60 : Ref sig .tc := ⟨.hbm, 124, rfl⟩
abbrev main_cst_8 : Ref sig .tc := ⟨.hbm, 125, rfl⟩
abbrev main_v61 : Ref sig .tc := ⟨.hbm, 126, rfl⟩
abbrev main_v62 : Ref sig .tc := ⟨.hbm, 127, rfl⟩
abbrev main_c_9 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_cst_2 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_v12 : Ref sig .tc := ⟨.hbm, 145, rfl⟩
abbrev main_call3_cst_3 : Ref sig .tc := ⟨.hbm, 146, rfl⟩
abbrev main_call3_v13 : Ref sig .tc := ⟨.hbm, 147, rfl⟩
abbrev main_call3_cst_4 : Ref sig .tc := ⟨.hbm, 148, rfl⟩
abbrev main_call3_call0_v0 : Ref sig .tc := ⟨.hbm, 149, rfl⟩
abbrev main_call3_call0_v1 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_cst_10 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_call4_v0 : Ref sig .tc := ⟨.hbm, 172, rfl⟩
abbrev main_call4_v1 : Ref sig .tc := ⟨.hbm, 173, rfl⟩
abbrev main_call4_cst : Ref sig .tc := ⟨.hbm, 174, rfl⟩
abbrev main_call4_v2 : Ref sig .tc := ⟨.hbm, 175, rfl⟩
abbrev main_call4_v3 : Ref sig .tc := ⟨.hbm, 176, rfl⟩
abbrev main_call4_cst_0 : Ref sig .tc := ⟨.hbm, 177, rfl⟩
abbrev main_call4_v4 : Ref sig .tc := ⟨.hbm, 178, rfl⟩
abbrev main_call4_v5 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_cst_11 : Ref sig .tc := ⟨.hbm, 185, rfl⟩
abbrev main_v88 : Ref sig .tc := ⟨.hbm, 186, rfl⟩
abbrev main_v89 : Ref sig .tc := ⟨.hbm, 187, rfl⟩
abbrev main_cst_12 : Ref sig .tc := ⟨.hbm, 188, rfl⟩
abbrev main_v90 : Ref sig .tc := ⟨.hbm, 189, rfl⟩
abbrev main_v91 : Ref sig .tc := ⟨.hbm, 190, rfl⟩
abbrev main_c_13 : Ref sig .tc := ⟨.hbm, 191, rfl⟩
abbrev main_call5_cst : Ref sig .tc := ⟨.hbm, 192, rfl⟩
abbrev main_call5_v0 : Ref sig .tc := ⟨.hbm, 193, rfl⟩
abbrev main_call5_v1 : Ref sig .tc := ⟨.hbm, 194, rfl⟩
abbrev main_call5_cst_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_v7 : Ref sig .tc := ⟨.hbm, 201, rfl⟩
abbrev main_call5_cst_1 : Ref sig .tc := ⟨.hbm, 202, rfl⟩
abbrev main_call5_v8 : Ref sig .tc := ⟨.hbm, 203, rfl⟩
abbrev main_call5_cst_2 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_v12 : Ref sig .tc := ⟨.hbm, 208, rfl⟩
abbrev main_call5_cst_3 : Ref sig .tc := ⟨.hbm, 209, rfl⟩
abbrev main_call5_v13 : Ref sig .tc := ⟨.hbm, 210, rfl⟩
abbrev main_call5_cst_4 : Ref sig .tc := ⟨.hbm, 211, rfl⟩
abbrev main_call5_call0_v0 : Ref sig .tc := ⟨.hbm, 212, rfl⟩
abbrev main_call5_call0_v1 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_cst_14 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S40000x128 : S_.BroadcastsInDim S40000x128 (![] : Fin 0 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  reducesTo_S40000x128_S40000_d1 : S40000x128.ReducesTo [1] S40000
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S40000x128_S500000x1_S500000x128_1_0_n_n_0_1_1128_wf : GatherDims.WF S40000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  scatter_S40000x128_S500000x1_S500000x128_1_0_0_1_wf : ScatterDims.WF S40000x128 S500000x1 S500000x128 [1] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S40000x128_S500000x1_S500000x128_1_0_n_n_0_1_1128 : GatherDims S40000x128 S500000x1 S500000x128 where
  offsetDims := [1]
  collapsedSliceDims := [0]
  operandBatchingDims := []
  startIndicesBatchingDims := []
  startIndexMap := [0]
  indexVectorDim := 1
  sliceSizes := ![1, 128]
  wf := gather_S40000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S40000x128_S500000x1_S500000x128_1_0_0_1 : ScatterDims S40000x128 S500000x1 S500000x128 where
  updateWindowDims := [1]
  insertedWindowDims := [0]
  scatterDimsToOperandDims := [0]
  indexVectorDim := 1
  wf := scatter_S40000x128_S500000x1_S500000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Region0.lean ====
/-
  Kernel region 0 (the edge MLP's call): what its body leaves in the output window's buffer, as a function of the
  eleven input windows' blocks, and the proof data of its pipeline.

  The body reads each input window's whole buffer once, computes on vector registers, and stores ONE value over the
  whole output buffer. So after the body the output buffer reads as that stored value, whatever it held before
  (the body also loads the output buffer before storing; that load's value is never used). The three row blocks
  move with the grid point; the eight parameter blocks (weights, biases, gain, offset) have a constant block index,
  are brought in at the first point only, and since the body leaves them as found they still hold their block at
  every later point.
-/
import proofs.«117479_j34084860461562_2_alg».proof.Proof.Gen.KernelIdeal.Launch
import proofs.«117479_j34084860461562_2_alg».proof.Proof.Gen.KernelIdeal.Skeleton
import proofs.«117479_j34084860461562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # Region 0: the edge MLP's call, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether or not it was brought in
    there, for ANY proof data whose array is `V`'s (`hA`) and whose body leaves the block in place (`hafter`):
    where the window is not brought in, its block index has not moved since the point before, and the body left the
    buffer as it found it. The windows are uncut and never idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 11's staging buffer after the body, from the input windows' blocks: its one store, over the whole buffer,
    of the value computed from the eleven loads (the payloads are the skeleton's: the second layer's output before
    normalisation, its row means, then the normalisation with gain and offset). -/
def out0_11 (x0 x1 : Vec F S5000x128 .bf16) (x2 : Vec F S5000x128 .f32) (x3 x4 x5 : Vec F S128x128 .bf16) (x6 : Vec F S1x128 .f32) (x7 : Vec F S128x128 .bf16) (x8 x9 x10 : Vec F S1x128 .f32) : Vec F S5000x128 .f32 :=
  View.canon [⟨r0_0, k0_pay1 (k0_pay2 (View.ld x0 r0_0) (View.ld x1 r0_0) (View.ld x2 r0_0) (View.ld x3 r0_1) (View.ld x4 r0_1) (View.ld x5 r0_1) (View.ld x6 r0_2) (View.ld x7 r0_1) (View.ld x8 r0_2)) (k0_pay3 (View.ld x0 r0_0) (View.ld x1 r0_0) (View.ld x2 r0_0) (View.ld x3 r0_1) (View.ld x4 r0_1) (View.ld x5 r0_1) (View.ld x6 r0_2) (View.ld x7 r0_1) (View.ld x8 r0_2)) (View.ld x9 r0_2) (View.ld x10 r0_2)⟩]

/-- The one store is of the whole buffer, so it covers it. -/
theorem cover0_11 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body at any grid coordinate, on whole staging memrefs, the inputs' at read contents `xW` and the
    output's at anything, runs to the continuation holding the inputs' as they were and the output's at `out0_11` of
    the inputs': the eleven loads read the inputs' contents, the load of the output's buffer reads whatever it held
    and is not used, and the one store of the whole output buffer leaves the stored value there. -/
theorem sound_kernel0 (c : Dev nD) (E : Set ℕ) (i : grid0.Coords) (arg0 : Memref sig .tc .vmem S5000x128 .bf16) (harg0 : arg0.IsWhole) (arg1 : Memref sig .tc .vmem S5000x128 .bf16) (harg1 : arg1.IsWhole) (arg2 : Memref sig .tc .vmem S5000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S5000x128 .f32) (harg11 : arg11.IsWhole)
    (x0 x1 : Vec F S5000x128 .bf16) (x2 : Vec F S5000x128 .f32) (x3 x4 x5 : Vec F S128x128 .bf16) (x6 : Vec F S1x128 .f32) (x7 : Vec F S128x128 .bf16) (x8 x9 x10 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__edge_mlp_kernel i arg0 harg0 arg1 harg1 arg2 harg2 arg3 harg3 arg4 harg4 arg5 harg5 arg6 harg6 arg7 harg7 arg8 harg8 arg9 harg9 arg10 harg10 arg11 harg11) K := by
  sl_unfold [cc0__edge_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of pipeline 0 on core `c`: the arrays as the region finds them (`V`); after the body at point `t`
    each input's buffer at its block and the output's at `out0_11` of the input blocks; the invariant is the rest of
    the core's memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`: the invariant, the core's debt, and each window's current staging
    buffer at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the triple applies; the invariant and the core's
    debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
/-
  Kernel region 1: the node MLP on row blocks of 4000 rows. The body reads its nine input blocks whole, computes
  LayerNorm(silu(x·W1a + y·W1b + b1)·W2 + b2; γ, β) + x row by row, and overwrites the whole output block with it in one
  store. Here: each window's block at a grid point, what the single store leaves in the output block as a function of the
  nine input blocks, the body's triple, and the pipeline's proof data with its body obligation at every point.
-/
import proofs.«117479_j34084860461562_2_alg».proof.Proof.Gen.KernelIdeal.Launch
import proofs.«117479_j34084860461562_2_alg».proof.Proof.Gen.KernelIdeal.Skeleton
import proofs.«117479_j34084860461562_2_alg».proof.Proof.Gen.KernelIdeal.Points
import Idealize.ShloMosaic.Lib.Pipeline.FrameBody
import Idealize.ShloMosaic.Lib.Tactic

-- membership in a rectangle of 4000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the pipeline fetched it there
    or not, for ANY proof data whose array is `V`'s (`hA`) and whose body leaves the block in place (`hafter`): where
    the block was not fetched its index has not moved since the point before, so the buffer still holds this point's
    block. The two row-block windows move with the grid and are fetched at every point; the seven parameter windows
    have a constant index and are fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- The output block after the body, from the nine input blocks: its one store, of the node MLP's value on the
    loaded blocks, as a single piece covering the buffer. -/
def out1_9 (x0 x1 : Vec F S4000x128 .f32) (x2 x3 : Vec F S128x128 .bf16) (x4 : Vec F S1x128 .f32) (x5 : Vec F S128x128 .bf16) (x6 x7 x8 : Vec F S1x128 .f32) : Vec F S4000x128 .f32 :=
  View.canon [⟨r1_0, k1_pay1 (View.ld x0 r1_0)
      (k1_pay2 (View.ld x0 r1_0) (View.ld x1 r1_0) (View.ld x2 r1_1) (View.ld x3 r1_1) (View.ld x4 r1_2) (View.ld x5 r1_1) (View.ld x6 r1_2))
      (k1_pay4 (View.ld x0 r1_0) (View.ld x1 r1_0) (View.ld x2 r1_1) (View.ld x3 r1_1) (View.ld x4 r1_2) (View.ld x5 r1_1) (View.ld x6 r1_2))
      (k1_pay5 (View.ld x0 r1_0) (View.ld x1 r1_0) (View.ld x2 r1_1) (View.ld x3 r1_1) (View.ld x4 r1_2) (View.ld x5 r1_1) (View.ld x6 r1_2))
      (View.ld x7 r1_2) (View.ld x8 r1_2)⟩]

/-- The store's rectangle is the whole buffer (checked by evaluation), so it covers it. -/
theorem cover1_9 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 1000000 in
/-- The kernel body at any grid coordinate, on whole staging memrefs, the inputs' at read contents `xW` and the
    output's at anything, runs to the continuation holding the inputs' as they were and the output's at `out1_9` of
    the inputs': the seven loads of the first part, the two of the second, the (unused) load of the output buffer and the
    one store, in program order. -/
theorem sound_kernel1 (c : Dev nD) (E : Set ℕ) (i : grid1.Coords) (arg0 : Memref sig .tc .vmem S4000x128 .f32) (harg0 : arg0.IsWhole) (arg1 : Memref sig .tc .vmem S4000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4000x128 .f32) (harg9 : arg9.IsWhole)
    (x0 x1 : Vec F S4000x128 .f32) (x2 x3 : Vec F S128x128 .bf16) (x4 : Vec F S1x128 .f32) (x5 : Vec F S128x128 .bf16) (x6 x7 x8 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out1_9 x0 x1 x2 x3 x4 x5 x6 x7 x8)) -∗ K ⟨⟩))
      ⊢ wp frame (wpE (defs₀ (F := F)) Variants.none c none) E (cc1__node_mlp2_kernel i arg0 harg0 arg1 harg1 arg2 harg2 arg3 harg3 arg4 harg4 arg5 harg5 arg6 harg6 arg7 harg7 arg8 harg8 arg9 harg9) K := by
  simp only [cc1__node_mlp2_kernel_eq_skeleton]; unfold cc1__node_mlp2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every window's array is held at a full share. -/
theorem q_eq1 (c : Dev nD) (w : Fin cfg1.W) : (dat1 V c).q w = fullShare := by dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  Kernel region 2: the node MLP on row blocks of 5000 rows. The body reads its nine input blocks whole, computes
  LayerNorm(silu(x·W1a + y·W1b + b1)·W2 + b2; γ, β) + x row by row, and overwrites the whole output block with it in one
  store. Here: each window's block at a grid point, what the single store leaves in the output block as a function of the
  nine input blocks, the body's triple, and the pipeline's proof data with its body obligation at every point.
-/
import proofs.«117479_j34084860461562_2_alg».proof.Proof.Gen.KernelIdeal.Launch
import proofs.«117479_j34084860461562_2_alg».proof.Proof.Gen.KernelIdeal.Skeleton
import proofs.«117479_j34084860461562_2_alg».proof.Proof.Gen.KernelIdeal.Points
import Idealize.ShloMosaic.Lib.Pipeline.FrameBody
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, whether the pipeline fetched it there
    or not, for ANY proof data whose array is `V`'s (`hA`) and whose body leaves the block in place (`hafter`): where
    the block was not fetched its index has not moved since the point before, so the buffer still holds this point's
    block. The two row-block windows move with the grid and are fetched at every point; the seven parameter windows
    have a constant index and are fetched at the first point only. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- The output block after the body, from the nine input blocks: its one store, of the node MLP's value on the
    loaded blocks, as a single piece covering the buffer. -/
def out2_9 (x0 x1 : Vec F S5000x128 .f32) (x2 x3 : Vec F S128x128 .bf16) (x4 : Vec F S1x128 .f32) (x5 : Vec F S128x128 .bf16) (x6 x7 x8 : Vec F S1x128 .f32) : Vec F S5000x128 .f32 :=
  View.canon [⟨r2_0, k2_pay1 (View.ld x0 r2_0)
      (k2_pay4 (View.ld x0 r2_0) (View.ld x1 r2_0) (View.ld x2 r2_1) (View.ld x3 r2_1) (View.ld x4 r2_2) (View.ld x5 r2_1) (View.ld x6 r2_2))
      (k2_pay5 (View.ld x0 r2_0) (View.ld x1 r2_0) (View.ld x2 r2_1) (View.ld x3 r2_1) (View.ld x4 r2_2) (View.ld x5 r2_1) (View.ld x6 r2_2))
      (View.ld x7 r2_2) (View.ld x8 r2_2)⟩]

/-- The store's rectangle is the whole buffer (checked by evaluation), so it covers it. -/
theorem cover2_9 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body at any grid coordinate, on whole staging memrefs, the inputs' at read contents `xW` and the
    output's at anything, runs to the continuation holding the inputs' as they were and the output's at `out2_9` of
    the inputs': the seven loads of the first part, the two of the second, the (unused) load of the output buffer and the
    one store, in program order. -/
theorem sound_kernel2 (c : Dev nD) (E : Set ℕ) (i : grid2.Coords) (arg0 : Memref sig .tc .vmem S5000x128 .f32) (harg0 : arg0.IsWhole) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S5000x128 .f32) (harg9 : arg9.IsWhole)
    (x0 x1 : Vec F S5000x128 .f32) (x2 x3 : Vec F S128x128 .bf16) (x4 : Vec F S1x128 .f32) (x5 : Vec F S128x128 .bf16) (x6 x7 x8 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out2_9 x0 x1 x2 x3 x4 x5 x6 x7 x8)) -∗ K ⟨⟩))
      ⊢ wp frame (wpE (defs₀ (F := F)) Variants.none c none) E (cc2__node_mlp2_kernel i arg0 harg0 arg1 harg1 arg2 harg2 arg3 harg3 arg4 harg4 arg5 harg5 arg6 harg6 arg7 harg7 arg8 harg8 arg9 harg9) K := by
  simp only [cc2__node_mlp2_kernel_eq_skeleton]; unfold cc2__node_mlp2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core `c`: the arrays as the region finds them (`V`); after the body at point `t`
    each input's buffer at its block and the output's at `out2_9` of the input blocks; the invariant the scoped rest
    and the generator register, untouched; nothing owed; the two row-block windows, which read one array, at the two halves of its share, every other window at a full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q := fun w => match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq2 (c : Dev nD) (w : Fin cfg2.W) : (dat2 V c).A w = V c (Pipeline.arrRef spec2 w) := by
  dsimp only [dat2]

/-! The share held of each window's array: the two halves of a full share for the two windows on the one array, a
    full share for every other window. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]
theorem q2_3 (c : Dev nD) : (dat2 V c).q 3 = fullShare := by dsimp only [dat2]
theorem q2_4 (c : Dev nD) : (dat2 V c).q 4 = fullShare := by dsimp only [dat2]
theorem q2_5 (c : Dev nD) : (dat2 V c).q 5 = fullShare := by dsimp only [dat2]
theorem q2_6 (c : Dev nD) : (dat2 V c).q 6 = fullShare := by dsimp only [dat2]
theorem q2_7 (c : Dev nD) : (dat2 V c).q 7 = fullShare := by dsimp only [dat2]
theorem q2_8 (c : Dev nD) : (dat2 V c).q 8 = fullShare := by dsimp only [dat2]
theorem q2_9 (c : Dev nD) : (dat2 V c).q 9 = fullShare := by dsimp only [dat2]
/-- Every window but the two on the shared array holds its array at a full share. -/
theorem q2_rest (c : Dev nD) (w : Fin cfg2.W) (h0 : w ≠ 0) (h1 : w ≠ 1) : (dat2 V c).q w = fullShare :=
  match w, h0, h1 with
  | ⟨0, _⟩, h0, _ => absurd rfl h0
  | ⟨1, _⟩, _, h1 => absurd rfl h1
  | ⟨2, _⟩, _, _ => q2_2 V c
  | ⟨3, _⟩, _, _ => q2_3 V c
  | ⟨4, _⟩, _, _ => q2_4 V c
  | ⟨5, _⟩, _, _ => q2_5 V c
  | ⟨6, _⟩, _, _ => q2_6 V c
  | ⟨7, _⟩, _, _ => q2_7 V c
  | ⟨8, _⟩, _, _ => q2_8 V c
  | ⟨9, _⟩, _, _ => q2_9 V c

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Shared2.lean ====
/-
  The third kernel call reads ONE array (the source-node features) through two of its input windows. The core holds
  each distinct array buffer whole; the pipeline holds every window's array at that window's share. The two windows on
  the shared array split its points-to into the left and the right half of the full share, and the halves join again
  when the call returns; every other window's array is held whole on both sides.
-/
import proofs.«117479_j34084860461562_2_alg».proof.Proof.Gen.KernelIdeal.Launch
import proofs.«117479_j34084860461562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the third call's ten windows: nine, windows 0 and 1 being one array. -/
theorem arr2_image : (Finset.univ.image (Pipeline.arrRef spec2) : Finset (Ref sig .tc))
    = insert main_arg0 (insert main_v36 (insert main_v38 (insert main_v40 (insert main_v39 (insert main_v41 (insert main_v42 (insert main_v43 {main_v45}))))))) := by
  decide

set_option maxHeartbeats 2000000 in
/-- The nine buffers, each whole at the valuation's contents, are the ten windows' arrays at the windows' shares, and
    conversely, whenever the contents asked of each window's array are the valuation's. -/
theorem arrays2_iff (c : Dev nD) (dat : Dat τ (Elt F) Unit ℕ (UR sig nD τ) ℕ cfg2 c)
    (hs0 : dat.share (0 : Fin 10) = fullShare.left) (hs1 : dat.share (1 : Fin 10) = fullShare.right)
    (hs : ∀ w : Fin 10, w ≠ 0 → w ≠ 1 → dat.share w = fullShare)
    (V : (b : Ref sig .tc) → Buf (Elt F) ((c : Thread nD τ).loc b))
    (Fw : (w : Fin 10) → Buf (Elt F) ((cfg2.win w).arr.view.loc (c : Thread nD τ)))
    (hF : ∀ w, Fw w = V (Pipeline.arrRef spec2 w)) :
    (Pipeline.arrBufs spec2 c V : sProp 𝕄) ⊣⊢ dat.arrays Fw := by
  have hR : (dat.arrays Fw : sProp 𝕄)
      = bigSep Finset.univ fun w : Fin 10 => (((c : Thread nD τ).loc (Pipeline.arrRef spec2 w)) ↦{dat.share w} V (Pipeline.arrRef spec2 w) : sProp 𝕄) := by
    unfold Dat.arrays
    exact bigSep_congr fun w _ => by rw [(arr_whole2 w).set_eq_univ, hF w]
  rw [hR, bigSep_W2, hs0, hs1, hs 2 (by decide) (by decide), hs 3 (by decide) (by decide), hs 4 (by decide) (by decide),
    hs 5 (by decide) (by decide), hs 6 (by decide) (by decide), hs 7 (by decide) (by decide), hs 8 (by decide) (by decide),
    hs 9 (by decide) (by decide)]
  unfold Pipeline.arrBufs
  rw [arr2_image, bigSep_insert (by decide), bigSep_insert (by decide), bigSep_insert (by decide), bigSep_insert (by decide),
    bigSep_insert (by decide), bigSep_insert (by decide), bigSep_insert (by decide), bigSep_insert (by decide), bigSep_singleton]
  show (iprop((((c : Thread nD τ).loc main_arg0) ↦{fullShare} V main_arg0) ∗ (((c : Thread nD τ).loc main_v36) ↦{fullShare} V main_v36) ∗ (((c : Thread nD τ).loc main_v38) ↦{fullShare} V main_v38) ∗ (((c : Thread nD τ).loc main_v40) ↦{fullShare} V main_v40) ∗ (((c : Thread nD τ).loc main_v39) ↦{fullShare} V main_v39) ∗ (((c : Thread nD τ).loc main_v41) ↦{fullShare} V main_v41) ∗ (((c : Thread nD τ).loc main_v42) ↦{fullShare} V main_v42) ∗ (((c : Thread nD τ).loc main_v43) ↦{fullShare} V main_v43) ∗ (((c : Thread nD τ).loc main_v45) ↦{fullShare} V main_v45)) : sProp 𝕄) ⊣⊢ _
  constructor
  · iintro ⟨H0, H2, H3, H4, H5, H6, H7, H8, H9⟩
    ihave H01 := (pointsTo_share (PosShare.mem_left_op_right fullShare)).1 $$ H0
    icases H01 with ⟨H0, H1⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H0, H1, H2, H3, H4, H5, H6, H7, H8, H9⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- A core's unscoped buffers are the buffers behind the third call's arrays and the rest, the arrays distinct or not. -/
theorem unscoped_split2 (c : Dev nD) (V : (b : Ref sig .tc) → Buf (Elt F) ((c : Thread nD τ).loc b)) :
    (unscopedBufs c V : sProp 𝕄) = iprop(Pipeline.arrBufs spec2 c V ∗ Pipeline.unscopedRest spec2 c V) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

/-- ENTRY of the third call: the unscoped buffers at the entry contents are its arrays at the proof data's entry
    contents, each at its window's share, and the rest. -/
theorem enter2 (c : Dev nD) (dat : Dat τ (Elt F) Unit ℕ (UR sig nD τ) ℕ cfg2 c)
    (hs0 : dat.share (0 : Fin 10) = fullShare.left) (hs1 : dat.share (1 : Fin 10) = fullShare.right)
    (hs : ∀ w : Fin 10, w ≠ 0 → w ≠ 1 → dat.share w = fullShare)
    (V : (b : Ref sig .tc) → Buf (Elt F) ((c : Thread nD τ).loc b))
    (hA : ∀ w : Fin 10, dat.A w = V (Pipeline.arrRef spec2 w)) :
    (unscopedBufs c V : sProp 𝕄) ⊢ iprop(dat.arrays (dat.arrAt · 0) ∗ Pipeline.unscopedRest spec2 c V) := by
  rw [unscoped_split2]
  exact sep_mono (arrays2_iff c dat hs0 hs1 hs V _ (fun w => hA w)).1 .rfl

/-- EXIT of the third call: its arrays at their final contents and the rest are the unscoped buffers at any valuation
    that has the arrays at those contents and agrees with the entry valuation off them. -/
theorem exit2 (c : Dev nD) (dat : Dat τ (Elt F) Unit ℕ (UR sig nD τ) ℕ cfg2 c)
    (hs0 : dat.share (0 : Fin 10) = fullShare.left) (hs1 : dat.share (1 : Fin 10) = fullShare.right)
    (hs : ∀ w : Fin 10, w ≠ 0 → w ≠ 1 → dat.share w = fullShare)
    (V V' : (b : Ref sig .tc) → Buf (Elt F) ((c : Thread nD τ).loc b))
    (Fw : (w : Fin 10) → Buf (Elt F) ((cfg2.win w).arr.view.loc (c : Thread nD τ)))
    (hF : ∀ w, Fw w = V' (Pipeline.arrRef spec2 w))
    (hrest : ∀ b, b ∉ Finset.univ.image (Pipeline.arrRef spec2) → V' b = V b) :
    iprop(dat.arrays Fw ∗ Pipeline.unscopedRest spec2 c V) ⊢ (unscopedBufs c V' : sProp 𝕄) := by
  rw [unscoped_split2 c V']
  refine sep_mono (arrays2_iff c dat hs0 hs1 hs V' Fw hF).2 (Entails.of_eq ?_)
  unfold Pipeline.unscopedRest
  exact bigSep_congr fun b hb => by rw [hrest b (Finset.mem_sdiff.mp hb).2]

end Cert.KernelIdeal.Hand

end
-- ==== Proof.KRun.lean ====
/-
  The kernel program's run. @main is: 35 host operations (the two row gathers, the weight slices and re-shapes), the edge
  kernel's grid of 100 points, 13 host operations (the scatter-add into destination nodes, more weight slices), the
  destination-node kernel's grid of 10 points, the source-node kernel's grid of 20 points. The contents of every unscoped
  buffer are followed from the launch memory through these five stretches: a host stretch applies its operations; a
  kernel call leaves each of its arrays at what its write-backs leave (an input array as it was, the output array with
  every flushed block written) and every other buffer as it was. Every weakly fair execution terminates, and the final
  memory holds, buffer by buffer, the last of these contents.
-/
import proofs.«117479_j34084860461562_2_alg».proof.Proof.Gen.KernelIdeal.Launch
import proofs.«117479_j34084860461562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«117479_j34084860461562_2_alg».proof.Proof.Gen.KernelIdeal.Regions
import proofs.«117479_j34084860461562_2_alg».proof.Proof.Region0
import proofs.«117479_j34084860461562_2_alg».proof.Proof.Region1
import proofs.«117479_j34084860461562_2_alg».proof.Proof.Region2
import proofs.«117479_j34084860461562_2_alg».proof.Proof.Shared2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the edge kernel's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the edge kernel: its arrays at what the pipeline leaves, the rest as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the destination-node kernel's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the destination-node kernel. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the source-node kernel: only its output array changes (two of its input windows read one array, so the
    contents are stated as an update at the output's buffer rather than window by window). -/
def W5 (c : Dev nD) : Valuation τ sig (Elt F) :=
  Function.update (W4 m ρ c) (Proc.devRef .tc main_v45) ((dat2 (U4 m ρ) c).arrAt 9 cfg2.N)
theorem W5_out (c : Dev nD) : W5 m ρ c (Proc.devRef .tc main_v45) = (dat2 (U4 m ρ) c).arrAt 9 cfg2.N := by
  unfold W5; exact Function.update_self _ _ _
theorem W5_of_ne (c : Dev nD) (b : Ref sig .tc) (hb : b ≠ main_v45) :
    W5 m ρ c (Proc.devRef .tc b) = W4 m ρ c (Proc.devRef .tc b) := by
  unfold W5; exact Function.update_of_ne (StableHlo.devRef_ne_of_ne hb) _ _
abbrev U5 : (c : Dev nD) → (b : Ref sig .tc) → Buf (Elt F) ((c : Thread nD τ).loc b) := fun c b => W5 m ρ c b

/-- An input window's array is never written: it ends as the kernel found it. -/
theorem in2 (c : Dev nD) (w : Fin 10) (hin : (cfg2.win w).isOut = false) (hne : Pipeline.arrRef spec2 w ≠ main_v45) :
    (dat2 (U4 m ρ) c).arrAt w cfg2.N = U5 m ρ c (Pipeline.arrRef spec2 w) :=
  ((dat2 (U4 m ρ) c).arrAt_in w hin _).trans ((A_eq2 (U4 m ρ) c w).trans (W5_of_ne m ρ c _ hne).symm)
theorem hF2 (c : Dev nD) : ∀ w : Fin 10, (dat2 (U4 m ρ) c).arrAt w cfg2.N = U5 m ρ c (Pipeline.arrRef spec2 w)
  | ⟨0, _⟩ => in2 m ρ c 0 rfl (by decide)
  | ⟨1, _⟩ => in2 m ρ c 1 rfl (by decide)
  | ⟨2, _⟩ => in2 m ρ c 2 rfl (by decide)
  | ⟨3, _⟩ => in2 m ρ c 3 rfl (by decide)
  | ⟨4, _⟩ => in2 m ρ c 4 rfl (by decide)
  | ⟨5, _⟩ => in2 m ρ c 5 rfl (by decide)
  | ⟨6, _⟩ => in2 m ρ c 6 rfl (by decide)
  | ⟨7, _⟩ => in2 m ρ c 7 rfl (by decide)
  | ⟨8, _⟩ => in2 m ρ c 8 rfl (by decide)
  | ⟨9, _⟩ => (W5_out m ρ c).symm
theorem hrest2 (c : Dev nD) : ∀ b, b ∉ Finset.univ.image (Pipeline.arrRef spec2) → U5 m ρ c b = U4 m ρ c b :=
  fun b hb => W5_of_ne m ρ c b fun e => hb (Finset.mem_image.mpr ⟨9, Finset.mem_univ _, e.symm⟩)

/-! ## No stretch writes an argument -/

/-- A buffer that is no output window's array of the edge kernel is left by it as entered. -/
theorem W2_keep (c : Dev nD) (b : Ref sig .tc) (h : ∀ w : Fin 12, Pipeline.arrRef spec0 w = b → (cfg0.win w).isOut = false) :
    W2 m ρ c (Proc.devRef .tc b) = W1 m ρ c (Proc.devRef .tc b) := by
  by_cases hb : ∃ w : Fin 12, Pipeline.arrRef spec0 w = b
  · obtain ⟨w, rfl⟩ := hb
    exact (W2_arr m ρ c w).trans (((dat0 (U1 m ρ) c).arrAt_in w (h w rfl) _).trans (A_eq0 (U1 m ρ) c w))
  · exact W2_of_ne m ρ c b fun w e => hb ⟨w, e⟩
/-- The same for the destination-node kernel. -/
theorem W4_keep (c : Dev nD) (b : Ref sig .tc) (h : ∀ w : Fin 10, Pipeline.arrRef spec1 w = b → (cfg1.win w).isOut = false) :
    W4 m ρ c (Proc.devRef .tc b) = W3 m ρ c (Proc.devRef .tc b) := by
  by_cases hb : ∃ w : Fin 10, Pipeline.arrRef spec1 w = b
  · obtain ⟨w, rfl⟩ := hb
    exact (W4_arr m ρ c w).trans (((dat1 (U3 m ρ) c).arrAt_in w (h w rfl) _).trans (A_eq1 (U3 m ρ) c w))
  · exact W4_of_ne m ρ c b fun w e => hb ⟨w, e⟩

/-- A buffer no host stretch writes and no kernel call has as an output ends holding its launch contents. -/
theorem W5_arg (c : Dev nD) (b : Ref sig .tc) (h5 : b ≠ main_v45)
    (h4 : ∀ w : Fin 10, Pipeline.arrRef spec1 w = b → (cfg1.win w).isOut = false) (h3 : b ∉ Cert.KernelIdeal.Gen.hostOps1_W)
    (h2 : ∀ w : Fin 12, Pipeline.arrRef spec0 w = b → (cfg0.win w).isOut = false) (h1 : b ∉ Cert.KernelIdeal.Gen.hostOps0_W) :
    W5 m ρ c (Proc.devRef .tc b) = m ((c : Thread nD τ).loc b) :=
  (W5_of_ne m ρ c b h5).trans <| (W4_keep m ρ c b h4).trans <|
    (StableHlo.after_of_writes_sub hostOps1 _ Cert.KernelIdeal.Gen.hostOps1_writes h3).trans <| (W2_keep m ρ c b h2).trans <|
    (StableHlo.after_of_writes_sub hostOps0 _ Cert.KernelIdeal.Gen.hostOps0_writes h1).trans rfl

theorem W5_main_arg0 (c : Dev nD) : W5 m ρ c (Proc.devRef .tc main_arg0) = m ((c : Thread nD τ).loc main_arg0) :=
  W5_arg m ρ c main_arg0 (by decide) (by decide) (by decide) (by decide) (by decide)
theorem W5_main_arg1 (c : Dev nD) : W5 m ρ c (Proc.devRef .tc main_arg1) = m ((c : Thread nD τ).loc main_arg1) :=
  W5_arg m ρ c main_arg1 (by decide) (by decide) (by decide) (by decide) (by decide)
theorem W5_main_arg2 (c : Dev nD) : W5 m ρ c (Proc.devRef .tc main_arg2) = m ((c : Thread nD τ).loc main_arg2) :=
  W5_arg m ρ c main_arg2 (by decide) (by decide) (by decide) (by decide) (by decide)
theorem W5_main_arg3 (c : Dev nD) : W5 m ρ c (Proc.devRef .tc main_arg3) = m ((c : Thread nD τ).loc main_arg3) :=
  W5_arg m ρ c main_arg3 (by decide) (by decide) (by decide) (by decide) (by decide)
theorem W5_main_arg4 (c : Dev nD) : W5 m ρ c (Proc.devRef .tc main_arg4) = m ((c : Thread nD τ).loc main_arg4) :=
  W5_arg m ρ c main_arg4 (by decide) (by decide) (by decide) (by decide) (by decide)
theorem W5_main_arg5 (c : Dev nD) : W5 m ρ c (Proc.devRef .tc main_arg5) = m ((c : Thread nD τ).loc main_arg5) :=
  W5_arg m ρ c main_arg5 (by decide) (by decide) (by decide) (by decide) (by decide)
theorem W5_main_arg6 (c : Dev nD) : W5 m ρ c (Proc.devRef .tc main_arg6) = m ((c : Thread nD τ).loc main_arg6) :=
  W5_arg m ρ c main_arg6 (by decide) (by decide) (by decide) (by decide) (by decide)
theorem W5_main_arg7 (c : Dev nD) : W5 m ρ c (Proc.devRef .tc main_arg7) = m ((c : Thread nD τ).loc main_arg7) :=
  W5_arg m ρ c main_arg7 (by decide) (by decide) (by decide) (by decide) (by decide)
theorem W5_main_arg8 (c : Dev nD) : W5 m ρ c (Proc.devRef .tc main_arg8) = m ((c : Thread nD τ).loc main_arg8) :=
  W5_arg m ρ c main_arg8 (by decide) (by decide) (by decide) (by decide) (by decide)
theorem W5_main_arg9 (c : Dev nD) : W5 m ρ c (Proc.devRef .tc main_arg9) = m ((c : Thread nD τ).loc main_arg9) :=
  W5_arg m ρ c main_arg9 (by decide) (by decide) (by decide) (by decide) (by decide)
theorem W5_main_arg10 (c : Dev nD) : W5 m ρ c (Proc.devRef .tc main_arg10) = m ((c : Thread nD τ).loc main_arg10) :=
  W5_arg m ρ c main_arg10 (by decide) (by decide) (by decide) (by decide) (by decide)
theorem W5_main_arg11 (c : Dev nD) : W5 m ρ c (Proc.devRef .tc main_arg11) = m ((c : Thread nD τ).loc main_arg11) :=
  W5_arg m ρ c main_arg11 (by decide) (by decide) (by decide) (by decide) (by decide)
theorem W5_main_arg12 (c : Dev nD) : W5 m ρ c (Proc.devRef .tc main_arg12) = m ((c : Thread nD τ).loc main_arg12) :=
  W5_arg m ρ c main_arg12 (by decide) (by decide) (by decide) (by decide) (by decide)
theorem W5_main_arg13 (c : Dev nD) : W5 m ρ c (Proc.devRef .tc main_arg13) = m ((c : Thread nD τ).loc main_arg13) :=
  W5_arg m ρ c main_arg13 (by decide) (by decide) (by decide) (by decide) (by decide)
theorem W5_main_arg14 (c : Dev nD) : W5 m ρ c (Proc.devRef .tc main_arg14) = m ((c : Thread nD τ).loc main_arg14) :=
  W5_arg m ρ c main_arg14 (by decide) (by decide) (by decide) (by decide) (by decide)
theorem W5_main_arg15 (c : Dev nD) : W5 m ρ c (Proc.devRef .tc main_arg15) = m ((c : Thread nD τ).loc main_arg15) :=
  W5_arg m ρ c main_arg15 (by decide) (by decide) (by decide) (by decide) (by decide)

/-! ## The results -/

/-- The edge kernel's output array is untouched by everything after it. -/
theorem W5_main_v31 (c : Dev nD) : W5 m ρ c (Proc.devRef .tc main_v31) = (dat0 (U1 m ρ) c).arrAt 11 cfg0.N :=
  (W5_of_ne m ρ c main_v31 (by decide)).trans <| (W4_of_ne m ρ c main_v31 (by decide)).trans <|
    (StableHlo.after_of_writes_sub hostOps1 _ Cert.KernelIdeal.Gen.hostOps1_writes (by decide)).trans (W2_arr m ρ c 11)
/-- The destination-node kernel's output array is untouched by the source-node kernel. -/
theorem W5_main_v44 (c : Dev nD) : W5 m ρ c (Proc.devRef .tc main_v44) = (dat1 (U3 m ρ) c).arrAt 9 cfg1.N :=
  (W5_of_ne m ρ c main_v44 (by decide)).trans (W4_arr m ρ c 9)

/-! ## The proof data family and the thread state -/

abbrev admH : (p : Fin 3) → (pcfgs (F := F) p).Adm := fun p => (cfgs p).toPCfg_adm
/-- Every pipeline's proof data, each at its call's entry contents (a literal match on the pipeline). -/
def pdatsH : (p : Fin 3) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U4 m ρ) c
abbrev 𝒱H : Variants := Variants.none
abbrev LH : GSem nD τ sig → Finset Unit := fun _ => ∅
abbrev lvH : GSem nD τ sig → Unit → ℕ := fun _ _ => 0
/-- What rides beside the buffers through every stretch: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TₙH (c : Dev nD) : sProp 𝕄 := iprop(StableHlo.held (c : Thread nD τ) (Pipeline.ucRefs τ sig) (W5 m ρ c) ∗ ∃ r, prngReg c r)

/-- Every window of the third call other than the two on the shared array holds its array at the full share. -/
theorem share2_full (V : (c : Dev nD) → (b : Ref sig .tc) → Buf (Elt F) ((c : Thread nD τ).loc b)) (c : Dev nD) :
    ∀ w : Fin 10, w ≠ 0 → w ≠ 1 → (dat2 (F := F) V c).share w = fullShare
  | ⟨0, _⟩ => fun h _ => absurd rfl h
  | ⟨1, _⟩ => fun _ h => absurd rfl h
  | ⟨2, _⟩ => fun _ _ => rfl
  | ⟨3, _⟩ => fun _ _ => rfl
  | ⟨4, _⟩ => fun _ _ => rfl
  | ⟨5, _⟩ => fun _ _ => rfl
  | ⟨6, _⟩ => fun _ _ => rfl
  | ⟨7, _⟩ => fun _ _ => rfl
  | ⟨8, _⟩ => fun _ _ => rfl
  | ⟨9, _⟩ => fun _ _ => rfl

/-! ## The kernel calls as segments -/

-- unification with the pinned configuration may unfold plain definitions in a metavariable's type
set_option backward.isDefEq.respectTransparency.types false in
/-- Kernel call 0 over the thread state: entered from every unscoped buffer at the contents before it, left at the
    contents after it; its arrays split out of the unscoped buffers at entry and put back at exit; the generator
    register goes into the pipeline's invariant and comes out; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Kernel call 1 over the thread state: entered from every unscoped buffer at the contents before it, left at the
    contents after it; its arrays split out of the unscoped buffers at entry and put back at exit; the generator
    register goes into the pipeline's invariant and comes out; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Kernel call 2, two of whose input windows read one array: the same record, its arrays split out of the unscoped
    buffers with that array's points-to halved between the two windows (enter2) and joined again at the exit (exit2). -/
def reg2 : Pipeline.RegionSeg (pcfgs (F := F)) admH (pdatsH m ρ) () defs₀ 𝒱H LH lvH 2 where
  win := winFacts₀2
  block_pos := block_pos2
  stage_whole := stage_whole2
  K := PEmpty
  osem k := k.elim
  ho := Pipeline.OwnSemFacts.none _
  hbody c := (body_obligation2 (U4 m ρ) c).loose
  hwaits := Pipeline.hwaits_of_owed_zero _ _ _ _ LH lvH 2 fun _ _ => rfl
  pre c := iprop(StableHlo.held (c : Thread nD τ) (Pipeline.ucRefs τ sig) (W4 m ρ c) ∗ RH c)
  post c := iprop(StableHlo.held (c : Thread nD τ) (Pipeline.ucRefs τ sig) (W5 m ρ c) ∗ RH c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := enter2 c (pdatsH m ρ 2 c) rfl rfl (fun w h0 h1 => share2_full (U4 m ρ) c w h0 h1) (U4 m ρ c) (fun w => A_eq2 (U4 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 c (pdatsH m ρ 2 c) rfl rfl (fun w h0 h1 => share2_full (U4 m ρ) c w h0 h1) (U4 m ρ c) (U5 m ρ c)
      ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub Cert.KernelIdeal.Gen.hostOps0_fresh (W0 m ρ)),
    .region (reg0 m ρ),
    .host (hsegH hostOps1 hostOps1_sub Cert.KernelIdeal.Gen.hostOps1_fresh (W2 m ρ)),
    .region (reg1 m ρ),
    .region (reg2 m ρ) ]
theorem main_runH (c : Dev nD) : main (F := F) c = Pipeline.Seg.run (segsH m ρ) := (main_chain c).trans (by chain_rfl)

-- the launch theorem's implicit arguments are found by unifying its conclusion with this one
set_option backward.isDefEq.respectTransparency.types false in
/-- THE RUN. From any memory with zero counters every weakly fair execution of @main terminates, nothing faulting, and
    the final memory holds every unscoped buffer of every core at the contents the five stretches leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TₙH m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c) ⊢ iprop(TₙH m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KFrame.lean ====
/-
  The frame of the kernel program: the run ends with every unscoped buffer at the contents the five stretches leave, and
  no stretch writes an argument array (a host stretch writes only its own results; a kernel call writes only its output
  window's array), so every argument array ends holding what it held at launch.
-/
import proofs.«117479_j34084860461562_2_alg».proof.Proof.Gen.KernelIdeal.Launch
import proofs.«117479_j34084860461562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«117479_j34084860461562_2_alg».proof.Proof.KRun

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, with the sixteen argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c _ (mem_ucH main_arg0 (by decide))).trans (W5_main_arg0 m ρ c),
      (h c _ (mem_ucH main_arg1 (by decide))).trans (W5_main_arg1 m ρ c),
      (h c _ (mem_ucH main_arg2 (by decide))).trans (W5_main_arg2 m ρ c),
      (h c _ (mem_ucH main_arg3 (by decide))).trans (W5_main_arg3 m ρ c),
      (h c _ (mem_ucH main_arg4 (by decide))).trans (W5_main_arg4 m ρ c),
      (h c _ (mem_ucH main_arg5 (by decide))).trans (W5_main_arg5 m ρ c),
      (h c _ (mem_ucH main_arg6 (by decide))).trans (W5_main_arg6 m ρ c),
      (h c _ (mem_ucH main_arg7 (by decide))).trans (W5_main_arg7 m ρ c),
      (h c _ (mem_ucH main_arg8 (by decide))).trans (W5_main_arg8 m ρ c),
      (h c _ (mem_ucH main_arg9 (by decide))).trans (W5_main_arg9 m ρ c),
      (h c _ (mem_ucH main_arg10 (by decide))).trans (W5_main_arg10 m ρ c),
      (h c _ (mem_ucH main_arg11 (by decide))).trans (W5_main_arg11 m ρ c),
      (h c _ (mem_ucH main_arg12 (by decide))).trans (W5_main_arg12 m ρ c),
      (h c _ (mem_ucH main_arg13 (by decide))).trans (W5_main_arg13 m ρ c),
      (h c _ (mem_ucH main_arg14 (by decide))).trans (W5_main_arg14 m ρ c),
      (h c _ (mem_ucH main_arg15 (by decide))).trans (W5_main_arg15 m ρ c)⟩) (run_all m ρ)

end Cert.KernelIdeal.Hand

end
-- ==== Proof.BRegion0.lean ====
/-
  Kernel region 0 (the edge MLP's call): what its body leaves in the output window's buffer, as a function of the
  eleven input windows' blocks, and the proof data of its pipeline.

  The body reads each input window's whole buffer once, computes on vector registers, and stores ONE value over the
  whole output buffer. So after the body the output buffer reads as that stored value, whatever it held before
  (the body also loads the output buffer before storing; that load's value is never used). The three row blocks
  move with the grid point; the eight parameter blocks (weights, biases, gain, offset) have a constant block index,
  are brought in at the first point only, and since the body leaves them as found they still hold their block at
  every later point.
-/
import proofs.«117479_j34084860461562_2_alg».proof.Proof.Gen.Kernel.Launch
import proofs.«117479_j34084860461562_2_alg».proof.Proof.Gen.Kernel.Skeleton
import proofs.«117479_j34084860461562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # Region 0: the edge MLP's call, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether or not it was brought in
    there, for ANY proof data whose array is `V`'s (`hA`) and whose body leaves the block in place (`hafter`):
    where the window is not brought in, its block index has not moved since the point before, and the body left the
    buffer as it found it. The windows are uncut and never idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 11's staging buffer after the body, from the input windows' blocks: its one store, over the whole buffer,
    of the value computed from the eleven loads (the payloads are the skeleton's: the second layer's output before
    normalisation, its row means, then the normalisation with gain and offset). -/
def out0_11 (x0 x1 : Vec F S5000x128 .bf16) (x2 : Vec F S5000x128 .f32) (x3 x4 x5 : Vec F S128x128 .bf16) (x6 : Vec F S1x128 .f32) (x7 : Vec F S128x128 .bf16) (x8 x9 x10 : Vec F S1x128 .f32) : Vec F S5000x128 .f32 :=
  View.canon [⟨r0_0, k0_pay1 (k0_pay2 (View.ld x0 r0_0) (View.ld x1 r0_0) (View.ld x2 r0_0) (View.ld x3 r0_1) (View.ld x4 r0_1) (View.ld x5 r0_1) (View.ld x6 r0_2) (View.ld x7 r0_1) (View.ld x8 r0_2)) (k0_pay3 (View.ld x0 r0_0) (View.ld x1 r0_0) (View.ld x2 r0_0) (View.ld x3 r0_1) (View.ld x4 r0_1) (View.ld x5 r0_1) (View.ld x6 r0_2) (View.ld x7 r0_1) (View.ld x8 r0_2)) (View.ld x9 r0_2) (View.ld x10 r0_2)⟩]

/-- The one store is of the whole buffer, so it covers it. -/
theorem cover0_11 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body at any grid coordinate, on whole staging memrefs, the inputs' at read contents `xW` and the
    output's at anything, runs to the continuation holding the inputs' as they were and the output's at `out0_11` of
    the inputs': the eleven loads read the inputs' contents, the load of the output's buffer reads whatever it held
    and is not used, and the one store of the whole output buffer leaves the stored value there. -/
theorem sound_kernel0 (c : Dev nD) (E : Set ℕ) (i : grid0.Coords) (arg0 : Memref sig .tc .vmem S5000x128 .bf16) (harg0 : arg0.IsWhole) (arg1 : Memref sig .tc .vmem S5000x128 .bf16) (harg1 : arg1.IsWhole) (arg2 : Memref sig .tc .vmem S5000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S5000x128 .f32) (harg11 : arg11.IsWhole)
    (x0 x1 : Vec F S5000x128 .bf16) (x2 : Vec F S5000x128 .f32) (x3 x4 x5 : Vec F S128x128 .bf16) (x6 : Vec F S1x128 .f32) (x7 : Vec F S128x128 .bf16) (x8 x9 x10 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__edge_mlp_kernel i arg0 harg0 arg1 harg1 arg2 harg2 arg3 harg3 arg4 harg4 arg5 harg5 arg6 harg6 arg7 harg7 arg8 harg8 arg9 harg9 arg10 harg10 arg11 harg11) K := by
  sl_unfold [cc0__edge_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of pipeline 0 on core `c`: the arrays as the region finds them (`V`); after the body at point `t`
    each input's buffer at its block and the output's at `out0_11` of the input blocks; the invariant is the rest of
    the core's memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`: the invariant, the core's debt, and each window's current staging
    buffer at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the triple applies; the invariant and the core's
    debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BRegion1.lean ====
/-
  Kernel region 1: the node MLP on row blocks of 4000 rows. The body reads its nine input blocks whole, computes
  LayerNorm(silu(x·W1a + y·W1b + b1)·W2 + b2; γ, β) + x row by row, and overwrites the whole output block with it in one
  store. Here: each window's block at a grid point, what the single store leaves in the output block as a function of the
  nine input blocks, the body's triple, and the pipeline's proof data with its body obligation at every point.
-/
import proofs.«117479_j34084860461562_2_alg».proof.Proof.Gen.Kernel.Launch
import proofs.«117479_j34084860461562_2_alg».proof.Proof.Gen.Kernel.Skeleton
import proofs.«117479_j34084860461562_2_alg».proof.Proof.Gen.Kernel.Points
import Idealize.ShloMosaic.Lib.Pipeline.FrameBody
import Idealize.ShloMosaic.Lib.Tactic

-- membership in a rectangle of 4000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the pipeline fetched it there
    or not, for ANY proof data whose array is `V`'s (`hA`) and whose body leaves the block in place (`hafter`): where
    the block was not fetched its index has not moved since the point before, so the buffer still holds this point's
    block. The two row-block windows move with the grid and are fetched at every point; the seven parameter windows
    have a constant index and are fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- The output block after the body, from the nine input blocks: its one store, of the node MLP's value on the
    loaded blocks, as a single piece covering the buffer. -/
def out1_9 (x0 x1 : Vec F S4000x128 .f32) (x2 x3 : Vec F S128x128 .bf16) (x4 : Vec F S1x128 .f32) (x5 : Vec F S128x128 .bf16) (x6 x7 x8 : Vec F S1x128 .f32) : Vec F S4000x128 .f32 :=
  View.canon [⟨r1_0, k1_pay1 (View.ld x0 r1_0)
      (k1_pay2 (View.ld x0 r1_0) (View.ld x1 r1_0) (View.ld x2 r1_1) (View.ld x3 r1_1) (View.ld x4 r1_2) (View.ld x5 r1_1) (View.ld x6 r1_2))
      (k1_pay4 (View.ld x0 r1_0) (View.ld x1 r1_0) (View.ld x2 r1_1) (View.ld x3 r1_1) (View.ld x4 r1_2) (View.ld x5 r1_1) (View.ld x6 r1_2))
      (k1_pay5 (View.ld x0 r1_0) (View.ld x1 r1_0) (View.ld x2 r1_1) (View.ld x3 r1_1) (View.ld x4 r1_2) (View.ld x5 r1_1) (View.ld x6 r1_2))
      (View.ld x7 r1_2) (View.ld x8 r1_2)⟩]

/-- The store's rectangle is the whole buffer (checked by evaluation), so it covers it. -/
theorem cover1_9 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 1000000 in
/-- The kernel body at any grid coordinate, on whole staging memrefs, the inputs' at read contents `xW` and the
    output's at anything, runs to the continuation holding the inputs' as they were and the output's at `out1_9` of
    the inputs': the seven loads of the first part, the two of the second, the (unused) load of the output buffer and the
    one store, in program order. -/
theorem sound_kernel1 (c : Dev nD) (E : Set ℕ) (i : grid1.Coords) (arg0 : Memref sig .tc .vmem S4000x128 .f32) (harg0 : arg0.IsWhole) (arg1 : Memref sig .tc .vmem S4000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4000x128 .f32) (harg9 : arg9.IsWhole)
    (x0 x1 : Vec F S4000x128 .f32) (x2 x3 : Vec F S128x128 .bf16) (x4 : Vec F S1x128 .f32) (x5 : Vec F S128x128 .bf16) (x6 x7 x8 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out1_9 x0 x1 x2 x3 x4 x5 x6 x7 x8)) -∗ K ⟨⟩))
      ⊢ wp frame (wpE (defs₀ (F := F)) Variants.none c none) E (cc1__node_mlp2_kernel i arg0 harg0 arg1 harg1 arg2 harg2 arg3 harg3 arg4 harg4 arg5 harg5 arg6 harg6 arg7 harg7 arg8 harg8 arg9 harg9) K := by
  simp only [cc1__node_mlp2_kernel_eq_skeleton]; unfold cc1__node_mlp2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every window's array is held at a full share. -/
theorem q_eq1 (c : Dev nD) (w : Fin cfg1.W) : (dat1 V c).q w = fullShare := by dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRegion2.lean ====
/-
  Kernel region 2: the node MLP on row blocks of 5000 rows. The body reads its nine input blocks whole, computes
  LayerNorm(silu(x·W1a + y·W1b + b1)·W2 + b2; γ, β) + x row by row, and overwrites the whole output block with it in one
  store. Here: each window's block at a grid point, what the single store leaves in the output block as a function of the
  nine input blocks, the body's triple, and the pipeline's proof data with its body obligation at every point.
-/
import proofs.«117479_j34084860461562_2_alg».proof.Proof.Gen.Kernel.Launch
import proofs.«117479_j34084860461562_2_alg».proof.Proof.Gen.Kernel.Skeleton
import proofs.«117479_j34084860461562_2_alg».proof.Proof.Gen.Kernel.Points
import Idealize.ShloMosaic.Lib.Pipeline.FrameBody
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, whether the pipeline fetched it there
    or not, for ANY proof data whose array is `V`'s (`hA`) and whose body leaves the block in place (`hafter`): where
    the block was not fetched its index has not moved since the point before, so the buffer still holds this point's
    block. The two row-block windows move with the grid and are fetched at every point; the seven parameter windows
    have a constant index and are fetched at the first point only. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- The output block after the body, from the nine input blocks: its one store, of the node MLP's value on the
    loaded blocks, as a single piece covering the buffer. -/
def out2_9 (x0 x1 : Vec F S5000x128 .f32) (x2 x3 : Vec F S128x128 .bf16) (x4 : Vec F S1x128 .f32) (x5 : Vec F S128x128 .bf16) (x6 x7 x8 : Vec F S1x128 .f32) : Vec F S5000x128 .f32 :=
  View.canon [⟨r2_0, k2_pay1 (View.ld x0 r2_0)
      (k2_pay4 (View.ld x0 r2_0) (View.ld x1 r2_0) (View.ld x2 r2_1) (View.ld x3 r2_1) (View.ld x4 r2_2) (View.ld x5 r2_1) (View.ld x6 r2_2))
      (k2_pay5 (View.ld x0 r2_0) (View.ld x1 r2_0) (View.ld x2 r2_1) (View.ld x3 r2_1) (View.ld x4 r2_2) (View.ld x5 r2_1) (View.ld x6 r2_2))
      (View.ld x7 r2_2) (View.ld x8 r2_2)⟩]

/-- The store's rectangle is the whole buffer (checked by evaluation), so it covers it. -/
theorem cover2_9 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body at any grid coordinate, on whole staging memrefs, the inputs' at read contents `xW` and the
    output's at anything, runs to the continuation holding the inputs' as they were and the output's at `out2_9` of
    the inputs': the seven loads of the first part, the two of the second, the (unused) load of the output buffer and the
    one store, in program order. -/
theorem sound_kernel2 (c : Dev nD) (E : Set ℕ) (i : grid2.Coords) (arg0 : Memref sig .tc .vmem S5000x128 .f32) (harg0 : arg0.IsWhole) (arg1 : Memref sig .tc .vmem S5000x128 .f32) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S5000x128 .f32) (harg9 : arg9.IsWhole)
    (x0 x1 : Vec F S5000x128 .f32) (x2 x3 : Vec F S128x128 .bf16) (x4 : Vec F S1x128 .f32) (x5 : Vec F S128x128 .bf16) (x6 x7 x8 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out2_9 x0 x1 x2 x3 x4 x5 x6 x7 x8)) -∗ K ⟨⟩))
      ⊢ wp frame (wpE (defs₀ (F := F)) Variants.none c none) E (cc2__node_mlp2_kernel i arg0 harg0 arg1 harg1 arg2 harg2 arg3 harg3 arg4 harg4 arg5 harg5 arg6 harg6 arg7 harg7 arg8 harg8 arg9 harg9) K := by
  simp only [cc2__node_mlp2_kernel_eq_skeleton]; unfold cc2__node_mlp2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core `c`: the arrays as the region finds them (`V`); after the body at point `t`
    each input's buffer at its block and the output's at `out2_9` of the input blocks; the invariant the scoped rest
    and the generator register, untouched; nothing owed; the two row-block windows, which read one array, at the two halves of its share, every other window at a full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q := fun w => match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq2 (c : Dev nD) (w : Fin cfg2.W) : (dat2 V c).A w = V c (Pipeline.arrRef spec2 w) := by
  dsimp only [dat2]

/-! The share held of each window's array: the two halves of a full share for the two windows on the one array, a
    full share for every other window. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]
theorem q2_3 (c : Dev nD) : (dat2 V c).q 3 = fullShare := by dsimp only [dat2]
theorem q2_4 (c : Dev nD) : (dat2 V c).q 4 = fullShare := by dsimp only [dat2]
theorem q2_5 (c : Dev nD) : (dat2 V c).q 5 = fullShare := by dsimp only [dat2]
theorem q2_6 (c : Dev nD) : (dat2 V c).q 6 = fullShare := by dsimp only [dat2]
theorem q2_7 (c : Dev nD) : (dat2 V c).q 7 = fullShare := by dsimp only [dat2]
theorem q2_8 (c : Dev nD) : (dat2 V c).q 8 = fullShare := by dsimp only [dat2]
theorem q2_9 (c : Dev nD) : (dat2 V c).q 9 = fullShare := by dsimp only [dat2]
/-- Every window but the two on the shared array holds its array at a full share. -/
theorem q2_rest (c : Dev nD) (w : Fin cfg2.W) (h0 : w ≠ 0) (h1 : w ≠ 1) : (dat2 V c).q w = fullShare :=
  match w, h0, h1 with
  | ⟨0, _⟩, h0, _ => absurd rfl h0
  | ⟨1, _⟩, _, h1 => absurd rfl h1
  | ⟨2, _⟩, _, _ => q2_2 V c
  | ⟨3, _⟩, _, _ => q2_3 V c
  | ⟨4, _⟩, _, _ => q2_4 V c
  | ⟨5, _⟩, _, _ => q2_5 V c
  | ⟨6, _⟩, _, _ => q2_6 V c
  | ⟨7, _⟩, _, _ => q2_7 V c
  | ⟨8, _⟩, _, _ => q2_8 V c
  | ⟨9, _⟩, _, _ => q2_9 V c

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BShared2.lean ====
/-
  The third kernel call reads ONE array (the source-node features) through two of its input windows. The core holds
  each distinct array buffer whole; the pipeline holds every window's array at that window's share. The two windows on
  the shared array split its points-to into the left and the right half of the full share, and the halves join again
  when the call returns; every other window's array is held whole on both sides.
-/
import proofs.«117479_j34084860461562_2_alg».proof.Proof.Gen.Kernel.Launch
import proofs.«117479_j34084860461562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the third call's ten windows: nine, windows 0 and 1 being one array. -/
theorem arr2_image : (Finset.univ.image (Pipeline.arrRef spec2) : Finset (Ref sig .tc))
    = insert main_arg0 (insert main_v36 (insert main_v38 (insert main_v40 (insert main_v39 (insert main_v41 (insert main_v42 (insert main_v43 {main_v45}))))))) := by
  decide

set_option maxHeartbeats 2000000 in
/-- The nine buffers, each whole at the valuation's contents, are the ten windows' arrays at the windows' shares, and
    conversely, whenever the contents asked of each window's array are the valuation's. -/
theorem arrays2_iff (c : Dev nD) (dat : Dat τ (Elt F) Unit ℕ (UR sig nD τ) ℕ cfg2 c)
    (hs0 : dat.share (0 : Fin 10) = fullShare.left) (hs1 : dat.share (1 : Fin 10) = fullShare.right)
    (hs : ∀ w : Fin 10, w ≠ 0 → w ≠ 1 → dat.share w = fullShare)
    (V : (b : Ref sig .tc) → Buf (Elt F) ((c : Thread nD τ).loc b))
    (Fw : (w : Fin 10) → Buf (Elt F) ((cfg2.win w).arr.view.loc (c : Thread nD τ)))
    (hF : ∀ w, Fw w = V (Pipeline.arrRef spec2 w)) :
    (Pipeline.arrBufs spec2 c V : sProp 𝕄) ⊣⊢ dat.arrays Fw := by
  have hR : (dat.arrays Fw : sProp 𝕄)
      = bigSep Finset.univ fun w : Fin 10 => (((c : Thread nD τ).loc (Pipeline.arrRef spec2 w)) ↦{dat.share w} V (Pipeline.arrRef spec2 w) : sProp 𝕄) := by
    unfold Dat.arrays
    exact bigSep_congr fun w _ => by rw [(arr_whole2 w).set_eq_univ, hF w]
  rw [hR, bigSep_W2, hs0, hs1, hs 2 (by decide) (by decide), hs 3 (by decide) (by decide), hs 4 (by decide) (by decide),
    hs 5 (by decide) (by decide), hs 6 (by decide) (by decide), hs 7 (by decide) (by decide), hs 8 (by decide) (by decide),
    hs 9 (by decide) (by decide)]
  unfold Pipeline.arrBufs
  rw [arr2_image, bigSep_insert (by decide), bigSep_insert (by decide), bigSep_insert (by decide), bigSep_insert (by decide),
    bigSep_insert (by decide), bigSep_insert (by decide), bigSep_insert (by decide), bigSep_insert (by decide), bigSep_singleton]
  show (iprop((((c : Thread nD τ).loc main_arg0) ↦{fullShare} V main_arg0) ∗ (((c : Thread nD τ).loc main_v36) ↦{fullShare} V main_v36) ∗ (((c : Thread nD τ).loc main_v38) ↦{fullShare} V main_v38) ∗ (((c : Thread nD τ).loc main_v40) ↦{fullShare} V main_v40) ∗ (((c : Thread nD τ).loc main_v39) ↦{fullShare} V main_v39) ∗ (((c : Thread nD τ).loc main_v41) ↦{fullShare} V main_v41) ∗ (((c : Thread nD τ).loc main_v42) ↦{fullShare} V main_v42) ∗ (((c : Thread nD τ).loc main_v43) ↦{fullShare} V main_v43) ∗ (((c : Thread nD τ).loc main_v45) ↦{fullShare} V main_v45)) : sProp 𝕄) ⊣⊢ _
  constructor
  · iintro ⟨H0, H2, H3, H4, H5, H6, H7, H8, H9⟩
    ihave H01 := (pointsTo_share (PosShare.mem_left_op_right fullShare)).1 $$ H0
    icases H01 with ⟨H0, H1⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H0, H1, H2, H3, H4, H5, H6, H7, H8, H9⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- A core's unscoped buffers are the buffers behind the third call's arrays and the rest, the arrays distinct or not. -/
theorem unscoped_split2 (c : Dev nD) (V : (b : Ref sig .tc) → Buf (Elt F) ((c : Thread nD τ).loc b)) :
    (unscopedBufs c V : sProp 𝕄) = iprop(Pipeline.arrBufs spec2 c V ∗ Pipeline.unscopedRest spec2 c V) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

/-- ENTRY of the third call: the unscoped buffers at the entry contents are its arrays at the proof data's entry
    contents, each at its window's share, and the rest. -/
theorem enter2 (c : Dev nD) (dat : Dat τ (Elt F) Unit ℕ (UR sig nD τ) ℕ cfg2 c)
    (hs0 : dat.share (0 : Fin 10) = fullShare.left) (hs1 : dat.share (1 : Fin 10) = fullShare.right)
    (hs : ∀ w : Fin 10, w ≠ 0 → w ≠ 1 → dat.share w = fullShare)
    (V : (b : Ref sig .tc) → Buf (Elt F) ((c : Thread nD τ).loc b))
    (hA : ∀ w : Fin 10, dat.A w = V (Pipeline.arrRef spec2 w)) :
    (unscopedBufs c V : sProp 𝕄) ⊢ iprop(dat.arrays (dat.arrAt · 0) ∗ Pipeline.unscopedRest spec2 c V) := by
  rw [unscoped_split2]
  exact sep_mono (arrays2_iff c dat hs0 hs1 hs V _ (fun w => hA w)).1 .rfl

/-- EXIT of the third call: its arrays at their final contents and the rest are the unscoped buffers at any valuation
    that has the arrays at those contents and agrees with the entry valuation off them. -/
theorem exit2 (c : Dev nD) (dat : Dat τ (Elt F) Unit ℕ (UR sig nD τ) ℕ cfg2 c)
    (hs0 : dat.share (0 : Fin 10) = fullShare.left) (hs1 : dat.share (1 : Fin 10) = fullShare.right)
    (hs : ∀ w : Fin 10, w ≠ 0 → w ≠ 1 → dat.share w = fullShare)
    (V V' : (b : Ref sig .tc) → Buf (Elt F) ((c : Thread nD τ).loc b))
    (Fw : (w : Fin 10) → Buf (Elt F) ((cfg2.win w).arr.view.loc (c : Thread nD τ)))
    (hF : ∀ w, Fw w = V' (Pipeline.arrRef spec2 w))
    (hrest : ∀ b, b ∉ Finset.univ.image (Pipeline.arrRef spec2) → V' b = V b) :
    iprop(dat.arrays Fw ∗ Pipeline.unscopedRest spec2 c V) ⊢ (unscopedBufs c V' : sProp 𝕄) := by
  rw [unscoped_split2 c V']
  refine sep_mono (arrays2_iff c dat hs0 hs1 hs V' Fw hF).2 (Entails.of_eq ?_)
  unfold Pipeline.unscopedRest
  exact bigSep_congr fun b hb => by rw [hrest b (Finset.mem_sdiff.mp hb).2]

end Cert.Kernel.Hand

end
-- ==== Proof.BKRun.lean ====
/-
  The kernel program's run. @main is: 35 host operations (the two row gathers, the weight slices and re-shapes), the edge
  kernel's grid of 100 points, 13 host operations (the scatter-add into destination nodes, more weight slices), the
  destination-node kernel's grid of 10 points, the source-node kernel's grid of 20 points. The contents of every unscoped
  buffer are followed from the launch memory through these five stretches: a host stretch applies its operations; a
  kernel call leaves each of its arrays at what its write-backs leave (an input array as it was, the output array with
  every flushed block written) and every other buffer as it was. Every weakly fair execution terminates, and the final
  memory holds, buffer by buffer, the last of these contents.
-/
import proofs.«117479_j34084860461562_2_alg».proof.Proof.Gen.Kernel.Launch
import proofs.«117479_j34084860461562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«117479_j34084860461562_2_alg».proof.Proof.Gen.Kernel.Regions
import proofs.«117479_j34084860461562_2_alg».proof.Proof.BRegion0
import proofs.«117479_j34084860461562_2_alg».proof.Proof.BRegion1
import proofs.«117479_j34084860461562_2_alg».proof.Proof.BRegion2
import proofs.«117479_j34084860461562_2_alg».proof.Proof.BShared2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the edge kernel's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the edge kernel: its arrays at what the pipeline leaves, the rest as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the destination-node kernel's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the destination-node kernel. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the source-node kernel: only its output array changes (two of its input windows read one array, so the
    contents are stated as an update at the output's buffer rather than window by window). -/
def W5 (c : Dev nD) : Valuation τ sig (Elt F) :=
  Function.update (W4 m ρ c) (Proc.devRef .tc main_v45) ((dat2 (U4 m ρ) c).arrAt 9 cfg2.N)
theorem W5_out (c : Dev nD) : W5 m ρ c (Proc.devRef .tc main_v45) = (dat2 (U4 m ρ) c).arrAt 9 cfg2.N := by
  unfold W5; exact Function.update_self _ _ _
theorem W5_of_ne (c : Dev nD) (b : Ref sig .tc) (hb : b ≠ main_v45) :
    W5 m ρ c (Proc.devRef .tc b) = W4 m ρ c (Proc.devRef .tc b) := by
  unfold W5; exact Function.update_of_ne (StableHlo.devRef_ne_of_ne hb) _ _
abbrev U5 : (c : Dev nD) → (b : Ref sig .tc) → Buf (Elt F) ((c : Thread nD τ).loc b) := fun c b => W5 m ρ c b

/-- An input window's array is never written: it ends as the kernel found it. -/
theorem in2 (c : Dev nD) (w : Fin 10) (hin : (cfg2.win w).isOut = false) (hne : Pipeline.arrRef spec2 w ≠ main_v45) :
    (dat2 (U4 m ρ) c).arrAt w cfg2.N = U5 m ρ c (Pipeline.arrRef spec2 w) :=
  ((dat2 (U4 m ρ) c).arrAt_in w hin _).trans ((A_eq2 (U4 m ρ) c w).trans (W5_of_ne m ρ c _ hne).symm)
theorem hF2 (c : Dev nD) : ∀ w : Fin 10, (dat2 (U4 m ρ) c).arrAt w cfg2.N = U5 m ρ c (Pipeline.arrRef spec2 w)
  | ⟨0, _⟩ => in2 m ρ c 0 rfl (by decide)
  | ⟨1, _⟩ => in2 m ρ c 1 rfl (by decide)
  | ⟨2, _⟩ => in2 m ρ c 2 rfl (by decide)
  | ⟨3, _⟩ => in2 m ρ c 3 rfl (by decide)
  | ⟨4, _⟩ => in2 m ρ c 4 rfl (by decide)
  | ⟨5, _⟩ => in2 m ρ c 5 rfl (by decide)
  | ⟨6, _⟩ => in2 m ρ c 6 rfl (by decide)
  | ⟨7, _⟩ => in2 m ρ c 7 rfl (by decide)
  | ⟨8, _⟩ => in2 m ρ c 8 rfl (by decide)
  | ⟨9, _⟩ => (W5_out m ρ c).symm
theorem hrest2 (c : Dev nD) : ∀ b, b ∉ Finset.univ.image (Pipeline.arrRef spec2) → U5 m ρ c b = U4 m ρ c b :=
  fun b hb => W5_of_ne m ρ c b fun e => hb (Finset.mem_image.mpr ⟨9, Finset.mem_univ _, e.symm⟩)

/-! ## No stretch writes an argument -/

/-- A buffer that is no output window's array of the edge kernel is left by it as entered. -/
theorem W2_keep (c : Dev nD) (b : Ref sig .tc) (h : ∀ w : Fin 12, Pipeline.arrRef spec0 w = b → (cfg0.win w).isOut = false) :
    W2 m ρ c (Proc.devRef .tc b) = W1 m ρ c (Proc.devRef .tc b) := by
  by_cases hb : ∃ w : Fin 12, Pipeline.arrRef spec0 w = b
  · obtain ⟨w, rfl⟩ := hb
    exact (W2_arr m ρ c w).trans (((dat0 (U1 m ρ) c).arrAt_in w (h w rfl) _).trans (A_eq0 (U1 m ρ) c w))
  · exact W2_of_ne m ρ c b fun w e => hb ⟨w, e⟩
/-- The same for the destination-node kernel. -/
theorem W4_keep (c : Dev nD) (b : Ref sig .tc) (h : ∀ w : Fin 10, Pipeline.arrRef spec1 w = b → (cfg1.win w).isOut = false) :
    W4 m ρ c (Proc.devRef .tc b) = W3 m ρ c (Proc.devRef .tc b) := by
  by_cases hb : ∃ w : Fin 10, Pipeline.arrRef spec1 w = b
  · obtain ⟨w, rfl⟩ := hb
    exact (W4_arr m ρ c w).trans (((dat1 (U3 m ρ) c).arrAt_in w (h w rfl) _).trans (A_eq1 (U3 m ρ) c w))
  · exact W4_of_ne m ρ c b fun w e => hb ⟨w, e⟩

/-- A buffer no host stretch writes and no kernel call has as an output ends holding its launch contents. -/
theorem W5_arg (c : Dev nD) (b : Ref sig .tc) (h5 : b ≠ main_v45)
    (h4 : ∀ w : Fin 10, Pipeline.arrRef spec1 w = b → (cfg1.win w).isOut = false) (h3 : b ∉ Cert.Kernel.Gen.hostOps1_W)
    (h2 : ∀ w : Fin 12, Pipeline.arrRef spec0 w = b → (cfg0.win w).isOut = false) (h1 : b ∉ Cert.Kernel.Gen.hostOps0_W) :
    W5 m ρ c (Proc.devRef .tc b) = m ((c : Thread nD τ).loc b) :=
  (W5_of_ne m ρ c b h5).trans <| (W4_keep m ρ c b h4).trans <|
    (StableHlo.after_of_writes_sub hostOps1 _ Cert.Kernel.Gen.hostOps1_writes h3).trans <| (W2_keep m ρ c b h2).trans <|
    (StableHlo.after_of_writes_sub hostOps0 _ Cert.Kernel.Gen.hostOps0_writes h1).trans rfl

theorem W5_main_arg0 (c : Dev nD) : W5 m ρ c (Proc.devRef .tc main_arg0) = m ((c : Thread nD τ).loc main_arg0) :=
  W5_arg m ρ c main_arg0 (by decide) (by decide) (by decide) (by decide) (by decide)
theorem W5_main_arg1 (c : Dev nD) : W5 m ρ c (Proc.devRef .tc main_arg1) = m ((c : Thread nD τ).loc main_arg1) :=
  W5_arg m ρ c main_arg1 (by decide) (by decide) (by decide) (by decide) (by decide)
theorem W5_main_arg2 (c : Dev nD) : W5 m ρ c (Proc.devRef .tc main_arg2) = m ((c : Thread nD τ).loc main_arg2) :=
  W5_arg m ρ c main_arg2 (by decide) (by decide) (by decide) (by decide) (by decide)
theorem W5_main_arg3 (c : Dev nD) : W5 m ρ c (Proc.devRef .tc main_arg3) = m ((c : Thread nD τ).loc main_arg3) :=
  W5_arg m ρ c main_arg3 (by decide) (by decide) (by decide) (by decide) (by decide)
theorem W5_main_arg4 (c : Dev nD) : W5 m ρ c (Proc.devRef .tc main_arg4) = m ((c : Thread nD τ).loc main_arg4) :=
  W5_arg m ρ c main_arg4 (by decide) (by decide) (by decide) (by decide) (by decide)
theorem W5_main_arg5 (c : Dev nD) : W5 m ρ c (Proc.devRef .tc main_arg5) = m ((c : Thread nD τ).loc main_arg5) :=
  W5_arg m ρ c main_arg5 (by decide) (by decide) (by decide) (by decide) (by decide)
theorem W5_main_arg6 (c : Dev nD) : W5 m ρ c (Proc.devRef .tc main_arg6) = m ((c : Thread nD τ).loc main_arg6) :=
  W5_arg m ρ c main_arg6 (by decide) (by decide) (by decide) (by decide) (by decide)
theorem W5_main_arg7 (c : Dev nD) : W5 m ρ c (Proc.devRef .tc main_arg7) = m ((c : Thread nD τ).loc main_arg7) :=
  W5_arg m ρ c main_arg7 (by decide) (by decide) (by decide) (by decide) (by decide)
theorem W5_main_arg8 (c : Dev nD) : W5 m ρ c (Proc.devRef .tc main_arg8) = m ((c : Thread nD τ).loc main_arg8) :=
  W5_arg m ρ c main_arg8 (by decide) (by decide) (by decide) (by decide) (by decide)
theorem W5_main_arg9 (c : Dev nD) : W5 m ρ c (Proc.devRef .tc main_arg9) = m ((c : Thread nD τ).loc main_arg9) :=
  W5_arg m ρ c main_arg9 (by decide) (by decide) (by decide) (by decide) (by decide)
theorem W5_main_arg10 (c : Dev nD) : W5 m ρ c (Proc.devRef .tc main_arg10) = m ((c : Thread nD τ).loc main_arg10) :=
  W5_arg m ρ c main_arg10 (by decide) (by decide) (by decide) (by decide) (by decide)
theorem W5_main_arg11 (c : Dev nD) : W5 m ρ c (Proc.devRef .tc main_arg11) = m ((c : Thread nD τ).loc main_arg11) :=
  W5_arg m ρ c main_arg11 (by decide) (by decide) (by decide) (by decide) (by decide)
theorem W5_main_arg12 (c : Dev nD) : W5 m ρ c (Proc.devRef .tc main_arg12) = m ((c : Thread nD τ).loc main_arg12) :=
  W5_arg m ρ c main_arg12 (by decide) (by decide) (by decide) (by decide) (by decide)
theorem W5_main_arg13 (c : Dev nD) : W5 m ρ c (Proc.devRef .tc main_arg13) = m ((c : Thread nD τ).loc main_arg13) :=
  W5_arg m ρ c main_arg13 (by decide) (by decide) (by decide) (by decide) (by decide)
theorem W5_main_arg14 (c : Dev nD) : W5 m ρ c (Proc.devRef .tc main_arg14) = m ((c : Thread nD τ).loc main_arg14) :=
  W5_arg m ρ c main_arg14 (by decide) (by decide) (by decide) (by decide) (by decide)
theorem W5_main_arg15 (c : Dev nD) : W5 m ρ c (Proc.devRef .tc main_arg15) = m ((c : Thread nD τ).loc main_arg15) :=
  W5_arg m ρ c main_arg15 (by decide) (by decide) (by decide) (by decide) (by decide)

/-! ## The results -/

/-- The edge kernel's output array is untouched by everything after it. -/
theorem W5_main_v31 (c : Dev nD) : W5 m ρ c (Proc.devRef .tc main_v31) = (dat0 (U1 m ρ) c).arrAt 11 cfg0.N :=
  (W5_of_ne m ρ c main_v31 (by decide)).trans <| (W4_of_ne m ρ c main_v31 (by decide)).trans <|
    (StableHlo.after_of_writes_sub hostOps1 _ Cert.Kernel.Gen.hostOps1_writes (by decide)).trans (W2_arr m ρ c 11)
/-- The destination-node kernel's output array is untouched by the source-node kernel. -/
theorem W5_main_v44 (c : Dev nD) : W5 m ρ c (Proc.devRef .tc main_v44) = (dat1 (U3 m ρ) c).arrAt 9 cfg1.N :=
  (W5_of_ne m ρ c main_v44 (by decide)).trans (W4_arr m ρ c 9)

/-! ## The proof data family and the thread state -/

abbrev admH : (p : Fin 3) → (pcfgs (F := F) p).Adm := fun p => (cfgs p).toPCfg_adm
/-- Every pipeline's proof data, each at its call's entry contents (a literal match on the pipeline). -/
def pdatsH : (p : Fin 3) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U4 m ρ) c
abbrev 𝒱H : Variants := Variants.none
abbrev LH : GSem nD τ sig → Finset Unit := fun _ => ∅
abbrev lvH : GSem nD τ sig → Unit → ℕ := fun _ _ => 0
/-- What rides beside the buffers through every stretch: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TₙH (c : Dev nD) : sProp 𝕄 := iprop(StableHlo.held (c : Thread nD τ) (Pipeline.ucRefs τ sig) (W5 m ρ c) ∗ ∃ r, prngReg c r)

/-- Every window of the third call other than the two on the shared array holds its array at the full share. -/
theorem share2_full (V : (c : Dev nD) → (b : Ref sig .tc) → Buf (Elt F) ((c : Thread nD τ).loc b)) (c : Dev nD) :
    ∀ w : Fin 10, w ≠ 0 → w ≠ 1 → (dat2 (F := F) V c).share w = fullShare
  | ⟨0, _⟩ => fun h _ => absurd rfl h
  | ⟨1, _⟩ => fun _ h => absurd rfl h
  | ⟨2, _⟩ => fun _ _ => rfl
  | ⟨3, _⟩ => fun _ _ => rfl
  | ⟨4, _⟩ => fun _ _ => rfl
  | ⟨5, _⟩ => fun _ _ => rfl
  | ⟨6, _⟩ => fun _ _ => rfl
  | ⟨7, _⟩ => fun _ _ => rfl
  | ⟨8, _⟩ => fun _ _ => rfl
  | ⟨9, _⟩ => fun _ _ => rfl

/-! ## The kernel calls as segments -/

-- unification with the pinned configuration may unfold plain definitions in a metavariable's type
set_option backward.isDefEq.respectTransparency.types false in
/-- Kernel call 0 over the thread state: entered from every unscoped buffer at the contents before it, left at the
    contents after it; its arrays split out of the unscoped buffers at entry and put back at exit; the generator
    register goes into the pipeline's invariant and comes out; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (U1 m ρ c) (U2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Kernel call 1 over the thread state: entered from every unscoped buffer at the contents before it, left at the
    contents after it; its arrays split out of the unscoped buffers at entry and put back at exit; the generator
    register goes into the pipeline's invariant and comes out; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (U3 m ρ c) (U4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Kernel call 2, two of whose input windows read one array: the same record, its arrays split out of the unscoped
    buffers with that array's points-to halved between the two windows (enter2) and joined again at the exit (exit2). -/
def reg2 : Pipeline.RegionSeg (pcfgs (F := F)) admH (pdatsH m ρ) () defs₀ 𝒱H LH lvH 2 where
  win := winFacts₀2
  block_pos := block_pos2
  stage_whole := stage_whole2
  K := PEmpty
  osem k := k.elim
  ho := Pipeline.OwnSemFacts.none _
  hbody c := (body_obligation2 (U4 m ρ) c).loose
  hwaits := Pipeline.hwaits_of_owed_zero _ _ _ _ LH lvH 2 fun _ _ => rfl
  pre c := iprop(StableHlo.held (c : Thread nD τ) (Pipeline.ucRefs τ sig) (W4 m ρ c) ∗ RH c)
  post c := iprop(StableHlo.held (c : Thread nD τ) (Pipeline.ucRefs τ sig) (W5 m ρ c) ∗ RH c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := enter2 c (pdatsH m ρ 2 c) rfl rfl (fun w h0 h1 => share2_full (U4 m ρ) c w h0 h1) (U4 m ρ c) (fun w => A_eq2 (U4 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 c (pdatsH m ρ 2 c) rfl rfl (fun w h0 h1 => share2_full (U4 m ρ) c w h0 h1) (U4 m ρ c) (U5 m ρ c)
      ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub Cert.Kernel.Gen.hostOps0_fresh (W0 m ρ)),
    .region (reg0 m ρ),
    .host (hsegH hostOps1 hostOps1_sub Cert.Kernel.Gen.hostOps1_fresh (W2 m ρ)),
    .region (reg1 m ρ),
    .region (reg2 m ρ) ]
theorem main_runH (c : Dev nD) : main (F := F) c = Pipeline.Seg.run (segsH m ρ) := (main_chain c).trans (by chain_rfl)

-- the launch theorem's implicit arguments are found by unifying its conclusion with this one
set_option backward.isDefEq.respectTransparency.types false in
/-- THE RUN. From any memory with zero counters every weakly fair execution of @main terminates, nothing faulting, and
    the final memory holds every unscoped buffer of every core at the contents the five stretches leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TₙH m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c) ⊢ iprop(TₙH m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.BKFrame.lean ====
/-
  The frame of the kernel program: the run ends with every unscoped buffer at the contents the five stretches leave, and
  no stretch writes an argument array (a host stretch writes only its own results; a kernel call writes only its output
  window's array), so every argument array ends holding what it held at launch.
-/
import proofs.«117479_j34084860461562_2_alg».proof.Proof.Gen.Kernel.Launch
import proofs.«117479_j34084860461562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«117479_j34084860461562_2_alg».proof.Proof.BKRun

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, with the sixteen argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
      (h c _ (mem_ucH main_arg0 (by decide))).trans (W5_main_arg0 m ρ c),
      (h c _ (mem_ucH main_arg1 (by decide))).trans (W5_main_arg1 m ρ c),
      (h c _ (mem_ucH main_arg2 (by decide))).trans (W5_main_arg2 m ρ c),
      (h c _ (mem_ucH main_arg3 (by decide))).trans (W5_main_arg3 m ρ c),
      (h c _ (mem_ucH main_arg4 (by decide))).trans (W5_main_arg4 m ρ c),
      (h c _ (mem_ucH main_arg5 (by decide))).trans (W5_main_arg5 m ρ c),
      (h c _ (mem_ucH main_arg6 (by decide))).trans (W5_main_arg6 m ρ c),
      (h c _ (mem_ucH main_arg7 (by decide))).trans (W5_main_arg7 m ρ c),
      (h c _ (mem_ucH main_arg8 (by decide))).trans (W5_main_arg8 m ρ c),
      (h c _ (mem_ucH main_arg9 (by decide))).trans (W5_main_arg9 m ρ c),
      (h c _ (mem_ucH main_arg10 (by decide))).trans (W5_main_arg10 m ρ c),
      (h c _ (mem_ucH main_arg11 (by decide))).trans (W5_main_arg11 m ρ c),
      (h c _ (mem_ucH main_arg12 (by decide))).trans (W5_main_arg12 m ρ c),
      (h c _ (mem_ucH main_arg13 (by decide))).trans (W5_main_arg13 m ρ c),
      (h c _ (mem_ucH main_arg14 (by decide))).trans (W5_main_arg14 m ρ c),
      (h c _ (mem_ucH main_arg15 (by decide))).trans (W5_main_arg15 m ρ c)⟩) (run_all m ρ)

end Cert.Kernel.Hand

end
-- ==== Proof.MlpSpec.lean ====
/-
  The mathematics both programs compute, row by row, on the extended reals.

  One edge row:  LN( silu( xd·W1d + xs·W1s + ea·W1e + b1 ) · W2 + b2 ; γ, β )
  One node row:  LN( silu( x·W1a + y·W1b + b1 ) · W2 + b2 ; γ, β ) + x
  where silu t = t · 1/(1 + e^(−t)) and, for a row y of 128 entries,
  LN(y; γ, β)_j = (y_j − μ) · (σ² + ε)^(−1/2) · γ_j + β_j with μ = (Σ_k y_k)/128 and σ² = (Σ_k (y_k − μ)²)/128.
  The three (two) contractions of the first layer are kept apart and added left to right, as the vector unit adds them;
  a single contraction over the concatenated row is the same number because addition of extended reals is
  associative and commutative (no finiteness is needed for that).
  The two float words that occur, 128.0 and the LayerNorm ε, are kept as their binary words.
-/
import Idealize.ShloMosaic.PureOps.Ideal

noncomputable section

namespace Cert.MlpSpec

open Idealize.ShloMosaic

/-- The word 128.0 (binary32 0x43000000) read as an extended real. -/
def c128 : EReal := Ideal.ofBits .f32 0x43000000#32
/-- The LayerNorm ε word (binary32 0x3727C5AC) read as an extended real. -/
def eps : EReal := Ideal.ofBits .f32 0x3727C5AC#32

/-- silu t = t · logistic t. -/
def silu (t : EReal) : EReal := t * Ideal.logistic t

/-- The mean of a row of 128 entries. -/
def mean (y : Fin 128 → EReal) : EReal := Ideal.div (∑ k : Fin 128, y k) c128

/-- The mean of the squared deviations of a row of 128 entries. -/
def var (y : Fin 128 → EReal) : EReal := Ideal.div (∑ k : Fin 128, (y k - mean y) * (y k - mean y)) c128

/-- LayerNorm of a row with gain γ and offset β, entry j. -/
def ln (y g b : Fin 128 → EReal) (j : Fin 128) : EReal :=
  ((y j - mean y) * Ideal.rsqrt (var y + eps)) * g j + b j

/-- One dense layer h·W + b, entry j. -/
def lin (h : Fin 128 → EReal) (w : Fin 128 → Fin 128 → EReal) (b : Fin 128 → EReal) (j : Fin 128) : EReal :=
  (∑ k : Fin 128, h k * w k j) + b j

/-- The edge MLP's first layer before the activation, entry j: three contractions added left to right, then the bias. -/
def edgeHidden (xd xs ea : Fin 128 → EReal) (w1d w1s w1e : Fin 128 → Fin 128 → EReal) (b1 : Fin 128 → EReal) (j : Fin 128) : EReal :=
  (((∑ k : Fin 128, xd k * w1d k j) + (∑ k : Fin 128, xs k * w1s k j)) + (∑ k : Fin 128, ea k * w1e k j)) + b1 j

/-- One row of the edge MLP. -/
def edgeRow (xd xs ea : Fin 128 → EReal) (w1d w1s w1e : Fin 128 → Fin 128 → EReal) (b1 : Fin 128 → EReal)
    (w2 : Fin 128 → Fin 128 → EReal) (b2 g be : Fin 128 → EReal) (j : Fin 128) : EReal :=
  ln (lin (fun k => silu (edgeHidden xd xs ea w1d w1s w1e b1 k)) w2 b2) g be j

/-- The node MLP's first layer before the activation, entry j: two contractions added, then the bias. -/
def nodeHidden (x y : Fin 128 → EReal) (w1a w1b : Fin 128 → Fin 128 → EReal) (b1 : Fin 128 → EReal) (j : Fin 128) : EReal :=
  ((∑ k : Fin 128, x k * w1a k j) + (∑ k : Fin 128, y k * w1b k j)) + b1 j

/-- One row of the node MLP with its residual. -/
def nodeRow (x y : Fin 128 → EReal) (w1a w1b : Fin 128 → Fin 128 → EReal) (b1 : Fin 128 → EReal)
    (w2 : Fin 128 → Fin 128 → EReal) (b2 g be : Fin 128 → EReal) (j : Fin 128) : EReal :=
  ln (lin (fun k => silu (nodeHidden x y w1a w1b b1 k)) w2 b2) g be j + x j

end Cert.MlpSpec

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«117479_j34084860461562_2_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.LibKeepdims.lean ====
/-
  Vectors as one-column and one-row tables, read at an entry, for tables of any size and any element type.

  A vector v of a entries becomes a one-column table either by a re-shaping (the vector unit's spelling) or by being
  placed along axis 0 of an a × 1 table (the array program's spelling): either way entry (p, 0) is v(p). A one-column
  table repeated over b columns has entry (p, q) equal to the column's entry p. A vector of n entries re-shaped to one
  row has entry (0, q) equal to the vector's entry q. These are the layouts a row-wise reduction kept as a column
  (a maximum or a sum along the rows, laid back along them) goes through.
-/
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector of a entries cast to one column: entry (p, 0) is the vector's entry p. -/
theorem col_cast_apply {a : Nat} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- One column repeated over b columns: entry (p, q) is the column's entry p. -/
theorem col_bcast_apply {a b : Nat} (y : (⟨2, ![a, 1]⟩ : Shape).Idx → α) (h : (⟨2, ![a, 1]⟩ : Shape).Broadcasts ⟨2, ![a, b]⟩)
    (p : Fin a) (q : Fin b) : broadcastTo ⟨2, ![a, b]⟩ y h (ix2 p q) = y (ix2 p (0 : Fin 1)) := by
  refine broadcastTo_apply y h (ix2 p q) (ix2 p (0 : Fin 1)) ?_
  intro x
  match x with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A vector of m entries placed along axis 0 of a one-column table: entry (r, 0) is the vector's entry r. -/
theorem vec_col_apply {m : Nat} (h : (⟨1, ![m]⟩ : Shape).BroadcastsInDim ⟨2, ![m, 1]⟩ ![0])
    (v : (⟨1, ![m]⟩ : Shape).Idx → α) (r : Fin m) :
    broadcastInDim ⟨2, ![m, 1]⟩ ![0] h v (ix2 r (0 : Fin 1)) = v (ix1 r) := by
  refine broadcastInDim_apply ![0] h v (ix2 r (0 : Fin 1)) (ix1 r) ?_
  intro a
  match a with
  | ⟨0, _⟩ =>
    show r.val = if m = 1 then 0 else r.val
    split
    · have := r.isLt; omega
    · rfl

/-- A vector of n entries re-shaped to one row keeps its entries: entry (0, q) is the vector's entry q. -/
theorem row_cast_apply {n : Nat} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) := by
  refine shapeCast_apply x h (ix2 (0 : Fin 1) q) (ix1 q) ?_
  rw [Shape.rowMajor_val_two, Shape.rowMajor_val_one]
  show q.val = 0 * n + q.val
  omega

end Cert.LibKeepdims

end
-- ==== Proof.KerRows.lean ====
/-
  The three block bodies read at an entry.

  Each body computes, for a block of rows, a two-layer perceptron followed by a LayerNorm over the 128 entries of
  every row (the node bodies add the row of the first operand back at the end). Read at entry (r, j) on the extended
  reals, every step is either pointwise, or one of four layouts: a product with a 128 x 128 table accumulated into
  zeros (entry (r, j) is the sum over k of x(r, k) * w(k, j)), a one-row table repeated down the rows (entry (r, j)
  is the row's entry j), a sum along each row kept as a one-column table (entry (r, 0) is the sum over k of the
  row's entries), and a one-column table repeated along the rows (entry (r, j) is the column's entry r). Changes of
  float format and identity re-shapings are the identity. Put together, entry (r, j) of what a body stores is the
  row function of the specification applied to the r-th rows of the row operands and to the weight and bias tables.
  No finiteness is needed anywhere: nothing is re-associated.
-/
import proofs.«117479_j34084860461562_2_alg».proof.Proof.Gen.KernelIdeal.Skeleton
import proofs.«117479_j34084860461562_2_alg».proof.Proof.MlpSpec
import proofs.«117479_j34084860461562_2_alg».proof.Proof.LibDense
import proofs.«117479_j34084860461562_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-! ## The four layouts at an entry, for any number of rows -/

/-- The sum along each row, read at row r: the sum of the row's entries. -/
theorem rowsum_apply {m n : Nat} (src : FVec Ideal ⟨2, ![m, n]⟩ .f32)
    (h : (⟨2, ![m, n]⟩ : Shape).Reduces [1] ⟨1, ![m]⟩) (hφ : FKind.Formats .f32)
    (hacc : (0x00000000#32 : BitVec 32) = 0x00000000#32) (r : Fin m) :
    multiReduction (F := Ideal) .add [1] ⟨1, ![m]⟩ src 0x00000000#32 h hφ hacc (ix1 r) = ∑ k : Fin n, src (ix2 r k) := by
  refine (Ideal.multiReduction_add_single src 0x00000000#32 h hφ hacc (ix1 r)).trans ?_
  have e : ∀ k : Fin ((⟨2, ![m, n]⟩ : Shape).size 1), h.lift (ix1 r) k = ix2 r (k : Fin n) := fun k =>
    funext fun c => Fin.ext (by
      refine (h.lift_val (ix1 r) k c).trans ?_
      match c with
      | ⟨0, _⟩ => rfl
      | ⟨1, _⟩ => rfl)
  exact Finset.sum_congr rfl fun k _ => congrArg src (e k)

/-- The sum along each row kept as a one-column table, read at (r, 0). -/
theorem rowsum_col_apply {m n : Nat} (src : FVec Ideal ⟨2, ![m, n]⟩ .f32)
    (h : (⟨2, ![m, n]⟩ : Shape).Reduces [1] ⟨1, ![m]⟩) (hφ : FKind.Formats .f32)
    (hacc : (0x00000000#32 : BitVec 32) = 0x00000000#32)
    (hc : (⟨1, ![m]⟩ : Shape).ShapeCasts ⟨2, ![m, 1]⟩) (r : Fin m) :
    shapeCast ⟨2, ![m, 1]⟩ (multiReduction (F := Ideal) .add [1] ⟨1, ![m]⟩ src 0x00000000#32 h hφ hacc) hc (ix2 r (0 : Fin 1))
      = ∑ k : Fin n, src (ix2 r k) :=
  (Cert.LibKeepdims.col_cast_apply _ hc r).trans (rowsum_apply src h hφ hacc r)

/-- The mean of each row as the bodies take it: the row sum kept as a column, divided by a constant column. -/
theorem rowmean_apply {m n : Nat} (src : FVec Ideal ⟨2, ![m, n]⟩ .f32)
    (h : (⟨2, ![m, n]⟩ : Shape).Reduces [1] ⟨1, ![m]⟩) (hφ : FKind.Formats .f32)
    (hacc : (0x00000000#32 : BitVec 32) = 0x00000000#32)
    (hc : (⟨1, ![m]⟩ : Shape).ShapeCasts ⟨2, ![m, 1]⟩) (c : Ideal .f32) (r : Fin m) :
    divf (shapeCast ⟨2, ![m, 1]⟩ (multiReduction (F := Ideal) .add [1] ⟨1, ![m]⟩ src 0x00000000#32 h hφ hacc) hc)
        (broadcast ⟨2, ![m, 1]⟩ c) (ix2 r (0 : Fin 1))
      = Ideal.div (∑ k : Fin n, src (ix2 r k)) c := by
  rw [divf_apply, rowsum_col_apply src h hφ hacc hc r, broadcast_apply]

/-! ## The products: entry (r, j) of a product with a 128 x 128 table accumulated into zeros -/

/-- Blocks of 5000 rows. -/
theorem mm5000_apply {φ₁ φ₂ : FTy} (x : FVec Ideal S5000x128 φ₁) (w : FVec Ideal S128x128 φ₂) (r : Fin 5000) (j : Fin 128) :
    matmul (F := Ideal) dot_S5000x128_S128x128_S5000x128_1_0_0_1_n_n none x w (constant S5000x128 .f32 0x00000000#32) (ix2 r j)
      = ∑ k : Fin 128, x (ix2 r k) * w (ix2 k j) := by
  refine (Ideal.matmul_constant_zero_apply _ none x w (ix2 r j)).trans ?_
  exact Cert.Sage.LibDot.sum_plain dot_S5000x128_S128x128_S5000x128_1_0_0_1_n_n rfl rfl
    (fun i q => by simp [DotDims.lhsIdx, dot_S5000x128_S128x128_S5000x128_1_0_0_1_n_n]; rfl)
    (fun i q => DotDims.lhsIdx_val_of_single _ rfl i q)
    (fun i q => DotDims.rhsIdx_val_of_single _ rfl i q)
    (fun i q => by simp [DotDims.rhsIdx, dot_S5000x128_S128x128_S5000x128_1_0_0_1_n_n]; rfl)
    (fun i => x i) (fun i => w i) r j

/-- Blocks of 4000 rows. -/
theorem mm4000_apply {φ₁ φ₂ : FTy} (x : FVec Ideal S4000x128 φ₁) (w : FVec Ideal S128x128 φ₂) (r : Fin 4000) (j : Fin 128) :
    matmul (F := Ideal) dot_S4000x128_S128x128_S4000x128_1_0_0_1_n_n none x w (constant S4000x128 .f32 0x00000000#32) (ix2 r j)
      = ∑ k : Fin 128, x (ix2 r k) * w (ix2 k j) := by
  refine (Ideal.matmul_constant_zero_apply _ none x w (ix2 r j)).trans ?_
  exact Cert.Sage.LibDot.sum_plain dot_S4000x128_S128x128_S4000x128_1_0_0_1_n_n rfl rfl
    (fun i q => by simp [DotDims.lhsIdx, dot_S4000x128_S128x128_S4000x128_1_0_0_1_n_n]; rfl)
    (fun i q => DotDims.lhsIdx_val_of_single _ rfl i q)
    (fun i q => DotDims.rhsIdx_val_of_single _ rfl i q)
    (fun i q => by simp [DotDims.rhsIdx, dot_S4000x128_S128x128_S4000x128_1_0_0_1_n_n]; rfl)
    (fun i => x i) (fun i => w i) r j

/-! ## Pointwise functions at an entry -/

theorem logistic_apply {s : Shape} {φ : FTy} (a : FVec Ideal s φ) (i : s.Idx) : logistic a i = Ideal.logistic (a i) := rfl
theorem rsqrt_apply {s : Shape} {φ : FTy} (a : FVec Ideal s φ) (i : s.Idx) : rsqrt a i = Ideal.rsqrt (a i) := rfl

/-! ## The edge body -/

/-- The second layer's output of the edge body at (r, j). -/
theorem edge_pay2_apply (v0 v2 : Vec Ideal S5000x128 .bf16) (v4 : Vec Ideal S5000x128 .f32) (v6 v9 v13 : Vec Ideal S128x128 .bf16)
    (v17 : Vec Ideal S1x128 .f32) (v24 : Vec Ideal S128x128 .bf16) (v27 : Vec Ideal S1x128 .f32) (r : Fin 5000) (j : Fin 128) :
    k0_pay2 (F := Ideal) v0 v2 v4 v6 v9 v13 v17 v24 v27 (ix2 r j)
      = Cert.MlpSpec.lin (fun k => Cert.MlpSpec.silu (Cert.MlpSpec.edgeHidden (fun k => v0 (ix2 r k)) (fun k => v2 (ix2 r k))
          (fun k => v4 (ix2 r k)) (fun k j => v6 (ix2 k j)) (fun k j => v9 (ix2 k j)) (fun k j => v13 (ix2 k j))
          (fun j => v17 (ix2 0 j)) k)) (fun k j => v24 (ix2 k j)) (fun j => v27 (ix2 0 j)) j := by
  simp only [k0_pay2, shapeCast_self, addf_apply, mulf_apply, truncf_apply, logistic_apply, mm5000_apply,
    Cert.LibDense.row_apply, Cert.MlpSpec.lin, Cert.MlpSpec.silu, Cert.MlpSpec.edgeHidden]

/-- The row mean of the second layer's output, kept as a column, at (r, 0). -/
theorem edge_pay3_apply (v0 v2 : Vec Ideal S5000x128 .bf16) (v4 : Vec Ideal S5000x128 .f32) (v6 v9 v13 : Vec Ideal S128x128 .bf16)
    (v17 : Vec Ideal S1x128 .f32) (v24 : Vec Ideal S128x128 .bf16) (v27 : Vec Ideal S1x128 .f32) (r : Fin 5000) :
    k0_pay3 (F := Ideal) v0 v2 v4 v6 v9 v13 v17 v24 v27 (ix2 r (0 : Fin 1))
      = Ideal.div (∑ k : Fin 128, k0_pay2 (F := Ideal) v0 v2 v4 v6 v9 v13 v17 v24 v27 (ix2 r k)) Cert.MlpSpec.c128 := by
  simp only [k0_pay3]
  exact rowmean_apply _ _ _ _ _ _ r

/-- The LayerNorm tail of the edge body at (r, j), over any table y and any column μ in the place of the row means. -/
theorem edge_pay1_apply (y : FVec Ideal S5000x128 .f32) (μ : FVec Ideal S5000x1 .f32) (v49 v53 : Vec Ideal S1x128 .f32)
    (r : Fin 5000) (j : Fin 128) :
    k0_pay1 (F := Ideal) y μ v49 v53 (ix2 r j)
      = ((y (ix2 r j) - μ (ix2 r (0 : Fin 1)))
          * Ideal.rsqrt (Ideal.div (∑ k : Fin 128, (y (ix2 r k) - μ (ix2 r (0 : Fin 1))) * (y (ix2 r k) - μ (ix2 r (0 : Fin 1))))
              Cert.MlpSpec.c128 + Cert.MlpSpec.eps))
          * v49 (ix2 0 j) + v53 (ix2 0 j) := by
  simp only [k0_pay1, shapeCast_self, addf_apply, mulf_apply, subf_apply, rsqrt_apply, broadcast_apply, rowmean_apply,
    Cert.LibDense.row_apply, Cert.LibKeepdims.col_bcast_apply, Cert.MlpSpec.c128, Cert.MlpSpec.eps, Ideal.ofBits_def]
  rw [rowmean_apply]
  simp only [mulf_apply, subf_apply, Cert.LibKeepdims.col_bcast_apply]

/-- Entry (r, j) of what the edge body stores is the specification's edge row function of the r-th rows. -/
theorem edge_pay_apply (v0 v2 : Vec Ideal S5000x128 .bf16) (v4 : Vec Ideal S5000x128 .f32) (v6 v9 v13 : Vec Ideal S128x128 .bf16)
    (v17 : Vec Ideal S1x128 .f32) (v24 : Vec Ideal S128x128 .bf16) (v27 v49 v53 : Vec Ideal S1x128 .f32) (r : Fin 5000) (j : Fin 128) :
    k0_pay1 (F := Ideal) (k0_pay2 v0 v2 v4 v6 v9 v13 v17 v24 v27) (k0_pay3 v0 v2 v4 v6 v9 v13 v17 v24 v27) v49 v53 (ix2 r j)
      = Cert.MlpSpec.edgeRow (fun k => v0 (ix2 r k)) (fun k => v2 (ix2 r k)) (fun k => v4 (ix2 r k)) (fun k j => v6 (ix2 k j))
          (fun k j => v9 (ix2 k j)) (fun k j => v13 (ix2 k j)) (fun j => v17 (ix2 0 j)) (fun k j => v24 (ix2 k j))
          (fun j => v27 (ix2 0 j)) (fun j => v49 (ix2 0 j)) (fun j => v53 (ix2 0 j)) j := by
  rw [edge_pay1_apply, edge_pay3_apply]
  simp only [edge_pay2_apply]
  rfl

/-! ## The node body on blocks of 4000 rows -/

/-- The second layer's output at (r, j). -/
theorem node1_pay2_apply (v0 v1 : Vec Ideal S4000x128 .f32) (v5 v8 : Vec Ideal S128x128 .bf16) (v12 : Vec Ideal S1x128 .f32)
    (v19 : Vec Ideal S128x128 .bf16) (v22 : Vec Ideal S1x128 .f32) (r : Fin 4000) (j : Fin 128) :
    k1_pay2 (F := Ideal) v0 v1 v5 v8 v12 v19 v22 (ix2 r j)
      = Cert.MlpSpec.lin (fun k => Cert.MlpSpec.silu (Cert.MlpSpec.nodeHidden (fun k => v0 (ix2 r k)) (fun k => v1 (ix2 r k))
          (fun k j => v5 (ix2 k j)) (fun k j => v8 (ix2 k j)) (fun j => v12 (ix2 0 j)) k))
          (fun k j => v19 (ix2 k j)) (fun j => v22 (ix2 0 j)) j := by
  simp only [k1_pay2, shapeCast_self, addf_apply, mulf_apply, truncf_apply, logistic_apply, mm4000_apply,
    Cert.LibDense.row_apply, Cert.MlpSpec.lin, Cert.MlpSpec.silu, Cert.MlpSpec.nodeHidden]

/-- The row mean of the second layer's output, kept as a column, at (r, 0). -/
theorem node1_pay3_apply (v0 v1 : Vec Ideal S4000x128 .f32) (v5 v8 : Vec Ideal S128x128 .bf16) (v12 : Vec Ideal S1x128 .f32)
    (v19 : Vec Ideal S128x128 .bf16) (v22 : Vec Ideal S1x128 .f32) (r : Fin 4000) :
    k1_pay3 (F := Ideal) v0 v1 v5 v8 v12 v19 v22 (ix2 r (0 : Fin 1))
      = Ideal.div (∑ k : Fin 128, k1_pay2 (F := Ideal) v0 v1 v5 v8 v12 v19 v22 (ix2 r k)) Cert.MlpSpec.c128 := by
  simp only [k1_pay3]
  exact rowmean_apply _ _ _ _ _ _ r

/-- The row mean of the squared deviations, kept as a column, at (r, 0). -/
theorem node1_pay4_apply (v0 v1 : Vec Ideal S4000x128 .f32) (v5 v8 : Vec Ideal S128x128 .bf16) (v12 : Vec Ideal S1x128 .f32)
    (v19 : Vec Ideal S128x128 .bf16) (v22 : Vec Ideal S1x128 .f32) (r : Fin 4000) :
    k1_pay4 (F := Ideal) v0 v1 v5 v8 v12 v19 v22 (ix2 r (0 : Fin 1))
      = Ideal.div (∑ k : Fin 128,
            (k1_pay2 (F := Ideal) v0 v1 v5 v8 v12 v19 v22 (ix2 r k) - k1_pay3 (F := Ideal) v0 v1 v5 v8 v12 v19 v22 (ix2 r (0 : Fin 1)))
          * (k1_pay2 (F := Ideal) v0 v1 v5 v8 v12 v19 v22 (ix2 r k) - k1_pay3 (F := Ideal) v0 v1 v5 v8 v12 v19 v22 (ix2 r (0 : Fin 1))))
          Cert.MlpSpec.c128 := by
  simp only [k1_pay4, Cert.MlpSpec.c128, Ideal.ofBits_def]
  rw [rowmean_apply]
  simp only [mulf_apply, subf_apply, Cert.LibKeepdims.col_bcast_apply]

/-- The row means repeated along the rows, at (r, j). -/
theorem node1_pay5_apply (v0 v1 : Vec Ideal S4000x128 .f32) (v5 v8 : Vec Ideal S128x128 .bf16) (v12 : Vec Ideal S1x128 .f32)
    (v19 : Vec Ideal S128x128 .bf16) (v22 : Vec Ideal S1x128 .f32) (r : Fin 4000) (j : Fin 128) :
    k1_pay5 (F := Ideal) v0 v1 v5 v8 v12 v19 v22 (ix2 r j) = k1_pay3 (F := Ideal) v0 v1 v5 v8 v12 v19 v22 (ix2 r (0 : Fin 1)) := by
  simp only [k1_pay5, Cert.LibKeepdims.col_bcast_apply]

/-- The LayerNorm tail and the residual at (r, j), over any tables in the place of the layer output, the variance column and
    the repeated means. -/
theorem node1_pay1_apply (x y : FVec Ideal S4000x128 .f32) (σ : FVec Ideal S4000x1 .f32) (μ : FVec Ideal S4000x128 .f32)
    (v44 v48 : Vec Ideal S1x128 .f32) (r : Fin 4000) (j : Fin 128) :
    k1_pay1 (F := Ideal) x y σ μ v44 v48 (ix2 r j)
      = ((y (ix2 r j) - μ (ix2 r j)) * Ideal.rsqrt (σ (ix2 r (0 : Fin 1)) + Cert.MlpSpec.eps)) * v44 (ix2 0 j) + v48 (ix2 0 j)
          + x (ix2 r j) := by
  simp only [k1_pay1, shapeCast_self, addf_apply, mulf_apply, subf_apply, rsqrt_apply, broadcast_apply,
    Cert.LibDense.row_apply, Cert.LibKeepdims.col_bcast_apply, Cert.MlpSpec.eps, Ideal.ofBits_def]

/-- Entry (r, j) of what the node body stores (blocks of 4000 rows) is the specification's node row function of the r-th rows. -/
theorem node1_pay_apply (v0 v1 : Vec Ideal S4000x128 .f32) (v5 v8 : Vec Ideal S128x128 .bf16) (v12 : Vec Ideal S1x128 .f32)
    (v19 : Vec Ideal S128x128 .bf16) (v22 v44 v48 : Vec Ideal S1x128 .f32) (r : Fin 4000) (j : Fin 128) :
    k1_pay1 (F := Ideal) v0 (k1_pay2 v0 v1 v5 v8 v12 v19 v22) (k1_pay4 v0 v1 v5 v8 v12 v19 v22) (k1_pay5 v0 v1 v5 v8 v12 v19 v22) v44 v48 (ix2 r j)
      = Cert.MlpSpec.nodeRow (fun k => v0 (ix2 r k)) (fun k => v1 (ix2 r k)) (fun k j => v5 (ix2 k j)) (fun k j => v8 (ix2 k j))
          (fun j => v12 (ix2 0 j)) (fun k j => v19 (ix2 k j)) (fun j => v22 (ix2 0 j)) (fun j => v44 (ix2 0 j)) (fun j => v48 (ix2 0 j)) j := by
  rw [node1_pay1_apply, node1_pay4_apply, node1_pay5_apply]
  simp only [node1_pay3_apply, node1_pay2_apply]
  rfl

/-! ## The node body on blocks of 5000 rows -/

/-- The second layer's output at (r, j). -/
theorem node2_pay2_apply (v0 v1 : Vec Ideal S5000x128 .f32) (v4 v7 : Vec Ideal S128x128 .bf16) (v11 : Vec Ideal S1x128 .f32)
    (v18 : Vec Ideal S128x128 .bf16) (v21 : Vec Ideal S1x128 .f32) (r : Fin 5000) (j : Fin 128) :
    k2_pay2 (F := Ideal) v0 v1 v4 v7 v11 v18 v21 (ix2 r j)
      = Cert.MlpSpec.lin (fun k => Cert.MlpSpec.silu (Cert.MlpSpec.nodeHidden (fun k => v0 (ix2 r k)) (fun k => v1 (ix2 r k))
          (fun k j => v4 (ix2 k j)) (fun k j => v7 (ix2 k j)) (fun j => v11 (ix2 0 j)) k))
          (fun k j => v18 (ix2 k j)) (fun j => v21 (ix2 0 j)) j := by
  simp only [k2_pay2, shapeCast_self, addf_apply, mulf_apply, truncf_apply, logistic_apply, mm5000_apply,
    Cert.LibDense.row_apply, Cert.MlpSpec.lin, Cert.MlpSpec.silu, Cert.MlpSpec.nodeHidden]

/-- The row mean of the second layer's output, kept as a column, at (r, 0). -/
theorem node2_pay3_apply (v0 v1 : Vec Ideal S5000x128 .f32) (v4 v7 : Vec Ideal S128x128 .bf16) (v11 : Vec Ideal S1x128 .f32)
    (v18 : Vec Ideal S128x128 .bf16) (v21 : Vec Ideal S1x128 .f32) (r : Fin 5000) :
    k2_pay3 (F := Ideal) v0 v1 v4 v7 v11 v18 v21 (ix2 r (0 : Fin 1))
      = Ideal.div (∑ k : Fin 128, k2_pay2 (F := Ideal) v0 v1 v4 v7 v11 v18 v21 (ix2 r k)) Cert.MlpSpec.c128 := by
  simp only [k2_pay3]
  exact rowmean_apply _ _ _ _ _ _ r

/-- The row mean of the squared deviations, kept as a column, at (r, 0). -/
theorem node2_pay4_apply (v0 v1 : Vec Ideal S5000x128 .f32) (v4 v7 : Vec Ideal S128x128 .bf16) (v11 : Vec Ideal S1x128 .f32)
    (v18 : Vec Ideal S128x128 .bf16) (v21 : Vec Ideal S1x128 .f32) (r : Fin 5000) :
    k2_pay4 (F := Ideal) v0 v1 v4 v7 v11 v18 v21 (ix2 r (0 : Fin 1))
      = Ideal.div (∑ k : Fin 128,
            (k2_pay2 (F := Ideal) v0 v1 v4 v7 v11 v18 v21 (ix2 r k) - k2_pay3 (F := Ideal) v0 v1 v4 v7 v11 v18 v21 (ix2 r (0 : Fin 1)))
          * (k2_pay2 (F := Ideal) v0 v1 v4 v7 v11 v18 v21 (ix2 r k) - k2_pay3 (F := Ideal) v0 v1 v4 v7 v11 v18 v21 (ix2 r (0 : Fin 1))))
          Cert.MlpSpec.c128 := by
  simp only [k2_pay4, Cert.MlpSpec.c128, Ideal.ofBits_def]
  rw [rowmean_apply]
  simp only [mulf_apply, subf_apply, Cert.LibKeepdims.col_bcast_apply]

/-- The deviations from the row means at (r, j). -/
theorem node2_pay5_apply (v0 v1 : Vec Ideal S5000x128 .f32) (v4 v7 : Vec Ideal S128x128 .bf16) (v11 : Vec Ideal S1x128 .f32)
    (v18 : Vec Ideal S128x128 .bf16) (v21 : Vec Ideal S1x128 .f32) (r : Fin 5000) (j : Fin 128) :
    k2_pay5 (F := Ideal) v0 v1 v4 v7 v11 v18 v21 (ix2 r j)
      = k2_pay2 (F := Ideal) v0 v1 v4 v7 v11 v18 v21 (ix2 r j) - k2_pay3 (F := Ideal) v0 v1 v4 v7 v11 v18 v21 (ix2 r (0 : Fin 1)) := by
  simp only [k2_pay5, subf_apply, Cert.LibKeepdims.col_bcast_apply]

/-- The LayerNorm tail and the residual at (r, j), over any tables in the place of the variance column and the deviations. -/
theorem node2_pay1_apply (x : FVec Ideal S5000x128 .f32) (σ : FVec Ideal S5000x1 .f32) (δ : FVec Ideal S5000x128 .f32)
    (v43 v47 : Vec Ideal S1x128 .f32) (r : Fin 5000) (j : Fin 128) :
    k2_pay1 (F := Ideal) x σ δ v43 v47 (ix2 r j)
      = (δ (ix2 r j) * Ideal.rsqrt (σ (ix2 r (0 : Fin 1)) + Cert.MlpSpec.eps)) * v43 (ix2 0 j) + v47 (ix2 0 j) + x (ix2 r j) := by
  simp only [k2_pay1, shapeCast_self, addf_apply, mulf_apply, rsqrt_apply, broadcast_apply,
    Cert.LibDense.row_apply, Cert.LibKeepdims.col_bcast_apply, Cert.MlpSpec.eps, Ideal.ofBits_def]

/-- Entry (r, j) of what the node body stores (blocks of 5000 rows) is the specification's node row function of the r-th rows. -/
theorem node2_pay_apply (v0 v1 : Vec Ideal S5000x128 .f32) (v4 v7 : Vec Ideal S128x128 .bf16) (v11 : Vec Ideal S1x128 .f32)
    (v18 : Vec Ideal S128x128 .bf16) (v21 v43 v47 : Vec Ideal S1x128 .f32) (r : Fin 5000) (j : Fin 128) :
    k2_pay1 (F := Ideal) v0 (k2_pay4 v0 v1 v4 v7 v11 v18 v21) (k2_pay5 v0 v1 v4 v7 v11 v18 v21) v43 v47 (ix2 r j)
      = Cert.MlpSpec.nodeRow (fun k => v0 (ix2 r k)) (fun k => v1 (ix2 r k)) (fun k j => v4 (ix2 k j)) (fun k j => v7 (ix2 k j))
          (fun j => v11 (ix2 0 j)) (fun k j => v18 (ix2 k j)) (fun j => v21 (ix2 0 j)) (fun j => v43 (ix2 0 j)) (fun j => v47 (ix2 0 j)) j := by
  rw [node2_pay1_apply, node2_pay4_apply, node2_pay5_apply]
  simp only [node2_pay3_apply, node2_pay2_apply]
  rfl

end Cert.KernelIdeal.Rows

end
-- ==== Proof.Final0.lean ====
/-
  Kernel region 0 (the edge MLP's call), from blocks to the array.

  The output array has 500000 rows of 128 entries; grid point t writes back rows 5000·t … 5000·t + 4999. What the body
  leaves in the output block at point t is, entry by entry, the edge MLP of the matching rows of the three row arrays
  (their blocks at point t are the same rows) with the parameter arrays (whose blocks are the whole arrays at every
  point). So every point writes back its block of ONE function of the arrays, the blocks cover the array, and the
  array after the run is that function: entry (e, j) is the edge MLP of row e, column j.
-/
import proofs.«117479_j34084860461562_2_alg».proof.Proof.Region0
import proofs.«117479_j34084860461562_2_alg».proof.Proof.MlpSpec
import proofs.«117479_j34084860461562_2_alg».proof.Proof.KerRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.MlpSpec (edgeRow)

section Final0
variable (V : (c : Dev nD) → (b : Ref sig .tc) → Buf (Elt Ideal) ((c : Thread nD τ).loc b))

theorem zeros2 : (![0, 0] : Fin 2 → Nat) = fun _ => 0 := funext fun a => by fin_cases a <;> rfl

/-- The edge MLP over whole arrays: entry (e, j) is row e of the three row arrays through the MLP, column j. -/
def edgeArr (a0 a1 : Vec Ideal S500000x128 .bf16) (a2 : Vec Ideal S500000x128 .f32) (a3 a4 a5 : Vec Ideal S128x128 .bf16) (a6 : Vec Ideal S1x128 .f32) (a7 : Vec Ideal S128x128 .bf16) (a8 a9 a10 : Vec Ideal S1x128 .f32) : Vec Ideal S500000x128 .f32 := fun i =>
  edgeRow (fun k => a0 (ix2 (i 0 : Fin 500000) k))
      (fun k => a1 (ix2 (i 0 : Fin 500000) k))
      (fun k => a2 (ix2 (i 0 : Fin 500000) k))
      (fun k j => a3 (ix2 k j))
      (fun k j => a4 (ix2 k j))
      (fun k j => a5 (ix2 k j))
      (fun j => a6 (ix2 0 j))
      (fun k j => a7 (ix2 k j))
      (fun j => a8 (ix2 0 j))
      (fun j => a9 (ix2 0 j))
      (fun j => a10 (ix2 0 j)) (i 1 : Fin 128)

/-- Read at an index given by its row and column. -/
theorem edgeArr_apply (a0 a1 : Vec Ideal S500000x128 .bf16) (a2 : Vec Ideal S500000x128 .f32) (a3 a4 a5 : Vec Ideal S128x128 .bf16) (a6 : Vec Ideal S1x128 .f32) (a7 : Vec Ideal S128x128 .bf16) (a8 a9 a10 : Vec Ideal S1x128 .f32) (i : S500000x128.Idx) (e : Fin 500000) (j : Fin 128)
    (h0 : (i 0).val = e.val) (h1 : (i 1).val = j.val) :
    edgeArr a0 a1 a2 a3 a4 a5 a6 a7 a8 a9 a10 i
      = edgeRow (fun k => a0 (ix2 e k))
      (fun k => a1 (ix2 e k))
      (fun k => a2 (ix2 e k))
      (fun k j => a3 (ix2 k j))
      (fun k j => a4 (ix2 k j))
      (fun k j => a5 (ix2 k j))
      (fun j => a6 (ix2 0 j))
      (fun k j => a7 (ix2 k j))
      (fun j => a8 (ix2 0 j))
      (fun j => a9 (ix2 0 j))
      (fun j => a10 (ix2 0 j)) j := by
  have hi : i = ix2 e j := by
    funext a
    match a with
    | ⟨0, _⟩ => exact Fin.ext h0
    | ⟨1, _⟩ => exact Fin.ext h1
  subst hi
  rfl

/-! ## Where the blocks sit -/

/-- The three row windows and the output window move down the rows with the grid point, one block of 5000 rows per
    point, and stay at column block 0 (decided over the 100 points). -/
theorem index_rows0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0) :=
  (by decide +kernel : ∀ t : Fin grid0.N, _)

/-- The eight parameter windows stay at block (0, 0) (decided over the 100 points). -/
theorem index_params0 : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Row r of window 0's block at point t is row 5000·t + r of its array. -/
theorem iblk0_0_apply (c : Dev nD) (t : Fin cfg0.N) (r : Fin 5000) (k : Fin 128) (e : Fin 500000) (he : e.val = 5000 * t.val + r.val) :
    (iblk0 V c 0 t : Vec Ideal S5000x128 .bf16) (ix2 r k) = (V c main_v12 : Vec Ideal S500000x128 .bf16) (ix2 e k) := by
  have hi := (index_rows0 t).1
  unfold iblk0
  rw [View.read_apply]
  show V c main_v12 _ = V c main_v12 _
  congr 1
  funext a
  apply Fin.ext
  match a with
  | ⟨0, _⟩ => show win0_0.index t (0 : Fin 2) * 5000 + 1 * r.val = e.val; rw [hi.1, he]; omega
  | ⟨1, _⟩ => show win0_0.index t (1 : Fin 2) * 128 + 1 * k.val = k.val; rw [hi.2]; omega

/-- Row r of window 1's block at point t is row 5000·t + r of its array. -/
theorem iblk0_1_apply (c : Dev nD) (t : Fin cfg0.N) (r : Fin 5000) (k : Fin 128) (e : Fin 500000) (he : e.val = 5000 * t.val + r.val) :
    (iblk0 V c 1 t : Vec Ideal S5000x128 .bf16) (ix2 r k) = (V c main_v19 : Vec Ideal S500000x128 .bf16) (ix2 e k) := by
  have hi := ((index_rows0 t).2).1
  unfold iblk0
  rw [View.read_apply]
  show V c main_v19 _ = V c main_v19 _
  congr 1
  funext a
  apply Fin.ext
  match a with
  | ⟨0, _⟩ => show win0_1.index t (0 : Fin 2) * 5000 + 1 * r.val = e.val; rw [hi.1, he]; omega
  | ⟨1, _⟩ => show win0_1.index t (1 : Fin 2) * 128 + 1 * k.val = k.val; rw [hi.2]; omega

/-- Row r of window 2's block at point t is row 5000·t + r of its array. -/
theorem iblk0_2_apply (c : Dev nD) (t : Fin cfg0.N) (r : Fin 5000) (k : Fin 128) (e : Fin 500000) (he : e.val = 5000 * t.val + r.val) :
    (iblk0 V c 2 t : Vec Ideal S5000x128 .f32) (ix2 r k) = (V c main_arg2 : Vec Ideal S500000x128 .f32) (ix2 e k) := by
  have hi := (((index_rows0 t).2).2).1
  unfold iblk0
  rw [View.read_apply]
  show V c main_arg2 _ = V c main_arg2 _
  congr 1
  funext a
  apply Fin.ext
  match a with
  | ⟨0, _⟩ => show win0_2.index t (0 : Fin 2) * 5000 + 1 * r.val = e.val; rw [hi.1, he]; omega
  | ⟨1, _⟩ => show win0_2.index t (1 : Fin 2) * 128 + 1 * k.val = k.val; rw [hi.2]; omega

/-- Window 3's block is its whole array at every point. -/
theorem iblk0_3_eq (c : Dev nD) (t : Fin cfg0.N) :
    (iblk0 V c 3 t : Vec Ideal S128x128 .bf16) = (V c main_v21 : Vec Ideal S128x128 .bf16) := by
  have hi := (index_params0 t).1
  funext y
  unfold iblk0
  rw [View.read_apply]
  show V c main_v21 _ = V c main_v21 y
  congr 1
  funext a
  apply Fin.ext
  match a with
  | ⟨0, _⟩ => show win0_3.index t (0 : Fin 2) * 128 + 1 * (y 0).val = (y 0).val; rw [hi.1]; omega
  | ⟨1, _⟩ => show win0_3.index t (1 : Fin 2) * 128 + 1 * (y 1).val = (y 1).val; rw [hi.2]; omega

/-- Window 4's block is its whole array at every point. -/
theorem iblk0_4_eq (c : Dev nD) (t : Fin cfg0.N) :
    (iblk0 V c 4 t : Vec Ideal S128x128 .bf16) = (V c main_v23 : Vec Ideal S128x128 .bf16) := by
  have hi := ((index_params0 t).2).1
  funext y
  unfold iblk0
  rw [View.read_apply]
  show V c main_v23 _ = V c main_v23 y
  congr 1
  funext a
  apply Fin.ext
  match a with
  | ⟨0, _⟩ => show win0_4.index t (0 : Fin 2) * 128 + 1 * (y 0).val = (y 0).val; rw [hi.1]; omega
  | ⟨1, _⟩ => show win0_4.index t (1 : Fin 2) * 128 + 1 * (y 1).val = (y 1).val; rw [hi.2]; omega

/-- Window 5's block is its whole array at every point. -/
theorem iblk0_5_eq (c : Dev nD) (t : Fin cfg0.N) :
    (iblk0 V c 5 t : Vec Ideal S128x128 .bf16) = (V c main_v25 : Vec Ideal S128x128 .bf16) := by
  have hi := (((index_params0 t).2).2).1
  funext y
  unfold iblk0
  rw [View.read_apply]
  show V c main_v25 _ = V c main_v25 y
  congr 1
  funext a
  apply Fin.ext
  match a with
  | ⟨0, _⟩ => show win0_5.index t (0 : Fin 2) * 128 + 1 * (y 0).val = (y 0).val; rw [hi.1]; omega
  | ⟨1, _⟩ => show win0_5.index t (1 : Fin 2) * 128 + 1 * (y 1).val = (y 1).val; rw [hi.2]; omega

/-- Window 6's block is its whole array at every point. -/
theorem iblk0_6_eq (c : Dev nD) (t : Fin cfg0.N) :
    (iblk0 V c 6 t : Vec Ideal S1x128 .f32) = (V c main_v27 : Vec Ideal S1x128 .f32) := by
  have hi := ((((index_params0 t).2).2).2).1
  funext y
  unfold iblk0
  rw [View.read_apply]
  show V c main_v27 _ = V c main_v27 y
  congr 1
  funext a
  apply Fin.ext
  match a with
  | ⟨0, _⟩ => show win0_6.index t (0 : Fin 2) * 1 + 1 * (y 0).val = (y 0).val; rw [hi.1]; omega
  | ⟨1, _⟩ => show win0_6.index t (1 : Fin 2) * 128 + 1 * (y 1).val = (y 1).val; rw [hi.2]; omega

/-- Window 7's block is its whole array at every point. -/
theorem iblk0_7_eq (c : Dev nD) (t : Fin cfg0.N) :
    (iblk0 V c 7 t : Vec Ideal S128x128 .bf16) = (V c main_v26 : Vec Ideal S128x128 .bf16) := by
  have hi := (((((index_params0 t).2).2).2).2).1
  funext y
  unfold iblk0
  rw [View.read_apply]
  show V c main_v26 _ = V c main_v26 y
  congr 1
  funext a
  apply Fin.ext
  match a with
  | ⟨0, _⟩ => show win0_7.index t (0 : Fin 2) * 128 + 1 * (y 0).val = (y 0).val; rw [hi.1]; omega
  | ⟨1, _⟩ => show win0_7.index t (1 : Fin 2) * 128 + 1 * (y 1).val = (y 1).val; rw [hi.2]; omega

/-- Window 8's block is its whole array at every point. -/
theorem iblk0_8_eq (c : Dev nD) (t : Fin cfg0.N) :
    (iblk0 V c 8 t : Vec Ideal S1x128 .f32) = (V c main_v28 : Vec Ideal S1x128 .f32) := by
  have hi := ((((((index_params0 t).2).2).2).2).2).1
  funext y
  unfold iblk0
  rw [View.read_apply]
  show V c main_v28 _ = V c main_v28 y
  congr 1
  funext a
  apply Fin.ext
  match a with
  | ⟨0, _⟩ => show win0_8.index t (0 : Fin 2) * 1 + 1 * (y 0).val = (y 0).val; rw [hi.1]; omega
  | ⟨1, _⟩ => show win0_8.index t (1 : Fin 2) * 128 + 1 * (y 1).val = (y 1).val; rw [hi.2]; omega

/-- Window 9's block is its whole array at every point. -/
theorem iblk0_9_eq (c : Dev nD) (t : Fin cfg0.N) :
    (iblk0 V c 9 t : Vec Ideal S1x128 .f32) = (V c main_v29 : Vec Ideal S1x128 .f32) := by
  have hi := (((((((index_params0 t).2).2).2).2).2).2).1
  funext y
  unfold iblk0
  rw [View.read_apply]
  show V c main_v29 _ = V c main_v29 y
  congr 1
  funext a
  apply Fin.ext
  match a with
  | ⟨0, _⟩ => show win0_9.index t (0 : Fin 2) * 1 + 1 * (y 0).val = (y 0).val; rw [hi.1]; omega
  | ⟨1, _⟩ => show win0_9.index t (1 : Fin 2) * 128 + 1 * (y 1).val = (y 1).val; rw [hi.2]; omega

/-- Window 10's block is its whole array at every point. -/
theorem iblk0_10_eq (c : Dev nD) (t : Fin cfg0.N) :
    (iblk0 V c 10 t : Vec Ideal S1x128 .f32) = (V c main_v30 : Vec Ideal S1x128 .f32) := by
  have hi := (((((((index_params0 t).2).2).2).2).2).2).2
  funext y
  unfold iblk0
  rw [View.read_apply]
  show V c main_v30 _ = V c main_v30 y
  congr 1
  funext a
  apply Fin.ext
  match a with
  | ⟨0, _⟩ => show win0_10.index t (0 : Fin 2) * 1 + 1 * (y 0).val = (y 0).val; rw [hi.1]; omega
  | ⟨1, _⟩ => show win0_10.index t (1 : Fin 2) * 128 + 1 * (y 1).val = (y 1).val; rw [hi.2]; omega

/-! ## One point's block -/

/-- What the body stores at a point whose row blocks are rows 5000·T … of the arrays and whose parameter blocks are the
    parameter arrays: at block row r and column j, the edge MLP of array row e = 5000·T + r, column j. -/
theorem point0_eq (x0 x1 : Vec Ideal S5000x128 .bf16) (x2 : Vec Ideal S5000x128 .f32) (x3 x4 x5 : Vec Ideal S128x128 .bf16) (x6 : Vec Ideal S1x128 .f32) (x7 : Vec Ideal S128x128 .bf16) (x8 x9 x10 : Vec Ideal S1x128 .f32)
    (a0 a1 : Vec Ideal S500000x128 .bf16) (a2 : Vec Ideal S500000x128 .f32) (a3 a4 a5 : Vec Ideal S128x128 .bf16) (a6 : Vec Ideal S1x128 .f32) (a7 : Vec Ideal S128x128 .bf16) (a8 a9 a10 : Vec Ideal S1x128 .f32)
    (T : Nat)
    (h0 : ∀ (r : Fin 5000) (k : Fin 128) (e : Fin 500000), e.val = 5000 * T + r.val → x0 (ix2 r k) = a0 (ix2 e k))
    (h1 : ∀ (r : Fin 5000) (k : Fin 128) (e : Fin 500000), e.val = 5000 * T + r.val → x1 (ix2 r k) = a1 (ix2 e k))
    (h2 : ∀ (r : Fin 5000) (k : Fin 128) (e : Fin 500000), e.val = 5000 * T + r.val → x2 (ix2 r k) = a2 (ix2 e k))
    (h3 : x3 = a3) (h4 : x4 = a4) (h5 : x5 = a5) (h6 : x6 = a6) (h7 : x7 = a7) (h8 : x8 = a8) (h9 : x9 = a9) (h10 : x10 = a10)
    (r : Fin 5000) (j : Fin 128) (e : Fin 500000) (he : e.val = 5000 * T + r.val) :
    k0_pay1 (F := Ideal) (k0_pay2 x0 x1 x2 x3 x4 x5 x6 x7 x8) (k0_pay3 x0 x1 x2 x3 x4 x5 x6 x7 x8) x9 x10 (ix2 r j)
      = edgeRow (fun k => a0 (ix2 e k))
      (fun k => a1 (ix2 e k))
      (fun k => a2 (ix2 e k))
      (fun k j => a3 (ix2 k j))
      (fun k j => a4 (ix2 k j))
      (fun k j => a5 (ix2 k j))
      (fun j => a6 (ix2 0 j))
      (fun k j => a7 (ix2 k j))
      (fun j => a8 (ix2 0 j))
      (fun j => a9 (ix2 0 j))
      (fun j => a10 (ix2 0 j)) j := by
  refine (Cert.KernelIdeal.Rows.edge_pay_apply x0 x1 x2 x3 x4 x5 x6 x7 x8 x9 x10 r j).trans ?_
  subst h3 h4 h5 h6 h7 h8 h9 h10
  have r0 : (fun k => x0 (ix2 r k)) = fun k => a0 (ix2 e k) := funext fun k => h0 r k e he
  have r1 : (fun k => x1 (ix2 r k)) = fun k => a1 (ix2 e k) := funext fun k => h1 r k e he
  have r2 : (fun k => x2 (ix2 r k)) = fun k => a2 (ix2 e k) := funext fun k => h2 r k e he
  rw [r0, r1, r2]

/-! ## What each point writes back, and the array after the run -/

/-- Point t writes back block t of the edge MLP of the arrays as the region finds them. -/
theorem flushed0_11_eq (c : Dev nD) (t : Fin cfg0.N) :
    (dat0 (F := Ideal) V c).flushed 11 t
      = ((cfg0.win 11).blk t).view.read (Elt Ideal) (edgeArr (V c main_v12 : Vec Ideal S500000x128 .bf16) (V c main_v19 : Vec Ideal S500000x128 .bf16) (V c main_arg2 : Vec Ideal S500000x128 .f32) (V c main_v21 : Vec Ideal S128x128 .bf16) (V c main_v23 : Vec Ideal S128x128 .bf16) (V c main_v25 : Vec Ideal S128x128 .bf16) (V c main_v27 : Vec Ideal S1x128 .f32) (V c main_v26 : Vec Ideal S128x128 .bf16) (V c main_v28 : Vec Ideal S1x128 .f32) (V c main_v29 : Vec Ideal S1x128 .f32) (V c main_v30 : Vec Ideal S1x128 .f32)) := by
  have hN : cfg0.N = 100 := N_0
  have ht : t.val < 100 := hN ▸ t.isLt
  have hi := (((index_rows0 t).2).2).2
  show (cfg0.win 11).cut (grid0.coords t) ((dat0 V c).after 11 t) = _
  rw [after0_11]
  unfold out0_11
  rw [View.canon_unit_zero zeros2]
  simp only [View.ld_unit_zero (S := S5000x128) zeros2, View.ld_unit_zero (S := S128x128) zeros2, View.ld_unit_zero (S := S1x128) zeros2]
  funext y
  obtain ⟨r, j, rfl⟩ : ∃ (r : Fin 5000) (j : Fin 128), y = ix2 r j := ⟨y 0, y 1, eq_ix2 y⟩
  have hr : r.val < 5000 := r.isLt
  refine (point0_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v12 : Vec Ideal S500000x128 .bf16) (V c main_v19 : Vec Ideal S500000x128 .bf16) (V c main_arg2 : Vec Ideal S500000x128 .f32) (V c main_v21 : Vec Ideal S128x128 .bf16) (V c main_v23 : Vec Ideal S128x128 .bf16) (V c main_v25 : Vec Ideal S128x128 .bf16) (V c main_v27 : Vec Ideal S1x128 .f32) (V c main_v26 : Vec Ideal S128x128 .bf16) (V c main_v28 : Vec Ideal S1x128 .f32) (V c main_v29 : Vec Ideal S1x128 .f32) (V c main_v30 : Vec Ideal S1x128 .f32) t.val
    (fun r k e he => iblk0_0_apply V c t r k e he) (fun r k e he => iblk0_1_apply V c t r k e he) (fun r k e he => iblk0_2_apply V c t r k e he)
    (iblk0_3_eq V c t) (iblk0_4_eq V c t) (iblk0_5_eq V c t) (iblk0_6_eq V c t) (iblk0_7_eq V c t) (iblk0_8_eq V c t) (iblk0_9_eq V c t) (iblk0_10_eq V c t)
    r j ⟨5000 * t.val + r.val, by omega⟩ rfl).trans ?_
  symm
  refine edgeArr_apply _ _ _ _ _ _ _ _ _ _ _ (((cfg0.win 11).blk t).view.emb (ix2 r j)) ⟨5000 * t.val + r.val, by omega⟩ j ?_ ?_
  · show win0_11.index t (0 : Fin 2) * 5000 + 1 * r.val = 5000 * t.val + r.val
    rw [hi.1]; omega
  · show win0_11.index t (1 : Fin 2) * 128 + 1 * j.val = j.val
    rw [hi.2]; omega

/-- An index of the array is in point t's block iff each coordinate is in the block's range on its axis. -/
theorem mem_blk0_11 (t : Fin cfg0.N) (i : S500000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v31).slice (win0_11.rect t)).set ↔ _
  rw [View.set_slice_whole, Rect.mem_set_unit]
  exact Iff.rfl

/-- Every index of the array is in some point's block: row e is in the block of point e / 5000. -/
theorem cover0_arr (i : S500000x128.Idx) :
    ∃ t : Fin cfg0.N, (cfg0.win 11).flush t = true ∧ i ∈ ((cfg0.win 11).blk t).view.set := by
  have hN : cfg0.N = 100 := N_0
  have hi0 : (i 0).val < 500000 := (i 0).isLt
  have hi1 : (i 1).val < 128 := (i 1).isLt
  have hq : (i 0).val / 5000 < cfg0.N := by rw [hN]; omega
  refine ⟨⟨(i 0).val / 5000, hq⟩, flush0_11 _, ?_⟩
  rw [mem_blk0_11]
  have hi := (((index_rows0 ⟨(i 0).val / 5000, hq⟩).2).2).2
  intro a
  match a with
  | ⟨0, _⟩ =>
    show win0_11.index ⟨(i 0).val / 5000, hq⟩ (0 : Fin 2) * 5000 ≤ (i 0).val ∧ (i 0).val < win0_11.index ⟨(i 0).val / 5000, hq⟩ (0 : Fin 2) * 5000 + 5000
    rw [hi.1]; show (i 0).val / 5000 * 5000 ≤ (i 0).val ∧ (i 0).val < (i 0).val / 5000 * 5000 + 5000; omega
  | ⟨1, _⟩ =>
    show win0_11.index ⟨(i 0).val / 5000, hq⟩ (1 : Fin 2) * 128 ≤ (i 1).val ∧ (i 1).val < win0_11.index ⟨(i 0).val / 5000, hq⟩ (1 : Fin 2) * 128 + 128
    rw [hi.2]; omega

/-- The output array after the region's run is the edge MLP of the arrays as the region finds them. -/
theorem arr0_11 (c : Dev nD) :
    (dat0 (F := Ideal) V c).arrAt 11 cfg0.N = edgeArr (V c main_v12 : Vec Ideal S500000x128 .bf16) (V c main_v19 : Vec Ideal S500000x128 .bf16) (V c main_arg2 : Vec Ideal S500000x128 .f32) (V c main_v21 : Vec Ideal S128x128 .bf16) (V c main_v23 : Vec Ideal S128x128 .bf16) (V c main_v25 : Vec Ideal S128x128 .bf16) (V c main_v27 : Vec Ideal S1x128 .f32) (V c main_v26 : Vec Ideal S128x128 .bf16) (V c main_v28 : Vec Ideal S1x128 .f32) (V c main_v29 : Vec Ideal S1x128 .f32) (V c main_v30 : Vec Ideal S1x128 .f32) :=
  (dat0 (F := Ideal) V c).arrAt_eq_of_cover 11 (edgeArr (V c main_v12 : Vec Ideal S500000x128 .bf16) (V c main_v19 : Vec Ideal S500000x128 .bf16) (V c main_arg2 : Vec Ideal S500000x128 .f32) (V c main_v21 : Vec Ideal S128x128 .bf16) (V c main_v23 : Vec Ideal S128x128 .bf16) (V c main_v25 : Vec Ideal S128x128 .bf16) (V c main_v27 : Vec Ideal S1x128 .f32) (V c main_v26 : Vec Ideal S128x128 .bf16) (V c main_v28 : Vec Ideal S1x128 .f32) (V c main_v29 : Vec Ideal S1x128 .f32) (V c main_v30 : Vec Ideal S1x128 .f32)) (fun t _ => flushed0_11_eq V c t) cover0_arr

/-- Entry (e, j) of the output array after the region's run: the edge MLP of row e of the three row arrays, column j. -/
theorem final0 (c : Dev nD) (e : Fin 500000) (j : Fin 128) :
    (dat0 (F := Ideal) V c).arrAt 11 cfg0.N (ix2 e j)
      = edgeRow (fun k => V c main_v12 (ix2 e k))
      (fun k => V c main_v19 (ix2 e k))
      (fun k => V c main_arg2 (ix2 e k))
      (fun k j => V c main_v21 (ix2 k j))
      (fun k j => V c main_v23 (ix2 k j))
      (fun k j => V c main_v25 (ix2 k j))
      (fun j => V c main_v27 (ix2 0 j))
      (fun k j => V c main_v26 (ix2 k j))
      (fun j => V c main_v28 (ix2 0 j))
      (fun j => V c main_v29 (ix2 0 j))
      (fun j => V c main_v30 (ix2 0 j)) j := by
  rw [arr0_11 V c]
  exact edgeArr_apply _ _ _ _ _ _ _ _ _ _ _ (ix2 e j) e j rfl rfl

end Final0
end Cert.KernelIdeal.Hand
end
-- ==== Proof.Final1.lean ====
/-
  Kernel region 1 (a node MLP's call on blocks of 4000 rows), from blocks to the array.

  The output array has 40000 rows of 128 entries; grid point t writes back rows 4000·t … 4000·t + 3999. What the body
  leaves in the output block at point t is, entry by entry, the node MLP (with its residual) of the matching rows of
  the two row arrays (their blocks at point t are the same rows) with the parameter arrays (whose blocks are the whole
  arrays at every point). So every point writes back its block of ONE function of the arrays, the blocks cover the
  array, and the array after the run is that function: entry (r, j) is the node MLP of row r, column j.
-/
import proofs.«117479_j34084860461562_2_alg».proof.Proof.Region1
import proofs.«117479_j34084860461562_2_alg».proof.Proof.MlpSpec
import proofs.«117479_j34084860461562_2_alg».proof.Proof.KerRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.MlpSpec (nodeRow)

section Final1
variable (V : (c : Dev nD) → (b : Ref sig .tc) → Buf (Elt Ideal) ((c : Thread nD τ).loc b))

theorem zeros2_1 : (![0, 0] : Fin 2 → Nat) = fun _ => 0 := funext fun a => by fin_cases a <;> rfl

/-- The node MLP over whole arrays: entry (r, j) is row r of the two row arrays through the MLP, plus the residual, column j. -/
def nodeArr1 (a0 a1 : Vec Ideal S40000x128 .f32) (a2 a3 : Vec Ideal S128x128 .bf16) (a4 : Vec Ideal S1x128 .f32) (a5 : Vec Ideal S128x128 .bf16) (a6 a7 a8 : Vec Ideal S1x128 .f32) : Vec Ideal S40000x128 .f32 := fun i =>
  nodeRow (fun k => a0 (ix2 (i 0 : Fin 40000) k)) (fun k => a1 (ix2 (i 0 : Fin 40000) k)) (fun k j => a2 (ix2 k j)) (fun k j => a3 (ix2 k j))
      (fun j => a4 (ix2 0 j)) (fun k j => a5 (ix2 k j)) (fun j => a6 (ix2 0 j)) (fun j => a7 (ix2 0 j)) (fun j => a8 (ix2 0 j)) (i 1 : Fin 128)

/-- Read at an index given by its row and column. -/
theorem nodeArr1_apply (a0 a1 : Vec Ideal S40000x128 .f32) (a2 a3 : Vec Ideal S128x128 .bf16) (a4 : Vec Ideal S1x128 .f32) (a5 : Vec Ideal S128x128 .bf16) (a6 a7 a8 : Vec Ideal S1x128 .f32) (i : S40000x128.Idx) (e : Fin 40000) (j : Fin 128)
    (h0 : (i 0).val = e.val) (h1 : (i 1).val = j.val) :
    nodeArr1 a0 a1 a2 a3 a4 a5 a6 a7 a8 i
      = nodeRow (fun k => a0 (ix2 e k)) (fun k => a1 (ix2 e k)) (fun k j => a2 (ix2 k j)) (fun k j => a3 (ix2 k j))
      (fun j => a4 (ix2 0 j)) (fun k j => a5 (ix2 k j)) (fun j => a6 (ix2 0 j)) (fun j => a7 (ix2 0 j)) (fun j => a8 (ix2 0 j)) j := by
  have hi : i = ix2 e j := by
    funext a
    match a with
    | ⟨0, _⟩ => exact Fin.ext h0
    | ⟨1, _⟩ => exact Fin.ext h1
  subst hi
  rfl

/-! ## Where the blocks sit -/

/-- The two row windows and the output window move down the rows with the grid point, one block of 4000 rows per
    point, and stay at column block 0 (decided over the 10 points). -/
theorem index_rows1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_9.index t (0 : Fin 2) = t.val ∧ win1_9.index t (1 : Fin 2) = 0) :=
  (by decide +kernel : ∀ t : Fin grid1.N, _)

/-- The seven parameter windows stay at block (0, 0) (decided over the 10 points). -/
theorem index_params1 : ∀ t : Fin cfg1.N, (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Row r of window 0's block at point t is row 4000·t + r of its array. -/
theorem iblk1_0_apply (c : Dev nD) (t : Fin cfg1.N) (r : Fin 4000) (k : Fin 128) (e : Fin 40000) (he : e.val = 4000 * t.val + r.val) :
    (iblk1 V c 0 t : Vec Ideal S4000x128 .f32) (ix2 r k) = (V c main_arg1 : Vec Ideal S40000x128 .f32) (ix2 e k) := by
  have hi := (index_rows1 t).1
  unfold iblk1
  rw [View.read_apply]
  show V c main_arg1 _ = V c main_arg1 _
  congr 1
  funext a
  apply Fin.ext
  match a with
  | ⟨0, _⟩ => show win1_0.index t (0 : Fin 2) * 4000 + 1 * r.val = e.val; rw [hi.1, he]; omega
  | ⟨1, _⟩ => show win1_0.index t (1 : Fin 2) * 128 + 1 * k.val = k.val; rw [hi.2]; omega

/-- Row r of window 1's block at point t is row 4000·t + r of its array. -/
theorem iblk1_1_apply (c : Dev nD) (t : Fin cfg1.N) (r : Fin 4000) (k : Fin 128) (e : Fin 40000) (he : e.val = 4000 * t.val + r.val) :
    (iblk1 V c 1 t : Vec Ideal S4000x128 .f32) (ix2 r k) = (V c main_v34 : Vec Ideal S40000x128 .f32) (ix2 e k) := by
  have hi := ((index_rows1 t).2).1
  unfold iblk1
  rw [View.read_apply]
  show V c main_v34 _ = V c main_v34 _
  congr 1
  funext a
  apply Fin.ext
  match a with
  | ⟨0, _⟩ => show win1_1.index t (0 : Fin 2) * 4000 + 1 * r.val = e.val; rw [hi.1, he]; omega
  | ⟨1, _⟩ => show win1_1.index t (1 : Fin 2) * 128 + 1 * k.val = k.val; rw [hi.2]; omega

/-- Window 2's block is its whole array at every point. -/
theorem iblk1_2_eq (c : Dev nD) (t : Fin cfg1.N) :
    (iblk1 V c 2 t : Vec Ideal S128x128 .bf16) = (V c main_v36 : Vec Ideal S128x128 .bf16) := by
  have hi := (index_params1 t).1
  funext y
  unfold iblk1
  rw [View.read_apply]
  show V c main_v36 _ = V c main_v36 y
  congr 1
  funext a
  apply Fin.ext
  match a with
  | ⟨0, _⟩ => show win1_2.index t (0 : Fin 2) * 128 + 1 * (y 0).val = (y 0).val; rw [hi.1]; omega
  | ⟨1, _⟩ => show win1_2.index t (1 : Fin 2) * 128 + 1 * (y 1).val = (y 1).val; rw [hi.2]; omega

/-- Window 3's block is its whole array at every point. -/
theorem iblk1_3_eq (c : Dev nD) (t : Fin cfg1.N) :
    (iblk1 V c 3 t : Vec Ideal S128x128 .bf16) = (V c main_v38 : Vec Ideal S128x128 .bf16) := by
  have hi := ((index_params1 t).2).1
  funext y
  unfold iblk1
  rw [View.read_apply]
  show V c main_v38 _ = V c main_v38 y
  congr 1
  funext a
  apply Fin.ext
  match a with
  | ⟨0, _⟩ => show win1_3.index t (0 : Fin 2) * 128 + 1 * (y 0).val = (y 0).val; rw [hi.1]; omega
  | ⟨1, _⟩ => show win1_3.index t (1 : Fin 2) * 128 + 1 * (y 1).val = (y 1).val; rw [hi.2]; omega

/-- Window 4's block is its whole array at every point. -/
theorem iblk1_4_eq (c : Dev nD) (t : Fin cfg1.N) :
    (iblk1 V c 4 t : Vec Ideal S1x128 .f32) = (V c main_v40 : Vec Ideal S1x128 .f32) := by
  have hi := (((index_params1 t).2).2).1
  funext y
  unfold iblk1
  rw [View.read_apply]
  show V c main_v40 _ = V c main_v40 y
  congr 1
  funext a
  apply Fin.ext
  match a with
  | ⟨0, _⟩ => show win1_4.index t (0 : Fin 2) * 1 + 1 * (y 0).val = (y 0).val; rw [hi.1]; omega
  | ⟨1, _⟩ => show win1_4.index t (1 : Fin 2) * 128 + 1 * (y 1).val = (y 1).val; rw [hi.2]; omega

/-- Window 5's block is its whole array at every point. -/
theorem iblk1_5_eq (c : Dev nD) (t : Fin cfg1.N) :
    (iblk1 V c 5 t : Vec Ideal S128x128 .bf16) = (V c main_v39 : Vec Ideal S128x128 .bf16) := by
  have hi := ((((index_params1 t).2).2).2).1
  funext y
  unfold iblk1
  rw [View.read_apply]
  show V c main_v39 _ = V c main_v39 y
  congr 1
  funext a
  apply Fin.ext
  match a with
  | ⟨0, _⟩ => show win1_5.index t (0 : Fin 2) * 128 + 1 * (y 0).val = (y 0).val; rw [hi.1]; omega
  | ⟨1, _⟩ => show win1_5.index t (1 : Fin 2) * 128 + 1 * (y 1).val = (y 1).val; rw [hi.2]; omega

/-- Window 6's block is its whole array at every point. -/
theorem iblk1_6_eq (c : Dev nD) (t : Fin cfg1.N) :
    (iblk1 V c 6 t : Vec Ideal S1x128 .f32) = (V c main_v41 : Vec Ideal S1x128 .f32) := by
  have hi := (((((index_params1 t).2).2).2).2).1
  funext y
  unfold iblk1
  rw [View.read_apply]
  show V c main_v41 _ = V c main_v41 y
  congr 1
  funext a
  apply Fin.ext
  match a with
  | ⟨0, _⟩ => show win1_6.index t (0 : Fin 2) * 1 + 1 * (y 0).val = (y 0).val; rw [hi.1]; omega
  | ⟨1, _⟩ => show win1_6.index t (1 : Fin 2) * 128 + 1 * (y 1).val = (y 1).val; rw [hi.2]; omega

/-- Window 7's block is its whole array at every point. -/
theorem iblk1_7_eq (c : Dev nD) (t : Fin cfg1.N) :
    (iblk1 V c 7 t : Vec Ideal S1x128 .f32) = (V c main_v42 : Vec Ideal S1x128 .f32) := by
  have hi := ((((((index_params1 t).2).2).2).2).2).1
  funext y
  unfold iblk1
  rw [View.read_apply]
  show V c main_v42 _ = V c main_v42 y
  congr 1
  funext a
  apply Fin.ext
  match a with
  | ⟨0, _⟩ => show win1_7.index t (0 : Fin 2) * 1 + 1 * (y 0).val = (y 0).val; rw [hi.1]; omega
  | ⟨1, _⟩ => show win1_7.index t (1 : Fin 2) * 128 + 1 * (y 1).val = (y 1).val; rw [hi.2]; omega

/-- Window 8's block is its whole array at every point. -/
theorem iblk1_8_eq (c : Dev nD) (t : Fin cfg1.N) :
    (iblk1 V c 8 t : Vec Ideal S1x128 .f32) = (V c main_v43 : Vec Ideal S1x128 .f32) := by
  have hi := (((((((index_params1 t).2).2).2).2).2).2)
  funext y
  unfold iblk1
  rw [View.read_apply]
  show V c main_v43 _ = V c main_v43 y
  congr 1
  funext a
  apply Fin.ext
  match a with
  | ⟨0, _⟩ => show win1_8.index t (0 : Fin 2) * 1 + 1 * (y 0).val = (y 0).val; rw [hi.1]; omega
  | ⟨1, _⟩ => show win1_8.index t (1 : Fin 2) * 128 + 1 * (y 1).val = (y 1).val; rw [hi.2]; omega

/-! ## One point's block -/

/-- What the body stores at a point whose row blocks are rows 4000·T … of the arrays and whose parameter blocks are the
    parameter arrays: at block row r and column j, the node MLP of array row e = 4000·T + r, column j. -/
theorem point1_eq (x0 x1 : Vec Ideal S4000x128 .f32) (x2 x3 : Vec Ideal S128x128 .bf16) (x4 : Vec Ideal S1x128 .f32) (x5 : Vec Ideal S128x128 .bf16) (x6 x7 x8 : Vec Ideal S1x128 .f32)
    (a0 a1 : Vec Ideal S40000x128 .f32) (a2 a3 : Vec Ideal S128x128 .bf16) (a4 : Vec Ideal S1x128 .f32) (a5 : Vec Ideal S128x128 .bf16) (a6 a7 a8 : Vec Ideal S1x128 .f32)
    (T : Nat)
    (h0 : ∀ (r : Fin 4000) (k : Fin 128) (e : Fin 40000), e.val = 4000 * T + r.val → x0 (ix2 r k) = a0 (ix2 e k))
    (h1 : ∀ (r : Fin 4000) (k : Fin 128) (e : Fin 40000), e.val = 4000 * T + r.val → x1 (ix2 r k) = a1 (ix2 e k))
    (h2 : x2 = a2) (h3 : x3 = a3) (h4 : x4 = a4) (h5 : x5 = a5) (h6 : x6 = a6) (h7 : x7 = a7) (h8 : x8 = a8)
    (r : Fin 4000) (j : Fin 128) (e : Fin 40000) (he : e.val = 4000 * T + r.val) :
    k1_pay1 (F := Ideal) x0 (k1_pay2 x0 x1 x2 x3 x4 x5 x6) (k1_pay4 x0 x1 x2 x3 x4 x5 x6) (k1_pay5 x0 x1 x2 x3 x4 x5 x6) x7 x8 (ix2 r j)
      = nodeRow (fun k => a0 (ix2 e k)) (fun k => a1 (ix2 e k)) (fun k j => a2 (ix2 k j)) (fun k j => a3 (ix2 k j))
      (fun j => a4 (ix2 0 j)) (fun k j => a5 (ix2 k j)) (fun j => a6 (ix2 0 j)) (fun j => a7 (ix2 0 j)) (fun j => a8 (ix2 0 j)) j := by
  refine (Cert.KernelIdeal.Rows.node1_pay_apply x0 x1 x2 x3 x4 x5 x6 x7 x8 r j).trans ?_
  subst h2 h3 h4 h5 h6 h7 h8
  have r0 : (fun k => x0 (ix2 r k)) = fun k => a0 (ix2 e k) := funext fun k => h0 r k e he
  have r1 : (fun k => x1 (ix2 r k)) = fun k => a1 (ix2 e k) := funext fun k => h1 r k e he
  rw [r0, r1]

/-! ## What each point writes back, and the array after the run -/

/-- Point t writes back block t of the node MLP of the arrays as the region finds them. -/
theorem flushed1_9_eq (c : Dev nD) (t : Fin cfg1.N) :
    (dat1 (F := Ideal) V c).flushed 9 t
      = ((cfg1.win 9).blk t).view.read (Elt Ideal) (nodeArr1 (V c main_arg1 : Vec Ideal S40000x128 .f32) (V c main_v34 : Vec Ideal S40000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32)) := by
  have hN : cfg1.N = 10 := N_1
  have ht : t.val < 10 := hN ▸ t.isLt
  have hi := ((index_rows1 t).2).2
  show (cfg1.win 9).cut (grid1.coords t) ((dat1 V c).after 9 t) = _
  rw [after1_9]
  unfold out1_9
  rw [View.canon_unit_zero zeros2_1]
  simp only [View.ld_unit_zero (S := S4000x128) zeros2_1, View.ld_unit_zero (S := S128x128) zeros2_1, View.ld_unit_zero (S := S1x128) zeros2_1]
  funext y
  obtain ⟨r, j, rfl⟩ : ∃ (r : Fin 4000) (j : Fin 128), y = ix2 r j := ⟨y 0, y 1, eq_ix2 y⟩
  have hr : r.val < 4000 := r.isLt
  refine (point1_eq (iblk1 V c 0 t) (iblk1 V c 1 t) (iblk1 V c 2 t) (iblk1 V c 3 t) (iblk1 V c 4 t) (iblk1 V c 5 t) (iblk1 V c 6 t) (iblk1 V c 7 t) (iblk1 V c 8 t)
    (V c main_arg1 : Vec Ideal S40000x128 .f32) (V c main_v34 : Vec Ideal S40000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32) t.val
    (fun r k e he => iblk1_0_apply V c t r k e he) (fun r k e he => iblk1_1_apply V c t r k e he)
    (iblk1_2_eq V c t) (iblk1_3_eq V c t) (iblk1_4_eq V c t) (iblk1_5_eq V c t) (iblk1_6_eq V c t) (iblk1_7_eq V c t) (iblk1_8_eq V c t)
    r j ⟨4000 * t.val + r.val, by omega⟩ rfl).trans ?_
  symm
  refine nodeArr1_apply _ _ _ _ _ _ _ _ _ (((cfg1.win 9).blk t).view.emb (ix2 r j)) ⟨4000 * t.val + r.val, by omega⟩ j ?_ ?_
  · show win1_9.index t (0 : Fin 2) * 4000 + 1 * r.val = 4000 * t.val + r.val
    rw [hi.1]; omega
  · show win1_9.index t (1 : Fin 2) * 128 + 1 * j.val = j.val
    rw [hi.2]; omega

/-- An index of the array is in point t's block iff each coordinate is in the block's range on its axis. -/
theorem mem_blk1_9 (t : Fin cfg1.N) (i : S40000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v44).slice (win1_9.rect t)).set ↔ _
  rw [View.set_slice_whole, Rect.mem_set_unit]
  exact Iff.rfl

/-- Every index of the array is in some point's block: row r is in the block of point r / 4000. -/
theorem cover1_arr (i : S40000x128.Idx) :
    ∃ t : Fin cfg1.N, (cfg1.win 9).flush t = true ∧ i ∈ ((cfg1.win 9).blk t).view.set := by
  have hN : cfg1.N = 10 := N_1
  have hi0 : (i 0).val < 40000 := (i 0).isLt
  have hi1 : (i 1).val < 128 := (i 1).isLt
  have hq : (i 0).val / 4000 < cfg1.N := by rw [hN]; omega
  refine ⟨⟨(i 0).val / 4000, hq⟩, flush1_9 _, ?_⟩
  rw [mem_blk1_9]
  have hi := ((index_rows1 ⟨(i 0).val / 4000, hq⟩).2).2
  intro a
  match a with
  | ⟨0, _⟩ =>
    show win1_9.index ⟨(i 0).val / 4000, hq⟩ (0 : Fin 2) * 4000 ≤ (i 0).val ∧ (i 0).val < win1_9.index ⟨(i 0).val / 4000, hq⟩ (0 : Fin 2) * 4000 + 4000
    rw [hi.1]; show (i 0).val / 4000 * 4000 ≤ (i 0).val ∧ (i 0).val < (i 0).val / 4000 * 4000 + 4000; omega
  | ⟨1, _⟩ =>
    show win1_9.index ⟨(i 0).val / 4000, hq⟩ (1 : Fin 2) * 128 ≤ (i 1).val ∧ (i 1).val < win1_9.index ⟨(i 0).val / 4000, hq⟩ (1 : Fin 2) * 128 + 128
    rw [hi.2]; omega

/-- The output array after the region's run is the node MLP of the arrays as the region finds them. -/
theorem arr1_9 (c : Dev nD) :
    (dat1 (F := Ideal) V c).arrAt 9 cfg1.N = nodeArr1 (V c main_arg1 : Vec Ideal S40000x128 .f32) (V c main_v34 : Vec Ideal S40000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32) :=
  (dat1 (F := Ideal) V c).arrAt_eq_of_cover 9 (nodeArr1 (V c main_arg1 : Vec Ideal S40000x128 .f32) (V c main_v34 : Vec Ideal S40000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32)) (fun t _ => flushed1_9_eq V c t) cover1_arr

/-- Entry (r, j) of the output array after the region's run: the node MLP of row r of the two row arrays, column j. -/
theorem final1 (c : Dev nD) (r : Fin 40000) (j : Fin 128) :
    (dat1 (F := Ideal) V c).arrAt 9 cfg1.N (ix2 r j)
      = Cert.MlpSpec.nodeRow (fun k => V c main_arg1 (ix2 r k)) (fun k => V c main_v34 (ix2 r k)) (fun k j => V c main_v36 (ix2 k j)) (fun k j => V c main_v38 (ix2 k j))
      (fun j => V c main_v40 (ix2 0 j)) (fun k j => V c main_v39 (ix2 k j)) (fun j => V c main_v41 (ix2 0 j)) (fun j => V c main_v42 (ix2 0 j)) (fun j => V c main_v43 (ix2 0 j)) j := by
  rw [arr1_9 V c]
  exact nodeArr1_apply _ _ _ _ _ _ _ _ _ (ix2 r j) r j rfl rfl

end Final1
end Cert.KernelIdeal.Hand
end
-- ==== Proof.Final2.lean ====
/-
  Kernel region 2 (a node MLP's call on blocks of 5000 rows), from blocks to the array.

  The output array has 100000 rows of 128 entries; grid point t writes back rows 5000·t … 5000·t + 4999. What the body
  leaves in the output block at point t is, entry by entry, the node MLP (with its residual) of the matching rows of
  the two row arrays (their blocks at point t are the same rows) with the parameter arrays (whose blocks are the whole
  arrays at every point). So every point writes back its block of ONE function of the arrays, the blocks cover the
  array, and the array after the run is that function: entry (r, j) is the node MLP of row r, column j.
-/
import proofs.«117479_j34084860461562_2_alg».proof.Proof.Region2
import proofs.«117479_j34084860461562_2_alg».proof.Proof.MlpSpec
import proofs.«117479_j34084860461562_2_alg».proof.Proof.KerRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.MlpSpec (nodeRow)

section Final2
variable (V : (c : Dev nD) → (b : Ref sig .tc) → Buf (Elt Ideal) ((c : Thread nD τ).loc b))

theorem zeros2_2 : (![0, 0] : Fin 2 → Nat) = fun _ => 0 := funext fun a => by fin_cases a <;> rfl

/-- The node MLP over whole arrays: entry (r, j) is row r of the two row arrays through the MLP, plus the residual, column j. -/
def nodeArr2 (a0 a1 : Vec Ideal S100000x128 .f32) (a2 a3 : Vec Ideal S128x128 .bf16) (a4 : Vec Ideal S1x128 .f32) (a5 : Vec Ideal S128x128 .bf16) (a6 a7 a8 : Vec Ideal S1x128 .f32) : Vec Ideal S100000x128 .f32 := fun i =>
  nodeRow (fun k => a0 (ix2 (i 0 : Fin 100000) k)) (fun k => a1 (ix2 (i 0 : Fin 100000) k)) (fun k j => a2 (ix2 k j)) (fun k j => a3 (ix2 k j))
      (fun j => a4 (ix2 0 j)) (fun k j => a5 (ix2 k j)) (fun j => a6 (ix2 0 j)) (fun j => a7 (ix2 0 j)) (fun j => a8 (ix2 0 j)) (i 1 : Fin 128)

/-- Read at an index given by its row and column. -/
theorem nodeArr2_apply (a0 a1 : Vec Ideal S100000x128 .f32) (a2 a3 : Vec Ideal S128x128 .bf16) (a4 : Vec Ideal S1x128 .f32) (a5 : Vec Ideal S128x128 .bf16) (a6 a7 a8 : Vec Ideal S1x128 .f32) (i : S100000x128.Idx) (e : Fin 100000) (j : Fin 128)
    (h0 : (i 0).val = e.val) (h1 : (i 1).val = j.val) :
    nodeArr2 a0 a1 a2 a3 a4 a5 a6 a7 a8 i
      = nodeRow (fun k => a0 (ix2 e k)) (fun k => a1 (ix2 e k)) (fun k j => a2 (ix2 k j)) (fun k j => a3 (ix2 k j))
      (fun j => a4 (ix2 0 j)) (fun k j => a5 (ix2 k j)) (fun j => a6 (ix2 0 j)) (fun j => a7 (ix2 0 j)) (fun j => a8 (ix2 0 j)) j := by
  have hi : i = ix2 e j := by
    funext a
    match a with
    | ⟨0, _⟩ => exact Fin.ext h0
    | ⟨1, _⟩ => exact Fin.ext h1
  subst hi
  rfl

/-! ## Where the blocks sit -/

/-- The two row windows and the output window move down the rows with the grid point, one block of 5000 rows per
    point, and stay at column block 0 (decided over the 20 points). -/
theorem index_rows2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_9.index t (0 : Fin 2) = t.val ∧ win2_9.index t (1 : Fin 2) = 0) :=
  (by decide +kernel : ∀ t : Fin grid2.N, _)

/-- The seven parameter windows stay at block (0, 0) (decided over the 20 points). -/
theorem index_params2 : ∀ t : Fin cfg2.N, (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- Row r of window 0's block at point t is row 5000·t + r of its array. -/
theorem iblk2_0_apply (c : Dev nD) (t : Fin cfg2.N) (r : Fin 5000) (k : Fin 128) (e : Fin 100000) (he : e.val = 5000 * t.val + r.val) :
    (iblk2 V c 0 t : Vec Ideal S5000x128 .f32) (ix2 r k) = (V c main_arg0 : Vec Ideal S100000x128 .f32) (ix2 e k) := by
  have hi := (index_rows2 t).1
  unfold iblk2
  rw [View.read_apply]
  show V c main_arg0 _ = V c main_arg0 _
  congr 1
  funext a
  apply Fin.ext
  match a with
  | ⟨0, _⟩ => show win2_0.index t (0 : Fin 2) * 5000 + 1 * r.val = e.val; rw [hi.1, he]; omega
  | ⟨1, _⟩ => show win2_0.index t (1 : Fin 2) * 128 + 1 * k.val = k.val; rw [hi.2]; omega

/-- Row r of window 1's block at point t is row 5000·t + r of its array. -/
theorem iblk2_1_apply (c : Dev nD) (t : Fin cfg2.N) (r : Fin 5000) (k : Fin 128) (e : Fin 100000) (he : e.val = 5000 * t.val + r.val) :
    (iblk2 V c 1 t : Vec Ideal S5000x128 .f32) (ix2 r k) = (V c main_arg0 : Vec Ideal S100000x128 .f32) (ix2 e k) := by
  have hi := ((index_rows2 t).2).1
  unfold iblk2
  rw [View.read_apply]
  show V c main_arg0 _ = V c main_arg0 _
  congr 1
  funext a
  apply Fin.ext
  match a with
  | ⟨0, _⟩ => show win2_1.index t (0 : Fin 2) * 5000 + 1 * r.val = e.val; rw [hi.1, he]; omega
  | ⟨1, _⟩ => show win2_1.index t (1 : Fin 2) * 128 + 1 * k.val = k.val; rw [hi.2]; omega

/-- Window 2's block is its whole array at every point. -/
theorem iblk2_2_eq (c : Dev nD) (t : Fin cfg2.N) :
    (iblk2 V c 2 t : Vec Ideal S128x128 .bf16) = (V c main_v36 : Vec Ideal S128x128 .bf16) := by
  have hi := (index_params2 t).1
  funext y
  unfold iblk2
  rw [View.read_apply]
  show V c main_v36 _ = V c main_v36 y
  congr 1
  funext a
  apply Fin.ext
  match a with
  | ⟨0, _⟩ => show win2_2.index t (0 : Fin 2) * 128 + 1 * (y 0).val = (y 0).val; rw [hi.1]; omega
  | ⟨1, _⟩ => show win2_2.index t (1 : Fin 2) * 128 + 1 * (y 1).val = (y 1).val; rw [hi.2]; omega

/-- Window 3's block is its whole array at every point. -/
theorem iblk2_3_eq (c : Dev nD) (t : Fin cfg2.N) :
    (iblk2 V c 3 t : Vec Ideal S128x128 .bf16) = (V c main_v38 : Vec Ideal S128x128 .bf16) := by
  have hi := ((index_params2 t).2).1
  funext y
  unfold iblk2
  rw [View.read_apply]
  show V c main_v38 _ = V c main_v38 y
  congr 1
  funext a
  apply Fin.ext
  match a with
  | ⟨0, _⟩ => show win2_3.index t (0 : Fin 2) * 128 + 1 * (y 0).val = (y 0).val; rw [hi.1]; omega
  | ⟨1, _⟩ => show win2_3.index t (1 : Fin 2) * 128 + 1 * (y 1).val = (y 1).val; rw [hi.2]; omega

/-- Window 4's block is its whole array at every point. -/
theorem iblk2_4_eq (c : Dev nD) (t : Fin cfg2.N) :
    (iblk2 V c 4 t : Vec Ideal S1x128 .f32) = (V c main_v40 : Vec Ideal S1x128 .f32) := by
  have hi := (((index_params2 t).2).2).1
  funext y
  unfold iblk2
  rw [View.read_apply]
  show V c main_v40 _ = V c main_v40 y
  congr 1
  funext a
  apply Fin.ext
  match a with
  | ⟨0, _⟩ => show win2_4.index t (0 : Fin 2) * 1 + 1 * (y 0).val = (y 0).val; rw [hi.1]; omega
  | ⟨1, _⟩ => show win2_4.index t (1 : Fin 2) * 128 + 1 * (y 1).val = (y 1).val; rw [hi.2]; omega

/-- Window 5's block is its whole array at every point. -/
theorem iblk2_5_eq (c : Dev nD) (t : Fin cfg2.N) :
    (iblk2 V c 5 t : Vec Ideal S128x128 .bf16) = (V c main_v39 : Vec Ideal S128x128 .bf16) := by
  have hi := ((((index_params2 t).2).2).2).1
  funext y
  unfold iblk2
  rw [View.read_apply]
  show V c main_v39 _ = V c main_v39 y
  congr 1
  funext a
  apply Fin.ext
  match a with
  | ⟨0, _⟩ => show win2_5.index t (0 : Fin 2) * 128 + 1 * (y 0).val = (y 0).val; rw [hi.1]; omega
  | ⟨1, _⟩ => show win2_5.index t (1 : Fin 2) * 128 + 1 * (y 1).val = (y 1).val; rw [hi.2]; omega

/-- Window 6's block is its whole array at every point. -/
theorem iblk2_6_eq (c : Dev nD) (t : Fin cfg2.N) :
    (iblk2 V c 6 t : Vec Ideal S1x128 .f32) = (V c main_v41 : Vec Ideal S1x128 .f32) := by
  have hi := (((((index_params2 t).2).2).2).2).1
  funext y
  unfold iblk2
  rw [View.read_apply]
  show V c main_v41 _ = V c main_v41 y
  congr 1
  funext a
  apply Fin.ext
  match a with
  | ⟨0, _⟩ => show win2_6.index t (0 : Fin 2) * 1 + 1 * (y 0).val = (y 0).val; rw [hi.1]; omega
  | ⟨1, _⟩ => show win2_6.index t (1 : Fin 2) * 128 + 1 * (y 1).val = (y 1).val; rw [hi.2]; omega

/-- Window 7's block is its whole array at every point. -/
theorem iblk2_7_eq (c : Dev nD) (t : Fin cfg2.N) :
    (iblk2 V c 7 t : Vec Ideal S1x128 .f32) = (V c main_v42 : Vec Ideal S1x128 .f32) := by
  have hi := ((((((index_params2 t).2).2).2).2).2).1
  funext y
  unfold iblk2
  rw [View.read_apply]
  show V c main_v42 _ = V c main_v42 y
  congr 1
  funext a
  apply Fin.ext
  match a with
  | ⟨0, _⟩ => show win2_7.index t (0 : Fin 2) * 1 + 1 * (y 0).val = (y 0).val; rw [hi.1]; omega
  | ⟨1, _⟩ => show win2_7.index t (1 : Fin 2) * 128 + 1 * (y 1).val = (y 1).val; rw [hi.2]; omega

/-- Window 8's block is its whole array at every point. -/
theorem iblk2_8_eq (c : Dev nD) (t : Fin cfg2.N) :
    (iblk2 V c 8 t : Vec Ideal S1x128 .f32) = (V c main_v43 : Vec Ideal S1x128 .f32) := by
  have hi := (((((((index_params2 t).2).2).2).2).2).2)
  funext y
  unfold iblk2
  rw [View.read_apply]
  show V c main_v43 _ = V c main_v43 y
  congr 1
  funext a
  apply Fin.ext
  match a with
  | ⟨0, _⟩ => show win2_8.index t (0 : Fin 2) * 1 + 1 * (y 0).val = (y 0).val; rw [hi.1]; omega
  | ⟨1, _⟩ => show win2_8.index t (1 : Fin 2) * 128 + 1 * (y 1).val = (y 1).val; rw [hi.2]; omega

/-! ## One point's block -/

/-- What the body stores at a point whose row blocks are rows 5000·T … of the arrays and whose parameter blocks are the
    parameter arrays: at block row r and column j, the node MLP of array row e = 5000·T + r, column j. -/
theorem point2_eq (x0 x1 : Vec Ideal S5000x128 .f32) (x2 x3 : Vec Ideal S128x128 .bf16) (x4 : Vec Ideal S1x128 .f32) (x5 : Vec Ideal S128x128 .bf16) (x6 x7 x8 : Vec Ideal S1x128 .f32)
    (a0 a1 : Vec Ideal S100000x128 .f32) (a2 a3 : Vec Ideal S128x128 .bf16) (a4 : Vec Ideal S1x128 .f32) (a5 : Vec Ideal S128x128 .bf16) (a6 a7 a8 : Vec Ideal S1x128 .f32)
    (T : Nat)
    (h0 : ∀ (r : Fin 5000) (k : Fin 128) (e : Fin 100000), e.val = 5000 * T + r.val → x0 (ix2 r k) = a0 (ix2 e k))
    (h1 : ∀ (r : Fin 5000) (k : Fin 128) (e : Fin 100000), e.val = 5000 * T + r.val → x1 (ix2 r k) = a1 (ix2 e k))
    (h2 : x2 = a2) (h3 : x3 = a3) (h4 : x4 = a4) (h5 : x5 = a5) (h6 : x6 = a6) (h7 : x7 = a7) (h8 : x8 = a8)
    (r : Fin 5000) (j : Fin 128) (e : Fin 100000) (he : e.val = 5000 * T + r.val) :
    k2_pay1 (F := Ideal) x0 (k2_pay4 x0 x1 x2 x3 x4 x5 x6) (k2_pay5 x0 x1 x2 x3 x4 x5 x6) x7 x8 (ix2 r j)
      = nodeRow (fun k => a0 (ix2 e k)) (fun k => a1 (ix2 e k)) (fun k j => a2 (ix2 k j)) (fun k j => a3 (ix2 k j))
      (fun j => a4 (ix2 0 j)) (fun k j => a5 (ix2 k j)) (fun j => a6 (ix2 0 j)) (fun j => a7 (ix2 0 j)) (fun j => a8 (ix2 0 j)) j := by
  refine (Cert.KernelIdeal.Rows.node2_pay_apply x0 x1 x2 x3 x4 x5 x6 x7 x8 r j).trans ?_
  subst h2 h3 h4 h5 h6 h7 h8
  have r0 : (fun k => x0 (ix2 r k)) = fun k => a0 (ix2 e k) := funext fun k => h0 r k e he
  have r1 : (fun k => x1 (ix2 r k)) = fun k => a1 (ix2 e k) := funext fun k => h1 r k e he
  rw [r0, r1]

/-! ## What each point writes back, and the array after the run -/

/-- Point t writes back block t of the node MLP of the arrays as the region finds them. -/
theorem flushed2_9_eq (c : Dev nD) (t : Fin cfg2.N) :
    (dat2 (F := Ideal) V c).flushed 9 t
      = ((cfg2.win 9).blk t).view.read (Elt Ideal) (nodeArr2 (V c main_arg0 : Vec Ideal S100000x128 .f32) (V c main_arg0 : Vec Ideal S100000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32)) := by
  have hN : cfg2.N = 20 := N_2
  have ht : t.val < 20 := hN ▸ t.isLt
  have hi := ((index_rows2 t).2).2
  show (cfg2.win 9).cut (grid2.coords t) ((dat2 V c).after 9 t) = _
  rw [after2_9]
  unfold out2_9
  rw [View.canon_unit_zero zeros2_2]
  simp only [View.ld_unit_zero (S := S5000x128) zeros2_2, View.ld_unit_zero (S := S128x128) zeros2_2, View.ld_unit_zero (S := S1x128) zeros2_2]
  funext y
  obtain ⟨r, j, rfl⟩ : ∃ (r : Fin 5000) (j : Fin 128), y = ix2 r j := ⟨y 0, y 1, eq_ix2 y⟩
  have hr : r.val < 5000 := r.isLt
  refine (point2_eq (iblk2 V c 0 t) (iblk2 V c 1 t) (iblk2 V c 2 t) (iblk2 V c 3 t) (iblk2 V c 4 t) (iblk2 V c 5 t) (iblk2 V c 6 t) (iblk2 V c 7 t) (iblk2 V c 8 t)
    (V c main_arg0 : Vec Ideal S100000x128 .f32) (V c main_arg0 : Vec Ideal S100000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32) t.val
    (fun r k e he => iblk2_0_apply V c t r k e he) (fun r k e he => iblk2_1_apply V c t r k e he)
    (iblk2_2_eq V c t) (iblk2_3_eq V c t) (iblk2_4_eq V c t) (iblk2_5_eq V c t) (iblk2_6_eq V c t) (iblk2_7_eq V c t) (iblk2_8_eq V c t)
    r j ⟨5000 * t.val + r.val, by omega⟩ rfl).trans ?_
  symm
  refine nodeArr2_apply _ _ _ _ _ _ _ _ _ (((cfg2.win 9).blk t).view.emb (ix2 r j)) ⟨5000 * t.val + r.val, by omega⟩ j ?_ ?_
  · show win2_9.index t (0 : Fin 2) * 5000 + 1 * r.val = 5000 * t.val + r.val
    rw [hi.1]; omega
  · show win2_9.index t (1 : Fin 2) * 128 + 1 * j.val = j.val
    rw [hi.2]; omega

/-- An index of the array is in point t's block iff each coordinate is in the block's range on its axis. -/
theorem mem_blk2_9 (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v45).slice (win2_9.rect t)).set ↔ _
  rw [View.set_slice_whole, Rect.mem_set_unit]
  exact Iff.rfl

/-- Every index of the array is in some point's block: row r is in the block of point r / 5000. -/
theorem cover2_arr (i : S100000x128.Idx) :
    ∃ t : Fin cfg2.N, (cfg2.win 9).flush t = true ∧ i ∈ ((cfg2.win 9).blk t).view.set := by
  have hN : cfg2.N = 20 := N_2
  have hi0 : (i 0).val < 100000 := (i 0).isLt
  have hi1 : (i 1).val < 128 := (i 1).isLt
  have hq : (i 0).val / 5000 < cfg2.N := by rw [hN]; omega
  refine ⟨⟨(i 0).val / 5000, hq⟩, flush2_9 _, ?_⟩
  rw [mem_blk2_9]
  have hi := ((index_rows2 ⟨(i 0).val / 5000, hq⟩).2).2
  intro a
  match a with
  | ⟨0, _⟩ =>
    show win2_9.index ⟨(i 0).val / 5000, hq⟩ (0 : Fin 2) * 5000 ≤ (i 0).val ∧ (i 0).val < win2_9.index ⟨(i 0).val / 5000, hq⟩ (0 : Fin 2) * 5000 + 5000
    rw [hi.1]; show (i 0).val / 5000 * 5000 ≤ (i 0).val ∧ (i 0).val < (i 0).val / 5000 * 5000 + 5000; omega
  | ⟨1, _⟩ =>
    show win2_9.index ⟨(i 0).val / 5000, hq⟩ (1 : Fin 2) * 128 ≤ (i 1).val ∧ (i 1).val < win2_9.index ⟨(i 0).val / 5000, hq⟩ (1 : Fin 2) * 128 + 128
    rw [hi.2]; omega

/-- The output array after the region's run is the node MLP of the arrays as the region finds them. -/
theorem arr2_9 (c : Dev nD) :
    (dat2 (F := Ideal) V c).arrAt 9 cfg2.N = nodeArr2 (V c main_arg0 : Vec Ideal S100000x128 .f32) (V c main_arg0 : Vec Ideal S100000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32) :=
  (dat2 (F := Ideal) V c).arrAt_eq_of_cover 9 (nodeArr2 (V c main_arg0 : Vec Ideal S100000x128 .f32) (V c main_arg0 : Vec Ideal S100000x128 .f32) (V c main_v36 : Vec Ideal S128x128 .bf16) (V c main_v38 : Vec Ideal S128x128 .bf16) (V c main_v40 : Vec Ideal S1x128 .f32) (V c main_v39 : Vec Ideal S128x128 .bf16) (V c main_v41 : Vec Ideal S1x128 .f32) (V c main_v42 : Vec Ideal S1x128 .f32) (V c main_v43 : Vec Ideal S1x128 .f32)) (fun t _ => flushed2_9_eq V c t) cover2_arr

/-- Entry (r, j) of the output array after the region's run: the node MLP of row r of the two row arrays, column j. -/
theorem final2 (c : Dev nD) (r : Fin 100000) (j : Fin 128) :
    (dat2 (F := Ideal) V c).arrAt 9 cfg2.N (ix2 r j)
      = Cert.MlpSpec.nodeRow (fun k => V c main_arg0 (ix2 r k)) (fun k => V c main_arg0 (ix2 r k)) (fun k j => V c main_v36 (ix2 k j)) (fun k j => V c main_v38 (ix2 k j))
      (fun j => V c main_v40 (ix2 0 j)) (fun k j => V c main_v39 (ix2 k j)) (fun j => V c main_v41 (ix2 0 j)) (fun j => V c main_v42 (ix2 0 j)) (fun j => V c main_v43 (ix2 0 j)) j := by
  rw [arr2_9 V c]
  exact nodeArr2_apply _ _ _ _ _ _ _ _ _ (ix2 r j) r j rfl rfl

end Final2
end Cert.KernelIdeal.Hand
end
-- ==== Proof.RefTailDefs.lean ====
/-
  The reference's arithmetic as named array functions.

  Each definition below is the composition, in the program's order and with the program's own
  operations, dimension records and shape facts, of the host operations that compute one of the
  reference's intermediate or final arrays from the arrays it depends on:

  * idxDst / idxSrc — the [500000, 1] start-index arrays of the two gathers: a row of the edge
    index, negative entries wrapped by the number of rows of the gathered table;
  * gatherDst / gatherSrc — the two row gathers;
  * edgeTail — the edge MLP and its LayerNorm on the three gathered / given [500000, 128] arrays;
  * segSum — the scatter-add of the edge rows into 40000 zero rows by row 1 of the edge index;
  * dstTail / srcTail — the node MLP, its LayerNorm and the residual;
  * refEdges / refDst / refSrc — the three results as functions of the sixteen arguments.

  A called function's body (silu, the variance with its guarded division) is written out in
  place at the call, on the caller's values, which is what executing the call does.
-/
import proofs.«117479_j34084860461562_2_alg».proof.ReferenceIdeal
import proofs.«117479_j34084860461562_2_alg».proof.Proof.Gen.ReferenceIdeal

noncomputable section

namespace Cert.ReferenceIdeal.Tails

open Idealize.ShloMosaic
open Cert.ReferenceIdeal
open Cert.ReferenceIdeal.Facts₀ Cert.ReferenceIdeal.Facts

variable {F : FTy → Type} [FloatOps F] [Facts]

/-- The start indices of the gather from the 40000-row table: row 1 of the edge index, an entry below zero moved up by 40000, as a [500000, 1] array. -/
def idxDst (ei : IVec S2x500000 32) : IVec S500000x1 32 :=
  have v0 : IVec S1x500000 32 := extractStridedSlice S1x500000 ![1, 0] ei slices_S2x500000_S1x500000_1_0
  have v1 : IVec S500000 32 := shapeCast S500000 v0 shapeCasts_S1x500000_S500000
  have c0 : IVec S_ 32 := constantI S_ 32 0#32
  have v2 : IVec S500000 32 := broadcastInDim S500000 ![] bcast_S_S500000 c0
  have v3 : IVec S500000 1 := cmpi .slt v1 v2
  have c1 : IVec S_ 32 := constantI S_ 32 40000#32
  have v4 : IVec S500000 32 := broadcastInDim S500000 ![] bcast_S_S500000 c1
  have v5 : IVec S500000 32 := addi v1 v4
  have v6 : IVec S500000 32 := select v3 v5 v1
  broadcastInDim S500000x1 ![0] bcast_S500000_S500000x1_0 v6

/-- The start indices of the gather from the 100000-row table: row 0 of the edge index, an entry below zero moved up by 100000, as a [500000, 1] array. -/
def idxSrc (ei : IVec S2x500000 32) : IVec S500000x1 32 :=
  have v0 : IVec S1x500000 32 := extractStridedSlice S1x500000 ![0, 0] ei slices_S2x500000_S1x500000_0_0
  have v1 : IVec S500000 32 := shapeCast S500000 v0 shapeCasts_S1x500000_S500000
  have c0 : IVec S_ 32 := constantI S_ 32 0#32
  have v2 : IVec S500000 32 := broadcastInDim S500000 ![] bcast_S_S500000 c0
  have v3 : IVec S500000 1 := cmpi .slt v1 v2
  have c1 : IVec S_ 32 := constantI S_ 32 100000#32
  have v4 : IVec S500000 32 := broadcastInDim S500000 ![] bcast_S_S500000 c1
  have v5 : IVec S500000 32 := addi v1 v4
  have v6 : IVec S500000 32 := select v3 v5 v1
  broadcastInDim S500000x1 ![0] bcast_S500000_S500000x1_0 v6

/-- The rows of the 40000-row table at the start indices `idxDst ei`. -/
def gatherDst (x : FVec F S40000x128 .f32) (ei : IVec S2x500000 32) : FVec F S500000x128 .f32 :=
  Host.gather gather_S40000x128_S500000x1_S500000x128_1_0_n_n_0_1_1128 x (idxDst ei)

/-- The rows of the 100000-row table at the start indices `idxSrc ei`. -/
def gatherSrc (x : FVec F S100000x128 .f32) (ei : IVec S2x500000 32) : FVec F S500000x128 .f32 :=
  Host.gather gather_S100000x128_S500000x1_S500000x128_1_0_n_n_0_1_1128 x (idxSrc ei)

/-- The edge MLP with its LayerNorm: the three [500000, 128] arrays side by side, one contraction with the
    [384, 128] weight, bias, silu, the second layer, and the normalisation of each row with gain and offset. -/
def edgeTail (gd gs ea : FVec F S500000x128 .f32) (w1 : FVec F S384x128 .f32) (b1 : FVec F S128 .f32)
    (w2 : FVec F S128x128 .f32) (b2 g be : FVec F S128 .f32) : FVec F S500000x128 .f32 :=
  have t0 : FVec F S500000x384 .f32 := concatenate S500000x384 1 [⟨S500000x128, gd⟩, ⟨S500000x128, gs⟩, ⟨S500000x128, ea⟩] concatenates_S500000x128_S500000x128_S500000x128_S500000x384_d1
  have t1 : FVec F S500000x128 .f32 := Host.dotGeneral dot_S500000x384_S384x128_S500000x128_1_0_0_1_n_n none t0 w1
  have t2 : FVec F S1x128 .f32 := broadcastInDim S1x128 ![1] bcast_S128_S1x128_1 b1
  have t3 : FVec F S500000x128 .f32 := broadcastInDim S500000x128 ![0, 1] bcast_S1x128_S500000x128_0_1 t2
  have t4 : FVec F S500000x128 .f32 := addf t1 t3
  -- the call of silu on t4
  have s0 : FVec F S500000x128 .f32 := Host.negf t4
  have s1 : FVec F S500000x128 .f32 := Host.exp s0
  have sc : FVec F S_ .f32 := constant S_ .f32 0x3F800000#32
  have s2 : FVec F S500000x128 .f32 := broadcastInDim S500000x128 ![] bcast_S_S500000x128 sc
  have s3 : FVec F S500000x128 .f32 := addf s2 s1
  have sc0 : FVec F S_ .f32 := constant S_ .f32 0x3F800000#32
  have s4 : FVec F S500000x128 .f32 := broadcastInDim S500000x128 ![] bcast_S_S500000x128 sc0
  have s5 : FVec F S500000x128 .f32 := Host.divf s4 s3
  have t5 : FVec F S500000x128 .f32 := mulf t4 s5
  have t6 : FVec F S500000x128 .f32 := Host.dotGeneral dot_S500000x128_S128x128_S500000x128_1_0_0_1_n_n none t5 w2
  have t7 : FVec F S1x128 .f32 := broadcastInDim S1x128 ![1] bcast_S128_S1x128_1 b2
  have t8 : FVec F S500000x128 .f32 := broadcastInDim S500000x128 ![0, 1] bcast_S1x128_S500000x128_0_1 t7
  have y : FVec F S500000x128 .f32 := addf t6 t8
  have m0 : FVec F S_ .f32 := constant S_ .f32 0x00000000#32
  have m1 : FVec F S500000 .f32 := Host.reduceAdd y m0 reducesTo_S500000x128_S500000_d1 h_S_
  have m2 : FVec F S500000x1 .f32 := broadcastInDim S500000x1 ![0] bcast_S500000_S500000x1_0 m1
  have m3 : FVec F S_ .f32 := constant S_ .f32 0x43000000#32
  have m4 : FVec F S500000x1 .f32 := broadcastInDim S500000x1 ![] bcast_S_S500000x1 m3
  have mu : FVec F S500000x1 .f32 := Host.divf m2 m4
  have ddof : IVec S_ 32 := constantI S_ 32 0#32
  -- the call of _var on y and ddof
  have r0 : FVec F S_ .f32 := constant S_ .f32 0x00000000#32
  have r1 : FVec F S500000 .f32 := Host.reduceAdd y r0 reducesTo_S500000x128_S500000_d1 h_S_
  have r2 : FVec F S500000x1 .f32 := broadcastInDim S500000x1 ![0] bcast_S500000_S500000x1_0 r1
  have r3 : FVec F S_ .f32 := constant S_ .f32 0x43000000#32
  have r4 : FVec F S500000x1 .f32 := broadcastInDim S500000x1 ![] bcast_S_S500000x1 r3
  have r5 : FVec F S500000x1 .f32 := Host.divf r2 r4
  have r6 : FVec F S500000x128 .f32 := broadcastInDim S500000x128 ![0, 1] bcast_S500000x1_S500000x128_0_1 r5
  have r7 : FVec F S500000x128 .f32 := subf y r6
  have r8 : FVec F S500000x128 .f32 := mulf r7 r7
  have r9 : FVec F S_ .f32 := sitofp .f32 ddof
  have r10 : FVec F S_ .f32 := constant S_ .f32 0x43000000#32
  have r11 : FVec F S_ .f32 := subf r10 r9
  have r12 : FVec F S_ .f32 := constant S_ .f32 0x00000000#32
  have r13 : FVec F S500000 .f32 := Host.reduceAdd r8 r12 reducesTo_S500000x128_S500000_d1 h_S_
  have r14 : FVec F S500000x1 .f32 := broadcastInDim S500000x1 ![0] bcast_S500000_S500000x1_0 r13
  have r15 : FVec F S500000x1 .f32 := broadcastInDim S500000x1 ![] bcast_S_S500000x1 r11
  have r16 : FVec F S500000x1 .f32 := Host.divf r14 r15
  have r17 : FVec F S_ .f32 := constant S_ .f32 0x00000000#32
  have r18 : IVec S_ 1 := cmpf .ogt r11 r17
  have r19 : FVec F S_ .f32 := constant S_ .f32 0x7FC00000#32
  -- the call of _where on r18, r16 and r19
  have q0 : FVec F S_ .f32 := id r19
  have q1 : FVec F S500000x1 .f32 := broadcastInDim S500000x1 ![] bcast_S_S500000x1 q0
  have vr : FVec F S500000x1 .f32 := select (broadcastInDim S500000x1 ![] bcast_S_S500000x1 r18) r16 q1
  -- back in @main
  have n0 : FVec F S500000x128 .f32 := broadcastInDim S500000x128 ![0, 1] bcast_S500000x1_S500000x128_0_1 mu
  have n1 : FVec F S500000x128 .f32 := subf y n0
  have n2 : FVec F S_ .f32 := constant S_ .f32 0x3727C5AC#32
  have n3 : FVec F S500000x1 .f32 := broadcastInDim S500000x1 ![] bcast_S_S500000x1 n2
  have n4 : FVec F S500000x1 .f32 := addf vr n3
  have n5 : FVec F S500000x1 .f32 := Host.rsqrt n4
  have n6 : FVec F S500000x128 .f32 := broadcastInDim S500000x128 ![0, 1] bcast_S500000x1_S500000x128_0_1 n5
  have n7 : FVec F S500000x128 .f32 := mulf n1 n6
  have n8 : FVec F S1x128 .f32 := broadcastInDim S1x128 ![1] bcast_S128_S1x128_1 g
  have n9 : FVec F S500000x128 .f32 := broadcastInDim S500000x128 ![0, 1] bcast_S1x128_S500000x128_0_1 n8
  have n10 : FVec F S500000x128 .f32 := mulf n7 n9
  have n11 : FVec F S1x128 .f32 := broadcastInDim S1x128 ![1] bcast_S128_S1x128_1 be
  have n12 : FVec F S500000x128 .f32 := broadcastInDim S500000x128 ![0, 1] bcast_S1x128_S500000x128_0_1 n11
  addf n10 n12

/-- The sum, into each of 40000 zero rows, of the edge rows whose entry in row 1 of the edge index names it. -/
def segSum (edges : FVec F S500000x128 .f32) (ei : IVec S2x500000 32) : FVec F S40000x128 .f32 :=
  have v0 : IVec S1x500000 32 := extractStridedSlice S1x500000 ![1, 0] ei slices_S2x500000_S1x500000_1_0
  have v1 : IVec S500000 32 := shapeCast S500000 v0 shapeCasts_S1x500000_S500000
  have z0 : FVec F S_ .f32 := constant S_ .f32 0x00000000#32
  have z1 : FVec F S40000x128 .f32 := broadcastInDim S40000x128 ![] bcast_S_S40000x128 z0
  have v2 : IVec S500000x1 32 := broadcastInDim S500000x1 ![0] bcast_S500000_S500000x1_0 v1
  Host.scatterAdd scatter_S40000x128_S500000x1_S500000x128_1_0_0_1 z1 v2 edges

/-- The node MLP on the 40000 rows: the rows and their aggregated edge rows side by side, one contraction with the
    [256, 128] weight, bias, silu, the second layer, the normalisation of each row, and the rows added back. -/
def dstTail (x agg : FVec F S40000x128 .f32) (w1 : FVec F S256x128 .f32) (b1 : FVec F S128 .f32)
    (w2 : FVec F S128x128 .f32) (b2 g be : FVec F S128 .f32) : FVec F S40000x128 .f32 :=
  have t0 : FVec F S40000x256 .f32 := concatenate S40000x256 1 [⟨S40000x128, x⟩, ⟨S40000x128, agg⟩] concatenates_S40000x128_S40000x128_S40000x256_d1
  have t1 : FVec F S40000x128 .f32 := Host.dotGeneral dot_S40000x256_S256x128_S40000x128_1_0_0_1_n_n none t0 w1
  have t2 : FVec F S1x128 .f32 := broadcastInDim S1x128 ![1] bcast_S128_S1x128_1 b1
  have t3 : FVec F S40000x128 .f32 := broadcastInDim S40000x128 ![0, 1] bcast_S1x128_S40000x128_0_1 t2
  have t4 : FVec F S40000x128 .f32 := addf t1 t3
  -- the call of silu on t4
  have s0 : FVec F S40000x128 .f32 := Host.negf t4
  have s1 : FVec F S40000x128 .f32 := Host.exp s0
  have sc : FVec F S_ .f32 := constant S_ .f32 0x3F800000#32
  have s2 : FVec F S40000x128 .f32 := broadcastInDim S40000x128 ![] bcast_S_S40000x128 sc
  have s3 : FVec F S40000x128 .f32 := addf s2 s1
  have sc0 : FVec F S_ .f32 := constant S_ .f32 0x3F800000#32
  have s4 : FVec F S40000x128 .f32 := broadcastInDim S40000x128 ![] bcast_S_S40000x128 sc0
  have s5 : FVec F S40000x128 .f32 := Host.divf s4 s3
  have t5 : FVec F S40000x128 .f32 := mulf t4 s5
  have t6 : FVec F S40000x128 .f32 := Host.dotGeneral dot_S40000x128_S128x128_S40000x128_1_0_0_1_n_n none t5 w2
  have t7 : FVec F S1x128 .f32 := broadcastInDim S1x128 ![1] bcast_S128_S1x128_1 b2
  have t8 : FVec F S40000x128 .f32 := broadcastInDim S40000x128 ![0, 1] bcast_S1x128_S40000x128_0_1 t7
  have y : FVec F S40000x128 .f32 := addf t6 t8
  have m0 : FVec F S_ .f32 := constant S_ .f32 0x00000000#32
  have m1 : FVec F S40000 .f32 := Host.reduceAdd y m0 reducesTo_S40000x128_S40000_d1 h_S_
  have m2 : FVec F S40000x1 .f32 := broadcastInDim S40000x1 ![0] bcast_S40000_S40000x1_0 m1
  have m3 : FVec F S_ .f32 := constant S_ .f32 0x43000000#32
  have m4 : FVec F S40000x1 .f32 := broadcastInDim S40000x1 ![] bcast_S_S40000x1 m3
  have mu : FVec F S40000x1 .f32 := Host.divf m2 m4
  have ddof : IVec S_ 32 := constantI S_ 32 0#32
  -- the call of _var on y and ddof
  have r0 : FVec F S_ .f32 := constant S_ .f32 0x00000000#32
  have r1 : FVec F S40000 .f32 := Host.reduceAdd y r0 reducesTo_S40000x128_S40000_d1 h_S_
  have r2 : FVec F S40000x1 .f32 := broadcastInDim S40000x1 ![0] bcast_S40000_S40000x1_0 r1
  have r3 : FVec F S_ .f32 := constant S_ .f32 0x43000000#32
  have r4 : FVec F S40000x1 .f32 := broadcastInDim S40000x1 ![] bcast_S_S40000x1 r3
  have r5 : FVec F S40000x1 .f32 := Host.divf r2 r4
  have r6 : FVec F S40000x128 .f32 := broadcastInDim S40000x128 ![0, 1] bcast_S40000x1_S40000x128_0_1 r5
  have r7 : FVec F S40000x128 .f32 := subf y r6
  have r8 : FVec F S40000x128 .f32 := mulf r7 r7
  have r9 : FVec F S_ .f32 := sitofp .f32 ddof
  have r10 : FVec F S_ .f32 := constant S_ .f32 0x43000000#32
  have r11 : FVec F S_ .f32 := subf r10 r9
  have r12 : FVec F S_ .f32 := constant S_ .f32 0x00000000#32
  have r13 : FVec F S40000 .f32 := Host.reduceAdd r8 r12 reducesTo_S40000x128_S40000_d1 h_S_
  have r14 : FVec F S40000x1 .f32 := broadcastInDim S40000x1 ![0] bcast_S40000_S40000x1_0 r13
  have r15 : FVec F S40000x1 .f32 := broadcastInDim S40000x1 ![] bcast_S_S40000x1 r11
  have r16 : FVec F S40000x1 .f32 := Host.divf r14 r15
  have r17 : FVec F S_ .f32 := constant S_ .f32 0x00000000#32
  have r18 : IVec S_ 1 := cmpf .ogt r11 r17
  have r19 : FVec F S_ .f32 := constant S_ .f32 0x7FC00000#32
  -- the call of _where on r18, r16 and r19
  have q0 : FVec F S_ .f32 := id r19
  have q1 : FVec F S40000x1 .f32 := broadcastInDim S40000x1 ![] bcast_S_S40000x1 q0
  have vr : FVec F S40000x1 .f32 := select (broadcastInDim S40000x1 ![] bcast_S_S40000x1 r18) r16 q1
  -- back in @main
  have n0 : FVec F S40000x128 .f32 := broadcastInDim S40000x128 ![0, 1] bcast_S40000x1_S40000x128_0_1 mu
  have n1 : FVec F S40000x128 .f32 := subf y n0
  have n2 : FVec F S_ .f32 := constant S_ .f32 0x3727C5AC#32
  have n3 : FVec F S40000x1 .f32 := broadcastInDim S40000x1 ![] bcast_S_S40000x1 n2
  have n4 : FVec F S40000x1 .f32 := addf vr n3
  have n5 : FVec F S40000x1 .f32 := Host.rsqrt n4
  have n6 : FVec F S40000x128 .f32 := broadcastInDim S40000x128 ![0, 1] bcast_S40000x1_S40000x128_0_1 n5
  have n7 : FVec F S40000x128 .f32 := mulf n1 n6
  have n8 : FVec F S1x128 .f32 := broadcastInDim S1x128 ![1] bcast_S128_S1x128_1 g
  have n9 : FVec F S40000x128 .f32 := broadcastInDim S40000x128 ![0, 1] bcast_S1x128_S40000x128_0_1 n8
  have n10 : FVec F S40000x128 .f32 := mulf n7 n9
  have n11 : FVec F S1x128 .f32 := broadcastInDim S1x128 ![1] bcast_S128_S1x128_1 be
  have n12 : FVec F S40000x128 .f32 := broadcastInDim S40000x128 ![0, 1] bcast_S1x128_S40000x128_0_1 n11
  have n13 : FVec F S40000x128 .f32 := addf n10 n12
  addf n13 x

/-- The node MLP on the 100000 rows, which receive no edge: the rows side by side with themselves. -/
def srcTail (x : FVec F S100000x128 .f32) (w1 : FVec F S256x128 .f32) (b1 : FVec F S128 .f32)
    (w2 : FVec F S128x128 .f32) (b2 g be : FVec F S128 .f32) : FVec F S100000x128 .f32 :=
  have t0 : FVec F S100000x256 .f32 := concatenate S100000x256 1 [⟨S100000x128, x⟩, ⟨S100000x128, x⟩] concatenates_S100000x128_S100000x128_S100000x256_d1
  have t1 : FVec F S100000x128 .f32 := Host.dotGeneral dot_S100000x256_S256x128_S100000x128_1_0_0_1_n_n none t0 w1
  have t2 : FVec F S1x128 .f32 := broadcastInDim S1x128 ![1] bcast_S128_S1x128_1 b1
  have t3 : FVec F S100000x128 .f32 := broadcastInDim S100000x128 ![0, 1] bcast_S1x128_S100000x128_0_1 t2
  have t4 : FVec F S100000x128 .f32 := addf t1 t3
  -- the call of silu on t4
  have s0 : FVec F S100000x128 .f32 := Host.negf t4
  have s1 : FVec F S100000x128 .f32 := Host.exp s0
  have sc : FVec F S_ .f32 := constant S_ .f32 0x3F800000#32
  have s2 : FVec F S100000x128 .f32 := broadcastInDim S100000x128 ![] bcast_S_S100000x128 sc
  have s3 : FVec F S100000x128 .f32 := addf s2 s1
  have sc0 : FVec F S_ .f32 := constant S_ .f32 0x3F800000#32
  have s4 : FVec F S100000x128 .f32 := broadcastInDim S100000x128 ![] bcast_S_S100000x128 sc0
  have s5 : FVec F S100000x128 .f32 := Host.divf s4 s3
  have t5 : FVec F S100000x128 .f32 := mulf t4 s5
  have t6 : FVec F S100000x128 .f32 := Host.dotGeneral dot_S100000x128_S128x128_S100000x128_1_0_0_1_n_n none t5 w2
  have t7 : FVec F S1x128 .f32 := broadcastInDim S1x128 ![1] bcast_S128_S1x128_1 b2
  have t8 : FVec F S100000x128 .f32 := broadcastInDim S100000x128 ![0, 1] bcast_S1x128_S100000x128_0_1 t7
  have y : FVec F S100000x128 .f32 := addf t6 t8
  have m0 : FVec F S_ .f32 := constant S_ .f32 0x00000000#32
  have m1 : FVec F S100000 .f32 := Host.reduceAdd y m0 reducesTo_S100000x128_S100000_d1 h_S_
  have m2 : FVec F S100000x1 .f32 := broadcastInDim S100000x1 ![0] bcast_S100000_S100000x1_0 m1
  have m3 : FVec F S_ .f32 := constant S_ .f32 0x43000000#32
  have m4 : FVec F S100000x1 .f32 := broadcastInDim S100000x1 ![] bcast_S_S100000x1 m3
  have mu : FVec F S100000x1 .f32 := Host.divf m2 m4
  have ddof : IVec S_ 32 := constantI S_ 32 0#32
  -- the call of _var on y and ddof
  have r0 : FVec F S_ .f32 := constant S_ .f32 0x00000000#32
  have r1 : FVec F S100000 .f32 := Host.reduceAdd y r0 reducesTo_S100000x128_S100000_d1 h_S_
  have r2 : FVec F S100000x1 .f32 := broadcastInDim S100000x1 ![0] bcast_S100000_S100000x1_0 r1
  have r3 : FVec F S_ .f32 := constant S_ .f32 0x43000000#32
  have r4 : FVec F S100000x1 .f32 := broadcastInDim S100000x1 ![] bcast_S_S100000x1 r3
  have r5 : FVec F S100000x1 .f32 := Host.divf r2 r4
  have r6 : FVec F S100000x128 .f32 := broadcastInDim S100000x128 ![0, 1] bcast_S100000x1_S100000x128_0_1 r5
  have r7 : FVec F S100000x128 .f32 := subf y r6
  have r8 : FVec F S100000x128 .f32 := mulf r7 r7
  have r9 : FVec F S_ .f32 := sitofp .f32 ddof
  have r10 : FVec F S_ .f32 := constant S_ .f32 0x43000000#32
  have r11 : FVec F S_ .f32 := subf r10 r9
  have r12 : FVec F S_ .f32 := constant S_ .f32 0x00000000#32
  have r13 : FVec F S100000 .f32 := Host.reduceAdd r8 r12 reducesTo_S100000x128_S100000_d1 h_S_
  have r14 : FVec F S100000x1 .f32 := broadcastInDim S100000x1 ![0] bcast_S100000_S100000x1_0 r13
  have r15 : FVec F S100000x1 .f32 := broadcastInDim S100000x1 ![] bcast_S_S100000x1 r11
  have r16 : FVec F S100000x1 .f32 := Host.divf r14 r15
  have r17 : FVec F S_ .f32 := constant S_ .f32 0x00000000#32
  have r18 : IVec S_ 1 := cmpf .ogt r11 r17
  have r19 : FVec F S_ .f32 := constant S_ .f32 0x7FC00000#32
  -- the call of _where on r18, r16 and r19
  have q0 : FVec F S_ .f32 := id r19
  have q1 : FVec F S100000x1 .f32 := broadcastInDim S100000x1 ![] bcast_S_S100000x1 q0
  have vr : FVec F S100000x1 .f32 := select (broadcastInDim S100000x1 ![] bcast_S_S100000x1 r18) r16 q1
  -- back in @main
  have n0 : FVec F S100000x128 .f32 := broadcastInDim S100000x128 ![0, 1] bcast_S100000x1_S100000x128_0_1 mu
  have n1 : FVec F S100000x128 .f32 := subf y n0
  have n2 : FVec F S_ .f32 := constant S_ .f32 0x3727C5AC#32
  have n3 : FVec F S100000x1 .f32 := broadcastInDim S100000x1 ![] bcast_S_S100000x1 n2
  have n4 : FVec F S100000x1 .f32 := addf vr n3
  have n5 : FVec F S100000x1 .f32 := Host.rsqrt n4
  have n6 : FVec F S100000x128 .f32 := broadcastInDim S100000x128 ![0, 1] bcast_S100000x1_S100000x128_0_1 n5
  have n7 : FVec F S100000x128 .f32 := mulf n1 n6
  have n8 : FVec F S1x128 .f32 := broadcastInDim S1x128 ![1] bcast_S128_S1x128_1 g
  have n9 : FVec F S100000x128 .f32 := broadcastInDim S100000x128 ![0, 1] bcast_S1x128_S100000x128_0_1 n8
  have n10 : FVec F S100000x128 .f32 := mulf n7 n9
  have n11 : FVec F S1x128 .f32 := broadcastInDim S1x128 ![1] bcast_S128_S1x128_1 be
  have n12 : FVec F S100000x128 .f32 := broadcastInDim S100000x128 ![0, 1] bcast_S1x128_S100000x128_0_1 n11
  have n13 : FVec F S100000x128 .f32 := addf n10 n12
  addf n13 x

/-- The reference's third result, the new edge rows, from the sixteen arguments in order. -/
def refEdges (a0 : FVec F S100000x128 .f32) (a1 : FVec F S40000x128 .f32) (a2 : FVec F S500000x128 .f32)
    (a3 : IVec S2x500000 32) (a4 : FVec F S384x128 .f32) (a5 : FVec F S128 .f32) (a6 : FVec F S128x128 .f32)
    (a7 a8 a9 : FVec F S128 .f32) (a10 : FVec F S256x128 .f32) (a11 : FVec F S128 .f32) (a12 : FVec F S128x128 .f32)
    (a13 a14 a15 : FVec F S128 .f32) : FVec F S500000x128 .f32 :=
  edgeTail (gatherDst a1 a3) (gatherSrc a0 a3) a2 a4 a5 a6 a7 a8 a9

/-- The reference's second result, the new rows of the 40000-row table. -/
def refDst (a0 : FVec F S100000x128 .f32) (a1 : FVec F S40000x128 .f32) (a2 : FVec F S500000x128 .f32)
    (a3 : IVec S2x500000 32) (a4 : FVec F S384x128 .f32) (a5 : FVec F S128 .f32) (a6 : FVec F S128x128 .f32)
    (a7 a8 a9 : FVec F S128 .f32) (a10 : FVec F S256x128 .f32) (a11 : FVec F S128 .f32) (a12 : FVec F S128x128 .f32)
    (a13 a14 a15 : FVec F S128 .f32) : FVec F S40000x128 .f32 :=
  dstTail a1 (segSum (refEdges a0 a1 a2 a3 a4 a5 a6 a7 a8 a9 a10 a11 a12 a13 a14 a15) a3) a10 a11 a12 a13 a14 a15

/-- The reference's first result, the new rows of the 100000-row table. -/
def refSrc (a0 : FVec F S100000x128 .f32) (a1 : FVec F S40000x128 .f32) (a2 : FVec F S500000x128 .f32)
    (a3 : IVec S2x500000 32) (a4 : FVec F S384x128 .f32) (a5 : FVec F S128 .f32) (a6 : FVec F S128x128 .f32)
    (a7 a8 a9 : FVec F S128 .f32) (a10 : FVec F S256x128 .f32) (a11 : FVec F S128 .f32) (a12 : FVec F S128x128 .f32)
    (a13 a14 a15 : FVec F S128 .f32) : FVec F S100000x128 .f32 :=
  srcTail a0 a10 a11 a12 a13 a14 a15

end Cert.ReferenceIdeal.Tails

end
-- ==== Proof.Glue.lean ====
/-
  The host arithmetic of the kernel program between its calls, at the extended reals.

  Before the first call the program cuts the two rows out of the edge index, flattens each, wraps a
  negative entry by the number of rows of the table it indexes, lays the result out as a one-column
  array and gathers rows of the two node tables with it; it also cuts the first layer's weight into
  its three [128, 128] blocks and lays each bias, gain and offset vector out as a one-row array.
  Every table is first changed to a narrower float format; on the extended reals a change of format
  is the identity, so each of these arrays is the same function of the arguments as the array the
  reference computes with the same chain of operations on the unconverted table. Between the first
  and the second call the program adds the edge rows into 40000 zero rows by row 1 of the edge
  index, and cuts and lays out the node layer's weights in the same way.

  The gathers and the scatter are never opened: the two sides apply the same operation, with the
  same dimension record, to equal operands.
-/
import proofs.«117479_j34084860461562_2_alg».proof.Proof.Gen.KernelIdeal.Launch
import proofs.«117479_j34084860461562_2_alg».proof.Proof.RefTailDefs
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen Idealize.ShloMosaic Idealize.ShloMosaic.ValueIdx

variable (W : Valuation τ sig (Elt Ideal))

/-- The gathered rows of the 40000-row table: the reference's gather of the unconverted table at the reference's start indices. -/
theorem glue_v12 :
    StableHlo.after hostOps0 W (Proc.devRef .tc main_v12)
      = Cert.ReferenceIdeal.Tails.gatherDst (F := Ideal) (W (Proc.devRef .tc main_arg1)) (W (Proc.devRef .tc main_arg3)) := by
  have e : (StableHlo.after hostOps0 W (Proc.devRef .tc main_v12) : FVec Ideal S500000x128 .bf16)
      = Host.gather gather_S40000x128_S500000x1_S500000x128_1_0_n_n_0_1_1128
          (truncf .bf16 (W (Proc.devRef .tc main_arg1) : FVec Ideal S40000x128 .f32) Gen.bitsLt_bf16_f32 : FVec Ideal S40000x128 .bf16)
          (Cert.ReferenceIdeal.Tails.idxDst (W (Proc.devRef .tc main_arg3))) := by
    after_results_simp <;> rfl
  exact e

/-- The gathered rows of the 100000-row table: the reference's gather of the unconverted table at the reference's start indices. -/
theorem glue_v19 :
    StableHlo.after hostOps0 W (Proc.devRef .tc main_v19)
      = Cert.ReferenceIdeal.Tails.gatherSrc (F := Ideal) (W (Proc.devRef .tc main_arg0)) (W (Proc.devRef .tc main_arg3)) := by
  have e : (StableHlo.after hostOps0 W (Proc.devRef .tc main_v19) : FVec Ideal S500000x128 .bf16)
      = Host.gather gather_S100000x128_S500000x1_S500000x128_1_0_n_n_0_1_1128
          (truncf .bf16 (W (Proc.devRef .tc main_arg0) : FVec Ideal S100000x128 .f32) Gen.bitsLt_bf16_f32 : FVec Ideal S100000x128 .bf16)
          (Cert.ReferenceIdeal.Tails.idxSrc (W (Proc.devRef .tc main_arg3))) := by
    after_results_simp <;> rfl
  exact e

/-- The edge layer's first weight block, for the rows of the 40000-row table: rows 0 to 127 of the [384, 128] weight. -/
theorem glue_v21 (k j : Fin 128) :
    (StableHlo.after hostOps0 W (Proc.devRef .tc main_v21) : FVec Ideal S128x128 .bf16) (ix2 k j)
      = (W (Proc.devRef .tc main_arg4) : FVec Ideal S384x128 .f32) (ix2 ⟨k.val, by omega⟩ j) := by
  have e : (StableHlo.after hostOps0 W (Proc.devRef .tc main_v21) : FVec Ideal S128x128 .bf16)
      = truncf .bf16 (extractStridedSlice S128x128 ![0, 0] (W (Proc.devRef .tc main_arg4) : FVec Ideal S384x128 .f32) slices_S384x128_S128x128_0_0 : FVec Ideal S128x128 .f32) Gen.bitsLt_bf16_f32 := by
    after_results_simp <;> rfl
  rw [e, truncf_apply]
  exact slice2_axis0_apply 0 _ _ k j ⟨k.val, by omega⟩ (by simp)

/-- The edge layer's second weight block, for the rows of the 100000-row table: rows 128 to 255 of the [384, 128] weight. -/
theorem glue_v23 (k j : Fin 128) :
    (StableHlo.after hostOps0 W (Proc.devRef .tc main_v23) : FVec Ideal S128x128 .bf16) (ix2 k j)
      = (W (Proc.devRef .tc main_arg4) : FVec Ideal S384x128 .f32) (ix2 ⟨128 + k.val, by omega⟩ j) := by
  have e : (StableHlo.after hostOps0 W (Proc.devRef .tc main_v23) : FVec Ideal S128x128 .bf16)
      = truncf .bf16 (extractStridedSlice S128x128 ![128, 0] (W (Proc.devRef .tc main_arg4) : FVec Ideal S384x128 .f32) slices_S384x128_S128x128_128_0 : FVec Ideal S128x128 .f32) Gen.bitsLt_bf16_f32 := by
    after_results_simp <;> rfl
  rw [e, truncf_apply]
  exact slice2_axis0_apply 128 _ _ k j ⟨128 + k.val, by omega⟩ (by simp)

/-- The edge layer's third weight block, for the edge rows: rows 256 to 383 of the [384, 128] weight. -/
theorem glue_v25 (k j : Fin 128) :
    (StableHlo.after hostOps0 W (Proc.devRef .tc main_v25) : FVec Ideal S128x128 .bf16) (ix2 k j)
      = (W (Proc.devRef .tc main_arg4) : FVec Ideal S384x128 .f32) (ix2 ⟨256 + k.val, by omega⟩ j) := by
  have e : (StableHlo.after hostOps0 W (Proc.devRef .tc main_v25) : FVec Ideal S128x128 .bf16)
      = truncf .bf16 (extractStridedSlice S128x128 ![256, 0] (W (Proc.devRef .tc main_arg4) : FVec Ideal S384x128 .f32) slices_S384x128_S128x128_256_0 : FVec Ideal S128x128 .f32) Gen.bitsLt_bf16_f32 := by
    after_results_simp <;> rfl
  rw [e, truncf_apply]
  exact slice2_axis0_apply 256 _ _ k j ⟨256 + k.val, by omega⟩ (by simp)

/-- The edge layer's second weight, unchanged by the change of format. -/
theorem glue_v26 (k j : Fin 128) :
    (StableHlo.after hostOps0 W (Proc.devRef .tc main_v26) : FVec Ideal S128x128 .bf16) (ix2 k j)
      = (W (Proc.devRef .tc main_arg6) : FVec Ideal S128x128 .f32) (ix2 k j) := by
  have e : (StableHlo.after hostOps0 W (Proc.devRef .tc main_v26) : FVec Ideal S128x128 .bf16)
      = (truncf .bf16 (W (Proc.devRef .tc main_arg6) : FVec Ideal S128x128 .f32) Gen.bitsLt_bf16_f32 : FVec Ideal S128x128 .bf16) := by
    after_results_simp <;> rfl
  rw [e, truncf_apply]

/-- The edge layer's first bias as a one-row array. -/
theorem glue_v27 (j : Fin 128) :
    (StableHlo.after hostOps0 W (Proc.devRef .tc main_v27) : FVec Ideal S1x128 .f32) (ix2 (0 : Fin 1) j)
      = (W (Proc.devRef .tc main_arg5) : FVec Ideal S128 .f32) (ix1 j) := by
  have e : (StableHlo.after hostOps0 W (Proc.devRef .tc main_v27) : FVec Ideal S1x128 .f32)
      = shapeCast S1x128 (W (Proc.devRef .tc main_arg5) : FVec Ideal S128 .f32) shapeCasts_S128_S1x128 := by
    after_results_simp <;> rfl
  rw [e]
  exact shapeCast_a_1a_apply _ _ (0 : Fin 1) j

/-- The edge layer's second bias as a one-row array. -/
theorem glue_v28 (j : Fin 128) :
    (StableHlo.after hostOps0 W (Proc.devRef .tc main_v28) : FVec Ideal S1x128 .f32) (ix2 (0 : Fin 1) j)
      = (W (Proc.devRef .tc main_arg7) : FVec Ideal S128 .f32) (ix1 j) := by
  have e : (StableHlo.after hostOps0 W (Proc.devRef .tc main_v28) : FVec Ideal S1x128 .f32)
      = shapeCast S1x128 (W (Proc.devRef .tc main_arg7) : FVec Ideal S128 .f32) shapeCasts_S128_S1x128 := by
    after_results_simp <;> rfl
  rw [e]
  exact shapeCast_a_1a_apply _ _ (0 : Fin 1) j

/-- The edge normalisation's gain as a one-row array. -/
theorem glue_v29 (j : Fin 128) :
    (StableHlo.after hostOps0 W (Proc.devRef .tc main_v29) : FVec Ideal S1x128 .f32) (ix2 (0 : Fin 1) j)
      = (W (Proc.devRef .tc main_arg8) : FVec Ideal S128 .f32) (ix1 j) := by
  have e : (StableHlo.after hostOps0 W (Proc.devRef .tc main_v29) : FVec Ideal S1x128 .f32)
      = shapeCast S1x128 (W (Proc.devRef .tc main_arg8) : FVec Ideal S128 .f32) shapeCasts_S128_S1x128 := by
    after_results_simp <;> rfl
  rw [e]
  exact shapeCast_a_1a_apply _ _ (0 : Fin 1) j

/-- The edge normalisation's offset as a one-row array. -/
theorem glue_v30 (j : Fin 128) :
    (StableHlo.after hostOps0 W (Proc.devRef .tc main_v30) : FVec Ideal S1x128 .f32) (ix2 (0 : Fin 1) j)
      = (W (Proc.devRef .tc main_arg9) : FVec Ideal S128 .f32) (ix1 j) := by
  have e : (StableHlo.after hostOps0 W (Proc.devRef .tc main_v30) : FVec Ideal S1x128 .f32)
      = shapeCast S1x128 (W (Proc.devRef .tc main_arg9) : FVec Ideal S128 .f32) shapeCasts_S128_S1x128 := by
    after_results_simp <;> rfl
  rw [e]
  exact shapeCast_a_1a_apply _ _ (0 : Fin 1) j

/-- Row 1 of the edge index as a flat array of 500000 entries, in the reference's spelling. -/
def row1 (ei : IVec Cert.ReferenceIdeal.S2x500000 32) : IVec Cert.ReferenceIdeal.S500000 32 :=
  shapeCast Cert.ReferenceIdeal.S500000
    (extractStridedSlice Cert.ReferenceIdeal.S1x500000 ![1, 0] ei Cert.ReferenceIdeal.Facts₀.slices_S2x500000_S1x500000_1_0)
    Cert.ReferenceIdeal.Facts₀.shapeCasts_S1x500000_S500000

/-- The flat row 1 of the edge index, which the scatter after the first call reads again. -/
theorem glue_v3 :
    StableHlo.after hostOps0 W (Proc.devRef .tc main_v3) = row1 (W (Proc.devRef .tc main_arg3)) := by
  have e : (StableHlo.after hostOps0 W (Proc.devRef .tc main_v3) : IVec S500000 32)
      = row1 (W (Proc.devRef .tc main_arg3)) := by
    after_results_simp <;> rfl
  exact e

/-- The edge rows added into 40000 zero rows by row 1 of the edge index: the reference's segment sum of the same edge rows,
    given that the flat row 1 computed before the first call is still in its buffer. -/
theorem glue_v34 (ei : IVec Cert.ReferenceIdeal.S2x500000 32) (h3 : W (Proc.devRef .tc main_v3) = row1 ei) :
    StableHlo.after hostOps1 W (Proc.devRef .tc main_v34)
      = Cert.ReferenceIdeal.Tails.segSum (F := Ideal) (W (Proc.devRef .tc main_v31)) ei := by
  have e : (StableHlo.after hostOps1 W (Proc.devRef .tc main_v34) : FVec Ideal S40000x128 .f32)
      = Host.scatterAdd scatter_S40000x128_S500000x1_S500000x128_1_0_0_1
          (broadcastInDim S40000x128 ![] bcast_S_S40000x128 (constant (F := Ideal) S_ .f32 0x00000000#32))
          (broadcastInDim S500000x1 ![0] bcast_S500000_S500000x1_0 (W (Proc.devRef .tc main_v3) : IVec S500000 32))
          (W (Proc.devRef .tc main_v31) : FVec Ideal S500000x128 .f32) := by
    after_results_simp <;> rfl
  rw [e, h3]
  rfl

/-- The node layer's first weight block, for the rows themselves: rows 0 to 127 of the [256, 128] weight. -/
theorem glue_v36 (k j : Fin 128) :
    (StableHlo.after hostOps1 W (Proc.devRef .tc main_v36) : FVec Ideal S128x128 .bf16) (ix2 k j)
      = (W (Proc.devRef .tc main_arg10) : FVec Ideal S256x128 .f32) (ix2 ⟨k.val, by omega⟩ j) := by
  have e : (StableHlo.after hostOps1 W (Proc.devRef .tc main_v36) : FVec Ideal S128x128 .bf16)
      = truncf .bf16 (extractStridedSlice S128x128 ![0, 0] (W (Proc.devRef .tc main_arg10) : FVec Ideal S256x128 .f32) slices_S256x128_S128x128_0_0 : FVec Ideal S128x128 .f32) Gen.bitsLt_bf16_f32 := by
    after_results_simp <;> rfl
  rw [e, truncf_apply]
  exact slice2_axis0_apply 0 _ _ k j ⟨k.val, by omega⟩ (by simp)

/-- The node layer's second weight block, for the aggregated edge rows: rows 128 to 255 of the [256, 128] weight. -/
theorem glue_v38 (k j : Fin 128) :
    (StableHlo.after hostOps1 W (Proc.devRef .tc main_v38) : FVec Ideal S128x128 .bf16) (ix2 k j)
      = (W (Proc.devRef .tc main_arg10) : FVec Ideal S256x128 .f32) (ix2 ⟨128 + k.val, by omega⟩ j) := by
  have e : (StableHlo.after hostOps1 W (Proc.devRef .tc main_v38) : FVec Ideal S128x128 .bf16)
      = truncf .bf16 (extractStridedSlice S128x128 ![128, 0] (W (Proc.devRef .tc main_arg10) : FVec Ideal S256x128 .f32) slices_S256x128_S128x128_128_0 : FVec Ideal S128x128 .f32) Gen.bitsLt_bf16_f32 := by
    after_results_simp <;> rfl
  rw [e, truncf_apply]
  exact slice2_axis0_apply 128 _ _ k j ⟨128 + k.val, by omega⟩ (by simp)

/-- The node layer's second weight, unchanged by the change of format. -/
theorem glue_v39 (k j : Fin 128) :
    (StableHlo.after hostOps1 W (Proc.devRef .tc main_v39) : FVec Ideal S128x128 .bf16) (ix2 k j)
      = (W (Proc.devRef .tc main_arg12) : FVec Ideal S128x128 .f32) (ix2 k j) := by
  have e : (StableHlo.after hostOps1 W (Proc.devRef .tc main_v39) : FVec Ideal S128x128 .bf16)
      = (truncf .bf16 (W (Proc.devRef .tc main_arg12) : FVec Ideal S128x128 .f32) Gen.bitsLt_bf16_f32 : FVec Ideal S128x128 .bf16) := by
    after_results_simp <;> rfl
  rw [e, truncf_apply]

/-- The node layer's first bias as a one-row array. -/
theorem glue_v40 (j : Fin 128) :
    (StableHlo.after hostOps1 W (Proc.devRef .tc main_v40) : FVec Ideal S1x128 .f32) (ix2 (0 : Fin 1) j)
      = (W (Proc.devRef .tc main_arg11) : FVec Ideal S128 .f32) (ix1 j) := by
  have e : (StableHlo.after hostOps1 W (Proc.devRef .tc main_v40) : FVec Ideal S1x128 .f32)
      = shapeCast S1x128 (W (Proc.devRef .tc main_arg11) : FVec Ideal S128 .f32) shapeCasts_S128_S1x128 := by
    after_results_simp <;> rfl
  rw [e]
  exact shapeCast_a_1a_apply _ _ (0 : Fin 1) j

/-- The node layer's second bias as a one-row array. -/
theorem glue_v41 (j : Fin 128) :
    (StableHlo.after hostOps1 W (Proc.devRef .tc main_v41) : FVec Ideal S1x128 .f32) (ix2 (0 : Fin 1) j)
      = (W (Proc.devRef .tc main_arg13) : FVec Ideal S128 .f32) (ix1 j) := by
  have e : (StableHlo.after hostOps1 W (Proc.devRef .tc main_v41) : FVec Ideal S1x128 .f32)
      = shapeCast S1x128 (W (Proc.devRef .tc main_arg13) : FVec Ideal S128 .f32) shapeCasts_S128_S1x128 := by
    after_results_simp <;> rfl
  rw [e]
  exact shapeCast_a_1a_apply _ _ (0 : Fin 1) j

/-- The node normalisation's gain as a one-row array. -/
theorem glue_v42 (j : Fin 128) :
    (StableHlo.after hostOps1 W (Proc.devRef .tc main_v42) : FVec Ideal S1x128 .f32) (ix2 (0 : Fin 1) j)
      = (W (Proc.devRef .tc main_arg14) : FVec Ideal S128 .f32) (ix1 j) := by
  have e : (StableHlo.after hostOps1 W (Proc.devRef .tc main_v42) : FVec Ideal S1x128 .f32)
      = shapeCast S1x128 (W (Proc.devRef .tc main_arg14) : FVec Ideal S128 .f32) shapeCasts_S128_S1x128 := by
    after_results_simp <;> rfl
  rw [e]
  exact shapeCast_a_1a_apply _ _ (0 : Fin 1) j

/-- The node normalisation's offset as a one-row array. -/
theorem glue_v43 (j : Fin 128) :
    (StableHlo.after hostOps1 W (Proc.devRef .tc main_v43) : FVec Ideal S1x128 .f32) (ix2 (0 : Fin 1) j)
      = (W (Proc.devRef .tc main_arg15) : FVec Ideal S128 .f32) (ix1 j) := by
  have e : (StableHlo.after hostOps1 W (Proc.devRef .tc main_v43) : FVec Ideal S1x128 .f32)
      = shapeCast S1x128 (W (Proc.devRef .tc main_arg15) : FVec Ideal S128 .f32) shapeCasts_S128_S1x128 := by
    after_results_simp <;> rfl
  rw [e]
  exact shapeCast_a_1a_apply _ _ (0 : Fin 1) j

end Cert.KernelIdeal.Glue

end
-- ==== Proof.LibDenseRef.lean ====
/-
  One dense layer in the host's spelling, read at an entry.

  On the host a dense layer is a matrix product, a bias vector placed along the rows (first as a one-row table, then
  repeated down the rows) and, for a rectified layer, the maximum with a table of zeros made from a scalar zero.
  Entry (a, j) is  Σ_k x(a, k) · w(k, j) + b(j)  (and its maximum with 0): the same value as the vector unit's
  spelling of the layer (LibDense), whose bias is a one-row table. No finiteness is assumed.
-/
import Idealize.ShloMosaic.Lib.ValueIdx
import Idealize.ShloMosaic.Lib.ValueLayout
import Idealize.ShloMosaic.Lib.Pipeline.Value
import Idealize.ShloMosaic.PureOps.Ideal.Laws
import proofs.«117479_j34084860461562_2_alg».proof.Proof.LibDot

noncomputable section

open scoped BigOperators

namespace Cert.LibDenseRef

open Idealize.ShloMosaic Idealize.ShloMosaic.ValueIdx

/-- A scalar repeated over a whole table: every entry is the scalar. -/
theorem scalar_apply {α : Type} {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

/-- The linear part of the layer at entry (a, j). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (Host.dotGeneral d none x w) (broadcastInDim ⟨2, ![m, p]⟩ ![0, 1] hbc (broadcastInDim ⟨2, ![1, p]⟩ ![1] hd b)) (ix2 a j)
      = (∑ k : Fin n, x (ix2 a k) * w (ix2 k j)) + b (ix1 j) := by
  rw [addf_apply, Cert.Sage.LibDot.row_dims_apply b hd hbc a j]
  congr 1
  simp only [Host.dotGeneral]
  rw [Ideal.dotGeneral_apply]
  exact Cert.Sage.LibDot.sum_plain d hr hs hl0 hl1 hr0 hr1 (fun i => x i) (fun i => w i) a j

/-- The rectified layer at entry (a, j). -/
theorem relu_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1])
    (hz : (⟨0, ![]⟩ : Shape).BroadcastsInDim ⟨2, ![m, p]⟩ ![]) (a : Fin m) (j : Fin p) :
    maximumf (addf (Host.dotGeneral d none x w) (broadcastInDim ⟨2, ![m, p]⟩ ![0, 1] hbc (broadcastInDim ⟨2, ![1, p]⟩ ![1] hd b)))
        (broadcastInDim ⟨2, ![m, p]⟩ ![] hz (constant (F := Ideal) ⟨0, ![]⟩ .f32 0x00000000#32)) (ix2 a j)
      = max ((∑ k : Fin n, x (ix2 a k) * w (ix2 k j)) + b (ix1 j)) 0 := by
  refine (maximumf_apply _ _ (ix2 a j)).trans ?_
  refine congrArg₂ max (lin_apply d hr hs hl0 hl1 hr0 hr1 x w b hd hbc a j) ?_
  rw [scalar_apply]
  exact Ideal.ofBits_zero_f32

end Cert.LibDenseRef

end
-- ==== Proof.LibCols.lean ====
/-
  Tables laid side by side along the column axis, and column slices, read at an index.

  Let A be an m × a table and B an m × b table of entries of any type. Their concatenation along the column axis is
  an m × n table with n = a + b whose row r is row r of A followed by row r of B: column c < a reads A at (r, c) and
  column a + c with c < b reads B at (r, c). In the other direction, the slice of an m × n table X that keeps all rows
  and the b columns from column o on reads, at (r, c), X at (r, o + c). Both facts are stated for arbitrary extents,
  so they apply at any literal sizes.
-/
import Idealize.ShloMosaic.Lib.Pipeline.Value
import Idealize.ShloMosaic.Lib.ValueIdx

namespace Cert.LibCols

open Idealize.ShloMosaic Idealize.ShloMosaic.ValueIdx

variable {α : Type} {m a b n : Nat}

/-- Two tables side by side have as many columns as the two together. -/
theorem concat_cols_width (h : Shape.Concatenates [⟨2, ![m, a]⟩, ⟨2, ![m, b]⟩] ⟨2, ![m, n]⟩ 1) : a + b = n := by
  have := h.2.2
  simpa using this

/-- A column of the left table is that column of the side-by-side table. -/
theorem concat_cols_left (A : (⟨2, ![m, a]⟩ : Shape).Idx → α) (B : (⟨2, ![m, b]⟩ : Shape).Idx → α)
    (h : Shape.Concatenates [⟨2, ![m, a]⟩, ⟨2, ![m, b]⟩] ⟨2, ![m, n]⟩ 1) (r : Fin m) (c : Fin a) (hc : c.val < n) :
    concatenate ⟨2, ![m, n]⟩ 1 [⟨⟨2, ![m, a]⟩, A⟩, ⟨⟨2, ![m, b]⟩, B⟩] h (ix2 r ⟨c.val, hc⟩) = A (ix2 r c) :=
  concatenate_pair_apply_left (t := ⟨2, ![m, n]⟩) (s₁ := ⟨2, ![m, a]⟩) (s₂ := ⟨2, ![m, b]⟩) (1 : Fin 2) A B h _ rfl
    (ix2 r c) (fun d => match d with | ⟨0, _⟩ => rfl | ⟨1, _⟩ => rfl)

/-- Column c of the right table is column a + c of the side-by-side table, a the width of the left one. -/
theorem concat_cols_right (A : (⟨2, ![m, a]⟩ : Shape).Idx → α) (B : (⟨2, ![m, b]⟩ : Shape).Idx → α)
    (h : Shape.Concatenates [⟨2, ![m, a]⟩, ⟨2, ![m, b]⟩] ⟨2, ![m, n]⟩ 1) (r : Fin m) (c : Fin b)
    (hc : a + c.val < n) :
    concatenate ⟨2, ![m, n]⟩ 1 [⟨⟨2, ![m, a]⟩, A⟩, ⟨⟨2, ![m, b]⟩, B⟩] h (ix2 r ⟨a + c.val, hc⟩) = B (ix2 r c) :=
  concatenate_pair_apply_right (t := ⟨2, ![m, n]⟩) (s₁ := ⟨2, ![m, a]⟩) (s₂ := ⟨2, ![m, b]⟩) (1 : Fin 2) A B h _ rfl rfl
    (ix2 r c)
    (fun d hd => match d, hd with
      | ⟨0, _⟩, _ => rfl
      | ⟨1, _⟩, hd => absurd rfl hd)
    (Nat.add_comm _ _)

/-- The side-by-side table at any column: the left table below its width, the right table from there on. -/
theorem concat_cols_apply (A : (⟨2, ![m, a]⟩ : Shape).Idx → α) (B : (⟨2, ![m, b]⟩ : Shape).Idx → α)
    (h : Shape.Concatenates [⟨2, ![m, a]⟩, ⟨2, ![m, b]⟩] ⟨2, ![m, n]⟩ 1) (r : Fin m) (c : Fin n) :
    concatenate ⟨2, ![m, n]⟩ 1 [⟨⟨2, ![m, a]⟩, A⟩, ⟨⟨2, ![m, b]⟩, B⟩] h (ix2 r c)
      = if hlt : c.val < a then A (ix2 r ⟨c.val, hlt⟩)
        else B (ix2 r ⟨c.val - a, by have := concat_cols_width h; have := c.isLt; omega⟩) := by
  have hw := concat_cols_width h
  by_cases hlt : c.val < a
  · rw [dif_pos hlt]
    exact concat_cols_left A B h r ⟨c.val, hlt⟩ c.isLt
  · rw [dif_neg hlt]
    have hb : c.val - a < b := by have := c.isLt; omega
    have hc : a + (c.val - a) < n := by have := c.isLt; omega
    have e : c = ⟨a + (c.val - a), hc⟩ := Fin.ext (by show c.val = a + (c.val - a); omega)
    have := concat_cols_right A B h r ⟨c.val - a, hb⟩ hc
    rw [← e] at this
    exact this

/-- The slice of all rows and the b columns from column o on reads the table b columns further right. -/
theorem slice_cols_apply (o : Nat) (X : (⟨2, ![m, n]⟩ : Shape).Idx → α)
    (h : (⟨2, ![m, n]⟩ : Shape).Slices ![0, o] ⟨2, ![m, b]⟩) (r : Fin m) (c : Fin b) (hc : o + c.val < n) :
    extractStridedSlice ⟨2, ![m, b]⟩ ![0, o] X h (ix2 r c) = X (ix2 r ⟨o + c.val, hc⟩) :=
  extractStridedSlice_apply (s := ⟨2, ![m, n]⟩) (t := ⟨2, ![m, b]⟩) ![0, o] X h (ix2 r c) (ix2 r ⟨o + c.val, hc⟩)
    (fun d => match d with
      | ⟨0, _⟩ => (Nat.zero_add _).symm
      | ⟨1, _⟩ => rfl)

/-- The slice of all rows and the first b columns reads the table at the same position. -/
theorem slice_cols_zero_apply (X : (⟨2, ![m, n]⟩ : Shape).Idx → α)
    (h : (⟨2, ![m, n]⟩ : Shape).Slices ![0, 0] ⟨2, ![m, b]⟩) (r : Fin m) (c : Fin b) (hc : c.val < n) :
    extractStridedSlice ⟨2, ![m, b]⟩ ![0, 0] X h (ix2 r c) = X (ix2 r ⟨c.val, hc⟩) :=
  extractStridedSlice_apply (s := ⟨2, ![m, n]⟩) (t := ⟨2, ![m, b]⟩) ![0, 0] X h (ix2 r c) (ix2 r ⟨c.val, hc⟩)
    (fun d => match d with
      | ⟨0, _⟩ => (Nat.zero_add _).symm
      | ⟨1, _⟩ => (Nat.zero_add _).symm)

end Cert.LibCols
-- ==== Proof.LibHostReads.lean ====
/-
  Host operations read at an index, for tables of any size, at the ideal values.

  Laying out: a vector of n entries placed along axis 1 of a one-row table reads, at (u, j), its entry j; a one-column
  table repeated along n columns reads, at (r, t), the column's entry r.

  A plain product: the host's product of an m × n table with an n × p table, whose dimension record has one contracted
  axis of extent n, rows free on the left and columns free on the right (the record's coordinate facts, bundled as
  `PlainDot`), reads at (a, b) the sum over k of l(a, k) · r(k, b). No finiteness is assumed.
-/
import proofs.«117479_j34084860461562_2_alg».proof.Proof.LibDot
import Idealize.ShloMosaic.Lib.IdealHost

noncomputable section

open scoped BigOperators

namespace Cert.LibHostReads

open Idealize.ShloMosaic Idealize.ShloMosaic.ValueIdx

section Reads
variable {α : Type}

/-- A vector of n entries laid along axis 1 of a one-row table reads, at (u, j), its entry j. -/
theorem bcast_row_apply {n : Nat} (hd : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] hd x (ix2 u j) = x (ix1 j) := by
  refine broadcastInDim_apply ![1] hd x (ix2 u j) (ix1 j) ?_
  intro a
  match a with
  | ⟨0, _⟩ =>
    show j.val = if n = 1 then 0 else j.val
    split
    · have := j.isLt; omega
    · rfl

/-- A one-column table repeated along n columns reads, at (r, t), the column's entry r. -/
theorem bcast_col_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

end Reads

/-- The coordinate facts of a plain [m, n] × [n, p] product's record: one contracted axis of extent n, the left index
    at output (a, b) and position q being (a, q), the right index (q, b). -/
structure PlainDot {m n p : Nat} (d : DotDims ⟨2, ![m, n]⟩ ⟨2, ![n, p]⟩ ⟨2, ![m, p]⟩) : Prop where
  rank : d.contr.rank = 1
  size : d.contr.size ⟨0, by omega⟩ = n
  l0 : ∀ (i : (⟨2, ![m, p]⟩ : Shape).Idx) (q : d.contr.Idx), (d.lhsIdx i q 0).val = (i 0).val
  l1 : ∀ (i : (⟨2, ![m, p]⟩ : Shape).Idx) (q : d.contr.Idx), (d.lhsIdx i q 1).val = (q ⟨0, by omega⟩).val
  r0 : ∀ (i : (⟨2, ![m, p]⟩ : Shape).Idx) (q : d.contr.Idx), (d.rhsIdx i q 0).val = (q ⟨0, by omega⟩).val
  r1 : ∀ (i : (⟨2, ![m, p]⟩ : Shape).Idx) (q : d.contr.Idx), (d.rhsIdx i q 1).val = (i 1).val

/-- A plain product on the host read at (a, b): the sum over the shared coordinate. -/
theorem dot_apply {m n p : Nat} {d : DotDims ⟨2, ![m, n]⟩ ⟨2, ![n, p]⟩ ⟨2, ![m, p]⟩} (hd : PlainDot d)
    (l : (⟨2, ![m, n]⟩ : Shape).Idx → EReal) (r : (⟨2, ![n, p]⟩ : Shape).Idx → EReal) (a : Fin m) (b : Fin p) :
    Host.dotGeneral (F := Ideal) (φ₁ := .f32) (φ₂ := .f32) d none l r (ix2 a b) = ∑ k : Fin n, l (ix2 a k) * r (ix2 k b) :=
  (Ideal.dotGeneral_apply d none _ l r (ix2 a b)).trans
    (Cert.Sage.LibDot.sum_plain d hd.rank hd.size hd.l0 hd.l1 hd.r0 hd.r1 l r a b)

end Cert.LibHostReads

end
-- ==== Proof.RefTails.lean ====
/-
  The reference's arithmetic read at an index.

  A row of the edge MLP (of the node MLP) as the host computes it is the row the specification describes:

  * one contraction over the concatenated row (384 = 128 + 128 + 128 columns, or 256 = 128 + 128) is the sum of the
    three (two) contractions over the pieces, added left to right, because the sum over the contracted positions splits
    along the blocks of positions; only associativity of addition on the extended reals is used;
  * x · (1 / (1 + exp (−x))) is x · logistic x by definition of the logistic function;
  * a row's sum from the zero word is the sum of its 128 entries, and the mean divides it by the word 128.0;
  * the variance divides the sum of squared deviations by 128.0 − (the integer 0 as a float), which is 128.0, and is
    selected over a NaN word on the condition 128.0 − 0 > 0, which holds: the selected value is the quotient;
  * the reciprocal square root, ε, gain, offset and residual are entrywise.

  The statements are proved once for a table of any number n of rows, over the shape facts the operations take,
  and then read at the three sizes of the program.
-/
import proofs.«117479_j34084860461562_2_alg».proof.Proof.RefTailDefs
import proofs.«117479_j34084860461562_2_alg».proof.Proof.MlpSpec
import proofs.«117479_j34084860461562_2_alg».proof.Proof.LibDot
import proofs.«117479_j34084860461562_2_alg».proof.Proof.LibKeepdims
import proofs.«117479_j34084860461562_2_alg».proof.Proof.LibDenseRef
import proofs.«117479_j34084860461562_2_alg».proof.Proof.LibCols
import proofs.«117479_j34084860461562_2_alg».proof.Proof.LibHostReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Tails

open Idealize.ShloMosaic Idealize.ShloMosaic.ValueIdx Cert.ReferenceIdeal
open Cert.ReferenceIdeal.Facts₀ Cert.ReferenceIdeal.Facts
open Cert.LibHostReads (PlainDot)

/-! ## The words that occur -/

/-- The word 0x43000000 is 128. -/
theorem c128_eq : Cert.MlpSpec.c128 = ((128 : ℝ) : EReal) := by
  simp [Cert.MlpSpec.c128, Ideal.ofBits, Ideal.ieee, -EReal.coe_mul]; norm_num

/-- The word 0x3F800000 is 1. -/
theorem one_eq : Ideal.ofBits .f32 0x3F800000#32 = 1 := by
  simp [Ideal.ofBits, Ideal.ieee, -EReal.coe_mul]; norm_num

/-- The integer zero word converted to a float is 0. -/
theorem sitofp_zero : ((((0#32 : BitVec 32).toInt : ℝ)) : EReal) = 0 := by simp

/-! ## Sums over the blocks of a concatenated row -/

/-- A sum over 384 positions is the sum over the first 128, plus that over the next 128, plus that over the last 128. -/
theorem sum_three (f : Fin 384 → EReal) : ∑ k : Fin 384, f k
    = ((∑ k : Fin 128, f ⟨k.val, by omega⟩) + (∑ k : Fin 128, f ⟨128 + k.val, by omega⟩)) + ∑ k : Fin 128, f ⟨256 + k.val, by omega⟩ := by
  show ∑ k : Fin (128 + 128 + 128), f k = _
  rw [Fin.sum_univ_add, Fin.sum_univ_add]
  rfl

/-- A sum over 256 positions is the sum over the first 128 plus that over the last 128. -/
theorem sum_two (f : Fin 256 → EReal) : ∑ k : Fin 256, f k
    = (∑ k : Fin 128, f ⟨k.val, by omega⟩) + (∑ k : Fin 128, f ⟨128 + k.val, by omega⟩) := by
  show ∑ k : Fin (128 + 128), f k = _
  rw [Fin.sum_univ_add]
  rfl

/-! ## Three tables side by side, read at a column of each block -/

section Cat3
variable {α : Type} {m : Nat}

/-- A column of the first of three 128-column tables side by side. -/
theorem cat3_first (A B C : (⟨2, ![m, 128]⟩ : Shape).Idx → α)
    (h : Shape.Concatenates [⟨2, ![m, 128]⟩, ⟨2, ![m, 128]⟩, ⟨2, ![m, 128]⟩] ⟨2, ![m, 384]⟩ 1) (r : Fin m) (c : Fin 128)
    (hc : c.val < 384) :
    concatenate ⟨2, ![m, 384]⟩ 1 [⟨⟨2, ![m, 128]⟩, A⟩, ⟨⟨2, ![m, 128]⟩, B⟩, ⟨⟨2, ![m, 128]⟩, C⟩] h (ix2 r ⟨c.val, hc⟩) = A (ix2 r c) :=
  concatenate_apply_piece (t := ⟨2, ![m, 384]⟩) (1 : Fin 2)
    ([⟨⟨2, ![m, 128]⟩, A⟩, ⟨⟨2, ![m, 128]⟩, B⟩, ⟨⟨2, ![m, 128]⟩, C⟩] : List ((s : Shape) × (s.Idx → α))) h (ix2 r ⟨c.val, hc⟩)
    0 (by show 0 < 3; omega) ⟨2, ![m, 128]⟩ A rfl rfl 0 rfl (ix2 r c)
    (fun d hd => match d, hd with
      | ⟨0, _⟩, _ => rfl
      | ⟨1, _⟩, hd => absurd rfl hd)
    (Nat.zero_add _)

/-- A column of the second: 128 columns further right. -/
theorem cat3_second (A B C : (⟨2, ![m, 128]⟩ : Shape).Idx → α)
    (h : Shape.Concatenates [⟨2, ![m, 128]⟩, ⟨2, ![m, 128]⟩, ⟨2, ![m, 128]⟩] ⟨2, ![m, 384]⟩ 1) (r : Fin m) (c : Fin 128)
    (hc : 128 + c.val < 384) :
    concatenate ⟨2, ![m, 384]⟩ 1 [⟨⟨2, ![m, 128]⟩, A⟩, ⟨⟨2, ![m, 128]⟩, B⟩, ⟨⟨2, ![m, 128]⟩, C⟩] h (ix2 r ⟨128 + c.val, hc⟩) = B (ix2 r c) :=
  concatenate_apply_piece (t := ⟨2, ![m, 384]⟩) (1 : Fin 2)
    ([⟨⟨2, ![m, 128]⟩, A⟩, ⟨⟨2, ![m, 128]⟩, B⟩, ⟨⟨2, ![m, 128]⟩, C⟩] : List ((s : Shape) × (s.Idx → α))) h (ix2 r ⟨128 + c.val, hc⟩)
    1 (by show 1 < 3; omega) ⟨2, ![m, 128]⟩ B rfl rfl 128 rfl (ix2 r c)
    (fun d hd => match d, hd with
      | ⟨0, _⟩, _ => rfl
      | ⟨1, _⟩, hd => absurd rfl hd)
    rfl

/-- A column of the third: 256 columns further right. -/
theorem cat3_third (A B C : (⟨2, ![m, 128]⟩ : Shape).Idx → α)
    (h : Shape.Concatenates [⟨2, ![m, 128]⟩, ⟨2, ![m, 128]⟩, ⟨2, ![m, 128]⟩] ⟨2, ![m, 384]⟩ 1) (r : Fin m) (c : Fin 128)
    (hc : 256 + c.val < 384) :
    concatenate ⟨2, ![m, 384]⟩ 1 [⟨⟨2, ![m, 128]⟩, A⟩, ⟨⟨2, ![m, 128]⟩, B⟩, ⟨⟨2, ![m, 128]⟩, C⟩] h (ix2 r ⟨256 + c.val, hc⟩) = C (ix2 r c) :=
  concatenate_apply_piece (t := ⟨2, ![m, 384]⟩) (1 : Fin 2)
    ([⟨⟨2, ![m, 128]⟩, A⟩, ⟨⟨2, ![m, 128]⟩, B⟩, ⟨⟨2, ![m, 128]⟩, C⟩] : List ((s : Shape) × (s.Idx → α))) h (ix2 r ⟨256 + c.val, hc⟩)
    2 (by show 2 < 3; omega) ⟨2, ![m, 128]⟩ C rfl rfl 256 rfl (ix2 r c)
    (fun d hd => match d, hd with
      | ⟨0, _⟩, _ => rfl
      | ⟨1, _⟩, hd => absurd rfl hd)
    rfl

end Cat3

/-! ## A table of n rows of 128 entries: the shape facts its operations take, and the operations read at an index -/

/-- The shape facts the operations on an n × 128 table take. -/
structure RowFacts (n : Nat) : Prop where
  hb : (⟨1, ![128]⟩ : Shape).BroadcastsInDim ⟨2, ![1, 128]⟩ ![1]
  hrow : (⟨2, ![1, 128]⟩ : Shape).BroadcastsInDim ⟨2, ![n, 128]⟩ ![0, 1]
  hsc : (⟨0, ![]⟩ : Shape).BroadcastsInDim ⟨2, ![n, 128]⟩ ![]
  hred : (⟨2, ![n, 128]⟩ : Shape).ReducesTo [1] ⟨1, ![n]⟩
  hS : 0 < (⟨0, ![]⟩ : Shape).numel
  hvc : (⟨1, ![n]⟩ : Shape).BroadcastsInDim ⟨2, ![n, 1]⟩ ![0]
  hs1 : (⟨0, ![]⟩ : Shape).BroadcastsInDim ⟨2, ![n, 1]⟩ ![]
  hcol : (⟨2, ![n, 1]⟩ : Shape).BroadcastsInDim ⟨2, ![n, 128]⟩ ![0, 1]

section Generic
variable {n : Nat} (fx : RowFacts n)

/-- A reduction of the rows of an n × 128 table has the vector unit's shape relation too. -/
theorem red_of (h : (⟨2, ![n, 128]⟩ : Shape).ReducesTo [1] ⟨1, ![n]⟩) : (⟨2, ![n, 128]⟩ : Shape).Reduces [1] ⟨1, ![n]⟩ :=
  ⟨h.1, Nat.one_pos, h.2⟩

/-- Row r with coordinate k inserted on the reduced axis is the index (r, k). -/
theorem lift_eq (h : (⟨2, ![n, 128]⟩ : Shape).Reduces [1] ⟨1, ![n]⟩) (r : Fin n) (k : Fin 128) : h.lift (ix1 r) k = ix2 r k := by
  funext c
  match c with
  | ⟨0, _⟩ => rfl
  | ⟨1, _⟩ => rfl

/-- A vector of 128 entries laid along each of the n rows. -/
def brow (b : FVec Ideal ⟨1, ![128]⟩ .f32) : FVec Ideal ⟨2, ![n, 128]⟩ .f32 :=
  broadcastInDim ⟨2, ![n, 128]⟩ ![0, 1] fx.hrow (broadcastInDim ⟨2, ![1, 128]⟩ ![1] fx.hb b)

theorem brow_apply (b : FVec Ideal ⟨1, ![128]⟩ .f32) (r : Fin n) (j : Fin 128) : brow fx b (ix2 r j) = b (ix1 j) :=
  Cert.Sage.LibDot.row_dims_apply b fx.hb fx.hrow r j

/-- A column of n entries repeated along 128 columns. -/
def bcol (c : FVec Ideal ⟨2, ![n, 1]⟩ .f32) : FVec Ideal ⟨2, ![n, 128]⟩ .f32 := broadcastInDim ⟨2, ![n, 128]⟩ ![0, 1] fx.hcol c

theorem bcol_apply (c : FVec Ideal ⟨2, ![n, 1]⟩ .f32) (r : Fin n) (j : Fin 128) : bcol fx c (ix2 r j) = c (ix2 r (0 : Fin 1)) :=
  Cert.LibHostReads.bcast_col_apply fx.hcol c r j

/-- A scalar repeated down a column of n entries. -/
def sc1 (z : FVec Ideal ⟨0, ![]⟩ .f32) : FVec Ideal ⟨2, ![n, 1]⟩ .f32 := broadcastInDim ⟨2, ![n, 1]⟩ ![] fx.hs1 z

theorem sc1_apply (z : FVec Ideal ⟨0, ![]⟩ .f32) (i : (⟨2, ![n, 1]⟩ : Shape).Idx) : sc1 fx z i = z ix0 :=
  Cert.LibDenseRef.scalar_apply z fx.hs1 i

/-- The sums of the rows, from the zero word, as a column. -/
def rowSum (y : FVec Ideal ⟨2, ![n, 128]⟩ .f32) : FVec Ideal ⟨2, ![n, 1]⟩ .f32 :=
  broadcastInDim ⟨2, ![n, 1]⟩ ![0] fx.hvc (Host.reduceAdd y (constant (F := Ideal) ⟨0, ![]⟩ .f32 0x00000000#32) fx.hred fx.hS)

theorem rowSum_apply (y : FVec Ideal ⟨2, ![n, 128]⟩ .f32) (r : Fin n) :
    rowSum fx y (ix2 r (0 : Fin 1)) = ∑ k : Fin 128, y (ix2 r k) := by
  unfold rowSum
  rw [Cert.LibKeepdims.vec_col_apply]
  show Ideal.hostReduceAdd fx.hred y (Ideal.ofBits .f32 0x00000000#32) (ix1 r) = _
  rw [Ideal.hostReduceAdd_single fx.hred (red_of fx.hred), Ideal.ofBits_zero_f32, zero_add]
  show ∑ k : Fin 128, y ((red_of fx.hred).lift (ix1 r) k) = _
  exact Finset.sum_congr rfl fun k _ => by rw [lift_eq]

/-- The means of the rows, as a column: the sums divided by the word 128.0. -/
def meanH (y : FVec Ideal ⟨2, ![n, 128]⟩ .f32) : FVec Ideal ⟨2, ![n, 1]⟩ .f32 :=
  Host.divf (rowSum fx y) (sc1 fx (constant (F := Ideal) ⟨0, ![]⟩ .f32 0x43000000#32))

theorem meanH_apply (y : FVec Ideal ⟨2, ![n, 128]⟩ .f32) (r : Fin n) :
    meanH fx y (ix2 r (0 : Fin 1)) = Cert.MlpSpec.mean (fun k => y (ix2 r k)) := by
  show Ideal.div (rowSum fx y (ix2 r (0 : Fin 1))) (sc1 fx (constant (F := Ideal) ⟨0, ![]⟩ .f32 0x43000000#32) (ix2 r (0 : Fin 1))) = _
  rw [rowSum_apply, sc1_apply]
  rfl

/-- The divisor of the variance: the word 128.0 less the integer zero as a float. -/
def denom : FVec Ideal ⟨0, ![]⟩ .f32 :=
  subf (constant (F := Ideal) ⟨0, ![]⟩ .f32 0x43000000#32) (sitofp .f32 (constantI ⟨0, ![]⟩ 32 0#32))

theorem denom_apply : denom ix0 = Cert.MlpSpec.c128 := by
  show Cert.MlpSpec.c128 - ((((0#32 : BitVec 32).toInt : ℝ)) : EReal) = _
  rw [sitofp_zero, sub_zero]

/-- The divisor is above zero: the guard of the division holds. -/
theorem guard_apply : cmpf .ogt denom (constant (F := Ideal) ⟨0, ![]⟩ .f32 0x00000000#32) ix0 = 1#1 := by
  show Ideal.cmp .ogt (denom ix0) (Ideal.ofBits .f32 0x00000000#32) = 1#1
  rw [denom_apply, Ideal.ofBits_zero_f32, c128_eq]
  have h : (0 : EReal) < ((128 : ℝ) : EReal) := by exact_mod_cast (by norm_num : (0 : ℝ) < 128)
  simp [Ideal.cmp, h]

/-- The variances of the rows, as a column, with the guarded division written out. -/
def varH (y : FVec Ideal ⟨2, ![n, 128]⟩ .f32) : FVec Ideal ⟨2, ![n, 1]⟩ .f32 :=
  select (broadcastInDim ⟨2, ![n, 1]⟩ ![] fx.hs1 (cmpf .ogt denom (constant (F := Ideal) ⟨0, ![]⟩ .f32 0x00000000#32)))
    (Host.divf (rowSum fx (mulf (subf y (bcol fx (meanH fx y))) (subf y (bcol fx (meanH fx y))))) (sc1 fx denom))
    (sc1 fx (id (constant (F := Ideal) ⟨0, ![]⟩ .f32 0x7FC00000#32)))

theorem varH_apply (y : FVec Ideal ⟨2, ![n, 128]⟩ .f32) (r : Fin n) :
    varH fx y (ix2 r (0 : Fin 1)) = Cert.MlpSpec.var (fun k => y (ix2 r k)) := by
  unfold varH
  rw [select_apply, Cert.LibDenseRef.scalar_apply, guard_apply, select_one]
  show Ideal.div (rowSum fx (mulf (subf y (bcol fx (meanH fx y))) (subf y (bcol fx (meanH fx y)))) (ix2 r (0 : Fin 1)))
    (sc1 fx denom (ix2 r (0 : Fin 1))) = _
  rw [rowSum_apply, sc1_apply, denom_apply]
  unfold Cert.MlpSpec.var
  congr 1
  refine Finset.sum_congr rfl fun k _ => ?_
  rw [mulf_apply, subf_apply, bcol_apply, meanH_apply]

/-- The normalisation of each row with gain and offset. -/
def lnHost (y : FVec Ideal ⟨2, ![n, 128]⟩ .f32) (g be : FVec Ideal ⟨1, ![128]⟩ .f32) : FVec Ideal ⟨2, ![n, 128]⟩ .f32 :=
  addf (mulf (mulf (subf y (bcol fx (meanH fx y)))
      (bcol fx (Host.rsqrt (addf (varH fx y) (sc1 fx (constant (F := Ideal) ⟨0, ![]⟩ .f32 0x3727C5AC#32)))))) (brow fx g)) (brow fx be)

theorem lnHost_apply (y : FVec Ideal ⟨2, ![n, 128]⟩ .f32) (g be : FVec Ideal ⟨1, ![128]⟩ .f32) (r : Fin n) (j : Fin 128) :
    lnHost fx y g be (ix2 r j)
      = Cert.MlpSpec.ln (fun k => y (ix2 r k)) (fun j => g (ix1 j)) (fun j => be (ix1 j)) j := by
  unfold lnHost
  rw [addf_apply, mulf_apply, mulf_apply, subf_apply, brow_apply, brow_apply, bcol_apply, bcol_apply, meanH_apply]
  show ((y (ix2 r j) - Cert.MlpSpec.mean fun k => y (ix2 r k))
      * Ideal.rsqrt (varH fx y (ix2 r (0 : Fin 1)) + sc1 fx (constant (F := Ideal) ⟨0, ![]⟩ .f32 0x3727C5AC#32) (ix2 r (0 : Fin 1))))
      * g (ix1 j) + be (ix1 j) = _
  rw [varH_apply, sc1_apply]
  rfl

/-- silu as the host spells it: x · (1 / (1 + exp (−x))). -/
def siluH (x : FVec Ideal ⟨2, ![n, 128]⟩ .f32) : FVec Ideal ⟨2, ![n, 128]⟩ .f32 :=
  mulf x (Host.divf (broadcastInDim ⟨2, ![n, 128]⟩ ![] fx.hsc (constant (F := Ideal) ⟨0, ![]⟩ .f32 0x3F800000#32))
    (addf (broadcastInDim ⟨2, ![n, 128]⟩ ![] fx.hsc (constant (F := Ideal) ⟨0, ![]⟩ .f32 0x3F800000#32)) (Host.exp (Host.negf x))))

theorem siluH_apply (x : FVec Ideal ⟨2, ![n, 128]⟩ .f32) (i : (⟨2, ![n, 128]⟩ : Shape).Idx) : siluH fx x i = Cert.MlpSpec.silu (x i) := by
  unfold siluH
  rw [mulf_apply]
  show x i * Ideal.div (broadcastInDim ⟨2, ![n, 128]⟩ ![] fx.hsc (constant (F := Ideal) ⟨0, ![]⟩ .f32 0x3F800000#32) i)
      (broadcastInDim ⟨2, ![n, 128]⟩ ![] fx.hsc (constant (F := Ideal) ⟨0, ![]⟩ .f32 0x3F800000#32) i + Ideal.exp (-(x i))) = _
  rw [Cert.LibDenseRef.scalar_apply, constant_apply, one_eq]
  rfl

/-- One dense layer as the host spells it: a contraction over k positions and the bias along the rows. -/
def dense {k : Nat} (d : DotDims ⟨2, ![n, k]⟩ ⟨2, ![k, 128]⟩ ⟨2, ![n, 128]⟩) (x : FVec Ideal ⟨2, ![n, k]⟩ .f32)
    (w : FVec Ideal ⟨2, ![k, 128]⟩ .f32) (b : FVec Ideal ⟨1, ![128]⟩ .f32) : FVec Ideal ⟨2, ![n, 128]⟩ .f32 :=
  addf (Host.dotGeneral d none x w) (brow fx b)

theorem dense_apply {k : Nat} {d : DotDims ⟨2, ![n, k]⟩ ⟨2, ![k, 128]⟩ ⟨2, ![n, 128]⟩} (hd : PlainDot d)
    (x : FVec Ideal ⟨2, ![n, k]⟩ .f32) (w : FVec Ideal ⟨2, ![k, 128]⟩ .f32) (b : FVec Ideal ⟨1, ![128]⟩ .f32) (r : Fin n) (j : Fin 128) :
    dense fx d x w b (ix2 r j) = (∑ q : Fin k, x (ix2 r q) * w (ix2 q j)) + b (ix1 j) :=
  Cert.LibDenseRef.lin_apply d hd.rank hd.size hd.l0 hd.l1 hd.r0 hd.r1 x w b fx.hb fx.hrow r j

/-- The second layer on the activated hidden row, then the normalisation: what follows the first layer. -/
def tailH (d2 : DotDims ⟨2, ![n, 128]⟩ ⟨2, ![128, 128]⟩ ⟨2, ![n, 128]⟩) (t : FVec Ideal ⟨2, ![n, 128]⟩ .f32)
    (w2 : FVec Ideal ⟨2, ![128, 128]⟩ .f32) (b2 g be : FVec Ideal ⟨1, ![128]⟩ .f32) : FVec Ideal ⟨2, ![n, 128]⟩ .f32 :=
  lnHost fx (dense fx d2 (siluH fx t) w2 b2) g be

theorem tailH_apply {d2 : DotDims ⟨2, ![n, 128]⟩ ⟨2, ![128, 128]⟩ ⟨2, ![n, 128]⟩} (hd2 : PlainDot d2) (t : FVec Ideal ⟨2, ![n, 128]⟩ .f32)
    (w2 : FVec Ideal ⟨2, ![128, 128]⟩ .f32) (b2 g be : FVec Ideal ⟨1, ![128]⟩ .f32) (r : Fin n) (j : Fin 128) :
    tailH fx d2 t w2 b2 g be (ix2 r j)
      = Cert.MlpSpec.ln (Cert.MlpSpec.lin (fun k => Cert.MlpSpec.silu (t (ix2 r k))) (fun k j => w2 (ix2 k j)) (fun j => b2 (ix1 j)))
          (fun j => g (ix1 j)) (fun j => be (ix1 j)) j := by
  unfold tailH
  rw [lnHost_apply]
  congr 1
  funext c
  rw [dense_apply fx hd2]
  unfold Cert.MlpSpec.lin
  congr 1
  refine Finset.sum_congr rfl fun q _ => ?_
  rw [siluH_apply]

end Generic

/-! ## The two first layers over a concatenated row, for a table of any number of rows -/

section Rows
variable {n : Nat} (fx : RowFacts n)

/-- The edge row: the first layer over three tables side by side is the specification's three contractions added
    left to right, and the rest is the generic tail. -/
theorem edge_apply {d1 : DotDims ⟨2, ![n, 384]⟩ ⟨2, ![384, 128]⟩ ⟨2, ![n, 128]⟩} (hd1 : PlainDot d1)
    {d2 : DotDims ⟨2, ![n, 128]⟩ ⟨2, ![128, 128]⟩ ⟨2, ![n, 128]⟩} (hd2 : PlainDot d2)
    (hc : Shape.Concatenates [⟨2, ![n, 128]⟩, ⟨2, ![n, 128]⟩, ⟨2, ![n, 128]⟩] ⟨2, ![n, 384]⟩ 1)
    (gd gs ea : FVec Ideal ⟨2, ![n, 128]⟩ .f32) (w1 : FVec Ideal ⟨2, ![384, 128]⟩ .f32) (b1 : FVec Ideal ⟨1, ![128]⟩ .f32)
    (w2 : FVec Ideal ⟨2, ![128, 128]⟩ .f32) (b2 g be : FVec Ideal ⟨1, ![128]⟩ .f32) (r : Fin n) (j : Fin 128) :
    tailH fx d2 (dense fx d1 (concatenate ⟨2, ![n, 384]⟩ 1 [⟨⟨2, ![n, 128]⟩, gd⟩, ⟨⟨2, ![n, 128]⟩, gs⟩, ⟨⟨2, ![n, 128]⟩, ea⟩] hc) w1 b1) w2 b2 g be (ix2 r j)
      = Cert.MlpSpec.edgeRow (fun k => gd (ix2 r k)) (fun k => gs (ix2 r k)) (fun k => ea (ix2 r k))
          (fun k j => w1 (ix2 ⟨k.val, by omega⟩ j)) (fun k j => w1 (ix2 ⟨128 + k.val, by omega⟩ j))
          (fun k j => w1 (ix2 ⟨256 + k.val, by omega⟩ j)) (fun j => b1 (ix1 j)) (fun k j => w2 (ix2 k j)) (fun j => b2 (ix1 j))
          (fun j => g (ix1 j)) (fun j => be (ix1 j)) j := by
  have hT : ∀ k : Fin 128,
      dense fx d1 (concatenate ⟨2, ![n, 384]⟩ 1 [⟨⟨2, ![n, 128]⟩, gd⟩, ⟨⟨2, ![n, 128]⟩, gs⟩, ⟨⟨2, ![n, 128]⟩, ea⟩] hc) w1 b1 (ix2 r k)
        = Cert.MlpSpec.edgeHidden (fun k => gd (ix2 r k)) (fun k => gs (ix2 r k)) (fun k => ea (ix2 r k))
            (fun k j => w1 (ix2 ⟨k.val, by omega⟩ j)) (fun k j => w1 (ix2 ⟨128 + k.val, by omega⟩ j))
            (fun k j => w1 (ix2 ⟨256 + k.val, by omega⟩ j)) (fun j => b1 (ix1 j)) k := by
    intro k
    rw [dense_apply fx hd1, sum_three]
    unfold Cert.MlpSpec.edgeHidden
    refine congrArg₂ (· + ·) (congrArg₂ (· + ·) (congrArg₂ (· + ·) ?_ ?_) ?_) rfl
    · exact Finset.sum_congr rfl fun q _ => congrArg (· * _) (cat3_first gd gs ea hc r q _)
    · exact Finset.sum_congr rfl fun q _ => congrArg (· * _) (cat3_second gd gs ea hc r q _)
    · exact Finset.sum_congr rfl fun q _ => congrArg (· * _) (cat3_third gd gs ea hc r q _)
  rw [tailH_apply fx hd2]
  unfold Cert.MlpSpec.edgeRow
  exact congrArg (fun h => Cert.MlpSpec.ln (Cert.MlpSpec.lin h _ _) _ _ j) (funext fun k => congrArg Cert.MlpSpec.silu (hT k))

/-- The node row: the first layer over two tables side by side is the specification's two contractions added, the rest
    is the generic tail, and the row itself is added back. -/
theorem node_apply {d1 : DotDims ⟨2, ![n, 256]⟩ ⟨2, ![256, 128]⟩ ⟨2, ![n, 128]⟩} (hd1 : PlainDot d1)
    {d2 : DotDims ⟨2, ![n, 128]⟩ ⟨2, ![128, 128]⟩ ⟨2, ![n, 128]⟩} (hd2 : PlainDot d2)
    (hc : Shape.Concatenates [⟨2, ![n, 128]⟩, ⟨2, ![n, 128]⟩] ⟨2, ![n, 256]⟩ 1)
    (x y : FVec Ideal ⟨2, ![n, 128]⟩ .f32) (w1 : FVec Ideal ⟨2, ![256, 128]⟩ .f32) (b1 : FVec Ideal ⟨1, ![128]⟩ .f32)
    (w2 : FVec Ideal ⟨2, ![128, 128]⟩ .f32) (b2 g be : FVec Ideal ⟨1, ![128]⟩ .f32) (r : Fin n) (j : Fin 128) :
    addf (tailH fx d2 (dense fx d1 (concatenate ⟨2, ![n, 256]⟩ 1 [⟨⟨2, ![n, 128]⟩, x⟩, ⟨⟨2, ![n, 128]⟩, y⟩] hc) w1 b1) w2 b2 g be) x (ix2 r j)
      = Cert.MlpSpec.nodeRow (fun k => x (ix2 r k)) (fun k => y (ix2 r k))
          (fun k j => w1 (ix2 ⟨k.val, by omega⟩ j)) (fun k j => w1 (ix2 ⟨128 + k.val, by omega⟩ j))
          (fun j => b1 (ix1 j)) (fun k j => w2 (ix2 k j)) (fun j => b2 (ix1 j))
          (fun j => g (ix1 j)) (fun j => be (ix1 j)) j := by
  have hT : ∀ k : Fin 128,
      dense fx d1 (concatenate ⟨2, ![n, 256]⟩ 1 [⟨⟨2, ![n, 128]⟩, x⟩, ⟨⟨2, ![n, 128]⟩, y⟩] hc) w1 b1 (ix2 r k)
        = Cert.MlpSpec.nodeHidden (fun k => x (ix2 r k)) (fun k => y (ix2 r k))
            (fun k j => w1 (ix2 ⟨k.val, by omega⟩ j)) (fun k j => w1 (ix2 ⟨128 + k.val, by omega⟩ j)) (fun j => b1 (ix1 j)) k := by
    intro k
    rw [dense_apply fx hd1, sum_two]
    unfold Cert.MlpSpec.nodeHidden
    refine congrArg₂ (· + ·) (congrArg₂ (· + ·) ?_ ?_) rfl
    · exact Finset.sum_congr rfl fun q _ => congrArg (· * _) (Cert.LibCols.concat_cols_left x y hc r q _)
    · exact Finset.sum_congr rfl fun q _ => congrArg (· * _) (Cert.LibCols.concat_cols_right x y hc r q _)
  rw [addf_apply, tailH_apply fx hd2]
  unfold Cert.MlpSpec.nodeRow
  exact congrArg (fun h => Cert.MlpSpec.ln (Cert.MlpSpec.lin h _ _) _ _ j + x (ix2 r j))
    (funext fun k => congrArg Cert.MlpSpec.silu (hT k))

end Rows

/-! ## The program's three sizes -/

section Sizes
variable [Facts]

/-- The shape facts of the 500000-row tables. -/
theorem fxE : RowFacts 500000 :=
  ⟨bcast_S128_S1x128_1, bcast_S1x128_S500000x128_0_1, bcast_S_S500000x128, reducesTo_S500000x128_S500000_d1, h_S_,
    bcast_S500000_S500000x1_0, bcast_S_S500000x1, bcast_S500000x1_S500000x128_0_1⟩
/-- The shape facts of the 40000-row tables. -/
theorem fxD : RowFacts 40000 :=
  ⟨bcast_S128_S1x128_1, bcast_S1x128_S40000x128_0_1, bcast_S_S40000x128, reducesTo_S40000x128_S40000_d1, h_S_,
    bcast_S40000_S40000x1_0, bcast_S_S40000x1, bcast_S40000x1_S40000x128_0_1⟩
/-- The shape facts of the 100000-row tables. -/
theorem fxS : RowFacts 100000 :=
  ⟨bcast_S128_S1x128_1, bcast_S1x128_S100000x128_0_1, bcast_S_S100000x128, reducesTo_S100000x128_S100000_d1, h_S_,
    bcast_S100000_S100000x1_0, bcast_S_S100000x1, bcast_S100000x1_S100000x128_0_1⟩

/-- The six contractions are plain products: rows free on the left, columns free on the right, one contracted axis. -/
theorem pd_e1 : PlainDot dot_S500000x384_S384x128_S500000x128_1_0_0_1_n_n :=
  ⟨rfl, rfl, fun _ _ => rfl, fun _ _ => rfl, fun _ _ => rfl, fun _ _ => rfl⟩
theorem pd_e2 : PlainDot dot_S500000x128_S128x128_S500000x128_1_0_0_1_n_n :=
  ⟨rfl, rfl, fun _ _ => rfl, fun _ _ => rfl, fun _ _ => rfl, fun _ _ => rfl⟩
theorem pd_d1 : PlainDot dot_S40000x256_S256x128_S40000x128_1_0_0_1_n_n :=
  ⟨rfl, rfl, fun _ _ => rfl, fun _ _ => rfl, fun _ _ => rfl, fun _ _ => rfl⟩
theorem pd_d2 : PlainDot dot_S40000x128_S128x128_S40000x128_1_0_0_1_n_n :=
  ⟨rfl, rfl, fun _ _ => rfl, fun _ _ => rfl, fun _ _ => rfl, fun _ _ => rfl⟩
theorem pd_s1 : PlainDot dot_S100000x256_S256x128_S100000x128_1_0_0_1_n_n :=
  ⟨rfl, rfl, fun _ _ => rfl, fun _ _ => rfl, fun _ _ => rfl, fun _ _ => rfl⟩
theorem pd_s2 : PlainDot dot_S100000x128_S128x128_S100000x128_1_0_0_1_n_n :=
  ⟨rfl, rfl, fun _ _ => rfl, fun _ _ => rfl, fun _ _ => rfl, fun _ _ => rfl⟩

/-- The edge MLP with its LayerNorm, entry (e, j): the specification's edge row on row e of the three arrays. -/
theorem edgeTail_apply (gd gs ea : FVec Ideal S500000x128 .f32) (ew1 : FVec Ideal S384x128 .f32) (eb1 : FVec Ideal S128 .f32)
    (ew2 : FVec Ideal S128x128 .f32) (eb2 eg ebn : FVec Ideal S128 .f32) (e : Fin 500000) (j : Fin 128) :
    edgeTail (F := Ideal) gd gs ea ew1 eb1 ew2 eb2 eg ebn (ix2 e j)
      = Cert.MlpSpec.edgeRow (fun k => gd (ix2 e k)) (fun k => gs (ix2 e k)) (fun k => ea (ix2 e k))
          (fun k j => ew1 (ix2 ⟨k.val, by omega⟩ j)) (fun k j => ew1 (ix2 ⟨128 + k.val, by omega⟩ j))
          (fun k j => ew1 (ix2 ⟨256 + k.val, by omega⟩ j)) (fun j => eb1 (ix1 j)) (fun k j => ew2 (ix2 k j))
          (fun j => eb2 (ix1 j)) (fun j => eg (ix1 j)) (fun j => ebn (ix1 j)) j := by
  show tailH fxE dot_S500000x128_S128x128_S500000x128_1_0_0_1_n_n
      (dense fxE dot_S500000x384_S384x128_S500000x128_1_0_0_1_n_n
        (concatenate S500000x384 1 [⟨S500000x128, gd⟩, ⟨S500000x128, gs⟩, ⟨S500000x128, ea⟩]
          concatenates_S500000x128_S500000x128_S500000x128_S500000x384_d1) ew1 eb1)
      ew2 eb2 eg ebn (ix2 e j) = _
  exact edge_apply fxE pd_e1 pd_e2 _ gd gs ea ew1 eb1 ew2 eb2 eg ebn e j

/-- The node MLP on the 40000 rows with its LayerNorm and residual, entry (r, j): the specification's node row on row r
    of the table and of the aggregated edge rows. -/
theorem dstTail_apply (x agg : FVec Ideal S40000x128 .f32) (nw1 : FVec Ideal S256x128 .f32) (nb1 : FVec Ideal S128 .f32)
    (nw2 : FVec Ideal S128x128 .f32) (nb2 ng nbn : FVec Ideal S128 .f32) (r : Fin 40000) (j : Fin 128) :
    dstTail (F := Ideal) x agg nw1 nb1 nw2 nb2 ng nbn (ix2 r j)
      = Cert.MlpSpec.nodeRow (fun k => x (ix2 r k)) (fun k => agg (ix2 r k))
          (fun k j => nw1 (ix2 ⟨k.val, by omega⟩ j)) (fun k j => nw1 (ix2 ⟨128 + k.val, by omega⟩ j))
          (fun j => nb1 (ix1 j)) (fun k j => nw2 (ix2 k j)) (fun j => nb2 (ix1 j)) (fun j => ng (ix1 j)) (fun j => nbn (ix1 j)) j := by
  show addf (tailH fxD dot_S40000x128_S128x128_S40000x128_1_0_0_1_n_n
      (dense fxD dot_S40000x256_S256x128_S40000x128_1_0_0_1_n_n
        (concatenate S40000x256 1 [⟨S40000x128, x⟩, ⟨S40000x128, agg⟩] concatenates_S40000x128_S40000x128_S40000x256_d1) nw1 nb1)
      nw2 nb2 ng nbn) x (ix2 r j) = _
  exact node_apply fxD pd_d1 pd_d2 _ x agg nw1 nb1 nw2 nb2 ng nbn r j

/-- The node MLP on the 100000 rows, entry (r, j): the specification's node row on row r of the table, twice. -/
theorem srcTail_apply (x : FVec Ideal S100000x128 .f32) (nw1 : FVec Ideal S256x128 .f32) (nb1 : FVec Ideal S128 .f32)
    (nw2 : FVec Ideal S128x128 .f32) (nb2 ng nbn : FVec Ideal S128 .f32) (r : Fin 100000) (j : Fin 128) :
    srcTail (F := Ideal) x nw1 nb1 nw2 nb2 ng nbn (ix2 r j)
      = Cert.MlpSpec.nodeRow (fun k => x (ix2 r k)) (fun k => x (ix2 r k))
          (fun k j => nw1 (ix2 ⟨k.val, by omega⟩ j)) (fun k j => nw1 (ix2 ⟨128 + k.val, by omega⟩ j))
          (fun j => nb1 (ix1 j)) (fun k j => nw2 (ix2 k j)) (fun j => nb2 (ix1 j)) (fun j => ng (ix1 j)) (fun j => nbn (ix1 j)) j := by
  show addf (tailH fxS dot_S100000x128_S128x128_S100000x128_1_0_0_1_n_n
      (dense fxS dot_S100000x256_S256x128_S100000x128_1_0_0_1_n_n
        (concatenate S100000x256 1 [⟨S100000x128, x⟩, ⟨S100000x128, x⟩] concatenates_S100000x128_S100000x128_S100000x256_d1) nw1 nb1)
      nw2 nb2 ng nbn) x (ix2 r j) = _
  exact node_apply fxS pd_s1 pd_s2 _ x x nw1 nb1 nw2 nb2 ng nbn r j

end Sizes

end Cert.ReferenceIdeal.Tails

end
-- ==== Proof.KValue.lean ====
/-
  The kernel program's three results are the reference's named functions of the sixteen arguments, on the extended
  reals.

  The program is five stretches: host arithmetic, the edge call, host arithmetic, the node call on the 40000-row
  table, the node call on the 100000-row table. Each call leaves in its output array, entry by entry, the edge row or
  the node row of the specification applied to rows of the arrays it reads (the three blocks-to-array modules).
  The reference's tails are the same rows of the specification applied to rows of ITS arrays (the tails' read lemmas).
  So each result is settled argument by argument: every array a call reads is, read at an index, the array the
  reference reads there — the gathered rows and the summed edge rows as whole arrays (the same gather and the same
  scatter of equal operands, never opened), the weight blocks as row ranges of the unsplit weights, the bias, gain and
  offset rows as the vectors — and every buffer no stretch writes still holds its launch contents.
-/
import proofs.«117479_j34084860461562_2_alg».proof.Proof.KRun
import proofs.«117479_j34084860461562_2_alg».proof.Proof.Final0
import proofs.«117479_j34084860461562_2_alg».proof.Proof.Final1
import proofs.«117479_j34084860461562_2_alg».proof.Proof.Final2
import proofs.«117479_j34084860461562_2_alg».proof.Proof.Glue
import proofs.«117479_j34084860461562_2_alg».proof.Proof.RefTails
import proofs.«117479_j34084860461562_2_alg».proof.Proof.MlpSpec
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.MlpSpec (edgeRow nodeRow)

variable (m : (ℓ : Loc nD τ sig) → Buf (Elt Ideal) ℓ) (ρ : Dev nD → PrngReg)

/-! ## The sixteen arguments, typed as the reference's functions take them -/
abbrev A0 (c : Dev nD) : FVec Ideal Cert.ReferenceIdeal.S100000x128 .f32 := m ((c : Thread nD τ).loc main_arg0)
abbrev A1 (c : Dev nD) : FVec Ideal Cert.ReferenceIdeal.S40000x128 .f32 := m ((c : Thread nD τ).loc main_arg1)
abbrev A2 (c : Dev nD) : FVec Ideal Cert.ReferenceIdeal.S500000x128 .f32 := m ((c : Thread nD τ).loc main_arg2)
abbrev A3 (c : Dev nD) : IVec Cert.ReferenceIdeal.S2x500000 32 := m ((c : Thread nD τ).loc main_arg3)
abbrev A4 (c : Dev nD) : FVec Ideal Cert.ReferenceIdeal.S384x128 .f32 := m ((c : Thread nD τ).loc main_arg4)
abbrev A5 (c : Dev nD) : FVec Ideal Cert.ReferenceIdeal.S128 .f32 := m ((c : Thread nD τ).loc main_arg5)
abbrev A6 (c : Dev nD) : FVec Ideal Cert.ReferenceIdeal.S128x128 .f32 := m ((c : Thread nD τ).loc main_arg6)
abbrev A7 (c : Dev nD) : FVec Ideal Cert.ReferenceIdeal.S128 .f32 := m ((c : Thread nD τ).loc main_arg7)
abbrev A8 (c : Dev nD) : FVec Ideal Cert.ReferenceIdeal.S128 .f32 := m ((c : Thread nD τ).loc main_arg8)
abbrev A9 (c : Dev nD) : FVec Ideal Cert.ReferenceIdeal.S128 .f32 := m ((c : Thread nD τ).loc main_arg9)
abbrev A10 (c : Dev nD) : FVec Ideal Cert.ReferenceIdeal.S256x128 .f32 := m ((c : Thread nD τ).loc main_arg10)
abbrev A11 (c : Dev nD) : FVec Ideal Cert.ReferenceIdeal.S128 .f32 := m ((c : Thread nD τ).loc main_arg11)
abbrev A12 (c : Dev nD) : FVec Ideal Cert.ReferenceIdeal.S128x128 .f32 := m ((c : Thread nD τ).loc main_arg12)
abbrev A13 (c : Dev nD) : FVec Ideal Cert.ReferenceIdeal.S128 .f32 := m ((c : Thread nD τ).loc main_arg13)
abbrev A14 (c : Dev nD) : FVec Ideal Cert.ReferenceIdeal.S128 .f32 := m ((c : Thread nD τ).loc main_arg14)
abbrev A15 (c : Dev nD) : FVec Ideal Cert.ReferenceIdeal.S128 .f32 := m ((c : Thread nD τ).loc main_arg15)

/-- The edge row is a function of its eleven arguments. -/
theorem edgeRow_congr {xd xd' xs xs' ea ea' : Fin 128 → EReal} {w1d w1d' w1s w1s' w1e w1e' : Fin 128 → Fin 128 → EReal}
    {b1 b1' : Fin 128 → EReal} {w2 w2' : Fin 128 → Fin 128 → EReal} {b2 b2' g g' be be' : Fin 128 → EReal}
    (h0 : xd = xd') (h1 : xs = xs') (h2 : ea = ea') (h3 : w1d = w1d') (h4 : w1s = w1s') (h5 : w1e = w1e') (h6 : b1 = b1')
    (h7 : w2 = w2') (h8 : b2 = b2') (h9 : g = g') (h10 : be = be') (j : Fin 128) :
    edgeRow xd xs ea w1d w1s w1e b1 w2 b2 g be j = edgeRow xd' xs' ea' w1d' w1s' w1e' b1' w2' b2' g' be' j := by
  subst h0 h1 h2 h3 h4 h5 h6 h7 h8 h9 h10; rfl

/-- A buffer the first host stretch does not write enters the edge call holding its launch contents. -/
theorem U1_arg (c : Dev nD) (b : Ref sig .tc) (hb : b ∉ hostOps0_W) : U1 m ρ c b = m ((c : Thread nD τ).loc b) :=
  (StableHlo.after_of_writes_sub hostOps0 _ hostOps0_writes hb).trans rfl

/-- The edge call's output array after the call is the reference's edge rows. -/
theorem edges_mid (c : Dev nD) :
    (dat0 (F := Ideal) (U1 m ρ) c).arrAt 11 cfg0.N = Cert.ReferenceIdeal.Tails.refEdges (F := Ideal) (A0 m c) (A1 m c) (A2 m c) (A3 m c) (A4 m c) (A5 m c) (A6 m c) (A7 m c) (A8 m c) (A9 m c) (A10 m c) (A11 m c) (A12 m c) (A13 m c) (A14 m c) (A15 m c) := by
  funext i
  obtain ⟨e, j, rfl⟩ : ∃ (e : Fin 500000) (j : Fin 128), i = ix2 e j := ⟨i 0, i 1, eq_ix2 i⟩
  refine (final0 (U1 m ρ) c e j).trans ?_
  refine Eq.trans ?_ (Cert.ReferenceIdeal.Tails.edgeTail_apply (Cert.ReferenceIdeal.Tails.gatherDst (A1 m c) (A3 m c)) (Cert.ReferenceIdeal.Tails.gatherSrc (A0 m c) (A3 m c)) (A2 m c) (A4 m c) (A5 m c) (A6 m c) (A7 m c) (A8 m c) (A9 m c) e j).symm
  refine edgeRow_congr ?_ ?_ ?_ ?_ ?_ ?_ ?_ ?_ ?_ ?_ ?_ j
  · exact funext fun k => congrFun (Glue.glue_v12 (W0 m ρ c)) (ix2 e k)
  · exact funext fun k => congrFun (Glue.glue_v19 (W0 m ρ c)) (ix2 e k)
  · exact funext fun k => congrFun (U1_arg m ρ c main_arg2 (by decide)) (ix2 e k)
  · exact funext fun k => funext fun j => Glue.glue_v21 (W0 m ρ c) k j
  · exact funext fun k => funext fun j => Glue.glue_v23 (W0 m ρ c) k j
  · exact funext fun k => funext fun j => Glue.glue_v25 (W0 m ρ c) k j
  · exact funext fun j => Glue.glue_v27 (W0 m ρ c) j
  · exact funext fun k => funext fun j => Glue.glue_v26 (W0 m ρ c) k j
  · exact funext fun j => Glue.glue_v28 (W0 m ρ c) j
  · exact funext fun j => Glue.glue_v29 (W0 m ρ c) j
  · exact funext fun j => Glue.glue_v30 (W0 m ρ c) j

/-- The kernel program's edge result is the reference's. -/
theorem kEdges_eq (c : Dev nD) :
    W5 m ρ c (Proc.devRef .tc main_v31) = Cert.ReferenceIdeal.Tails.refEdges (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W5_main_v31 m ρ c).trans (edges_mid m ρ c)

/-! ## The node calls -/

/-- The node row is a function of its nine arguments. -/
theorem nodeRow_congr {x x' y y' : Fin 128 → EReal} {w1a w1a' w1b w1b' : Fin 128 → Fin 128 → EReal}
    {b1 b1' : Fin 128 → EReal} {w2 w2' : Fin 128 → Fin 128 → EReal} {b2 b2' g g' be be' : Fin 128 → EReal}
    (h0 : x = x') (h1 : y = y') (h2 : w1a = w1a') (h3 : w1b = w1b') (h4 : b1 = b1')
    (h5 : w2 = w2') (h6 : b2 = b2') (h7 : g = g') (h8 : be = be') (j : Fin 128) :
    nodeRow x y w1a w1b b1 w2 b2 g be j = nodeRow x' y' w1a' w1b' b1' w2' b2' g' be' j := by
  subst h0 h1 h2 h3 h4 h5 h6 h7 h8; rfl

/-- A buffer that neither the first host stretch nor the edge call writes still holds its launch contents after the
    edge call. -/
theorem W2_arg (c : Dev nD) (b : Ref sig .tc) (h2 : ∀ w : Fin 12, Pipeline.arrRef spec0 w = b → (cfg0.win w).isOut = false)
    (h0 : b ∉ hostOps0_W) : W2 m ρ c (Proc.devRef .tc b) = m ((c : Thread nD τ).loc b) :=
  (W2_keep m ρ c b h2).trans (U1_arg m ρ c b h0)

/-- And, if the second host stretch does not write it either, when the first node call is entered. -/
theorem U3_arg (c : Dev nD) (b : Ref sig .tc) (h1 : b ∉ hostOps1_W)
    (h2 : ∀ w : Fin 12, Pipeline.arrRef spec0 w = b → (cfg0.win w).isOut = false) (h0 : b ∉ hostOps0_W) :
    U3 m ρ c b = m ((c : Thread nD τ).loc b) :=
  (StableHlo.after_of_writes_sub hostOps1 _ hostOps1_writes h1).trans (W2_arg m ρ c b h2 h0)

/-- After the edge call its output array holds the reference's edge rows. -/
theorem W2_edges (c : Dev nD) :
    W2 m ρ c (Proc.devRef .tc main_v31) = Cert.ReferenceIdeal.Tails.refEdges (F := Ideal) (A0 m c) (A1 m c) (A2 m c) (A3 m c) (A4 m c) (A5 m c) (A6 m c) (A7 m c) (A8 m c) (A9 m c) (A10 m c) (A11 m c) (A12 m c) (A13 m c) (A14 m c) (A15 m c) :=
  (W2_arr m ρ c 11).trans (edges_mid m ρ c)

/-- After the edge call the flattened row 1 of the edge index is still what the first host stretch computed. -/
theorem W2_row1 (c : Dev nD) : W2 m ρ c (Proc.devRef .tc main_v3) = Glue.row1 (A3 m c) :=
  (W2_keep m ρ c main_v3 (by decide)).trans (Glue.glue_v3 (W0 m ρ c))

/-- The aggregated edge rows the first node call reads: the reference's sum of its edge rows by row 1 of the index. -/
theorem U3_agg (c : Dev nD) :
    U3 m ρ c main_v34 = Cert.ReferenceIdeal.Tails.segSum (F := Ideal) (Cert.ReferenceIdeal.Tails.refEdges (F := Ideal) (A0 m c) (A1 m c) (A2 m c) (A3 m c) (A4 m c) (A5 m c) (A6 m c) (A7 m c) (A8 m c) (A9 m c) (A10 m c) (A11 m c) (A12 m c) (A13 m c) (A14 m c) (A15 m c)) (A3 m c) :=
  (Glue.glue_v34 (W2 m ρ c) (A3 m c) (W2_row1 m ρ c)).trans (congrArg (fun x => Cert.ReferenceIdeal.Tails.segSum (F := Ideal) x (A3 m c)) (W2_edges m ρ c))

/-! The node layer's parameters as the node calls read them. -/
theorem U3_v36 (c : Dev nD) (k j : Fin 128) : (U3 m ρ c main_v36 : FVec Ideal S128x128 .bf16) (ix2 k j) = A10 m c (ix2 ⟨k.val, by omega⟩ j) :=
  (Glue.glue_v36 (W2 m ρ c) k j).trans (congrFun (W2_arg m ρ c main_arg10 (by decide) (by decide)) _)
theorem U3_v38 (c : Dev nD) (k j : Fin 128) : (U3 m ρ c main_v38 : FVec Ideal S128x128 .bf16) (ix2 k j) = A10 m c (ix2 ⟨128 + k.val, by omega⟩ j) :=
  (Glue.glue_v38 (W2 m ρ c) k j).trans (congrFun (W2_arg m ρ c main_arg10 (by decide) (by decide)) _)
theorem U3_v39 (c : Dev nD) (k j : Fin 128) : (U3 m ρ c main_v39 : FVec Ideal S128x128 .bf16) (ix2 k j) = A12 m c (ix2 k j) :=
  (Glue.glue_v39 (W2 m ρ c) k j).trans (congrFun (W2_arg m ρ c main_arg12 (by decide) (by decide)) _)
theorem U3_v40 (c : Dev nD) (j : Fin 128) : (U3 m ρ c main_v40 : FVec Ideal S1x128 .f32) (ix2 (0 : Fin 1) j) = A11 m c (ix1 j) :=
  (Glue.glue_v40 (W2 m ρ c) j).trans (congrFun (W2_arg m ρ c main_arg11 (by decide) (by decide)) _)
theorem U3_v41 (c : Dev nD) (j : Fin 128) : (U3 m ρ c main_v41 : FVec Ideal S1x128 .f32) (ix2 (0 : Fin 1) j) = A13 m c (ix1 j) :=
  (Glue.glue_v41 (W2 m ρ c) j).trans (congrFun (W2_arg m ρ c main_arg13 (by decide) (by decide)) _)
theorem U3_v42 (c : Dev nD) (j : Fin 128) : (U3 m ρ c main_v42 : FVec Ideal S1x128 .f32) (ix2 (0 : Fin 1) j) = A14 m c (ix1 j) :=
  (Glue.glue_v42 (W2 m ρ c) j).trans (congrFun (W2_arg m ρ c main_arg14 (by decide) (by decide)) _)
theorem U3_v43 (c : Dev nD) (j : Fin 128) : (U3 m ρ c main_v43 : FVec Ideal S1x128 .f32) (ix2 (0 : Fin 1) j) = A15 m c (ix1 j) :=
  (Glue.glue_v43 (W2 m ρ c) j).trans (congrFun (W2_arg m ρ c main_arg15 (by decide) (by decide)) _)

/-- The first node call's output array after the call is the reference's new rows of the 40000-row table. -/
theorem dst_mid (c : Dev nD) :
    (dat1 (F := Ideal) (U3 m ρ) c).arrAt 9 cfg1.N = Cert.ReferenceIdeal.Tails.refDst (F := Ideal) (A0 m c) (A1 m c) (A2 m c) (A3 m c) (A4 m c) (A5 m c) (A6 m c) (A7 m c) (A8 m c) (A9 m c) (A10 m c) (A11 m c) (A12 m c) (A13 m c) (A14 m c) (A15 m c) := by
  funext i
  obtain ⟨r, j, rfl⟩ : ∃ (r : Fin 40000) (j : Fin 128), i = ix2 r j := ⟨i 0, i 1, eq_ix2 i⟩
  refine (final1 (U3 m ρ) c r j).trans ?_
  refine Eq.trans ?_ (Cert.ReferenceIdeal.Tails.dstTail_apply (A1 m c) (Cert.ReferenceIdeal.Tails.segSum (F := Ideal) (Cert.ReferenceIdeal.Tails.refEdges (F := Ideal) (A0 m c) (A1 m c) (A2 m c) (A3 m c) (A4 m c) (A5 m c) (A6 m c) (A7 m c) (A8 m c) (A9 m c) (A10 m c) (A11 m c) (A12 m c) (A13 m c) (A14 m c) (A15 m c)) (A3 m c)) (A10 m c) (A11 m c) (A12 m c) (A13 m c) (A14 m c) (A15 m c) r j).symm
  refine nodeRow_congr ?_ ?_ ?_ ?_ ?_ ?_ ?_ ?_ ?_ j
  · exact funext fun k => congrFun (U3_arg m ρ c main_arg1 (by decide) (by decide) (by decide)) (ix2 r k)
  · exact funext fun k => congrFun (U3_agg m ρ c) (ix2 r k)
  · exact funext fun k => funext fun j => U3_v36 m ρ c k j
  · exact funext fun k => funext fun j => U3_v38 m ρ c k j
  · exact funext fun j => U3_v40 m ρ c j
  · exact funext fun k => funext fun j => U3_v39 m ρ c k j
  · exact funext fun j => U3_v41 m ρ c j
  · exact funext fun j => U3_v42 m ρ c j
  · exact funext fun j => U3_v43 m ρ c j

/-- The kernel program's result for the 40000-row table is the reference's. -/
theorem kDst_eq (c : Dev nD) :
    W5 m ρ c (Proc.devRef .tc main_v44) = Cert.ReferenceIdeal.Tails.refDst (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W5_main_v44 m ρ c).trans (dst_mid m ρ c)

/-- A buffer the first node call only reads, or does not touch, enters the second node call as it entered the first. -/
theorem U4_of_U3 (c : Dev nD) (b : Ref sig .tc) (h : ∀ w : Fin 10, Pipeline.arrRef spec1 w = b → (cfg1.win w).isOut = false) :
    U4 m ρ c b = U3 m ρ c b :=
  W4_keep m ρ c b h

/-- The second node call's output array after the call is the reference's new rows of the 100000-row table. -/
theorem src_mid (c : Dev nD) :
    (dat2 (F := Ideal) (U4 m ρ) c).arrAt 9 cfg2.N = Cert.ReferenceIdeal.Tails.refSrc (F := Ideal) (A0 m c) (A1 m c) (A2 m c) (A3 m c) (A4 m c) (A5 m c) (A6 m c) (A7 m c) (A8 m c) (A9 m c) (A10 m c) (A11 m c) (A12 m c) (A13 m c) (A14 m c) (A15 m c) := by
  funext i
  obtain ⟨r, j, rfl⟩ : ∃ (r : Fin 100000) (j : Fin 128), i = ix2 r j := ⟨i 0, i 1, eq_ix2 i⟩
  refine (final2 (U4 m ρ) c r j).trans ?_
  refine Eq.trans ?_ (Cert.ReferenceIdeal.Tails.srcTail_apply (A0 m c) (A10 m c) (A11 m c) (A12 m c) (A13 m c) (A14 m c) (A15 m c) r j).symm
  have hx : U4 m ρ c main_arg0 = m ((c : Thread nD τ).loc main_arg0) :=
    (U4_of_U3 m ρ c main_arg0 (by decide)).trans (U3_arg m ρ c main_arg0 (by decide) (by decide) (by decide))
  refine nodeRow_congr ?_ ?_ ?_ ?_ ?_ ?_ ?_ ?_ ?_ j
  · exact funext fun k => congrFun hx (ix2 r k)
  · exact funext fun k => congrFun hx (ix2 r k)
  · exact funext fun k => funext fun j => (congrFun (U4_of_U3 m ρ c main_v36 (by decide)) (ix2 k j)).trans (U3_v36 m ρ c k j)
  · exact funext fun k => funext fun j => (congrFun (U4_of_U3 m ρ c main_v38 (by decide)) (ix2 k j)).trans (U3_v38 m ρ c k j)
  · exact funext fun j => (congrFun (U4_of_U3 m ρ c main_v40 (by decide)) (ix2 (0 : Fin 1) j)).trans (U3_v40 m ρ c j)
  · exact funext fun k => funext fun j => (congrFun (U4_of_U3 m ρ c main_v39 (by decide)) (ix2 k j)).trans (U3_v39 m ρ c k j)
  · exact funext fun j => (congrFun (U4_of_U3 m ρ c main_v41 (by decide)) (ix2 (0 : Fin 1) j)).trans (U3_v41 m ρ c j)
  · exact funext fun j => (congrFun (U4_of_U3 m ρ c main_v42 (by decide)) (ix2 (0 : Fin 1) j)).trans (U3_v42 m ρ c j)
  · exact funext fun j => (congrFun (U4_of_U3 m ρ c main_v43 (by decide)) (ix2 (0 : Fin 1) j)).trans (U3_v43 m ρ c j)

/-- The kernel program's result for the 100000-row table is the reference's. -/
theorem kSrc_eq (c : Dev nD) :
    W5 m ρ c (Proc.devRef .tc main_v45) = Cert.ReferenceIdeal.Tails.refSrc (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W5_out m ρ c).trans (src_mid m ρ c)

end Cert.KernelIdeal.Hand

end
-- ==== Proof.RefRunOps.lean ====
/-
  The reference program's host operations as one straight line.

  @main is three windows run in order; six of its statements are calls of outlined functions (the logistic
  gate x · 1/(1 + e^(−x)) on 500000, 40000 and 100000 rows, and the variance of a row with its guarded
  division, which itself calls the select-against-a-scalar function). Executing a call is executing the
  callee's body on the call's own buffers, so the whole program is a list of 214 single-assignment
  operations. The list is cut into fifteen stretches at the places where few values are live; each stretch
  is a literal list below, and the lemmas of this file say that the program is the sequence of the
  stretches, that every operation touches TensorCore buffers only and determines its result, and which
  buffers each stretch writes.
-/
import proofs.«117479_j34084860461562_2_alg».proof.ReferenceIdeal
import proofs.«117479_j34084860461562_2_alg».proof.Proof.Gen.ReferenceIdeal
import Idealize.ShloMosaic.Lib.StableHlo.Run
import Idealize.ShloMosaic.Lib.StableHlo.RunLoop

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose written set is the single buffer `y` writes inside any list of references that holds `y`. -/
theorem writes_sub_of_mem {op : HloOp τ sig (Elt F)} (y : Ref sig .tc) (hw : op.writes = {Proc.devRef .tc y})
    {W : List (Ref sig .tc)} (hy : y ∈ W) : op.writes ⊆ (W.map (Proc.devRef (τ := τ) .tc)).toFinset := by
  rw [hw, Finset.singleton_subset_iff, List.mem_toFinset]; exact List.mem_map_of_mem hy

/-- The 40000 rows of the node table and of the summed edge rows side by side: the concatenation along the columns,
    under a name so that its two operands stay plain arguments when an operation's result is read off. -/
def catDst (a b : (⟨S40000x128, .f32⟩ : BufTy).Contents (Elt F)) : (⟨S40000x256, .f32⟩ : BufTy).Contents (Elt F) :=
  concatenate S40000x256 1 [⟨S40000x128, a⟩, ⟨S40000x128, b⟩] concatenates_S40000x128_S40000x128_S40000x256_d1

/-- Operations 1 … 22 of 214: the values %v0 … %v17. -/
abbrev ops01 : List (HloOp τ sig (Elt F)) :=
  [ unary main_arg3 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg3 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_c (constantI S_ 32 0#32),
    unary main_c main_v4 (broadcastInDim S500000 ![] bcast_S_S500000 : (⟨S_, .i32⟩ : BufTy).Contents (Elt F) → (⟨S500000, .i32⟩ : BufTy).Contents (Elt F)),
    binary main_v3 main_v4 main_v5 (cmpi .slt : (⟨S500000, .i32⟩ : BufTy).Contents (Elt F) → (⟨S500000, .i32⟩ : BufTy).Contents (Elt F) → (⟨S500000, .i1⟩ : BufTy).Contents (Elt F)),
    nullary main_c_0 (constantI S_ 32 40000#32),
    unary main_c_0 main_v6 (broadcastInDim S500000 ![] bcast_S_S500000 : (⟨S_, .i32⟩ : BufTy).Contents (Elt F) → (⟨S500000, .i32⟩ : BufTy).Contents (Elt F)),
    binary main_v3 main_v6 main_v7 (addi : (⟨S500000, .i32⟩ : BufTy).Contents (Elt F) → (⟨S500000, .i32⟩ : BufTy).Contents (Elt F) → (⟨S500000, .i32⟩ : BufTy).Contents (Elt F)),
    ternary main_v5 main_v7 main_v3 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v8 main_v9 (broadcastInDim S500000x1 ![0] bcast_S500000_S500000x1_0 : (⟨S500000, .i32⟩ : BufTy).Contents (Elt F) → (⟨S500000x1, .i32⟩ : BufTy).Contents (Elt F)),
    binary main_arg1 main_v9 main_v10 ((fun x i => Host.gather gather_S40000x128_S500000x1_S500000x128_1_0_n_n_0_1_1128 x i) : (⟨S40000x128, .f32⟩ : BufTy).Contents (Elt F) → (⟨S500000x1, .i32⟩ : BufTy).Contents (Elt F) → (⟨S500000x128, .f32⟩ : BufTy).Contents (Elt F)),
    nullary main_c_1 (constantI S_ 32 0#32),
    unary main_c_1 main_v11 (broadcastInDim S500000 ![] bcast_S_S500000 : (⟨S_, .i32⟩ : BufTy).Contents (Elt F) → (⟨S500000, .i32⟩ : BufTy).Contents (Elt F)),
    binary main_v1 main_v11 main_v12 (cmpi .slt : (⟨S500000, .i32⟩ : BufTy).Contents (Elt F) → (⟨S500000, .i32⟩ : BufTy).Contents (Elt F) → (⟨S500000, .i1⟩ : BufTy).Contents (Elt F)),
    nullary main_c_2 (constantI S_ 32 100000#32),
    unary main_c_2 main_v13 (broadcastInDim S500000 ![] bcast_S_S500000 : (⟨S_, .i32⟩ : BufTy).Contents (Elt F) → (⟨S500000, .i32⟩ : BufTy).Contents (Elt F)),
    binary main_v1 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_v1 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v15 main_v16 (broadcastInDim S500000x1 ![0] bcast_S500000_S500000x1_0 : (⟨S500000, .i32⟩ : BufTy).Contents (Elt F) → (⟨S500000x1, .i32⟩ : BufTy).Contents (Elt F)),
    binary main_arg0 main_v16 main_v17 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]

/-- The buffers that stretch 1 writes. -/
abbrev ops01_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]

theorem ops01_writes : (ops01 : List (HloOp τ sig (Elt F))).Forall fun op => op.writes ⊆ (ops01_W.map (Proc.devRef (τ := τ) .tc)).toFinset :=
  ⟨writes_sub_of_mem main_v0 rfl (by decide),
    writes_sub_of_mem main_v1 rfl (by decide),
    writes_sub_of_mem main_v2 rfl (by decide),
    writes_sub_of_mem main_v3 rfl (by decide),
    writes_sub_of_mem main_c rfl (by decide),
    writes_sub_of_mem main_v4 rfl (by decide),
    writes_sub_of_mem main_v5 rfl (by decide),
    writes_sub_of_mem main_c_0 rfl (by decide),
    writes_sub_of_mem main_v6 rfl (by decide),
    writes_sub_of_mem main_v7 rfl (by decide),
    writes_sub_of_mem main_v8 rfl (by decide),
    writes_sub_of_mem main_v9 rfl (by decide),
    writes_sub_of_mem main_v10 rfl (by decide),
    writes_sub_of_mem main_c_1 rfl (by decide),
    writes_sub_of_mem main_v11 rfl (by decide),
    writes_sub_of_mem main_v12 rfl (by decide),
    writes_sub_of_mem main_c_2 rfl (by decide),
    writes_sub_of_mem main_v13 rfl (by decide),
    writes_sub_of_mem main_v14 rfl (by decide),
    writes_sub_of_mem main_v15 rfl (by decide),
    writes_sub_of_mem main_v16 rfl (by decide),
    writes_sub_of_mem main_v17 rfl (by decide)⟩

theorem ops01_sub : (ops01 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops01_fresh : (ops01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Operations 23 … 27 of 214: the values %v18 … %v22. -/
abbrev ops02 : List (HloOp τ sig (Elt F)) :=
  [ nary ![main_v10, main_v17, main_arg2] main_v18 (fun u => concatenate S500000x384 1 [⟨S500000x128, u 0⟩, ⟨S500000x128, u 1⟩, ⟨S500000x128, u 2⟩] concatenates_S500000x128_S500000x128_S500000x128_S500000x384_d1),
    binary main_v18 main_arg4 main_v19 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S500000x128 ![0, 1] bcast_S1x128_S500000x128_0_1 : (⟨S1x128, .f32⟩ : BufTy).Contents (Elt F) → (⟨S500000x128, .f32⟩ : BufTy).Contents (Elt F)),
    binary main_v19 main_v21 main_v22 (addf : (⟨S500000x128, .f32⟩ : BufTy).Contents (Elt F) → (⟨S500000x128, .f32⟩ : BufTy).Contents (Elt F) → (⟨S500000x128, .f32⟩ : BufTy).Contents (Elt F)) ]

/-- The buffers that stretch 2 writes. -/
abbrev ops02_W : List (Ref sig .tc) := [main_v18, main_v19, main_v20, main_v21, main_v22]

theorem ops02_writes : (ops02 : List (HloOp τ sig (Elt F))).Forall fun op => op.writes ⊆ (ops02_W.map (Proc.devRef (τ := τ) .tc)).toFinset :=
  ⟨writes_sub_of_mem main_v18 rfl (by decide),
    writes_sub_of_mem main_v19 rfl (by decide),
    writes_sub_of_mem main_v20 rfl (by decide),
    writes_sub_of_mem main_v21 rfl (by decide),
    writes_sub_of_mem main_v22 rfl (by decide)⟩

theorem ops02_sub : (ops02 : List (HloOp τ sig (Elt F))).Forall fun op => op.bufs ⊆ tcRefs τ sig :=
  ⟨nary_bufs_sub .., binary_bufs_sub .., unary_bufs_sub .., unary_bufs_sub .., binary_bufs_sub ..⟩

theorem ops02_fresh : (ops02 : List (HloOp τ sig (Elt F))).Forall fun op => op.fresh = ∅ :=
  ⟨rfl, rfl, rfl, rfl, rfl⟩

/-- Operations 28 … 40 of 214: the values %call0_v0 … %v27. -/
abbrev ops03 : List (HloOp τ sig (Elt F)) :=
  [ TRef.unary (.of main_v22 : TRef sig ⟨S500000x128, .f32⟩) main_call0.v0 Host.negf,
    TRef.unary main_call0.v0 main_call0.v1 Host.exp,
    TRef.nullary main_call0.cst (constant S_ .f32 0x3F800000#32),
    TRef.unary main_call0.cst main_call0.v2 (broadcastInDim S500000x128 ![] bcast_S_S500000x128),
    TRef.binary main_call0.v2 main_call0.v1 main_call0.v3 addf,
    TRef.nullary main_call0.cst_0 (constant S_ .f32 0x3F800000#32),
    TRef.unary main_call0.cst_0 main_call0.v4 (broadcastInDim S500000x128 ![] bcast_S_S500000x128),
    TRef.binary main_call0.v4 main_call0.v3 main_call0.v5 Host.divf,
    TRef.binary (.of main_v22 : TRef sig ⟨S500000x128, .f32⟩) main_call0.v5 main_call0.v6 mulf,
    binary main_v23 main_arg6 main_v24 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg7 main_v25 (broadcastInDim S1x128 ![1] bcast_S128_S1x128_1 : (⟨S128, .f32⟩ : BufTy).Contents (Elt F) → (⟨S1x128, .f32⟩ : BufTy).Contents (Elt F)),
    unary main_v25 main_v26 (broadcastInDim S500000x128 ![0, 1] bcast_S1x128_S500000x128_0_1 : (⟨S1x128, .f32⟩ : BufTy).Contents (Elt F) → (⟨S500000x128, .f32⟩ : BufTy).Contents (Elt F)),
    binary main_v24 main_v26 main_v27 (addf : (⟨S500000x128, .f32⟩ : BufTy).Contents (Elt F) → (⟨S500000x128, .f32⟩ : BufTy).Contents (Elt F) → (⟨S500000x128, .f32⟩ : BufTy).Contents (Elt F)) ]

/-- The buffers that stretch 3 writes. -/
abbrev ops03_W : List (Ref sig .tc) := [main_call0_v0, main_call0_v1, main_call0_cst, main_call0_v2, main_call0_v3, main_call0_cst_0, main_call0_v4, main_call0_v5, main_v23, main_v24, main_v25, main_v26, main_v27]

theorem ops03_writes : (ops03 : List (HloOp τ sig (Elt F))).Forall fun op => op.writes ⊆ (ops03_W.map (Proc.devRef (τ := τ) .tc)).toFinset :=
  ⟨writes_sub_of_mem main_call0_v0 rfl (by decide),
    writes_sub_of_mem main_call0_v1 rfl (by decide),
    writes_sub_of_mem main_call0_cst rfl (by decide),
    writes_sub_of_mem main_call0_v2 rfl (by decide),
    writes_sub_of_mem main_call0_v3 rfl (by decide),
    writes_sub_of_mem main_call0_cst_0 rfl (by decide),
    writes_sub_of_mem main_call0_v4 rfl (by decide),
    writes_sub_of_mem main_call0_v5 rfl (by decide),
    writes_sub_of_mem main_v23 rfl (by decide),
    writes_sub_of_mem main_v24 rfl (by decide),
    writes_sub_of_mem main_v25 rfl (by decide),
    writes_sub_of_mem main_v26 rfl (by decide),
    writes_sub_of_mem main_v27 rfl (by decide)⟩

theorem ops03_sub : (ops03 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem ops03_fresh : (ops03 : List (HloOp τ sig (Elt F))).Forall fun op => op.fresh = ∅ :=
  ⟨rfl, rfl, rfl, rfl, rfl, rfl, rfl, rfl, rfl, rfl, rfl, rfl, rfl⟩

/-- Operations 41 … 70 of 214: the values %cst … %v32. -/
abbrev ops04 : List (HloOp τ sig (Elt F)) :=
  [ nullary main_cst (constant S_ .f32 0x00000000#32),
    binary main_v27 main_cst main_v28 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v28 main_v29 (broadcastInDim S500000x1 ![0] bcast_S500000_S500000x1_0 : (⟨S500000, .f32⟩ : BufTy).Contents (Elt F) → (⟨S500000x1, .f32⟩ : BufTy).Contents (Elt F)),
    nullary main_cst_3 (constant S_ .f32 0x43000000#32),
    unary main_cst_3 main_v30 (broadcastInDim S500000x1 ![] bcast_S_S500000x1 : (⟨S_, .f32⟩ : BufTy).Contents (Elt F) → (⟨S500000x1, .f32⟩ : BufTy).Contents (Elt F)),
    binary main_v29 main_v30 main_v31 (Host.divf : (⟨S500000x1, .f32⟩ : BufTy).Contents (Elt F) → (⟨S500000x1, .f32⟩ : BufTy).Contents (Elt F) → (⟨S500000x1, .f32⟩ : BufTy).Contents (Elt F)),
    nullary main_c_4 (constantI S_ 32 0#32),
    TRef.nullary main_call1.cst (constant S_ .f32 0x00000000#32),
    TRef.binary (.of main_v27 : TRef sig ⟨S500000x128, .f32⟩) main_call1.cst main_call1.v0 (fun x v => Host.reduceAdd x v reducesTo_S500000x128_S500000_d1 h_S_),
    TRef.unary main_call1.v0 main_call1.v1 (broadcastInDim S500000x1 ![0] bcast_S500000_S500000x1_0),
    TRef.nullary main_call1.cst_0 (constant S_ .f32 0x43000000#32),
    TRef.unary main_call1.cst_0 main_call1.v2 (broadcastInDim S500000x1 ![] bcast_S_S500000x1),
    TRef.binary main_call1.v1 main_call1.v2 main_call1.v3 Host.divf,
    TRef.unary main_call1.v3 main_call1.v4 (broadcastInDim S500000x128 ![0, 1] bcast_S500000x1_S500000x128_0_1),
    TRef.binary (.of main_v27 : TRef sig ⟨S500000x128, .f32⟩) main_call1.v4 main_call1.v5 subf,
    TRef.binary main_call1.v5 main_call1.v5 main_call1.v6 mulf,
    TRef.unary (.of main_c_4 : TRef sig ⟨S_, .i32⟩) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S500000x128_S500000_d1 h_S_),
    TRef.unary main_call1.v9 main_call1.v10 (broadcastInDim S500000x1 ![0] bcast_S500000_S500000x1_0),
    TRef.unary main_call1.v8 main_call1.v11 (broadcastInDim S500000x1 ![] bcast_S_S500000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S500000x1 ![] bcast_S_S500000x1),
    TRef.ternary main_call1.v13 main_call1.v12 main_call1.call0.v1 main_call1.call0.v2 (fun p a b => select (broadcastInDim S500000x1 ![] bcast_S_S500000x1 p) a b) ]

/-- The buffers that stretch 4 writes. -/
abbrev ops04_W : List (Ref sig .tc) := [main_cst, main_v28, main_v29, main_cst_3, main_v30, main_v31, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v32]

theorem ops04_writes : (ops04 : List (HloOp τ sig (Elt F))).Forall fun op => op.writes ⊆ (ops04_W.map (Proc.devRef (τ := τ) .tc)).toFinset :=
  ⟨writes_sub_of_mem main_cst rfl (by decide),
    writes_sub_of_mem main_v28 rfl (by decide),
    writes_sub_of_mem main_v29 rfl (by decide),
    writes_sub_of_mem main_cst_3 rfl (by decide),
    writes_sub_of_mem main_v30 rfl (by decide),
    writes_sub_of_mem main_v31 rfl (by decide),
    writes_sub_of_mem main_c_4 rfl (by decide),
    writes_sub_of_mem main_call1_cst rfl (by decide),
    writes_sub_of_mem main_call1_v0 rfl (by decide),
    writes_sub_of_mem main_call1_v1 rfl (by decide),
    writes_sub_of_mem main_call1_cst_0 rfl (by decide),
    writes_sub_of_mem main_call1_v2 rfl (by decide),
    writes_sub_of_mem main_call1_v3 rfl (by decide),
    writes_sub_of_mem main_call1_v4 rfl (by decide),
    writes_sub_of_mem main_call1_v5 rfl (by decide),
    writes_sub_of_mem main_call1_v6 rfl (by decide),
    writes_sub_of_mem main_call1_v7 rfl (by decide),
    writes_sub_of_mem main_call1_cst_1 rfl (by decide),
    writes_sub_of_mem main_call1_v8 rfl (by decide),
    writes_sub_of_mem main_call1_cst_2 rfl (by decide),
    writes_sub_of_mem main_call1_v9 rfl (by decide),
    writes_sub_of_mem main_call1_v10 rfl (by decide),
    writes_sub_of_mem main_call1_v11 rfl (by decide),
    writes_sub_of_mem main_call1_v12 rfl (by decide),
    writes_sub_of_mem main_call1_cst_3 rfl (by decide),
    writes_sub_of_mem main_call1_v13 rfl (by decide),
    writes_sub_of_mem main_call1_cst_4 rfl (by decide),
    writes_sub_of_mem main_call1_call0_v0 rfl (by decide),
    writes_sub_of_mem main_call1_call0_v1 rfl (by decide),
    writes_sub_of_mem main_v32 rfl (by decide)⟩

theorem ops04_sub : (ops04 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem ops04_fresh : (ops04 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 71 … 84 of 214: the values %v33 … %v45. -/
abbrev ops05 : List (HloOp τ sig (Elt F)) :=
  [ unary main_v31 main_v33 (broadcastInDim S500000x128 ![0, 1] bcast_S500000x1_S500000x128_0_1 : (⟨S500000x1, .f32⟩ : BufTy).Contents (Elt F) → (⟨S500000x128, .f32⟩ : BufTy).Contents (Elt F)),
    binary main_v27 main_v33 main_v34 (subf : (⟨S500000x128, .f32⟩ : BufTy).Contents (Elt F) → (⟨S500000x128, .f32⟩ : BufTy).Contents (Elt F) → (⟨S500000x128, .f32⟩ : BufTy).Contents (Elt F)),
    nullary main_cst_5 (constant S_ .f32 0x3727C5AC#32),
    unary main_cst_5 main_v35 (broadcastInDim S500000x1 ![] bcast_S_S500000x1 : (⟨S_, .f32⟩ : BufTy).Contents (Elt F) → (⟨S500000x1, .f32⟩ : BufTy).Contents (Elt F)),
    binary main_v32 main_v35 main_v36 (addf : (⟨S500000x1, .f32⟩ : BufTy).Contents (Elt F) → (⟨S500000x1, .f32⟩ : BufTy).Contents (Elt F) → (⟨S500000x1, .f32⟩ : BufTy).Contents (Elt F)),
    unary main_v36 main_v37 (Host.rsqrt : (⟨S500000x1, .f32⟩ : BufTy).Contents (Elt F) → (⟨S500000x1, .f32⟩ : BufTy).Contents (Elt F)),
    unary main_v37 main_v38 (broadcastInDim S500000x128 ![0, 1] bcast_S500000x1_S500000x128_0_1 : (⟨S500000x1, .f32⟩ : BufTy).Contents (Elt F) → (⟨S500000x128, .f32⟩ : BufTy).Contents (Elt F)),
    binary main_v34 main_v38 main_v39 (mulf : (⟨S500000x128, .f32⟩ : BufTy).Contents (Elt F) → (⟨S500000x128, .f32⟩ : BufTy).Contents (Elt F) → (⟨S500000x128, .f32⟩ : BufTy).Contents (Elt F)),
    unary main_arg8 main_v40 (broadcastInDim S1x128 ![1] bcast_S128_S1x128_1 : (⟨S128, .f32⟩ : BufTy).Contents (Elt F) → (⟨S1x128, .f32⟩ : BufTy).Contents (Elt F)),
    unary main_v40 main_v41 (broadcastInDim S500000x128 ![0, 1] bcast_S1x128_S500000x128_0_1 : (⟨S1x128, .f32⟩ : BufTy).Contents (Elt F) → (⟨S500000x128, .f32⟩ : BufTy).Contents (Elt F)),
    binary main_v39 main_v41 main_v42 (mulf : (⟨S500000x128, .f32⟩ : BufTy).Contents (Elt F) → (⟨S500000x128, .f32⟩ : BufTy).Contents (Elt F) → (⟨S500000x128, .f32⟩ : BufTy).Contents (Elt F)),
    unary main_arg9 main_v43 (broadcastInDim S1x128 ![1] bcast_S128_S1x128_1 : (⟨S128, .f32⟩ : BufTy).Contents (Elt F) → (⟨S1x128, .f32⟩ : BufTy).Contents (Elt F)),
    unary main_v43 main_v44 (broadcastInDim S500000x128 ![0, 1] bcast_S1x128_S500000x128_0_1 : (⟨S1x128, .f32⟩ : BufTy).Contents (Elt F) → (⟨S500000x128, .f32⟩ : BufTy).Contents (Elt F)),
    binary main_v42 main_v44 main_v45 (addf : (⟨S500000x128, .f32⟩ : BufTy).Contents (Elt F) → (⟨S500000x128, .f32⟩ : BufTy).Contents (Elt F) → (⟨S500000x128, .f32⟩ : BufTy).Contents (Elt F)) ]

/-- The buffers that stretch 5 writes. -/
abbrev ops05_W : List (Ref sig .tc) := [main_v33, main_v34, main_cst_5, main_v35, main_v36, main_v37, main_v38, main_v39, main_v40, main_v41, main_v42, main_v43, main_v44, main_v45]

theorem ops05_writes : (ops05 : List (HloOp τ sig (Elt F))).Forall fun op => op.writes ⊆ (ops05_W.map (Proc.devRef (τ := τ) .tc)).toFinset :=
  ⟨writes_sub_of_mem main_v33 rfl (by decide),
    writes_sub_of_mem main_v34 rfl (by decide),
    writes_sub_of_mem main_cst_5 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_v44 rfl (by decide),
    writes_sub_of_mem main_v45 rfl (by decide)⟩

theorem ops05_sub : (ops05 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops05_fresh : (ops05 : List (HloOp τ sig (Elt F))).Forall fun op => op.fresh = ∅ :=
  ⟨rfl, rfl, rfl, rfl, rfl, rfl, rfl, rfl, rfl, rfl, rfl, rfl, rfl, rfl⟩

/-- Operations 85 … 90 of 214: the values %cst_6 … %v50. -/
abbrev ops06 : List (HloOp τ sig (Elt F)) :=
  [ nullary main_cst_6 (constant S_ .f32 0x00000000#32),
    unary main_cst_6 main_v46 (broadcastInDim S40000x128 ![] bcast_S_S40000x128 : (⟨S_, .f32⟩ : BufTy).Contents (Elt F) → (⟨S40000x128, .f32⟩ : BufTy).Contents (Elt F)),
    unary main_v3 main_v47 (broadcastInDim S500000x1 ![0] bcast_S500000_S500000x1_0 : (⟨S500000, .i32⟩ : BufTy).Contents (Elt F) → (⟨S500000x1, .i32⟩ : BufTy).Contents (Elt F)),
    ternary main_v46 main_v47 main_v45 main_v48 ((fun x i u => Host.scatterAdd scatter_S40000x128_S500000x1_S500000x128_1_0_0_1 x i u) : (⟨S40000x128, .f32⟩ : BufTy).Contents (Elt F) → (⟨S500000x1, .i32⟩ : BufTy).Contents (Elt F) → (⟨S500000x128, .f32⟩ : BufTy).Contents (Elt F) → (⟨S40000x128, .f32⟩ : BufTy).Contents (Elt F)),
    binary main_arg1 main_v48 main_v49 (catDst : (⟨S40000x128, .f32⟩ : BufTy).Contents (Elt F) → (⟨S40000x128, .f32⟩ : BufTy).Contents (Elt F) → (⟨S40000x256, .f32⟩ : BufTy).Contents (Elt F)),
    binary main_v49 main_arg10 main_v50 ((fun l r => Host.dotGeneral dot_S40000x256_S256x128_S40000x128_1_0_0_1_n_n none l r) : (⟨S40000x256, .f32⟩ : BufTy).Contents (Elt F) → (⟨S256x128, .f32⟩ : BufTy).Contents (Elt F) → (⟨S40000x128, .f32⟩ : BufTy).Contents (Elt F)) ]

/-- The buffers that stretch 6 writes. -/
abbrev ops06_W : List (Ref sig .tc) := [main_cst_6, main_v46, main_v47, main_v48, main_v49, main_v50]

theorem ops06_writes : (ops06 : List (HloOp τ sig (Elt F))).Forall fun op => op.writes ⊆ (ops06_W.map (Proc.devRef (τ := τ) .tc)).toFinset :=
  ⟨writes_sub_of_mem main_cst_6 rfl (by decide),
    writes_sub_of_mem main_v46 rfl (by decide),
    writes_sub_of_mem main_v47 rfl (by decide),
    writes_sub_of_mem main_v48 rfl (by decide),
    writes_sub_of_mem main_v49 rfl (by decide),
    writes_sub_of_mem main_v50 rfl (by decide)⟩

theorem ops06_sub : (ops06 : List (HloOp τ sig (Elt F))).Forall fun op => op.bufs ⊆ tcRefs τ sig :=
  ⟨nullary_bufs_sub .., unary_bufs_sub .., unary_bufs_sub .., ternary_bufs_sub .., binary_bufs_sub .., binary_bufs_sub ..⟩

theorem ops06_fresh : (ops06 : List (HloOp τ sig (Elt F))).Forall fun op => op.fresh = ∅ :=
  ⟨rfl, rfl, rfl, rfl, rfl, rfl⟩

/-- Operations 91 … 93 of 214: the values %v51 … %v53. -/
abbrev ops07 : List (HloOp τ sig (Elt F)) :=
  [ unary main_arg11 main_v51 (broadcastInDim S1x128 ![1] bcast_S128_S1x128_1 : (⟨S128, .f32⟩ : BufTy).Contents (Elt F) → (⟨S1x128, .f32⟩ : BufTy).Contents (Elt F)),
    unary main_v51 main_v52 (broadcastInDim S40000x128 ![0, 1] bcast_S1x128_S40000x128_0_1 : (⟨S1x128, .f32⟩ : BufTy).Contents (Elt F) → (⟨S40000x128, .f32⟩ : BufTy).Contents (Elt F)),
    binary main_v50 main_v52 main_v53 (addf : (⟨S40000x128, .f32⟩ : BufTy).Contents (Elt F) → (⟨S40000x128, .f32⟩ : BufTy).Contents (Elt F) → (⟨S40000x128, .f32⟩ : BufTy).Contents (Elt F)) ]

/-- The buffers that stretch 7 writes. -/
abbrev ops07_W : List (Ref sig .tc) := [main_v51, main_v52, main_v53]

theorem ops07_writes : (ops07 : List (HloOp τ sig (Elt F))).Forall fun op => op.writes ⊆ (ops07_W.map (Proc.devRef (τ := τ) .tc)).toFinset :=
  ⟨writes_sub_of_mem main_v51 rfl (by decide),
    writes_sub_of_mem main_v52 rfl (by decide),
    writes_sub_of_mem main_v53 rfl (by decide)⟩

theorem ops07_sub : (ops07 : List (HloOp τ sig (Elt F))).Forall fun op => op.bufs ⊆ tcRefs τ sig :=
  ⟨unary_bufs_sub .., unary_bufs_sub .., binary_bufs_sub ..⟩

theorem ops07_fresh : (ops07 : List (HloOp τ sig (Elt F))).Forall fun op => op.fresh = ∅ :=
  ⟨rfl, rfl, rfl⟩

/-- Operations 94 … 106 of 214: the values %call2_v0 … %v58. -/
abbrev ops08 : List (HloOp τ sig (Elt F)) :=
  [ TRef.unary (.of main_v53 : TRef sig ⟨S40000x128, .f32⟩) main_call2.v0 Host.negf,
    TRef.unary main_call2.v0 main_call2.v1 Host.exp,
    TRef.nullary main_call2.cst (constant S_ .f32 0x3F800000#32),
    TRef.unary main_call2.cst main_call2.v2 (broadcastInDim S40000x128 ![] bcast_S_S40000x128),
    TRef.binary main_call2.v2 main_call2.v1 main_call2.v3 addf,
    TRef.nullary main_call2.cst_0 (constant S_ .f32 0x3F800000#32),
    TRef.unary main_call2.cst_0 main_call2.v4 (broadcastInDim S40000x128 ![] bcast_S_S40000x128),
    TRef.binary main_call2.v4 main_call2.v3 main_call2.v5 Host.divf,
    TRef.binary (.of main_v53 : TRef sig ⟨S40000x128, .f32⟩) main_call2.v5 main_call2.v6 mulf,
    binary main_v54 main_arg12 main_v55 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg13 main_v56 (broadcastInDim S1x128 ![1] bcast_S128_S1x128_1 : (⟨S128, .f32⟩ : BufTy).Contents (Elt F) → (⟨S1x128, .f32⟩ : BufTy).Contents (Elt F)),
    unary main_v56 main_v57 (broadcastInDim S40000x128 ![0, 1] bcast_S1x128_S40000x128_0_1 : (⟨S1x128, .f32⟩ : BufTy).Contents (Elt F) → (⟨S40000x128, .f32⟩ : BufTy).Contents (Elt F)),
    binary main_v55 main_v57 main_v58 (addf : (⟨S40000x128, .f32⟩ : BufTy).Contents (Elt F) → (⟨S40000x128, .f32⟩ : BufTy).Contents (Elt F) → (⟨S40000x128, .f32⟩ : BufTy).Contents (Elt F)) ]

/-- The buffers that stretch 8 writes. -/
abbrev ops08_W : List (Ref sig .tc) := [main_call2_v0, main_call2_v1, main_call2_cst, main_call2_v2, main_call2_v3, main_call2_cst_0, main_call2_v4, main_call2_v5, main_v54, main_v55, main_v56, main_v57, main_v58]

theorem ops08_writes : (ops08 : List (HloOp τ sig (Elt F))).Forall fun op => op.writes ⊆ (ops08_W.map (Proc.devRef (τ := τ) .tc)).toFinset :=
  ⟨writes_sub_of_mem main_call2_v0 rfl (by decide),
    writes_sub_of_mem main_call2_v1 rfl (by decide),
    writes_sub_of_mem main_call2_cst rfl (by decide),
    writes_sub_of_mem main_call2_v2 rfl (by decide),
    writes_sub_of_mem main_call2_v3 rfl (by decide),
    writes_sub_of_mem main_call2_cst_0 rfl (by decide),
    writes_sub_of_mem main_call2_v4 rfl (by decide),
    writes_sub_of_mem main_call2_v5 rfl (by decide),
    writes_sub_of_mem main_v54 rfl (by decide),
    writes_sub_of_mem main_v55 rfl (by decide),
    writes_sub_of_mem main_v56 rfl (by decide),
    writes_sub_of_mem main_v57 rfl (by decide),
    writes_sub_of_mem main_v58 rfl (by decide)⟩

theorem ops08_sub : (ops08 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem ops08_fresh : (ops08 : List (HloOp τ sig (Elt F))).Forall fun op => op.fresh = ∅ :=
  ⟨rfl, rfl, rfl, rfl, rfl, rfl, rfl, rfl, rfl, rfl, rfl, rfl, rfl⟩

/-- Operations 107 … 136 of 214: the values %cst_7 … %v63. -/
abbrev ops09 : List (HloOp τ sig (Elt F)) :=
  [ nullary main_cst_7 (constant S_ .f32 0x00000000#32),
    binary main_v58 main_cst_7 main_v59 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    unary main_v59 main_v60 (broadcastInDim S40000x1 ![0] bcast_S40000_S40000x1_0 : (⟨S40000, .f32⟩ : BufTy).Contents (Elt F) → (⟨S40000x1, .f32⟩ : BufTy).Contents (Elt F)),
    nullary main_cst_8 (constant S_ .f32 0x43000000#32),
    unary main_cst_8 main_v61 (broadcastInDim S40000x1 ![] bcast_S_S40000x1 : (⟨S_, .f32⟩ : BufTy).Contents (Elt F) → (⟨S40000x1, .f32⟩ : BufTy).Contents (Elt F)),
    binary main_v60 main_v61 main_v62 (Host.divf : (⟨S40000x1, .f32⟩ : BufTy).Contents (Elt F) → (⟨S40000x1, .f32⟩ : BufTy).Contents (Elt F) → (⟨S40000x1, .f32⟩ : BufTy).Contents (Elt F)),
    nullary main_c_9 (constantI S_ 32 0#32),
    TRef.nullary main_call3.cst (constant S_ .f32 0x00000000#32),
    TRef.binary (.of main_v58 : TRef sig ⟨S40000x128, .f32⟩) main_call3.cst main_call3.v0 (fun x v => Host.reduceAdd x v reducesTo_S40000x128_S40000_d1 h_S_),
    TRef.unary main_call3.v0 main_call3.v1 (broadcastInDim S40000x1 ![0] bcast_S40000_S40000x1_0),
    TRef.nullary main_call3.cst_0 (constant S_ .f32 0x43000000#32),
    TRef.unary main_call3.cst_0 main_call3.v2 (broadcastInDim S40000x1 ![] bcast_S_S40000x1),
    TRef.binary main_call3.v1 main_call3.v2 main_call3.v3 Host.divf,
    TRef.unary main_call3.v3 main_call3.v4 (broadcastInDim S40000x128 ![0, 1] bcast_S40000x1_S40000x128_0_1),
    TRef.binary (.of main_v58 : TRef sig ⟨S40000x128, .f32⟩) main_call3.v4 main_call3.v5 subf,
    TRef.binary main_call3.v5 main_call3.v5 main_call3.v6 mulf,
    TRef.unary (.of main_c_9 : TRef sig ⟨S_, .i32⟩) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S40000x128_S40000_d1 h_S_),
    TRef.unary main_call3.v9 main_call3.v10 (broadcastInDim S40000x1 ![0] bcast_S40000_S40000x1_0),
    TRef.unary main_call3.v8 main_call3.v11 (broadcastInDim S40000x1 ![] bcast_S_S40000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S40000x1 ![] bcast_S_S40000x1),
    TRef.ternary main_call3.v13 main_call3.v12 main_call3.call0.v1 main_call3.call0.v2 (fun p a b => select (broadcastInDim S40000x1 ![] bcast_S_S40000x1 p) a b) ]

/-- The buffers that stretch 9 writes. -/
abbrev ops09_W : List (Ref sig .tc) := [main_cst_7, main_v59, main_v60, main_cst_8, main_v61, main_v62, main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v63]

theorem ops09_writes : (ops09 : List (HloOp τ sig (Elt F))).Forall fun op => op.writes ⊆ (ops09_W.map (Proc.devRef (τ := τ) .tc)).toFinset :=
  ⟨writes_sub_of_mem main_cst_7 rfl (by decide),
    writes_sub_of_mem main_v59 rfl (by decide),
    writes_sub_of_mem main_v60 rfl (by decide),
    writes_sub_of_mem main_cst_8 rfl (by decide),
    writes_sub_of_mem main_v61 rfl (by decide),
    writes_sub_of_mem main_v62 rfl (by decide),
    writes_sub_of_mem main_c_9 rfl (by decide),
    writes_sub_of_mem main_call3_cst rfl (by decide),
    writes_sub_of_mem main_call3_v0 rfl (by decide),
    writes_sub_of_mem main_call3_v1 rfl (by decide),
    writes_sub_of_mem main_call3_cst_0 rfl (by decide),
    writes_sub_of_mem main_call3_v2 rfl (by decide),
    writes_sub_of_mem main_call3_v3 rfl (by decide),
    writes_sub_of_mem main_call3_v4 rfl (by decide),
    writes_sub_of_mem main_call3_v5 rfl (by decide),
    writes_sub_of_mem main_call3_v6 rfl (by decide),
    writes_sub_of_mem main_call3_v7 rfl (by decide),
    writes_sub_of_mem main_call3_cst_1 rfl (by decide),
    writes_sub_of_mem main_call3_v8 rfl (by decide),
    writes_sub_of_mem main_call3_cst_2 rfl (by decide),
    writes_sub_of_mem main_call3_v9 rfl (by decide),
    writes_sub_of_mem main_call3_v10 rfl (by decide),
    writes_sub_of_mem main_call3_v11 rfl (by decide),
    writes_sub_of_mem main_call3_v12 rfl (by decide),
    writes_sub_of_mem main_call3_cst_3 rfl (by decide),
    writes_sub_of_mem main_call3_v13 rfl (by decide),
    writes_sub_of_mem main_call3_cst_4 rfl (by decide),
    writes_sub_of_mem main_call3_call0_v0 rfl (by decide),
    writes_sub_of_mem main_call3_call0_v1 rfl (by decide),
    writes_sub_of_mem main_v63 rfl (by decide)⟩

theorem ops09_sub : (ops09 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem ops09_fresh : (ops09 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 137 … 151 of 214: the values %v64 … %v77. -/
abbrev ops10 : List (HloOp τ sig (Elt F)) :=
  [ unary main_v62 main_v64 (broadcastInDim S40000x128 ![0, 1] bcast_S40000x1_S40000x128_0_1 : (⟨S40000x1, .f32⟩ : BufTy).Contents (Elt F) → (⟨S40000x128, .f32⟩ : BufTy).Contents (Elt F)),
    binary main_v58 main_v64 main_v65 (subf : (⟨S40000x128, .f32⟩ : BufTy).Contents (Elt F) → (⟨S40000x128, .f32⟩ : BufTy).Contents (Elt F) → (⟨S40000x128, .f32⟩ : BufTy).Contents (Elt F)),
    nullary main_cst_10 (constant S_ .f32 0x3727C5AC#32),
    unary main_cst_10 main_v66 (broadcastInDim S40000x1 ![] bcast_S_S40000x1 : (⟨S_, .f32⟩ : BufTy).Contents (Elt F) → (⟨S40000x1, .f32⟩ : BufTy).Contents (Elt F)),
    binary main_v63 main_v66 main_v67 (addf : (⟨S40000x1, .f32⟩ : BufTy).Contents (Elt F) → (⟨S40000x1, .f32⟩ : BufTy).Contents (Elt F) → (⟨S40000x1, .f32⟩ : BufTy).Contents (Elt F)),
    unary main_v67 main_v68 (Host.rsqrt : (⟨S40000x1, .f32⟩ : BufTy).Contents (Elt F) → (⟨S40000x1, .f32⟩ : BufTy).Contents (Elt F)),
    unary main_v68 main_v69 (broadcastInDim S40000x128 ![0, 1] bcast_S40000x1_S40000x128_0_1 : (⟨S40000x1, .f32⟩ : BufTy).Contents (Elt F) → (⟨S40000x128, .f32⟩ : BufTy).Contents (Elt F)),
    binary main_v65 main_v69 main_v70 (mulf : (⟨S40000x128, .f32⟩ : BufTy).Contents (Elt F) → (⟨S40000x128, .f32⟩ : BufTy).Contents (Elt F) → (⟨S40000x128, .f32⟩ : BufTy).Contents (Elt F)),
    unary main_arg14 main_v71 (broadcastInDim S1x128 ![1] bcast_S128_S1x128_1 : (⟨S128, .f32⟩ : BufTy).Contents (Elt F) → (⟨S1x128, .f32⟩ : BufTy).Contents (Elt F)),
    unary main_v71 main_v72 (broadcastInDim S40000x128 ![0, 1] bcast_S1x128_S40000x128_0_1 : (⟨S1x128, .f32⟩ : BufTy).Contents (Elt F) → (⟨S40000x128, .f32⟩ : BufTy).Contents (Elt F)),
    binary main_v70 main_v72 main_v73 (mulf : (⟨S40000x128, .f32⟩ : BufTy).Contents (Elt F) → (⟨S40000x128, .f32⟩ : BufTy).Contents (Elt F) → (⟨S40000x128, .f32⟩ : BufTy).Contents (Elt F)),
    unary main_arg15 main_v74 (broadcastInDim S1x128 ![1] bcast_S128_S1x128_1 : (⟨S128, .f32⟩ : BufTy).Contents (Elt F) → (⟨S1x128, .f32⟩ : BufTy).Contents (Elt F)),
    unary main_v74 main_v75 (broadcastInDim S40000x128 ![0, 1] bcast_S1x128_S40000x128_0_1 : (⟨S1x128, .f32⟩ : BufTy).Contents (Elt F) → (⟨S40000x128, .f32⟩ : BufTy).Contents (Elt F)),
    binary main_v73 main_v75 main_v76 (addf : (⟨S40000x128, .f32⟩ : BufTy).Contents (Elt F) → (⟨S40000x128, .f32⟩ : BufTy).Contents (Elt F) → (⟨S40000x128, .f32⟩ : BufTy).Contents (Elt F)),
    binary main_v76 main_arg1 main_v77 (addf : (⟨S40000x128, .f32⟩ : BufTy).Contents (Elt F) → (⟨S40000x128, .f32⟩ : BufTy).Contents (Elt F) → (⟨S40000x128, .f32⟩ : BufTy).Contents (Elt F)) ]

/-- The buffers that stretch 10 writes. -/
abbrev ops10_W : List (Ref sig .tc) := [main_v64, main_v65, main_cst_10, main_v66, main_v67, main_v68, main_v69, main_v70, main_v71, main_v72, main_v73, main_v74, main_v75, main_v76, main_v77]

theorem ops10_writes : (ops10 : List (HloOp τ sig (Elt F))).Forall fun op => op.writes ⊆ (ops10_W.map (Proc.devRef (τ := τ) .tc)).toFinset :=
  ⟨writes_sub_of_mem main_v64 rfl (by decide),
    writes_sub_of_mem main_v65 rfl (by decide),
    writes_sub_of_mem main_cst_10 rfl (by decide),
    writes_sub_of_mem main_v66 rfl (by decide),
    writes_sub_of_mem main_v67 rfl (by decide),
    writes_sub_of_mem main_v68 rfl (by decide),
    writes_sub_of_mem main_v69 rfl (by decide),
    writes_sub_of_mem main_v70 rfl (by decide),
    writes_sub_of_mem main_v71 rfl (by decide),
    writes_sub_of_mem main_v72 rfl (by decide),
    writes_sub_of_mem main_v73 rfl (by decide),
    writes_sub_of_mem main_v74 rfl (by decide),
    writes_sub_of_mem main_v75 rfl (by decide),
    writes_sub_of_mem main_v76 rfl (by decide),
    writes_sub_of_mem main_v77 rfl (by decide)⟩

theorem ops10_sub : (ops10 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

theorem ops10_fresh : (ops10 : List (HloOp τ sig (Elt F))).Forall fun op => op.fresh = ∅ :=
  ⟨rfl, rfl, rfl, rfl, rfl, rfl, rfl, rfl, rfl, rfl, rfl, rfl, rfl, rfl, rfl⟩

/-- Operations 152 … 156 of 214: the values %v78 … %v82. -/
abbrev ops11 : List (HloOp τ sig (Elt F)) :=
  [ binary main_arg0 main_arg0 main_v78 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v78 main_arg10 main_v79 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg11 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)) ]

/-- The buffers that stretch 11 writes. -/
abbrev ops11_W : List (Ref sig .tc) := [main_v78, main_v79, main_v80, main_v81, main_v82]

theorem ops11_writes : (ops11 : List (HloOp τ sig (Elt F))).Forall fun op => op.writes ⊆ (ops11_W.map (Proc.devRef (τ := τ) .tc)).toFinset :=
  ⟨writes_sub_of_mem main_v78 rfl (by decide),
    writes_sub_of_mem main_v79 rfl (by decide),
    writes_sub_of_mem main_v80 rfl (by decide),
    writes_sub_of_mem main_v81 rfl (by decide),
    writes_sub_of_mem main_v82 rfl (by decide)⟩

theorem ops11_sub : (ops11 : List (HloOp τ sig (Elt F))).Forall fun op => op.bufs ⊆ tcRefs τ sig :=
  ⟨binary_bufs_sub .., binary_bufs_sub .., unary_bufs_sub .., unary_bufs_sub .., binary_bufs_sub ..⟩

theorem ops11_fresh : (ops11 : List (HloOp τ sig (Elt F))).Forall fun op => op.fresh = ∅ :=
  ⟨rfl, rfl, rfl, rfl, rfl⟩

/-- Operations 157 … 169 of 214: the values %call4_v0 … %v87. -/
abbrev ops12 : List (HloOp τ sig (Elt F)) :=
  [ TRef.unary (.of main_v82 : TRef sig ⟨S100000x128, .f32⟩) main_call4.v0 Host.negf,
    TRef.unary main_call4.v0 main_call4.v1 Host.exp,
    TRef.nullary main_call4.cst (constant S_ .f32 0x3F800000#32),
    TRef.unary main_call4.cst main_call4.v2 (broadcastInDim S100000x128 ![] bcast_S_S100000x128),
    TRef.binary main_call4.v2 main_call4.v1 main_call4.v3 addf,
    TRef.nullary main_call4.cst_0 (constant S_ .f32 0x3F800000#32),
    TRef.unary main_call4.cst_0 main_call4.v4 (broadcastInDim S100000x128 ![] bcast_S_S100000x128),
    TRef.binary main_call4.v4 main_call4.v3 main_call4.v5 Host.divf,
    TRef.binary (.of main_v82 : TRef sig ⟨S100000x128, .f32⟩) main_call4.v5 main_call4.v6 mulf,
    binary main_v83 main_arg12 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)) ]

/-- The buffers that stretch 12 writes. -/
abbrev ops12_W : List (Ref sig .tc) := [main_call4_v0, main_call4_v1, main_call4_cst, main_call4_v2, main_call4_v3, main_call4_cst_0, main_call4_v4, main_call4_v5, main_v83, main_v84, main_v85, main_v86, main_v87]

theorem ops12_writes : (ops12 : List (HloOp τ sig (Elt F))).Forall fun op => op.writes ⊆ (ops12_W.map (Proc.devRef (τ := τ) .tc)).toFinset :=
  ⟨writes_sub_of_mem main_call4_v0 rfl (by decide),
    writes_sub_of_mem main_call4_v1 rfl (by decide),
    writes_sub_of_mem main_call4_cst rfl (by decide),
    writes_sub_of_mem main_call4_v2 rfl (by decide),
    writes_sub_of_mem main_call4_v3 rfl (by decide),
    writes_sub_of_mem main_call4_cst_0 rfl (by decide),
    writes_sub_of_mem main_call4_v4 rfl (by decide),
    writes_sub_of_mem main_call4_v5 rfl (by decide),
    writes_sub_of_mem main_v83 rfl (by decide),
    writes_sub_of_mem main_v84 rfl (by decide),
    writes_sub_of_mem main_v85 rfl (by decide),
    writes_sub_of_mem main_v86 rfl (by decide),
    writes_sub_of_mem main_v87 rfl (by decide)⟩

theorem ops12_sub : (ops12 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem ops12_fresh : (ops12 : List (HloOp τ sig (Elt F))).Forall fun op => op.fresh = ∅ :=
  ⟨rfl, rfl, rfl, rfl, rfl, rfl, rfl, rfl, rfl, rfl, rfl, rfl, rfl⟩

/-- Operations 170 … 199 of 214: the values %cst_11 … %v92. -/
abbrev ops13 : List (HloOp τ sig (Elt F)) :=
  [ nullary main_cst_11 (constant S_ .f32 0x00000000#32),
    binary main_v87 main_cst_11 main_v88 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v88 main_v89 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v90 (broadcastInDim S100000x1 ![] bcast_S_S100000x1 : (⟨S_, .f32⟩ : BufTy).Contents (Elt F) → (⟨S100000x1, .f32⟩ : BufTy).Contents (Elt F)),
    binary main_v89 main_v90 main_v91 (Host.divf : (⟨S100000x1, .f32⟩ : BufTy).Contents (Elt F) → (⟨S100000x1, .f32⟩ : BufTy).Contents (Elt F) → (⟨S100000x1, .f32⟩ : BufTy).Contents (Elt F)),
    nullary main_c_13 (constantI S_ 32 0#32),
    TRef.nullary main_call5.cst (constant S_ .f32 0x00000000#32),
    TRef.binary (.of main_v87 : TRef sig ⟨S100000x128, .f32⟩) main_call5.cst main_call5.v0 (fun x v => Host.reduceAdd x v reducesTo_S100000x128_S100000_d1 h_S_),
    TRef.unary main_call5.v0 main_call5.v1 (broadcastInDim S100000x1 ![0] bcast_S100000_S100000x1_0),
    TRef.nullary main_call5.cst_0 (constant S_ .f32 0x43000000#32),
    TRef.unary main_call5.cst_0 main_call5.v2 (broadcastInDim S100000x1 ![] bcast_S_S100000x1),
    TRef.binary main_call5.v1 main_call5.v2 main_call5.v3 Host.divf,
    TRef.unary main_call5.v3 main_call5.v4 (broadcastInDim S100000x128 ![0, 1] bcast_S100000x1_S100000x128_0_1),
    TRef.binary (.of main_v87 : TRef sig ⟨S100000x128, .f32⟩) main_call5.v4 main_call5.v5 subf,
    TRef.binary main_call5.v5 main_call5.v5 main_call5.v6 mulf,
    TRef.unary (.of main_c_13 : TRef sig ⟨S_, .i32⟩) main_call5.v7 (sitofp .f32),
    TRef.nullary main_call5.cst_1 (constant S_ .f32 0x43000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S100000_d1 h_S_),
    TRef.unary main_call5.v9 main_call5.v10 (broadcastInDim S100000x1 ![0] bcast_S100000_S100000x1_0),
    TRef.unary main_call5.v8 main_call5.v11 (broadcastInDim S100000x1 ![] bcast_S_S100000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S100000x1 ![] bcast_S_S100000x1),
    TRef.ternary main_call5.v13 main_call5.v12 main_call5.call0.v1 main_call5.call0.v2 (fun p a b => select (broadcastInDim S100000x1 ![] bcast_S_S100000x1 p) a b) ]

/-- The buffers that stretch 13 writes. -/
abbrev ops13_W : List (Ref sig .tc) := [main_cst_11, main_v88, main_v89, main_cst_12, main_v90, main_v91, main_c_13, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v92]

theorem ops13_writes : (ops13 : List (HloOp τ sig (Elt F))).Forall fun op => op.writes ⊆ (ops13_W.map (Proc.devRef (τ := τ) .tc)).toFinset :=
  ⟨writes_sub_of_mem main_cst_11 rfl (by decide),
    writes_sub_of_mem main_v88 rfl (by decide),
    writes_sub_of_mem main_v89 rfl (by decide),
    writes_sub_of_mem main_cst_12 rfl (by decide),
    writes_sub_of_mem main_v90 rfl (by decide),
    writes_sub_of_mem main_v91 rfl (by decide),
    writes_sub_of_mem main_c_13 rfl (by decide),
    writes_sub_of_mem main_call5_cst rfl (by decide),
    writes_sub_of_mem main_call5_v0 rfl (by decide),
    writes_sub_of_mem main_call5_v1 rfl (by decide),
    writes_sub_of_mem main_call5_cst_0 rfl (by decide),
    writes_sub_of_mem main_call5_v2 rfl (by decide),
    writes_sub_of_mem main_call5_v3 rfl (by decide),
    writes_sub_of_mem main_call5_v4 rfl (by decide),
    writes_sub_of_mem main_call5_v5 rfl (by decide),
    writes_sub_of_mem main_call5_v6 rfl (by decide),
    writes_sub_of_mem main_call5_v7 rfl (by decide),
    writes_sub_of_mem main_call5_cst_1 rfl (by decide),
    writes_sub_of_mem main_call5_v8 rfl (by decide),
    writes_sub_of_mem main_call5_cst_2 rfl (by decide),
    writes_sub_of_mem main_call5_v9 rfl (by decide),
    writes_sub_of_mem main_call5_v10 rfl (by decide),
    writes_sub_of_mem main_call5_v11 rfl (by decide),
    writes_sub_of_mem main_call5_v12 rfl (by decide),
    writes_sub_of_mem main_call5_cst_3 rfl (by decide),
    writes_sub_of_mem main_call5_v13 rfl (by decide),
    writes_sub_of_mem main_call5_cst_4 rfl (by decide),
    writes_sub_of_mem main_call5_call0_v0 rfl (by decide),
    writes_sub_of_mem main_call5_call0_v1 rfl (by decide),
    writes_sub_of_mem main_v92 rfl (by decide)⟩

theorem ops13_sub : (ops13 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 200 … 210 of 214: the values %v93 … %v102. -/
abbrev ops14 : List (HloOp τ sig (Elt F)) :=
  [ unary main_v91 main_v93 (broadcastInDim S100000x128 ![0, 1] bcast_S100000x1_S100000x128_0_1 : (⟨S100000x1, .f32⟩ : BufTy).Contents (Elt F) → (⟨S100000x128, .f32⟩ : BufTy).Contents (Elt F)),
    binary main_v87 main_v93 main_v94 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v95 (broadcastInDim S100000x1 ![] bcast_S_S100000x1 : (⟨S_, .f32⟩ : BufTy).Contents (Elt F) → (⟨S100000x1, .f32⟩ : BufTy).Contents (Elt F)),
    binary main_v92 main_v95 main_v96 (addf : (⟨S100000x1, .f32⟩ : BufTy).Contents (Elt F) → (⟨S100000x1, .f32⟩ : BufTy).Contents (Elt F) → (⟨S100000x1, .f32⟩ : BufTy).Contents (Elt F)),
    unary main_v96 main_v97 (Host.rsqrt : (⟨S100000x1, .f32⟩ : BufTy).Contents (Elt F) → (⟨S100000x1, .f32⟩ : BufTy).Contents (Elt F)),
    unary main_v97 main_v98 (broadcastInDim S100000x128 ![0, 1] bcast_S100000x1_S100000x128_0_1 : (⟨S100000x1, .f32⟩ : BufTy).Contents (Elt F) → (⟨S100000x128, .f32⟩ : BufTy).Contents (Elt F)),
    binary main_v94 main_v98 main_v99 (mulf : (⟨S100000x128, .f32⟩ : BufTy).Contents (Elt F) → (⟨S100000x128, .f32⟩ : BufTy).Contents (Elt F) → (⟨S100000x128, .f32⟩ : BufTy).Contents (Elt F)),
    unary main_arg14 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (mulf : (⟨S100000x128, .f32⟩ : BufTy).Contents (Elt F) → (⟨S100000x128, .f32⟩ : BufTy).Contents (Elt F) → (⟨S100000x128, .f32⟩ : BufTy).Contents (Elt F)) ]

/-- The buffers that stretch 14 writes. -/
abbrev ops14_W : List (Ref sig .tc) := [main_v93, main_v94, main_cst_14, main_v95, main_v96, main_v97, main_v98, main_v99, main_v100, main_v101, main_v102]

theorem ops14_writes : (ops14 : List (HloOp τ sig (Elt F))).Forall fun op => op.writes ⊆ (ops14_W.map (Proc.devRef (τ := τ) .tc)).toFinset :=
  ⟨writes_sub_of_mem main_v93 rfl (by decide),
    writes_sub_of_mem main_v94 rfl (by decide),
    writes_sub_of_mem main_cst_14 rfl (by decide),
    writes_sub_of_mem main_v95 rfl (by decide),
    writes_sub_of_mem main_v96 rfl (by decide),
    writes_sub_of_mem main_v97 rfl (by decide),
    writes_sub_of_mem main_v98 rfl (by decide),
    writes_sub_of_mem main_v99 rfl (by decide),
    writes_sub_of_mem main_v100 rfl (by decide),
    writes_sub_of_mem main_v101 rfl (by decide),
    writes_sub_of_mem main_v102 rfl (by decide)⟩

theorem ops14_sub : (ops14 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem ops14_fresh : (ops14 : List (HloOp τ sig (Elt F))).Forall fun op => op.fresh = ∅ :=
  ⟨rfl, rfl, rfl, rfl, rfl, rfl, rfl, rfl, rfl, rfl, rfl⟩

/-- Operations 211 … 214 of 214: the values %v103 … %v106. -/
abbrev ops15 : List (HloOp τ sig (Elt F)) :=
  [ unary main_arg15 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v102 main_v104 main_v105 (addf : (⟨S100000x128, .f32⟩ : BufTy).Contents (Elt F) → (⟨S100000x128, .f32⟩ : BufTy).Contents (Elt F) → (⟨S100000x128, .f32⟩ : BufTy).Contents (Elt F)),
    binary main_v105 main_arg0 main_v106 (addf : (⟨S100000x128, .f32⟩ : BufTy).Contents (Elt F) → (⟨S100000x128, .f32⟩ : BufTy).Contents (Elt F) → (⟨S100000x128, .f32⟩ : BufTy).Contents (Elt F)) ]

/-- The buffers that stretch 15 writes. -/
abbrev ops15_W : List (Ref sig .tc) := [main_v103, main_v104, main_v105, main_v106]

theorem ops15_writes : (ops15 : List (HloOp τ sig (Elt F))).Forall fun op => op.writes ⊆ (ops15_W.map (Proc.devRef (τ := τ) .tc)).toFinset :=
  ⟨writes_sub_of_mem main_v103 rfl (by decide),
    writes_sub_of_mem main_v104 rfl (by decide),
    writes_sub_of_mem main_v105 rfl (by decide),
    writes_sub_of_mem main_v106 rfl (by decide)⟩

theorem ops15_sub : (ops15 : List (HloOp τ sig (Elt F))).Forall fun op => op.bufs ⊆ tcRefs τ sig :=
  ⟨unary_bufs_sub .., unary_bufs_sub .., binary_bufs_sub .., binary_bufs_sub ..⟩

theorem ops15_fresh : (ops15 : List (HloOp τ sig (Elt F))).Forall fun op => op.fresh = ∅ :=
  ⟨rfl, rfl, rfl, rfl⟩

/-- The whole program: the fifteen stretches in order. -/
abbrev ops : List (HloOp τ sig (Elt F)) := ops01 ++ ops02 ++ ops03 ++ ops04 ++ ops05 ++ ops06 ++ ops07 ++ ops08 ++ ops09 ++ ops10 ++ ops11 ++ ops12 ++ ops13 ++ ops14 ++ ops15

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h | h | h | h | h
    exacts [List.forall_iff_forall_mem.mp ops01_sub op h, List.forall_iff_forall_mem.mp ops02_sub op h, List.forall_iff_forall_mem.mp ops03_sub op h, List.forall_iff_forall_mem.mp ops04_sub op h, List.forall_iff_forall_mem.mp ops05_sub op h, List.forall_iff_forall_mem.mp ops06_sub op h, List.forall_iff_forall_mem.mp ops07_sub op h, List.forall_iff_forall_mem.mp ops08_sub op h, List.forall_iff_forall_mem.mp ops09_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h, List.forall_iff_forall_mem.mp ops15_sub op h]

theorem ops_fresh : ∀ op ∈ (ops : List (HloOp τ sig (Elt F))), op.fresh = ∅ := fun op h => by
    simp only [ops, List.mem_append, or_assoc] at h
    rcases h with h | h | h | h | h | h | h | h | h | h | h | h | h | h | h
    exacts [List.forall_iff_forall_mem.mp ops01_fresh op h, List.forall_iff_forall_mem.mp ops02_fresh op h, List.forall_iff_forall_mem.mp ops03_fresh op h, List.forall_iff_forall_mem.mp ops04_fresh op h, List.forall_iff_forall_mem.mp ops05_fresh op h, List.forall_iff_forall_mem.mp ops06_fresh op h, List.forall_iff_forall_mem.mp ops07_fresh op h, List.forall_iff_forall_mem.mp ops08_fresh op h, List.forall_iff_forall_mem.mp ops09_fresh op h, List.forall_iff_forall_mem.mp ops10_fresh op h, List.forall_iff_forall_mem.mp ops11_fresh op h, List.forall_iff_forall_mem.mp ops12_fresh op h, List.forall_iff_forall_mem.mp ops13_fresh op h, List.forall_iff_forall_mem.mp ops14_fresh op h, List.forall_iff_forall_mem.mp ops15_fresh op h]

set_option maxRecDepth 8192 in
set_option maxHeartbeats 4000000 in
/-- Window `main_part0` is its stretches in order: the called bodies unfolded at the calls' buffers, both sides are one
    chain of steps once sequencing is reassociated. -/
theorem main_part0_eq (c : Dev nD) : main_part0 (F := F) c = seq (ops01 ++ ops02 ++ ops03 ++ ops04 ++ ops05 ++ ops06) := by
  simp only [main_part0, fn_silu.body, fn_where.body, fn_var.body, fn_silu_0.body, fn_where_2.body, fn_var_1.body, fn_silu_3.body, fn_where_5.body, fn_var_4.body, ops01, ops02, ops03, ops04, ops05, ops06, List.cons_append, List.nil_append, seq, bind_assoc, pure_bind] <;> rfl

set_option maxRecDepth 8192 in
set_option maxHeartbeats 4000000 in
/-- Window `main_part1` is its stretches in order: the called bodies unfolded at the calls' buffers, both sides are one
    chain of steps once sequencing is reassociated. -/
theorem main_part1_eq (c : Dev nD) : main_part1 (F := F) c = seq (ops07 ++ ops08 ++ ops09 ++ ops10 ++ ops11 ++ ops12 ++ ops13 ++ ops14) := by
  simp only [main_part1, fn_silu.body, fn_where.body, fn_var.body, fn_silu_0.body, fn_where_2.body, fn_var_1.body, fn_silu_3.body, fn_where_5.body, fn_var_4.body, ops07, ops08, ops09, ops10, ops11, ops12, ops13, ops14, List.cons_append, List.nil_append, seq, bind_assoc, pure_bind] <;> rfl

set_option maxRecDepth 8192 in
set_option maxHeartbeats 4000000 in
/-- Window `main_part2` is its stretches in order: the called bodies unfolded at the calls' buffers, both sides are one
    chain of steps once sequencing is reassociated. -/
theorem main_part2_eq (c : Dev nD) : main_part2 (F := F) c = seq (ops15) := by
  simp only [main_part2, fn_silu.body, fn_where.body, fn_var.body, fn_silu_0.body, fn_where_2.body, fn_var_1.body, fn_silu_3.body, fn_where_5.body, fn_var_4.body, ops15, List.cons_append, List.nil_append, seq, bind_assoc, pure_bind] <;> rfl

set_option maxRecDepth 8192 in
/-- @main is the sequence of all the operations. -/
theorem main_eq (c : Dev nD) : main (F := F) c = seq ops := by
  have e : (ops : List (HloOp τ sig (Elt F))) = (ops01 ++ ops02 ++ ops03 ++ ops04 ++ ops05 ++ ops06) ++ ((ops07 ++ ops08 ++ ops09 ++ ops10 ++ ops11 ++ ops12 ++ ops13 ++ ops14) ++ (ops15)) := by
    simp only [ops, List.append_assoc]
  rw [e, seq_append (ops01 ++ ops02 ++ ops03 ++ ops04 ++ ops05 ++ ops06) ((ops07 ++ ops08 ++ ops09 ++ ops10 ++ ops11 ++ ops12 ++ ops13 ++ ops14) ++ (ops15)), seq_append (ops07 ++ ops08 ++ ops09 ++ ops10 ++ ops11 ++ ops12 ++ ops13 ++ ops14) (ops15), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRunVals.lean ====
/-
  What each live buffer holds after each stretch of the reference program, as a named array function of the
  sixteen argument arrays.

  `Args` is the sixteen arguments' contents. For every buffer that is still read after the stretch that writes it
  (and for the three results) `r_‹buffer›` is the composition of that stretch's operations on the values live
  at its start: the earlier `r_…` and the arguments. `valK V0` is the device's contents after the first K
  stretches from contents `V0`; the lemmas `valK_‹buffer›` read a live buffer off it: inside the stretch that
  writes it by unfolding each operation's result at its own buffer, afterwards because the later stretches
  do not write it.
-/
import proofs.«117479_j34084860461562_2_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The sixteen argument arrays. -/
structure Args (F : FTy → Type) [FloatOps F] where
  a0 : (⟨S100000x128, .f32⟩ : BufTy).Contents (Elt F)
  a1 : (⟨S40000x128, .f32⟩ : BufTy).Contents (Elt F)
  a2 : (⟨S500000x128, .f32⟩ : BufTy).Contents (Elt F)
  a3 : (⟨S2x500000, .i32⟩ : BufTy).Contents (Elt F)
  a4 : (⟨S384x128, .f32⟩ : BufTy).Contents (Elt F)
  a5 : (⟨S128, .f32⟩ : BufTy).Contents (Elt F)
  a6 : (⟨S128x128, .f32⟩ : BufTy).Contents (Elt F)
  a7 : (⟨S128, .f32⟩ : BufTy).Contents (Elt F)
  a8 : (⟨S128, .f32⟩ : BufTy).Contents (Elt F)
  a9 : (⟨S128, .f32⟩ : BufTy).Contents (Elt F)
  a10 : (⟨S256x128, .f32⟩ : BufTy).Contents (Elt F)
  a11 : (⟨S128, .f32⟩ : BufTy).Contents (Elt F)
  a12 : (⟨S128x128, .f32⟩ : BufTy).Contents (Elt F)
  a13 : (⟨S128, .f32⟩ : BufTy).Contents (Elt F)
  a14 : (⟨S128, .f32⟩ : BufTy).Contents (Elt F)
  a15 : (⟨S128, .f32⟩ : BufTy).Contents (Elt F)

/-- The arguments' contents in a valuation of the device's buffers. -/
def argsOf (V0 : Valuation τ sig (Elt F)) : Args F :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15)⟩

/-- The value %v3 (written in stretch 1) from the values live at that stretch's start. -/
def r_main_v3 (A : Args F) : (⟨S500000, .i32⟩ : BufTy).Contents (Elt F) :=
  (shapeCast S500000 (((extractStridedSlice S1x500000 ![1, 0] · slices_S2x500000_S1x500000_1_0) : (⟨S2x500000, .i32⟩ : BufTy).Contents (Elt F) → (⟨S1x500000, .i32⟩ : BufTy).Contents (Elt F)) A.a3) shapeCasts_S1x500000_S500000 : (⟨S500000, .i32⟩ : BufTy).Contents (Elt F))

/-- The value %v10 (written in stretch 1) from the values live at that stretch's start. -/
def r_main_v10 (A : Args F) : (⟨S500000x128, .f32⟩ : BufTy).Contents (Elt F) :=
  (((fun x i => Host.gather gather_S40000x128_S500000x1_S500000x128_1_0_n_n_0_1_1128 x i) : (⟨S40000x128, .f32⟩ : BufTy).Contents (Elt F) → (⟨S500000x1, .i32⟩ : BufTy).Contents (Elt F) → (⟨S500000x128, .f32⟩ : BufTy).Contents (Elt F)) A.a1 ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (shapeCast S500000 (((extractStridedSlice S1x500000 ![1, 0] · slices_S2x500000_S1x500000_1_0) : (⟨S2x500000, .i32⟩ : BufTy).Contents (Elt F) → (⟨S1x500000, .i32⟩ : BufTy).Contents (Elt F)) A.a3) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) (shapeCast S500000 (((extractStridedSlice S1x500000 ![1, 0] · slices_S2x500000_S1x500000_1_0) : (⟨S2x500000, .i32⟩ : BufTy).Contents (Elt F) → (⟨S1x500000, .i32⟩ : BufTy).Contents (Elt F)) A.a3) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 40000#32 : (⟨S_, .i32⟩ : BufTy).Contents (Elt F)))) (shapeCast S500000 (((extractStridedSlice S1x500000 ![1, 0] · slices_S2x500000_S1x500000_1_0) : (⟨S2x500000, .i32⟩ : BufTy).Contents (Elt F) → (⟨S1x500000, .i32⟩ : BufTy).Contents (Elt F)) A.a3) shapeCasts_S1x500000_S500000 : (⟨S500000, .i32⟩ : BufTy).Contents (Elt F)))))

/-- The value %v17 (written in stretch 1) from the values live at that stretch's start. -/
def r_main_v17 (A : Args F) : (⟨S500000x128, .f32⟩ : BufTy).Contents (Elt F) :=
  (((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) A.a0 ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (shapeCast S500000 (((extractStridedSlice S1x500000 ![0, 0] · slices_S2x500000_S1x500000_0_0) : (⟨S2x500000, .i32⟩ : BufTy).Contents (Elt F) → (⟨S1x500000, .i32⟩ : BufTy).Contents (Elt F)) A.a3) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)))) ((addi : (⟨S500000, .i32⟩ : BufTy).Contents (Elt F) → (⟨S500000, .i32⟩ : BufTy).Contents (Elt F) → (⟨S500000, .i32⟩ : BufTy).Contents (Elt F)) (shapeCast S500000 (((extractStridedSlice S1x500000 ![0, 0] · slices_S2x500000_S1x500000_0_0) : (⟨S2x500000, .i32⟩ : BufTy).Contents (Elt F) → (⟨S1x500000, .i32⟩ : BufTy).Contents (Elt F)) A.a3) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 100000#32 : (⟨S_, .i32⟩ : BufTy).Contents (Elt F)))) (shapeCast S500000 (((extractStridedSlice S1x500000 ![0, 0] · slices_S2x500000_S1x500000_0_0) : (⟨S2x500000, .i32⟩ : BufTy).Contents (Elt F) → (⟨S1x500000, .i32⟩ : BufTy).Contents (Elt F)) A.a3) shapeCasts_S1x500000_S500000 : (⟨S500000, .i32⟩ : BufTy).Contents (Elt F)))))

/-- The value %v22 (written in stretch 2) from the values live at that stretch's start. -/
def r_main_v22 (A : Args F) : (⟨S500000x128, .f32⟩ : BufTy).Contents (Elt F) :=
  ((addf : (⟨S500000x128, .f32⟩ : BufTy).Contents (Elt F) → (⟨S500000x128, .f32⟩ : BufTy).Contents (Elt F) → (⟨S500000x128, .f32⟩ : BufTy).Contents (Elt F)) (((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)) (concatenate S500000x384 1 [⟨S500000x128, (r_main_v10 A)⟩, ⟨S500000x128, (r_main_v17 A)⟩, ⟨S500000x128, A.a2⟩] concatenates_S500000x128_S500000x128_S500000x128_S500000x384_d1 : (⟨S500000x384, .f32⟩ : BufTy).Contents (Elt F)) A.a4) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a5)))

/-- The value %v27 (written in stretch 3) from the values live at that stretch's start. -/
def r_main_v27 (A : Args F) : (⟨S500000x128, .f32⟩ : BufTy).Contents (Elt F) :=
  ((addf : (⟨S500000x128, .f32⟩ : BufTy).Contents (Elt F) → (⟨S500000x128, .f32⟩ : BufTy).Contents (Elt F) → (⟨S500000x128, .f32⟩ : BufTy).Contents (Elt F)) (((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)) ((mulf : (⟨S500000x128, .f32⟩ : BufTy).Contents (Elt F) → (⟨S500000x128, .f32⟩ : BufTy).Contents (Elt F) → (⟨S500000x128, .f32⟩ : BufTy).Contents (Elt F)) (r_main_v22 A) ((Host.divf : (⟨S500000x128, .f32⟩ : BufTy).Contents (Elt F) → (⟨S500000x128, .f32⟩ : BufTy).Contents (Elt F) → (⟨S500000x128, .f32⟩ : BufTy).Contents (Elt F)) (((broadcastInDim S500000x128 ![] bcast_S_S500000x128) : (⟨S_, .f32⟩ : BufTy).Contents (Elt F) → (⟨S500000x128, .f32⟩ : BufTy).Contents (Elt F)) (constant S_ .f32 0x3F800000#32 : (⟨S_, .f32⟩ : BufTy).Contents (Elt F))) ((addf : (⟨S500000x128, .f32⟩ : BufTy).Contents (Elt F) → (⟨S500000x128, .f32⟩ : BufTy).Contents (Elt F) → (⟨S500000x128, .f32⟩ : BufTy).Contents (Elt F)) (((broadcastInDim S500000x128 ![] bcast_S_S500000x128) : (⟨S_, .f32⟩ : BufTy).Contents (Elt F) → (⟨S500000x128, .f32⟩ : BufTy).Contents (Elt F)) (constant S_ .f32 0x3F800000#32 : (⟨S_, .f32⟩ : BufTy).Contents (Elt F))) ((Host.exp : (⟨S500000x128, .f32⟩ : BufTy).Contents (Elt F) → (⟨S500000x128, .f32⟩ : BufTy).Contents (Elt F)) ((Host.negf : (⟨S500000x128, .f32⟩ : BufTy).Contents (Elt F) → (⟨S500000x128, .f32⟩ : BufTy).Contents (Elt F)) (r_main_v22 A)))))) A.a6) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a7)))

/-- The value %v31 (written in stretch 4) from the values live at that stretch's start. -/
def r_main_v31 (A : Args F) : (⟨S500000x1, .f32⟩ : BufTy).Contents (Elt F) :=
  ((Host.divf : (⟨S500000x1, .f32⟩ : BufTy).Contents (Elt F) → (⟨S500000x1, .f32⟩ : BufTy).Contents (Elt F) → (⟨S500000x1, .f32⟩ : BufTy).Contents (Elt F)) ((broadcastInDim S500000x1 ![0] bcast_S500000_S500000x1_0 : (⟨S500000, .f32⟩ : BufTy).Contents (Elt F) → (⟨S500000x1, .f32⟩ : BufTy).Contents (Elt F)) (((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)) (r_main_v27 A) (constant S_ .f32 0x00000000#32 : (⟨S_, .f32⟩ : BufTy).Contents (Elt F)))) ((broadcastInDim S500000x1 ![] bcast_S_S500000x1 : (⟨S_, .f32⟩ : BufTy).Contents (Elt F) → (⟨S500000x1, .f32⟩ : BufTy).Contents (Elt F)) (constant S_ .f32 0x43000000#32 : (⟨S_, .f32⟩ : BufTy).Contents (Elt F))))

/-- The value %v32 (written in stretch 4) from the values live at that stretch's start. -/
def r_main_v32 (A : Args F) : (⟨S500000x1, .f32⟩ : BufTy).Contents (Elt F) :=
  (((fun p a b => select (broadcastInDim S500000x1 ![] bcast_S_S500000x1 p) a b) : (⟨S_, .i1⟩ : BufTy).Contents (Elt F) → (⟨S500000x1, .f32⟩ : BufTy).Contents (Elt F) → (⟨S500000x1, .f32⟩ : BufTy).Contents (Elt F) → (⟨S500000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S500000x1, .f32⟩ : BufTy).Contents (Elt F) → (⟨S500000x1, .f32⟩ : BufTy).Contents (Elt F) → (⟨S500000x1, .f32⟩ : BufTy).Contents (Elt F)) (((broadcastInDim S500000x1 ![0] bcast_S500000_S500000x1_0) : (⟨S500000, .f32⟩ : BufTy).Contents (Elt F) → (⟨S500000x1, .f32⟩ : BufTy).Contents (Elt F)) (((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)) ((mulf : (⟨S500000x128, .f32⟩ : BufTy).Contents (Elt F) → (⟨S500000x128, .f32⟩ : BufTy).Contents (Elt F) → (⟨S500000x128, .f32⟩ : BufTy).Contents (Elt F)) ((subf : (⟨S500000x128, .f32⟩ : BufTy).Contents (Elt F) → (⟨S500000x128, .f32⟩ : BufTy).Contents (Elt F) → (⟨S500000x128, .f32⟩ : BufTy).Contents (Elt F)) (r_main_v27 A) (((broadcastInDim S500000x128 ![0, 1] bcast_S500000x1_S500000x128_0_1) : (⟨S500000x1, .f32⟩ : BufTy).Contents (Elt F) → (⟨S500000x128, .f32⟩ : BufTy).Contents (Elt F)) ((Host.divf : (⟨S500000x1, .f32⟩ : BufTy).Contents (Elt F) → (⟨S500000x1, .f32⟩ : BufTy).Contents (Elt F) → (⟨S500000x1, .f32⟩ : BufTy).Contents (Elt F)) (((broadcastInDim S500000x1 ![0] bcast_S500000_S500000x1_0) : (⟨S500000, .f32⟩ : BufTy).Contents (Elt F) → (⟨S500000x1, .f32⟩ : BufTy).Contents (Elt F)) (((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)) (r_main_v27 A) (constant S_ .f32 0x00000000#32 : (⟨S_, .f32⟩ : BufTy).Contents (Elt F)))) (((broadcastInDim S500000x1 ![] bcast_S_S500000x1) : (⟨S_, .f32⟩ : BufTy).Contents (Elt F) → (⟨S500000x1, .f32⟩ : BufTy).Contents (Elt F)) (constant S_ .f32 0x43000000#32 : (⟨S_, .f32⟩ : BufTy).Contents (Elt F)))))) ((subf : (⟨S500000x128, .f32⟩ : BufTy).Contents (Elt F) → (⟨S500000x128, .f32⟩ : BufTy).Contents (Elt F) → (⟨S500000x128, .f32⟩ : BufTy).Contents (Elt F)) (r_main_v27 A) (((broadcastInDim S500000x128 ![0, 1] bcast_S500000x1_S500000x128_0_1) : (⟨S500000x1, .f32⟩ : BufTy).Contents (Elt F) → (⟨S500000x128, .f32⟩ : BufTy).Contents (Elt F)) ((Host.divf : (⟨S500000x1, .f32⟩ : BufTy).Contents (Elt F) → (⟨S500000x1, .f32⟩ : BufTy).Contents (Elt F) → (⟨S500000x1, .f32⟩ : BufTy).Contents (Elt F)) (((broadcastInDim S500000x1 ![0] bcast_S500000_S500000x1_0) : (⟨S500000, .f32⟩ : BufTy).Contents (Elt F) → (⟨S500000x1, .f32⟩ : BufTy).Contents (Elt F)) (((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)) (r_main_v27 A) (constant S_ .f32 0x00000000#32 : (⟨S_, .f32⟩ : BufTy).Contents (Elt F)))) (((broadcastInDim S500000x1 ![] bcast_S_S500000x1) : (⟨S_, .f32⟩ : BufTy).Contents (Elt F) → (⟨S500000x1, .f32⟩ : BufTy).Contents (Elt F)) (constant S_ .f32 0x43000000#32 : (⟨S_, .f32⟩ : BufTy).Contents (Elt F))))))) (constant S_ .f32 0x00000000#32 : (⟨S_, .f32⟩ : BufTy).Contents (Elt F)))) (((broadcastInDim S500000x1 ![] bcast_S_S500000x1) : (⟨S_, .f32⟩ : BufTy).Contents (Elt F) → (⟨S500000x1, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))))) (((broadcastInDim S500000x1 ![] bcast_S_S500000x1) : (⟨S_, .f32⟩ : BufTy).Contents (Elt F) → (⟨S500000x1, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- The value %v45 (written in stretch 5) from the values live at that stretch's start. -/
def r_main_v45 (A : Args F) : (⟨S500000x128, .f32⟩ : BufTy).Contents (Elt F) :=
  ((addf : (⟨S500000x128, .f32⟩ : BufTy).Contents (Elt F) → (⟨S500000x128, .f32⟩ : BufTy).Contents (Elt F) → (⟨S500000x128, .f32⟩ : BufTy).Contents (Elt F)) ((mulf : (⟨S500000x128, .f32⟩ : BufTy).Contents (Elt F) → (⟨S500000x128, .f32⟩ : BufTy).Contents (Elt F) → (⟨S500000x128, .f32⟩ : BufTy).Contents (Elt F)) ((mulf : (⟨S500000x128, .f32⟩ : BufTy).Contents (Elt F) → (⟨S500000x128, .f32⟩ : BufTy).Contents (Elt F) → (⟨S500000x128, .f32⟩ : BufTy).Contents (Elt F)) ((subf : (⟨S500000x128, .f32⟩ : BufTy).Contents (Elt F) → (⟨S500000x128, .f32⟩ : BufTy).Contents (Elt F) → (⟨S500000x128, .f32⟩ : BufTy).Contents (Elt F)) (r_main_v27 A) ((broadcastInDim S500000x128 ![0, 1] bcast_S500000x1_S500000x128_0_1 : (⟨S500000x1, .f32⟩ : BufTy).Contents (Elt F) → (⟨S500000x128, .f32⟩ : BufTy).Contents (Elt F)) (r_main_v31 A))) ((broadcastInDim S500000x128 ![0, 1] bcast_S500000x1_S500000x128_0_1 : (⟨S500000x1, .f32⟩ : BufTy).Contents (Elt F) → (⟨S500000x128, .f32⟩ : BufTy).Contents (Elt F)) ((Host.rsqrt : (⟨S500000x1, .f32⟩ : BufTy).Contents (Elt F) → (⟨S500000x1, .f32⟩ : BufTy).Contents (Elt F)) ((addf : (⟨S500000x1, .f32⟩ : BufTy).Contents (Elt F) → (⟨S500000x1, .f32⟩ : BufTy).Contents (Elt F) → (⟨S500000x1, .f32⟩ : BufTy).Contents (Elt F)) (r_main_v32 A) ((broadcastInDim S500000x1 ![] bcast_S_S500000x1 : (⟨S_, .f32⟩ : BufTy).Contents (Elt F) → (⟨S500000x1, .f32⟩ : BufTy).Contents (Elt F)) (constant S_ .f32 0x3727C5AC#32 : (⟨S_, .f32⟩ : BufTy).Contents (Elt F))))))) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a8))) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a9)))

/-- The value %v50 (written in stretch 6) from the values live at that stretch's start. -/
def r_main_v50 (A : Args F) : (⟨S40000x128, .f32⟩ : BufTy).Contents (Elt F) :=
  (((fun l r => Host.dotGeneral dot_S40000x256_S256x128_S40000x128_1_0_0_1_n_n none l r) : (⟨S40000x256, .f32⟩ : BufTy).Contents (Elt F) → (⟨S256x128, .f32⟩ : BufTy).Contents (Elt F) → (⟨S40000x128, .f32⟩ : BufTy).Contents (Elt F)) ((catDst : (⟨S40000x128, .f32⟩ : BufTy).Contents (Elt F) → (⟨S40000x128, .f32⟩ : BufTy).Contents (Elt F) → (⟨S40000x256, .f32⟩ : BufTy).Contents (Elt F)) A.a1 (((fun x i u => Host.scatterAdd scatter_S40000x128_S500000x1_S500000x128_1_0_0_1 x i u) : (⟨S40000x128, .f32⟩ : BufTy).Contents (Elt F) → (⟨S500000x1, .i32⟩ : BufTy).Contents (Elt F) → (⟨S500000x128, .f32⟩ : BufTy).Contents (Elt F) → (⟨S40000x128, .f32⟩ : BufTy).Contents (Elt F)) ((broadcastInDim S40000x128 ![] bcast_S_S40000x128 : (⟨S_, .f32⟩ : BufTy).Contents (Elt F) → (⟨S40000x128, .f32⟩ : BufTy).Contents (Elt F)) (constant S_ .f32 0x00000000#32 : (⟨S_, .f32⟩ : BufTy).Contents (Elt F))) ((broadcastInDim S500000x1 ![0] bcast_S500000_S500000x1_0 : (⟨S500000, .i32⟩ : BufTy).Contents (Elt F) → (⟨S500000x1, .i32⟩ : BufTy).Contents (Elt F)) (r_main_v3 A)) (r_main_v45 A))) A.a10)

/-- The value %v53 (written in stretch 7) from the values live at that stretch's start. -/
def r_main_v53 (A : Args F) : (⟨S40000x128, .f32⟩ : BufTy).Contents (Elt F) :=
  ((addf : (⟨S40000x128, .f32⟩ : BufTy).Contents (Elt F) → (⟨S40000x128, .f32⟩ : BufTy).Contents (Elt F) → (⟨S40000x128, .f32⟩ : BufTy).Contents (Elt F)) (r_main_v50 A) ((broadcastInDim S40000x128 ![0, 1] bcast_S1x128_S40000x128_0_1 : (⟨S1x128, .f32⟩ : BufTy).Contents (Elt F) → (⟨S40000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a11)))

/-- The value %v58 (written in stretch 8) from the values live at that stretch's start. -/
def r_main_v58 (A : Args F) : (⟨S40000x128, .f32⟩ : BufTy).Contents (Elt F) :=
  ((addf : (⟨S40000x128, .f32⟩ : BufTy).Contents (Elt F) → (⟨S40000x128, .f32⟩ : BufTy).Contents (Elt F) → (⟨S40000x128, .f32⟩ : BufTy).Contents (Elt F)) (((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)) ((mulf : (⟨S40000x128, .f32⟩ : BufTy).Contents (Elt F) → (⟨S40000x128, .f32⟩ : BufTy).Contents (Elt F) → (⟨S40000x128, .f32⟩ : BufTy).Contents (Elt F)) (r_main_v53 A) ((Host.divf : (⟨S40000x128, .f32⟩ : BufTy).Contents (Elt F) → (⟨S40000x128, .f32⟩ : BufTy).Contents (Elt F) → (⟨S40000x128, .f32⟩ : BufTy).Contents (Elt F)) (((broadcastInDim S40000x128 ![] bcast_S_S40000x128) : (⟨S_, .f32⟩ : BufTy).Contents (Elt F) → (⟨S40000x128, .f32⟩ : BufTy).Contents (Elt F)) (constant S_ .f32 0x3F800000#32 : (⟨S_, .f32⟩ : BufTy).Contents (Elt F))) ((addf : (⟨S40000x128, .f32⟩ : BufTy).Contents (Elt F) → (⟨S40000x128, .f32⟩ : BufTy).Contents (Elt F) → (⟨S40000x128, .f32⟩ : BufTy).Contents (Elt F)) (((broadcastInDim S40000x128 ![] bcast_S_S40000x128) : (⟨S_, .f32⟩ : BufTy).Contents (Elt F) → (⟨S40000x128, .f32⟩ : BufTy).Contents (Elt F)) (constant S_ .f32 0x3F800000#32 : (⟨S_, .f32⟩ : BufTy).Contents (Elt F))) ((Host.exp : (⟨S40000x128, .f32⟩ : BufTy).Contents (Elt F) → (⟨S40000x128, .f32⟩ : BufTy).Contents (Elt F)) ((Host.negf : (⟨S40000x128, .f32⟩ : BufTy).Contents (Elt F) → (⟨S40000x128, .f32⟩ : BufTy).Contents (Elt F)) (r_main_v53 A)))))) A.a12) ((broadcastInDim S40000x128 ![0, 1] bcast_S1x128_S40000x128_0_1 : (⟨S1x128, .f32⟩ : BufTy).Contents (Elt F) → (⟨S40000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a13)))

/-- The value %v62 (written in stretch 9) from the values live at that stretch's start. -/
def r_main_v62 (A : Args F) : (⟨S40000x1, .f32⟩ : BufTy).Contents (Elt F) :=
  ((Host.divf : (⟨S40000x1, .f32⟩ : BufTy).Contents (Elt F) → (⟨S40000x1, .f32⟩ : BufTy).Contents (Elt F) → (⟨S40000x1, .f32⟩ : BufTy).Contents (Elt F)) ((broadcastInDim S40000x1 ![0] bcast_S40000_S40000x1_0 : (⟨S40000, .f32⟩ : BufTy).Contents (Elt F) → (⟨S40000x1, .f32⟩ : BufTy).Contents (Elt F)) (((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)) (r_main_v58 A) (constant S_ .f32 0x00000000#32 : (⟨S_, .f32⟩ : BufTy).Contents (Elt F)))) ((broadcastInDim S40000x1 ![] bcast_S_S40000x1 : (⟨S_, .f32⟩ : BufTy).Contents (Elt F) → (⟨S40000x1, .f32⟩ : BufTy).Contents (Elt F)) (constant S_ .f32 0x43000000#32 : (⟨S_, .f32⟩ : BufTy).Contents (Elt F))))

/-- The value %v63 (written in stretch 9) from the values live at that stretch's start. -/
def r_main_v63 (A : Args F) : (⟨S40000x1, .f32⟩ : BufTy).Contents (Elt F) :=
  (((fun p a b => select (broadcastInDim S40000x1 ![] bcast_S_S40000x1 p) a b) : (⟨S_, .i1⟩ : BufTy).Contents (Elt F) → (⟨S40000x1, .f32⟩ : BufTy).Contents (Elt F) → (⟨S40000x1, .f32⟩ : BufTy).Contents (Elt F) → (⟨S40000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S40000x1, .f32⟩ : BufTy).Contents (Elt F) → (⟨S40000x1, .f32⟩ : BufTy).Contents (Elt F) → (⟨S40000x1, .f32⟩ : BufTy).Contents (Elt F)) (((broadcastInDim S40000x1 ![0] bcast_S40000_S40000x1_0) : (⟨S40000, .f32⟩ : BufTy).Contents (Elt F) → (⟨S40000x1, .f32⟩ : BufTy).Contents (Elt F)) (((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)) ((mulf : (⟨S40000x128, .f32⟩ : BufTy).Contents (Elt F) → (⟨S40000x128, .f32⟩ : BufTy).Contents (Elt F) → (⟨S40000x128, .f32⟩ : BufTy).Contents (Elt F)) ((subf : (⟨S40000x128, .f32⟩ : BufTy).Contents (Elt F) → (⟨S40000x128, .f32⟩ : BufTy).Contents (Elt F) → (⟨S40000x128, .f32⟩ : BufTy).Contents (Elt F)) (r_main_v58 A) (((broadcastInDim S40000x128 ![0, 1] bcast_S40000x1_S40000x128_0_1) : (⟨S40000x1, .f32⟩ : BufTy).Contents (Elt F) → (⟨S40000x128, .f32⟩ : BufTy).Contents (Elt F)) ((Host.divf : (⟨S40000x1, .f32⟩ : BufTy).Contents (Elt F) → (⟨S40000x1, .f32⟩ : BufTy).Contents (Elt F) → (⟨S40000x1, .f32⟩ : BufTy).Contents (Elt F)) (((broadcastInDim S40000x1 ![0] bcast_S40000_S40000x1_0) : (⟨S40000, .f32⟩ : BufTy).Contents (Elt F) → (⟨S40000x1, .f32⟩ : BufTy).Contents (Elt F)) (((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)) (r_main_v58 A) (constant S_ .f32 0x00000000#32 : (⟨S_, .f32⟩ : BufTy).Contents (Elt F)))) (((broadcastInDim S40000x1 ![] bcast_S_S40000x1) : (⟨S_, .f32⟩ : BufTy).Contents (Elt F) → (⟨S40000x1, .f32⟩ : BufTy).Contents (Elt F)) (constant S_ .f32 0x43000000#32 : (⟨S_, .f32⟩ : BufTy).Contents (Elt F)))))) ((subf : (⟨S40000x128, .f32⟩ : BufTy).Contents (Elt F) → (⟨S40000x128, .f32⟩ : BufTy).Contents (Elt F) → (⟨S40000x128, .f32⟩ : BufTy).Contents (Elt F)) (r_main_v58 A) (((broadcastInDim S40000x128 ![0, 1] bcast_S40000x1_S40000x128_0_1) : (⟨S40000x1, .f32⟩ : BufTy).Contents (Elt F) → (⟨S40000x128, .f32⟩ : BufTy).Contents (Elt F)) ((Host.divf : (⟨S40000x1, .f32⟩ : BufTy).Contents (Elt F) → (⟨S40000x1, .f32⟩ : BufTy).Contents (Elt F) → (⟨S40000x1, .f32⟩ : BufTy).Contents (Elt F)) (((broadcastInDim S40000x1 ![0] bcast_S40000_S40000x1_0) : (⟨S40000, .f32⟩ : BufTy).Contents (Elt F) → (⟨S40000x1, .f32⟩ : BufTy).Contents (Elt F)) (((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)) (r_main_v58 A) (constant S_ .f32 0x00000000#32 : (⟨S_, .f32⟩ : BufTy).Contents (Elt F)))) (((broadcastInDim S40000x1 ![] bcast_S_S40000x1) : (⟨S_, .f32⟩ : BufTy).Contents (Elt F) → (⟨S40000x1, .f32⟩ : BufTy).Contents (Elt F)) (constant S_ .f32 0x43000000#32 : (⟨S_, .f32⟩ : BufTy).Contents (Elt F))))))) (constant S_ .f32 0x00000000#32 : (⟨S_, .f32⟩ : BufTy).Contents (Elt F)))) (((broadcastInDim S40000x1 ![] bcast_S_S40000x1) : (⟨S_, .f32⟩ : BufTy).Contents (Elt F) → (⟨S40000x1, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))))) (((broadcastInDim S40000x1 ![] bcast_S_S40000x1) : (⟨S_, .f32⟩ : BufTy).Contents (Elt F) → (⟨S40000x1, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- The value %v77 (written in stretch 10) from the values live at that stretch's start. -/
def r_main_v77 (A : Args F) : (⟨S40000x128, .f32⟩ : BufTy).Contents (Elt F) :=
  ((addf : (⟨S40000x128, .f32⟩ : BufTy).Contents (Elt F) → (⟨S40000x128, .f32⟩ : BufTy).Contents (Elt F) → (⟨S40000x128, .f32⟩ : BufTy).Contents (Elt F)) ((addf : (⟨S40000x128, .f32⟩ : BufTy).Contents (Elt F) → (⟨S40000x128, .f32⟩ : BufTy).Contents (Elt F) → (⟨S40000x128, .f32⟩ : BufTy).Contents (Elt F)) ((mulf : (⟨S40000x128, .f32⟩ : BufTy).Contents (Elt F) → (⟨S40000x128, .f32⟩ : BufTy).Contents (Elt F) → (⟨S40000x128, .f32⟩ : BufTy).Contents (Elt F)) ((mulf : (⟨S40000x128, .f32⟩ : BufTy).Contents (Elt F) → (⟨S40000x128, .f32⟩ : BufTy).Contents (Elt F) → (⟨S40000x128, .f32⟩ : BufTy).Contents (Elt F)) ((subf : (⟨S40000x128, .f32⟩ : BufTy).Contents (Elt F) → (⟨S40000x128, .f32⟩ : BufTy).Contents (Elt F) → (⟨S40000x128, .f32⟩ : BufTy).Contents (Elt F)) (r_main_v58 A) ((broadcastInDim S40000x128 ![0, 1] bcast_S40000x1_S40000x128_0_1 : (⟨S40000x1, .f32⟩ : BufTy).Contents (Elt F) → (⟨S40000x128, .f32⟩ : BufTy).Contents (Elt F)) (r_main_v62 A))) ((broadcastInDim S40000x128 ![0, 1] bcast_S40000x1_S40000x128_0_1 : (⟨S40000x1, .f32⟩ : BufTy).Contents (Elt F) → (⟨S40000x128, .f32⟩ : BufTy).Contents (Elt F)) ((Host.rsqrt : (⟨S40000x1, .f32⟩ : BufTy).Contents (Elt F) → (⟨S40000x1, .f32⟩ : BufTy).Contents (Elt F)) ((addf : (⟨S40000x1, .f32⟩ : BufTy).Contents (Elt F) → (⟨S40000x1, .f32⟩ : BufTy).Contents (Elt F) → (⟨S40000x1, .f32⟩ : BufTy).Contents (Elt F)) (r_main_v63 A) ((broadcastInDim S40000x1 ![] bcast_S_S40000x1 : (⟨S_, .f32⟩ : BufTy).Contents (Elt F) → (⟨S40000x1, .f32⟩ : BufTy).Contents (Elt F)) (constant S_ .f32 0x3727C5AC#32 : (⟨S_, .f32⟩ : BufTy).Contents (Elt F))))))) ((broadcastInDim S40000x128 ![0, 1] bcast_S1x128_S40000x128_0_1 : (⟨S1x128, .f32⟩ : BufTy).Contents (Elt F) → (⟨S40000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a14))) ((broadcastInDim S40000x128 ![0, 1] bcast_S1x128_S40000x128_0_1 : (⟨S1x128, .f32⟩ : BufTy).Contents (Elt F) → (⟨S40000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a15))) A.a1)

/-- The value %v82 (written in stretch 11) from the values live at that stretch's start. -/
def r_main_v82 (A : Args F) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) (((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) A.a0 A.a0) A.a10) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a11)))

/-- The value %v87 (written in stretch 12) from the values live at that stretch's start. -/
def r_main_v87 (A : Args F) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) (r_main_v82 A) ((Host.divf : (⟨S100000x128, .f32⟩ : BufTy).Contents (Elt F) → (⟨S100000x128, .f32⟩ : BufTy).Contents (Elt F) → (⟨S100000x128, .f32⟩ : BufTy).Contents (Elt F)) (((broadcastInDim S100000x128 ![] bcast_S_S100000x128) : (⟨S_, .f32⟩ : BufTy).Contents (Elt F) → (⟨S100000x128, .f32⟩ : BufTy).Contents (Elt F)) (constant S_ .f32 0x3F800000#32 : (⟨S_, .f32⟩ : BufTy).Contents (Elt F))) ((addf : (⟨S100000x128, .f32⟩ : BufTy).Contents (Elt F) → (⟨S100000x128, .f32⟩ : BufTy).Contents (Elt F) → (⟨S100000x128, .f32⟩ : BufTy).Contents (Elt F)) (((broadcastInDim S100000x128 ![] bcast_S_S100000x128) : (⟨S_, .f32⟩ : BufTy).Contents (Elt F) → (⟨S100000x128, .f32⟩ : BufTy).Contents (Elt F)) (constant S_ .f32 0x3F800000#32 : (⟨S_, .f32⟩ : BufTy).Contents (Elt F))) ((Host.exp : (⟨S100000x128, .f32⟩ : BufTy).Contents (Elt F) → (⟨S100000x128, .f32⟩ : BufTy).Contents (Elt F)) ((Host.negf : (⟨S100000x128, .f32⟩ : BufTy).Contents (Elt F) → (⟨S100000x128, .f32⟩ : BufTy).Contents (Elt F)) (r_main_v82 A)))))) A.a12) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a13)))

/-- The value %v91 (written in stretch 13) from the values live at that stretch's start. -/
def r_main_v91 (A : Args F) : (⟨S100000x1, .f32⟩ : BufTy).Contents (Elt F) :=
  ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) (r_main_v87 A) (constant S_ .f32 0x00000000#32 : (⟨S_, .f32⟩ : BufTy).Contents (Elt F)))) ((broadcastInDim S100000x1 ![] bcast_S_S100000x1 : (⟨S_, .f32⟩ : BufTy).Contents (Elt F) → (⟨S100000x1, .f32⟩ : BufTy).Contents (Elt F)) (constant S_ .f32 0x43000000#32 : (⟨S_, .f32⟩ : BufTy).Contents (Elt F))))

/-- The value %v92 (written in stretch 13) from the values live at that stretch's start. -/
def r_main_v92 (A : Args F) : (⟨S100000x1, .f32⟩ : BufTy).Contents (Elt F) :=
  (((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) (r_main_v87 A) (((broadcastInDim S100000x128 ![0, 1] bcast_S100000x1_S100000x128_0_1) : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) (r_main_v87 A) (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) (constant S_ .f32 0x43000000#32 : (⟨S_, .f32⟩ : BufTy).Contents (Elt F)))))) ((subf : (⟨S100000x128, .f32⟩ : BufTy).Contents (Elt F) → (⟨S100000x128, .f32⟩ : BufTy).Contents (Elt F) → (⟨S100000x128, .f32⟩ : BufTy).Contents (Elt F)) (r_main_v87 A) (((broadcastInDim S100000x128 ![0, 1] bcast_S100000x1_S100000x128_0_1) : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) (((broadcastInDim S100000x1 ![0] bcast_S100000_S100000x1_0) : (⟨S100000, .f32⟩ : BufTy).Contents (Elt F) → (⟨S100000x1, .f32⟩ : BufTy).Contents (Elt F)) (((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) (r_main_v87 A) (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) (constant S_ .f32 0x43000000#32 : (⟨S_, .f32⟩ : BufTy).Contents (Elt F))))))) (constant S_ .f32 0x00000000#32 : (⟨S_, .f32⟩ : BufTy).Contents (Elt F)))) (((broadcastInDim S100000x1 ![] bcast_S_S100000x1) : (⟨S_, .f32⟩ : BufTy).Contents (Elt F) → (⟨S100000x1, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x43000000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))))) (((broadcastInDim S100000x1 ![] bcast_S_S100000x1) : (⟨S_, .f32⟩ : BufTy).Contents (Elt F) → (⟨S100000x1, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- The value %v102 (written in stretch 14) from the values live at that stretch's start. -/
def r_main_v102 (A : Args F) : (⟨S100000x128, .f32⟩ : BufTy).Contents (Elt F) :=
  ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) (r_main_v87 A) ((broadcastInDim S100000x128 ![0, 1] bcast_S100000x1_S100000x128_0_1 : (⟨S100000x1, .f32⟩ : BufTy).Contents (Elt F) → (⟨S100000x128, .f32⟩ : BufTy).Contents (Elt F)) (r_main_v91 A))) ((broadcastInDim S100000x128 ![0, 1] bcast_S100000x1_S100000x128_0_1 : (⟨S100000x1, .f32⟩ : BufTy).Contents (Elt F) → (⟨S100000x128, .f32⟩ : BufTy).Contents (Elt F)) ((Host.rsqrt : (⟨S100000x1, .f32⟩ : BufTy).Contents (Elt F) → (⟨S100000x1, .f32⟩ : BufTy).Contents (Elt F)) ((addf : (⟨S100000x1, .f32⟩ : BufTy).Contents (Elt F) → (⟨S100000x1, .f32⟩ : BufTy).Contents (Elt F) → (⟨S100000x1, .f32⟩ : BufTy).Contents (Elt F)) (r_main_v92 A) ((broadcastInDim S100000x1 ![] bcast_S_S100000x1 : (⟨S_, .f32⟩ : BufTy).Contents (Elt F) → (⟨S100000x1, .f32⟩ : BufTy).Contents (Elt F)) (constant S_ .f32 0x3727C5AC#32 : (⟨S_, .f32⟩ : BufTy).Contents (Elt F))))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a14)))

/-- The value %v106 (written in stretch 15) from the values live at that stretch's start. -/
def r_main_v106 (A : Args F) : (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (r_main_v102 A) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) A.a15))) A.a0)

/-- The device's buffer contents before the first stretch. -/
def val0 (V0 : Valuation τ sig (Elt F)) : Valuation τ sig (Elt F) := V0
theorem val0_main_arg0 (V0 : Valuation τ sig (Elt F)) : val0 V0 (no_index (Proc.devRef .tc main_arg0)) = (argsOf V0).a0 := rfl
theorem val0_main_arg1 (V0 : Valuation τ sig (Elt F)) : val0 V0 (no_index (Proc.devRef .tc main_arg1)) = (argsOf V0).a1 := rfl
theorem val0_main_arg2 (V0 : Valuation τ sig (Elt F)) : val0 V0 (no_index (Proc.devRef .tc main_arg2)) = (argsOf V0).a2 := rfl
theorem val0_main_arg3 (V0 : Valuation τ sig (Elt F)) : val0 V0 (no_index (Proc.devRef .tc main_arg3)) = (argsOf V0).a3 := rfl
theorem val0_main_arg4 (V0 : Valuation τ sig (Elt F)) : val0 V0 (no_index (Proc.devRef .tc main_arg4)) = (argsOf V0).a4 := rfl
theorem val0_main_arg5 (V0 : Valuation τ sig (Elt F)) : val0 V0 (no_index (Proc.devRef .tc main_arg5)) = (argsOf V0).a5 := rfl
theorem val0_main_arg6 (V0 : Valuation τ sig (Elt F)) : val0 V0 (no_index (Proc.devRef .tc main_arg6)) = (argsOf V0).a6 := rfl
theorem val0_main_arg7 (V0 : Valuation τ sig (Elt F)) : val0 V0 (no_index (Proc.devRef .tc main_arg7)) = (argsOf V0).a7 := rfl
theorem val0_main_arg8 (V0 : Valuation τ sig (Elt F)) : val0 V0 (no_index (Proc.devRef .tc main_arg8)) = (argsOf V0).a8 := rfl
theorem val0_main_arg9 (V0 : Valuation τ sig (Elt F)) : val0 V0 (no_index (Proc.devRef .tc main_arg9)) = (argsOf V0).a9 := rfl
theorem val0_main_arg10 (V0 : Valuation τ sig (Elt F)) : val0 V0 (no_index (Proc.devRef .tc main_arg10)) = (argsOf V0).a10 := rfl
theorem val0_main_arg11 (V0 : Valuation τ sig (Elt F)) : val0 V0 (no_index (Proc.devRef .tc main_arg11)) = (argsOf V0).a11 := rfl
theorem val0_main_arg12 (V0 : Valuation τ sig (Elt F)) : val0 V0 (no_index (Proc.devRef .tc main_arg12)) = (argsOf V0).a12 := rfl
theorem val0_main_arg13 (V0 : Valuation τ sig (Elt F)) : val0 V0 (no_index (Proc.devRef .tc main_arg13)) = (argsOf V0).a13 := rfl
theorem val0_main_arg14 (V0 : Valuation τ sig (Elt F)) : val0 V0 (no_index (Proc.devRef .tc main_arg14)) = (argsOf V0).a14 := rfl
theorem val0_main_arg15 (V0 : Valuation τ sig (Elt F)) : val0 V0 (no_index (Proc.devRef .tc main_arg15)) = (argsOf V0).a15 := rfl

/-- The device's buffer contents after the first 1 stretch. -/
def val1 (V0 : Valuation τ sig (Elt F)) : Valuation τ sig (Elt F) := after ops01 (val0 V0)

/-- A buffer that stretch 1 does not write keeps its contents through it. -/
theorem val1_keep (V0 : Valuation τ sig (Elt F)) (r : Ref sig .tc) (h : r ∉ ops01_W) :
    val1 V0 (Proc.devRef .tc r) = val0 V0 (Proc.devRef .tc r) :=
  after_of_writes_sub ops01 _ ops01_writes h
theorem val1_main_arg0 (V0 : Valuation τ sig (Elt F)) : val1 V0 (no_index (Proc.devRef .tc main_arg0)) = (argsOf V0).a0 :=
  (val1_keep V0 main_arg0 (by decide)).trans (val0_main_arg0 V0)
theorem val1_main_arg1 (V0 : Valuation τ sig (Elt F)) : val1 V0 (no_index (Proc.devRef .tc main_arg1)) = (argsOf V0).a1 :=
  (val1_keep V0 main_arg1 (by decide)).trans (val0_main_arg1 V0)
theorem val1_main_arg2 (V0 : Valuation τ sig (Elt F)) : val1 V0 (no_index (Proc.devRef .tc main_arg2)) = (argsOf V0).a2 :=
  (val1_keep V0 main_arg2 (by decide)).trans (val0_main_arg2 V0)
theorem val1_main_arg3 (V0 : Valuation τ sig (Elt F)) : val1 V0 (no_index (Proc.devRef .tc main_arg3)) = (argsOf V0).a3 :=
  (val1_keep V0 main_arg3 (by decide)).trans (val0_main_arg3 V0)
theorem val1_main_arg4 (V0 : Valuation τ sig (Elt F)) : val1 V0 (no_index (Proc.devRef .tc main_arg4)) = (argsOf V0).a4 :=
  (val1_keep V0 main_arg4 (by decide)).trans (val0_main_arg4 V0)
theorem val1_main_arg5 (V0 : Valuation τ sig (Elt F)) : val1 V0 (no_index (Proc.devRef .tc main_arg5)) = (argsOf V0).a5 :=
  (val1_keep V0 main_arg5 (by decide)).trans (val0_main_arg5 V0)
theorem val1_main_arg6 (V0 : Valuation τ sig (Elt F)) : val1 V0 (no_index (Proc.devRef .tc main_arg6)) = (argsOf V0).a6 :=
  (val1_keep V0 main_arg6 (by decide)).trans (val0_main_arg6 V0)
theorem val1_main_arg7 (V0 : Valuation τ sig (Elt F)) : val1 V0 (no_index (Proc.devRef .tc main_arg7)) = (argsOf V0).a7 :=
  (val1_keep V0 main_arg7 (by decide)).trans (val0_main_arg7 V0)
theorem val1_main_arg8 (V0 : Valuation τ sig (Elt F)) : val1 V0 (no_index (Proc.devRef .tc main_arg8)) = (argsOf V0).a8 :=
  (val1_keep V0 main_arg8 (by decide)).trans (val0_main_arg8 V0)
theorem val1_main_arg9 (V0 : Valuation τ sig (Elt F)) : val1 V0 (no_index (Proc.devRef .tc main_arg9)) = (argsOf V0).a9 :=
  (val1_keep V0 main_arg9 (by decide)).trans (val0_main_arg9 V0)
theorem val1_main_arg10 (V0 : Valuation τ sig (Elt F)) : val1 V0 (no_index (Proc.devRef .tc main_arg10)) = (argsOf V0).a10 :=
  (val1_keep V0 main_arg10 (by decide)).trans (val0_main_arg10 V0)
theorem val1_main_arg11 (V0 : Valuation τ sig (Elt F)) : val1 V0 (no_index (Proc.devRef .tc main_arg11)) = (argsOf V0).a11 :=
  (val1_keep V0 main_arg11 (by decide)).trans (val0_main_arg11 V0)
theorem val1_main_arg12 (V0 : Valuation τ sig (Elt F)) : val1 V0 (no_index (Proc.devRef .tc main_arg12)) = (argsOf V0).a12 :=
  (val1_keep V0 main_arg12 (by decide)).trans (val0_main_arg12 V0)
theorem val1_main_arg13 (V0 : Valuation τ sig (Elt F)) : val1 V0 (no_index (Proc.devRef .tc main_arg13)) = (argsOf V0).a13 :=
  (val1_keep V0 main_arg13 (by decide)).trans (val0_main_arg13 V0)
theorem val1_main_arg14 (V0 : Valuation τ sig (Elt F)) : val1 V0 (no_index (Proc.devRef .tc main_arg14)) = (argsOf V0).a14 :=
  (val1_keep V0 main_arg14 (by decide)).trans (val0_main_arg14 V0)
theorem val1_main_arg15 (V0 : Valuation τ sig (Elt F)) : val1 V0 (no_index (Proc.devRef .tc main_arg15)) = (argsOf V0).a15 :=
  (val1_keep V0 main_arg15 (by decide)).trans (val0_main_arg15 V0)

set_option maxRecDepth 8192 in
set_option maxHeartbeats 2200000 in
theorem val1_main_v3 (V0 : Valuation τ sig (Elt F)) : val1 V0 (no_index (Proc.devRef .tc main_v3)) = r_main_v3 (argsOf V0) := by
  unfold val1
  simp only [ops01]
  after_results_simp
  simp only [val0_main_arg3]
  rfl

set_option maxRecDepth 8192 in
set_option maxHeartbeats 2200000 in
theorem val1_main_v10 (V0 : Valuation τ sig (Elt F)) : val1 V0 (no_index (Proc.devRef .tc main_v10)) = r_main_v10 (argsOf V0) := by
  unfold val1
  simp only [ops01]
  after_results_simp
  simp only [val0_main_arg1, val0_main_arg3]
  rfl

set_option maxRecDepth 8192 in
set_option maxHeartbeats 2200000 in
theorem val1_main_v17 (V0 : Valuation τ sig (Elt F)) : val1 V0 (no_index (Proc.devRef .tc main_v17)) = r_main_v17 (argsOf V0) := by
  unfold val1
  simp only [ops01]
  after_results_simp
  simp only [val0_main_arg0, val0_main_arg3]
  rfl

/-- The device's buffer contents after the first 2 stretches. -/
def val2 (V0 : Valuation τ sig (Elt F)) : Valuation τ sig (Elt F) := after ops02 (val1 V0)

/-- A buffer that stretch 2 does not write keeps its contents through it. -/
theorem val2_keep (V0 : Valuation τ sig (Elt F)) (r : Ref sig .tc) (h : r ∉ ops02_W) :
    val2 V0 (Proc.devRef .tc r) = val1 V0 (Proc.devRef .tc r) :=
  after_of_writes_sub ops02 _ ops02_writes h
theorem val2_main_arg0 (V0 : Valuation τ sig (Elt F)) : val2 V0 (no_index (Proc.devRef .tc main_arg0)) = (argsOf V0).a0 :=
  (val2_keep V0 main_arg0 (by decide)).trans (val1_main_arg0 V0)
theorem val2_main_arg1 (V0 : Valuation τ sig (Elt F)) : val2 V0 (no_index (Proc.devRef .tc main_arg1)) = (argsOf V0).a1 :=
  (val2_keep V0 main_arg1 (by decide)).trans (val1_main_arg1 V0)
theorem val2_main_arg2 (V0 : Valuation τ sig (Elt F)) : val2 V0 (no_index (Proc.devRef .tc main_arg2)) = (argsOf V0).a2 :=
  (val2_keep V0 main_arg2 (by decide)).trans (val1_main_arg2 V0)
theorem val2_main_arg3 (V0 : Valuation τ sig (Elt F)) : val2 V0 (no_index (Proc.devRef .tc main_arg3)) = (argsOf V0).a3 :=
  (val2_keep V0 main_arg3 (by decide)).trans (val1_main_arg3 V0)
theorem val2_main_arg4 (V0 : Valuation τ sig (Elt F)) : val2 V0 (no_index (Proc.devRef .tc main_arg4)) = (argsOf V0).a4 :=
  (val2_keep V0 main_arg4 (by decide)).trans (val1_main_arg4 V0)
theorem val2_main_arg5 (V0 : Valuation τ sig (Elt F)) : val2 V0 (no_index (Proc.devRef .tc main_arg5)) = (argsOf V0).a5 :=
  (val2_keep V0 main_arg5 (by decide)).trans (val1_main_arg5 V0)
theorem val2_main_arg6 (V0 : Valuation τ sig (Elt F)) : val2 V0 (no_index (Proc.devRef .tc main_arg6)) = (argsOf V0).a6 :=
  (val2_keep V0 main_arg6 (by decide)).trans (val1_main_arg6 V0)
theorem val2_main_arg7 (V0 : Valuation τ sig (Elt F)) : val2 V0 (no_index (Proc.devRef .tc main_arg7)) = (argsOf V0).a7 :=
  (val2_keep V0 main_arg7 (by decide)).trans (val1_main_arg7 V0)
theorem val2_main_arg8 (V0 : Valuation τ sig (Elt F)) : val2 V0 (no_index (Proc.devRef .tc main_arg8)) = (argsOf V0).a8 :=
  (val2_keep V0 main_arg8 (by decide)).trans (val1_main_arg8 V0)
theorem val2_main_arg9 (V0 : Valuation τ sig (Elt F)) : val2 V0 (no_index (Proc.devRef .tc main_arg9)) = (argsOf V0).a9 :=
  (val2_keep V0 main_arg9 (by decide)).trans (val1_main_arg9 V0)
theorem val2_main_arg10 (V0 : Valuation τ sig (Elt F)) : val2 V0 (no_index (Proc.devRef .tc main_arg10)) = (argsOf V0).a10 :=
  (val2_keep V0 main_arg10 (by decide)).trans (val1_main_arg10 V0)
theorem val2_main_arg11 (V0 : Valuation τ sig (Elt F)) : val2 V0 (no_index (Proc.devRef .tc main_arg11)) = (argsOf V0).a11 :=
  (val2_keep V0 main_arg11 (by decide)).trans (val1_main_arg11 V0)
theorem val2_main_arg12 (V0 : Valuation τ sig (Elt F)) : val2 V0 (no_index (Proc.devRef .tc main_arg12)) = (argsOf V0).a12 :=
  (val2_keep V0 main_arg12 (by decide)).trans (val1_main_arg12 V0)
theorem val2_main_arg13 (V0 : Valuation τ sig (Elt F)) : val2 V0 (no_index (Proc.devRef .tc main_arg13)) = (argsOf V0).a13 :=
  (val2_keep V0 main_arg13 (by decide)).trans (val1_main_arg13 V0)
theorem val2_main_arg14 (V0 : Valuation τ sig (Elt F)) : val2 V0 (no_index (Proc.devRef .tc main_arg14)) = (argsOf V0).a14 :=
  (val2_keep V0 main_arg14 (by decide)).trans (val1_main_arg14 V0)
theorem val2_main_arg15 (V0 : Valuation τ sig (Elt F)) : val2 V0 (no_index (Proc.devRef .tc main_arg15)) = (argsOf V0).a15 :=
  (val2_keep V0 main_arg15 (by decide)).trans (val1_main_arg15 V0)
theorem val2_main_v3 (V0 : Valuation τ sig (Elt F)) : val2 V0 (no_index (Proc.devRef .tc main_v3)) = r_main_v3 (argsOf V0) :=
  (val2_keep V0 main_v3 (by decide)).trans (val1_main_v3 V0)

set_option maxRecDepth 8192 in
set_option maxHeartbeats 500000 in
theorem val2_main_v22 (V0 : Valuation τ sig (Elt F)) : val2 V0 (no_index (Proc.devRef .tc main_v22)) = r_main_v22 (argsOf V0) := by
  unfold val2
  simp only [ops02]
  after_results_simp
  simp only [val1_main_v10, val1_main_v17, val1_main_arg2, val1_main_arg4, val1_main_arg5]
  rfl

/-- The device's buffer contents after the first 3 stretches. -/
def val3 (V0 : Valuation τ sig (Elt F)) : Valuation τ sig (Elt F) := after ops03 (val2 V0)

/-- A buffer that stretch 3 does not write keeps its contents through it. -/
theorem val3_keep (V0 : Valuation τ sig (Elt F)) (r : Ref sig .tc) (h : r ∉ ops03_W) :
    val3 V0 (Proc.devRef .tc r) = val2 V0 (Proc.devRef .tc r) :=
  after_of_writes_sub ops03 _ ops03_writes h
theorem val3_main_arg0 (V0 : Valuation τ sig (Elt F)) : val3 V0 (no_index (Proc.devRef .tc main_arg0)) = (argsOf V0).a0 :=
  (val3_keep V0 main_arg0 (by decide)).trans (val2_main_arg0 V0)
theorem val3_main_arg1 (V0 : Valuation τ sig (Elt F)) : val3 V0 (no_index (Proc.devRef .tc main_arg1)) = (argsOf V0).a1 :=
  (val3_keep V0 main_arg1 (by decide)).trans (val2_main_arg1 V0)
theorem val3_main_arg2 (V0 : Valuation τ sig (Elt F)) : val3 V0 (no_index (Proc.devRef .tc main_arg2)) = (argsOf V0).a2 :=
  (val3_keep V0 main_arg2 (by decide)).trans (val2_main_arg2 V0)
theorem val3_main_arg3 (V0 : Valuation τ sig (Elt F)) : val3 V0 (no_index (Proc.devRef .tc main_arg3)) = (argsOf V0).a3 :=
  (val3_keep V0 main_arg3 (by decide)).trans (val2_main_arg3 V0)
theorem val3_main_arg4 (V0 : Valuation τ sig (Elt F)) : val3 V0 (no_index (Proc.devRef .tc main_arg4)) = (argsOf V0).a4 :=
  (val3_keep V0 main_arg4 (by decide)).trans (val2_main_arg4 V0)
theorem val3_main_arg5 (V0 : Valuation τ sig (Elt F)) : val3 V0 (no_index (Proc.devRef .tc main_arg5)) = (argsOf V0).a5 :=
  (val3_keep V0 main_arg5 (by decide)).trans (val2_main_arg5 V0)
theorem val3_main_arg6 (V0 : Valuation τ sig (Elt F)) : val3 V0 (no_index (Proc.devRef .tc main_arg6)) = (argsOf V0).a6 :=
  (val3_keep V0 main_arg6 (by decide)).trans (val2_main_arg6 V0)
theorem val3_main_arg7 (V0 : Valuation τ sig (Elt F)) : val3 V0 (no_index (Proc.devRef .tc main_arg7)) = (argsOf V0).a7 :=
  (val3_keep V0 main_arg7 (by decide)).trans (val2_main_arg7 V0)
theorem val3_main_arg8 (V0 : Valuation τ sig (Elt F)) : val3 V0 (no_index (Proc.devRef .tc main_arg8)) = (argsOf V0).a8 :=
  (val3_keep V0 main_arg8 (by decide)).trans (val2_main_arg8 V0)
theorem val3_main_arg9 (V0 : Valuation τ sig (Elt F)) : val3 V0 (no_index (Proc.devRef .tc main_arg9)) = (argsOf V0).a9 :=
  (val3_keep V0 main_arg9 (by decide)).trans (val2_main_arg9 V0)
theorem val3_main_arg10 (V0 : Valuation τ sig (Elt F)) : val3 V0 (no_index (Proc.devRef .tc main_arg10)) = (argsOf V0).a10 :=
  (val3_keep V0 main_arg10 (by decide)).trans (val2_main_arg10 V0)
theorem val3_main_arg11 (V0 : Valuation τ sig (Elt F)) : val3 V0 (no_index (Proc.devRef .tc main_arg11)) = (argsOf V0).a11 :=
  (val3_keep V0 main_arg11 (by decide)).trans (val2_main_arg11 V0)
theorem val3_main_arg12 (V0 : Valuation τ sig (Elt F)) : val3 V0 (no_index (Proc.devRef .tc main_arg12)) = (argsOf V0).a12 :=
  (val3_keep V0 main_arg12 (by decide)).trans (val2_main_arg12 V0)
theorem val3_main_arg13 (V0 : Valuation τ sig (Elt F)) : val3 V0 (no_index (Proc.devRef .tc main_arg13)) = (argsOf V0).a13 :=
  (val3_keep V0 main_arg13 (by decide)).trans (val2_main_arg13 V0)
theorem val3_main_arg14 (V0 : Valuation τ sig (Elt F)) : val3 V0 (no_index (Proc.devRef .tc main_arg14)) = (argsOf V0).a14 :=
  (val3_keep V0 main_arg14 (by decide)).trans (val2_main_arg14 V0)
theorem val3_main_arg15 (V0 : Valuation τ sig (Elt F)) : val3 V0 (no_index (Proc.devRef .tc main_arg15)) = (argsOf V0).a15 :=
  (val3_keep V0 main_arg15 (by decide)).trans (val2_main_arg15 V0)
theorem val3_main_v3 (V0 : Valuation τ sig (Elt F)) : val3 V0 (no_index (Proc.devRef .tc main_v3)) = r_main_v3 (argsOf V0) :=
  (val3_keep V0 main_v3 (by decide)).trans (val2_main_v3 V0)

set_option maxRecDepth 8192 in
set_option maxHeartbeats 1300000 in
theorem val3_main_v27 (V0 : Valuation τ sig (Elt F)) : val3 V0 (no_index (Proc.devRef .tc main_v27)) = r_main_v27 (argsOf V0) := by
  unfold val3
  simp only [ops03]
  after_results_simp
  simp only [val2_main_v22, val2_main_arg6, val2_main_arg7]
  rfl

/-- The device's buffer contents after the first 4 stretches. -/
def val4 (V0 : Valuation τ sig (Elt F)) : Valuation τ sig (Elt F) := after ops04 (val3 V0)

/-- A buffer that stretch 4 does not write keeps its contents through it. -/
theorem val4_keep (V0 : Valuation τ sig (Elt F)) (r : Ref sig .tc) (h : r ∉ ops04_W) :
    val4 V0 (Proc.devRef .tc r) = val3 V0 (Proc.devRef .tc r) :=
  after_of_writes_sub ops04 _ ops04_writes h
theorem val4_main_arg0 (V0 : Valuation τ sig (Elt F)) : val4 V0 (no_index (Proc.devRef .tc main_arg0)) = (argsOf V0).a0 :=
  (val4_keep V0 main_arg0 (by decide)).trans (val3_main_arg0 V0)
theorem val4_main_arg1 (V0 : Valuation τ sig (Elt F)) : val4 V0 (no_index (Proc.devRef .tc main_arg1)) = (argsOf V0).a1 :=
  (val4_keep V0 main_arg1 (by decide)).trans (val3_main_arg1 V0)
theorem val4_main_arg2 (V0 : Valuation τ sig (Elt F)) : val4 V0 (no_index (Proc.devRef .tc main_arg2)) = (argsOf V0).a2 :=
  (val4_keep V0 main_arg2 (by decide)).trans (val3_main_arg2 V0)
theorem val4_main_arg3 (V0 : Valuation τ sig (Elt F)) : val4 V0 (no_index (Proc.devRef .tc main_arg3)) = (argsOf V0).a3 :=
  (val4_keep V0 main_arg3 (by decide)).trans (val3_main_arg3 V0)
theorem val4_main_arg4 (V0 : Valuation τ sig (Elt F)) : val4 V0 (no_index (Proc.devRef .tc main_arg4)) = (argsOf V0).a4 :=
  (val4_keep V0 main_arg4 (by decide)).trans (val3_main_arg4 V0)
theorem val4_main_arg5 (V0 : Valuation τ sig (Elt F)) : val4 V0 (no_index (Proc.devRef .tc main_arg5)) = (argsOf V0).a5 :=
  (val4_keep V0 main_arg5 (by decide)).trans (val3_main_arg5 V0)
theorem val4_main_arg6 (V0 : Valuation τ sig (Elt F)) : val4 V0 (no_index (Proc.devRef .tc main_arg6)) = (argsOf V0).a6 :=
  (val4_keep V0 main_arg6 (by decide)).trans (val3_main_arg6 V0)
theorem val4_main_arg7 (V0 : Valuation τ sig (Elt F)) : val4 V0 (no_index (Proc.devRef .tc main_arg7)) = (argsOf V0).a7 :=
  (val4_keep V0 main_arg7 (by decide)).trans (val3_main_arg7 V0)
theorem val4_main_arg8 (V0 : Valuation τ sig (Elt F)) : val4 V0 (no_index (Proc.devRef .tc main_arg8)) = (argsOf V0).a8 :=
  (val4_keep V0 main_arg8 (by decide)).trans (val3_main_arg8 V0)
theorem val4_main_arg9 (V0 : Valuation τ sig (Elt F)) : val4 V0 (no_index (Proc.devRef .tc main_arg9)) = (argsOf V0).a9 :=
  (val4_keep V0 main_arg9 (by decide)).trans (val3_main_arg9 V0)
theorem val4_main_arg10 (V0 : Valuation τ sig (Elt F)) : val4 V0 (no_index (Proc.devRef .tc main_arg10)) = (argsOf V0).a10 :=
  (val4_keep V0 main_arg10 (by decide)).trans (val3_main_arg10 V0)
theorem val4_main_arg11 (V0 : Valuation τ sig (Elt F)) : val4 V0 (no_index (Proc.devRef .tc main_arg11)) = (argsOf V0).a11 :=
  (val4_keep V0 main_arg11 (by decide)).trans (val3_main_arg11 V0)
theorem val4_main_arg12 (V0 : Valuation τ sig (Elt F)) : val4 V0 (no_index (Proc.devRef .tc main_arg12)) = (argsOf V0).a12 :=
  (val4_keep V0 main_arg12 (by decide)).trans (val3_main_arg12 V0)
theorem val4_main_arg13 (V0 : Valuation τ sig (Elt F)) : val4 V0 (no_index (Proc.devRef .tc main_arg13)) = (argsOf V0).a13 :=
  (val4_keep V0 main_arg13 (by decide)).trans (val3_main_arg13 V0)
theorem val4_main_arg14 (V0 : Valuation τ sig (Elt F)) : val4 V0 (no_index (Proc.devRef .tc main_arg14)) = (argsOf V0).a14 :=
  (val4_keep V0 main_arg14 (by decide)).trans (val3_main_arg14 V0)
theorem val4_main_arg15 (V0 : Valuation τ sig (Elt F)) : val4 V0 (no_index (Proc.devRef .tc main_arg15)) = (argsOf V0).a15 :=
  (val4_keep V0 main_arg15 (by decide)).trans (val3_main_arg15 V0)
theorem val4_main_v3 (V0 : Valuation τ sig (Elt F)) : val4 V0 (no_index (Proc.devRef .tc main_v3)) = r_main_v3 (argsOf V0) :=
  (val4_keep V0 main_v3 (by decide)).trans (val3_main_v3 V0)
theorem val4_main_v27 (V0 : Valuation τ sig (Elt F)) : val4 V0 (no_index (Proc.devRef .tc main_v27)) = r_main_v27 (argsOf V0) :=
  (val4_keep V0 main_v27 (by decide)).trans (val3_main_v27 V0)

set_option maxRecDepth 8192 in
set_option maxHeartbeats 3000000 in
theorem val4_main_v31 (V0 : Valuation τ sig (Elt F)) : val4 V0 (no_index (Proc.devRef .tc main_v31)) = r_main_v31 (argsOf V0) := by
  unfold val4
  simp only [ops04]
  after_results_simp
  simp only [val3_main_v27]
  rfl

set_option maxRecDepth 8192 in
set_option maxHeartbeats 3000000 in
theorem val4_main_v32 (V0 : Valuation τ sig (Elt F)) : val4 V0 (no_index (Proc.devRef .tc main_v32)) = r_main_v32 (argsOf V0) := by
  unfold val4
  simp only [ops04]
  after_results_simp
  simp only [val3_main_v27]
  rfl

/-- The device's buffer contents after the first 5 stretches. -/
def val5 (V0 : Valuation τ sig (Elt F)) : Valuation τ sig (Elt F) := after ops05 (val4 V0)

/-- A buffer that stretch 5 does not write keeps its contents through it. -/
theorem val5_keep (V0 : Valuation τ sig (Elt F)) (r : Ref sig .tc) (h : r ∉ ops05_W) :
    val5 V0 (Proc.devRef .tc r) = val4 V0 (Proc.devRef .tc r) :=
  after_of_writes_sub ops05 _ ops05_writes h
theorem val5_main_arg0 (V0 : Valuation τ sig (Elt F)) : val5 V0 (no_index (Proc.devRef .tc main_arg0)) = (argsOf V0).a0 :=
  (val5_keep V0 main_arg0 (by decide)).trans (val4_main_arg0 V0)
theorem val5_main_arg1 (V0 : Valuation τ sig (Elt F)) : val5 V0 (no_index (Proc.devRef .tc main_arg1)) = (argsOf V0).a1 :=
  (val5_keep V0 main_arg1 (by decide)).trans (val4_main_arg1 V0)
theorem val5_main_arg2 (V0 : Valuation τ sig (Elt F)) : val5 V0 (no_index (Proc.devRef .tc main_arg2)) = (argsOf V0).a2 :=
  (val5_keep V0 main_arg2 (by decide)).trans (val4_main_arg2 V0)
theorem val5_main_arg3 (V0 : Valuation τ sig (Elt F)) : val5 V0 (no_index (Proc.devRef .tc main_arg3)) = (argsOf V0).a3 :=
  (val5_keep V0 main_arg3 (by decide)).trans (val4_main_arg3 V0)
theorem val5_main_arg4 (V0 : Valuation τ sig (Elt F)) : val5 V0 (no_index (Proc.devRef .tc main_arg4)) = (argsOf V0).a4 :=
  (val5_keep V0 main_arg4 (by decide)).trans (val4_main_arg4 V0)
theorem val5_main_arg5 (V0 : Valuation τ sig (Elt F)) : val5 V0 (no_index (Proc.devRef .tc main_arg5)) = (argsOf V0).a5 :=
  (val5_keep V0 main_arg5 (by decide)).trans (val4_main_arg5 V0)
theorem val5_main_arg6 (V0 : Valuation τ sig (Elt F)) : val5 V0 (no_index (Proc.devRef .tc main_arg6)) = (argsOf V0).a6 :=
  (val5_keep V0 main_arg6 (by decide)).trans (val4_main_arg6 V0)
theorem val5_main_arg7 (V0 : Valuation τ sig (Elt F)) : val5 V0 (no_index (Proc.devRef .tc main_arg7)) = (argsOf V0).a7 :=
  (val5_keep V0 main_arg7 (by decide)).trans (val4_main_arg7 V0)
theorem val5_main_arg8 (V0 : Valuation τ sig (Elt F)) : val5 V0 (no_index (Proc.devRef .tc main_arg8)) = (argsOf V0).a8 :=
  (val5_keep V0 main_arg8 (by decide)).trans (val4_main_arg8 V0)
theorem val5_main_arg9 (V0 : Valuation τ sig (Elt F)) : val5 V0 (no_index (Proc.devRef .tc main_arg9)) = (argsOf V0).a9 :=
  (val5_keep V0 main_arg9 (by decide)).trans (val4_main_arg9 V0)
theorem val5_main_arg10 (V0 : Valuation τ sig (Elt F)) : val5 V0 (no_index (Proc.devRef .tc main_arg10)) = (argsOf V0).a10 :=
  (val5_keep V0 main_arg10 (by decide)).trans (val4_main_arg10 V0)
theorem val5_main_arg11 (V0 : Valuation τ sig (Elt F)) : val5 V0 (no_index (Proc.devRef .tc main_arg11)) = (argsOf V0).a11 :=
  (val5_keep V0 main_arg11 (by decide)).trans (val4_main_arg11 V0)
theorem val5_main_arg12 (V0 : Valuation τ sig (Elt F)) : val5 V0 (no_index (Proc.devRef .tc main_arg12)) = (argsOf V0).a12 :=
  (val5_keep V0 main_arg12 (by decide)).trans (val4_main_arg12 V0)
theorem val5_main_arg13 (V0 : Valuation τ sig (Elt F)) : val5 V0 (no_index (Proc.devRef .tc main_arg13)) = (argsOf V0).a13 :=
  (val5_keep V0 main_arg13 (by decide)).trans (val4_main_arg13 V0)
theorem val5_main_arg14 (V0 : Valuation τ sig (Elt F)) : val5 V0 (no_index (Proc.devRef .tc main_arg14)) = (argsOf V0).a14 :=
  (val5_keep V0 main_arg14 (by decide)).trans (val4_main_arg14 V0)
theorem val5_main_arg15 (V0 : Valuation τ sig (Elt F)) : val5 V0 (no_index (Proc.devRef .tc main_arg15)) = (argsOf V0).a15 :=
  (val5_keep V0 main_arg15 (by decide)).trans (val4_main_arg15 V0)
theorem val5_main_v3 (V0 : Valuation τ sig (Elt F)) : val5 V0 (no_index (Proc.devRef .tc main_v3)) = r_main_v3 (argsOf V0) :=
  (val5_keep V0 main_v3 (by decide)).trans (val4_main_v3 V0)

set_option maxRecDepth 8192 in
set_option maxHeartbeats 1400000 in
theorem val5_main_v45 (V0 : Valuation τ sig (Elt F)) : val5 V0 (no_index (Proc.devRef .tc main_v45)) = r_main_v45 (argsOf V0) := by
  unfold val5
  simp only [ops05]
  after_results_simp
  simp only [val4_main_v27, val4_main_v31, val4_main_v32, val4_main_arg8, val4_main_arg9]
  rfl

/-- The device's buffer contents after the first 6 stretches. -/
def val6 (V0 : Valuation τ sig (Elt F)) : Valuation τ sig (Elt F) := after ops06 (val5 V0)

/-- A buffer that stretch 6 does not write keeps its contents through it. -/
theorem val6_keep (V0 : Valuation τ sig (Elt F)) (r : Ref sig .tc) (h : r ∉ ops06_W) :
    val6 V0 (Proc.devRef .tc r) = val5 V0 (Proc.devRef .tc r) :=
  after_of_writes_sub ops06 _ ops06_writes h
theorem val6_main_arg0 (V0 : Valuation τ sig (Elt F)) : val6 V0 (no_index (Proc.devRef .tc main_arg0)) = (argsOf V0).a0 :=
  (val6_keep V0 main_arg0 (by decide)).trans (val5_main_arg0 V0)
theorem val6_main_arg1 (V0 : Valuation τ sig (Elt F)) : val6 V0 (no_index (Proc.devRef .tc main_arg1)) = (argsOf V0).a1 :=
  (val6_keep V0 main_arg1 (by decide)).trans (val5_main_arg1 V0)
theorem val6_main_arg2 (V0 : Valuation τ sig (Elt F)) : val6 V0 (no_index (Proc.devRef .tc main_arg2)) = (argsOf V0).a2 :=
  (val6_keep V0 main_arg2 (by decide)).trans (val5_main_arg2 V0)
theorem val6_main_arg3 (V0 : Valuation τ sig (Elt F)) : val6 V0 (no_index (Proc.devRef .tc main_arg3)) = (argsOf V0).a3 :=
  (val6_keep V0 main_arg3 (by decide)).trans (val5_main_arg3 V0)
theorem val6_main_arg4 (V0 : Valuation τ sig (Elt F)) : val6 V0 (no_index (Proc.devRef .tc main_arg4)) = (argsOf V0).a4 :=
  (val6_keep V0 main_arg4 (by decide)).trans (val5_main_arg4 V0)
theorem val6_main_arg5 (V0 : Valuation τ sig (Elt F)) : val6 V0 (no_index (Proc.devRef .tc main_arg5)) = (argsOf V0).a5 :=
  (val6_keep V0 main_arg5 (by decide)).trans (val5_main_arg5 V0)
theorem val6_main_arg6 (V0 : Valuation τ sig (Elt F)) : val6 V0 (no_index (Proc.devRef .tc main_arg6)) = (argsOf V0).a6 :=
  (val6_keep V0 main_arg6 (by decide)).trans (val5_main_arg6 V0)
theorem val6_main_arg7 (V0 : Valuation τ sig (Elt F)) : val6 V0 (no_index (Proc.devRef .tc main_arg7)) = (argsOf V0).a7 :=
  (val6_keep V0 main_arg7 (by decide)).trans (val5_main_arg7 V0)
theorem val6_main_arg8 (V0 : Valuation τ sig (Elt F)) : val6 V0 (no_index (Proc.devRef .tc main_arg8)) = (argsOf V0).a8 :=
  (val6_keep V0 main_arg8 (by decide)).trans (val5_main_arg8 V0)
theorem val6_main_arg9 (V0 : Valuation τ sig (Elt F)) : val6 V0 (no_index (Proc.devRef .tc main_arg9)) = (argsOf V0).a9 :=
  (val6_keep V0 main_arg9 (by decide)).trans (val5_main_arg9 V0)
theorem val6_main_arg10 (V0 : Valuation τ sig (Elt F)) : val6 V0 (no_index (Proc.devRef .tc main_arg10)) = (argsOf V0).a10 :=
  (val6_keep V0 main_arg10 (by decide)).trans (val5_main_arg10 V0)
theorem val6_main_arg11 (V0 : Valuation τ sig (Elt F)) : val6 V0 (no_index (Proc.devRef .tc main_arg11)) = (argsOf V0).a11 :=
  (val6_keep V0 main_arg11 (by decide)).trans (val5_main_arg11 V0)
theorem val6_main_arg12 (V0 : Valuation τ sig (Elt F)) : val6 V0 (no_index (Proc.devRef .tc main_arg12)) = (argsOf V0).a12 :=
  (val6_keep V0 main_arg12 (by decide)).trans (val5_main_arg12 V0)
theorem val6_main_arg13 (V0 : Valuation τ sig (Elt F)) : val6 V0 (no_index (Proc.devRef .tc main_arg13)) = (argsOf V0).a13 :=
  (val6_keep V0 main_arg13 (by decide)).trans (val5_main_arg13 V0)
theorem val6_main_arg14 (V0 : Valuation τ sig (Elt F)) : val6 V0 (no_index (Proc.devRef .tc main_arg14)) = (argsOf V0).a14 :=
  (val6_keep V0 main_arg14 (by decide)).trans (val5_main_arg14 V0)
theorem val6_main_arg15 (V0 : Valuation τ sig (Elt F)) : val6 V0 (no_index (Proc.devRef .tc main_arg15)) = (argsOf V0).a15 :=
  (val6_keep V0 main_arg15 (by decide)).trans (val5_main_arg15 V0)
theorem val6_main_v45 (V0 : Valuation τ sig (Elt F)) : val6 V0 (no_index (Proc.devRef .tc main_v45)) = r_main_v45 (argsOf V0) :=
  (val6_keep V0 main_v45 (by decide)).trans (val5_main_v45 V0)

set_option maxRecDepth 8192 in
set_option maxHeartbeats 600000 in
theorem val6_main_v50 (V0 : Valuation τ sig (Elt F)) : val6 V0 (no_index (Proc.devRef .tc main_v50)) = r_main_v50 (argsOf V0) := by
  unfold val6
  simp only [ops06]
  after_results_simp
  simp only [val5_main_arg1, val5_main_v3, val5_main_v45, val5_main_arg10]
  rfl

/-- The device's buffer contents after the first 7 stretches. -/
def val7 (V0 : Valuation τ sig (Elt F)) : Valuation τ sig (Elt F) := after ops07 (val6 V0)

/-- A buffer that stretch 7 does not write keeps its contents through it. -/
theorem val7_keep (V0 : Valuation τ sig (Elt F)) (r : Ref sig .tc) (h : r ∉ ops07_W) :
    val7 V0 (Proc.devRef .tc r) = val6 V0 (Proc.devRef .tc r) :=
  after_of_writes_sub ops07 _ ops07_writes h
theorem val7_main_arg0 (V0 : Valuation τ sig (Elt F)) : val7 V0 (no_index (Proc.devRef .tc main_arg0)) = (argsOf V0).a0 :=
  (val7_keep V0 main_arg0 (by decide)).trans (val6_main_arg0 V0)
theorem val7_main_arg1 (V0 : Valuation τ sig (Elt F)) : val7 V0 (no_index (Proc.devRef .tc main_arg1)) = (argsOf V0).a1 :=
  (val7_keep V0 main_arg1 (by decide)).trans (val6_main_arg1 V0)
theorem val7_main_arg2 (V0 : Valuation τ sig (Elt F)) : val7 V0 (no_index (Proc.devRef .tc main_arg2)) = (argsOf V0).a2 :=
  (val7_keep V0 main_arg2 (by decide)).trans (val6_main_arg2 V0)
theorem val7_main_arg3 (V0 : Valuation τ sig (Elt F)) : val7 V0 (no_index (Proc.devRef .tc main_arg3)) = (argsOf V0).a3 :=
  (val7_keep V0 main_arg3 (by decide)).trans (val6_main_arg3 V0)
theorem val7_main_arg4 (V0 : Valuation τ sig (Elt F)) : val7 V0 (no_index (Proc.devRef .tc main_arg4)) = (argsOf V0).a4 :=
  (val7_keep V0 main_arg4 (by decide)).trans (val6_main_arg4 V0)
theorem val7_main_arg5 (V0 : Valuation τ sig (Elt F)) : val7 V0 (no_index (Proc.devRef .tc main_arg5)) = (argsOf V0).a5 :=
  (val7_keep V0 main_arg5 (by decide)).trans (val6_main_arg5 V0)
theorem val7_main_arg6 (V0 : Valuation τ sig (Elt F)) : val7 V0 (no_index (Proc.devRef .tc main_arg6)) = (argsOf V0).a6 :=
  (val7_keep V0 main_arg6 (by decide)).trans (val6_main_arg6 V0)
theorem val7_main_arg7 (V0 : Valuation τ sig (Elt F)) : val7 V0 (no_index (Proc.devRef .tc main_arg7)) = (argsOf V0).a7 :=
  (val7_keep V0 main_arg7 (by decide)).trans (val6_main_arg7 V0)
theorem val7_main_arg8 (V0 : Valuation τ sig (Elt F)) : val7 V0 (no_index (Proc.devRef .tc main_arg8)) = (argsOf V0).a8 :=
  (val7_keep V0 main_arg8 (by decide)).trans (val6_main_arg8 V0)
theorem val7_main_arg9 (V0 : Valuation τ sig (Elt F)) : val7 V0 (no_index (Proc.devRef .tc main_arg9)) = (argsOf V0).a9 :=
  (val7_keep V0 main_arg9 (by decide)).trans (val6_main_arg9 V0)
theorem val7_main_arg10 (V0 : Valuation τ sig (Elt F)) : val7 V0 (no_index (Proc.devRef .tc main_arg10)) = (argsOf V0).a10 :=
  (val7_keep V0 main_arg10 (by decide)).trans (val6_main_arg10 V0)
theorem val7_main_arg11 (V0 : Valuation τ sig (Elt F)) : val7 V0 (no_index (Proc.devRef .tc main_arg11)) = (argsOf V0).a11 :=
  (val7_keep V0 main_arg11 (by decide)).trans (val6_main_arg11 V0)
theorem val7_main_arg12 (V0 : Valuation τ sig (Elt F)) : val7 V0 (no_index (Proc.devRef .tc main_arg12)) = (argsOf V0).a12 :=
  (val7_keep V0 main_arg12 (by decide)).trans (val6_main_arg12 V0)
theorem val7_main_arg13 (V0 : Valuation τ sig (Elt F)) : val7 V0 (no_index (Proc.devRef .tc main_arg13)) = (argsOf V0).a13 :=
  (val7_keep V0 main_arg13 (by decide)).trans (val6_main_arg13 V0)
theorem val7_main_arg14 (V0 : Valuation τ sig (Elt F)) : val7 V0 (no_index (Proc.devRef .tc main_arg14)) = (argsOf V0).a14 :=
  (val7_keep V0 main_arg14 (by decide)).trans (val6_main_arg14 V0)
theorem val7_main_arg15 (V0 : Valuation τ sig (Elt F)) : val7 V0 (no_index (Proc.devRef .tc main_arg15)) = (argsOf V0).a15 :=
  (val7_keep V0 main_arg15 (by decide)).trans (val6_main_arg15 V0)
theorem val7_main_v45 (V0 : Valuation τ sig (Elt F)) : val7 V0 (no_index (Proc.devRef .tc main_v45)) = r_main_v45 (argsOf V0) :=
  (val7_keep V0 main_v45 (by decide)).trans (val6_main_v45 V0)

set_option maxRecDepth 8192 in
set_option maxHeartbeats 400000 in
theorem val7_main_v53 (V0 : Valuation τ sig (Elt F)) : val7 V0 (no_index (Proc.devRef .tc main_v53)) = r_main_v53 (argsOf V0) := by
  unfold val7
  simp only [ops07]
  after_results_simp
  simp only [val6_main_v50, val6_main_arg11]
  rfl

/-- The device's buffer contents after the first 8 stretches. -/
def val8 (V0 : Valuation τ sig (Elt F)) : Valuation τ sig (Elt F) := after ops08 (val7 V0)

/-- A buffer that stretch 8 does not write keeps its contents through it. -/
theorem val8_keep (V0 : Valuation τ sig (Elt F)) (r : Ref sig .tc) (h : r ∉ ops08_W) :
    val8 V0 (Proc.devRef .tc r) = val7 V0 (Proc.devRef .tc r) :=
  after_of_writes_sub ops08 _ ops08_writes h
theorem val8_main_arg0 (V0 : Valuation τ sig (Elt F)) : val8 V0 (no_index (Proc.devRef .tc main_arg0)) = (argsOf V0).a0 :=
  (val8_keep V0 main_arg0 (by decide)).trans (val7_main_arg0 V0)
theorem val8_main_arg1 (V0 : Valuation τ sig (Elt F)) : val8 V0 (no_index (Proc.devRef .tc main_arg1)) = (argsOf V0).a1 :=
  (val8_keep V0 main_arg1 (by decide)).trans (val7_main_arg1 V0)
theorem val8_main_arg2 (V0 : Valuation τ sig (Elt F)) : val8 V0 (no_index (Proc.devRef .tc main_arg2)) = (argsOf V0).a2 :=
  (val8_keep V0 main_arg2 (by decide)).trans (val7_main_arg2 V0)
theorem val8_main_arg3 (V0 : Valuation τ sig (Elt F)) : val8 V0 (no_index (Proc.devRef .tc main_arg3)) = (argsOf V0).a3 :=
  (val8_keep V0 main_arg3 (by decide)).trans (val7_main_arg3 V0)
theorem val8_main_arg4 (V0 : Valuation τ sig (Elt F)) : val8 V0 (no_index (Proc.devRef .tc main_arg4)) = (argsOf V0).a4 :=
  (val8_keep V0 main_arg4 (by decide)).trans (val7_main_arg4 V0)
theorem val8_main_arg5 (V0 : Valuation τ sig (Elt F)) : val8 V0 (no_index (Proc.devRef .tc main_arg5)) = (argsOf V0).a5 :=
  (val8_keep V0 main_arg5 (by decide)).trans (val7_main_arg5 V0)
theorem val8_main_arg6 (V0 : Valuation τ sig (Elt F)) : val8 V0 (no_index (Proc.devRef .tc main_arg6)) = (argsOf V0).a6 :=
  (val8_keep V0 main_arg6 (by decide)).trans (val7_main_arg6 V0)
theorem val8_main_arg7 (V0 : Valuation τ sig (Elt F)) : val8 V0 (no_index (Proc.devRef .tc main_arg7)) = (argsOf V0).a7 :=
  (val8_keep V0 main_arg7 (by decide)).trans (val7_main_arg7 V0)
theorem val8_main_arg8 (V0 : Valuation τ sig (Elt F)) : val8 V0 (no_index (Proc.devRef .tc main_arg8)) = (argsOf V0).a8 :=
  (val8_keep V0 main_arg8 (by decide)).trans (val7_main_arg8 V0)
theorem val8_main_arg9 (V0 : Valuation τ sig (Elt F)) : val8 V0 (no_index (Proc.devRef .tc main_arg9)) = (argsOf V0).a9 :=
  (val8_keep V0 main_arg9 (by decide)).trans (val7_main_arg9 V0)
theorem val8_main_arg10 (V0 : Valuation τ sig (Elt F)) : val8 V0 (no_index (Proc.devRef .tc main_arg10)) = (argsOf V0).a10 :=
  (val8_keep V0 main_arg10 (by decide)).trans (val7_main_arg10 V0)
theorem val8_main_arg11 (V0 : Valuation τ sig (Elt F)) : val8 V0 (no_index (Proc.devRef .tc main_arg11)) = (argsOf V0).a11 :=
  (val8_keep V0 main_arg11 (by decide)).trans (val7_main_arg11 V0)
theorem val8_main_arg12 (V0 : Valuation τ sig (Elt F)) : val8 V0 (no_index (Proc.devRef .tc main_arg12)) = (argsOf V0).a12 :=
  (val8_keep V0 main_arg12 (by decide)).trans (val7_main_arg12 V0)
theorem val8_main_arg13 (V0 : Valuation τ sig (Elt F)) : val8 V0 (no_index (Proc.devRef .tc main_arg13)) = (argsOf V0).a13 :=
  (val8_keep V0 main_arg13 (by decide)).trans (val7_main_arg13 V0)
theorem val8_main_arg14 (V0 : Valuation τ sig (Elt F)) : val8 V0 (no_index (Proc.devRef .tc main_arg14)) = (argsOf V0).a14 :=
  (val8_keep V0 main_arg14 (by decide)).trans (val7_main_arg14 V0)
theorem val8_main_arg15 (V0 : Valuation τ sig (Elt F)) : val8 V0 (no_index (Proc.devRef .tc main_arg15)) = (argsOf V0).a15 :=
  (val8_keep V0 main_arg15 (by decide)).trans (val7_main_arg15 V0)
theorem val8_main_v45 (V0 : Valuation τ sig (Elt F)) : val8 V0 (no_index (Proc.devRef .tc main_v45)) = r_main_v45 (argsOf V0) :=
  (val8_keep V0 main_v45 (by decide)).trans (val7_main_v45 V0)

set_option maxRecDepth 8192 in
set_option maxHeartbeats 1300000 in
theorem val8_main_v58 (V0 : Valuation τ sig (Elt F)) : val8 V0 (no_index (Proc.devRef .tc main_v58)) = r_main_v58 (argsOf V0) := by
  unfold val8
  simp only [ops08]
  after_results_simp
  simp only [val7_main_v53, val7_main_arg12, val7_main_arg13]
  rfl

/-- The device's buffer contents after the first 9 stretches. -/
def val9 (V0 : Valuation τ sig (Elt F)) : Valuation τ sig (Elt F) := after ops09 (val8 V0)

/-- A buffer that stretch 9 does not write keeps its contents through it. -/
theorem val9_keep (V0 : Valuation τ sig (Elt F)) (r : Ref sig .tc) (h : r ∉ ops09_W) :
    val9 V0 (Proc.devRef .tc r) = val8 V0 (Proc.devRef .tc r) :=
  after_of_writes_sub ops09 _ ops09_writes h
theorem val9_main_arg0 (V0 : Valuation τ sig (Elt F)) : val9 V0 (no_index (Proc.devRef .tc main_arg0)) = (argsOf V0).a0 :=
  (val9_keep V0 main_arg0 (by decide)).trans (val8_main_arg0 V0)
theorem val9_main_arg1 (V0 : Valuation τ sig (Elt F)) : val9 V0 (no_index (Proc.devRef .tc main_arg1)) = (argsOf V0).a1 :=
  (val9_keep V0 main_arg1 (by decide)).trans (val8_main_arg1 V0)
theorem val9_main_arg2 (V0 : Valuation τ sig (Elt F)) : val9 V0 (no_index (Proc.devRef .tc main_arg2)) = (argsOf V0).a2 :=
  (val9_keep V0 main_arg2 (by decide)).trans (val8_main_arg2 V0)
theorem val9_main_arg3 (V0 : Valuation τ sig (Elt F)) : val9 V0 (no_index (Proc.devRef .tc main_arg3)) = (argsOf V0).a3 :=
  (val9_keep V0 main_arg3 (by decide)).trans (val8_main_arg3 V0)
theorem val9_main_arg4 (V0 : Valuation τ sig (Elt F)) : val9 V0 (no_index (Proc.devRef .tc main_arg4)) = (argsOf V0).a4 :=
  (val9_keep V0 main_arg4 (by decide)).trans (val8_main_arg4 V0)
theorem val9_main_arg5 (V0 : Valuation τ sig (Elt F)) : val9 V0 (no_index (Proc.devRef .tc main_arg5)) = (argsOf V0).a5 :=
  (val9_keep V0 main_arg5 (by decide)).trans (val8_main_arg5 V0)
theorem val9_main_arg6 (V0 : Valuation τ sig (Elt F)) : val9 V0 (no_index (Proc.devRef .tc main_arg6)) = (argsOf V0).a6 :=
  (val9_keep V0 main_arg6 (by decide)).trans (val8_main_arg6 V0)
theorem val9_main_arg7 (V0 : Valuation τ sig (Elt F)) : val9 V0 (no_index (Proc.devRef .tc main_arg7)) = (argsOf V0).a7 :=
  (val9_keep V0 main_arg7 (by decide)).trans (val8_main_arg7 V0)
theorem val9_main_arg8 (V0 : Valuation τ sig (Elt F)) : val9 V0 (no_index (Proc.devRef .tc main_arg8)) = (argsOf V0).a8 :=
  (val9_keep V0 main_arg8 (by decide)).trans (val8_main_arg8 V0)
theorem val9_main_arg9 (V0 : Valuation τ sig (Elt F)) : val9 V0 (no_index (Proc.devRef .tc main_arg9)) = (argsOf V0).a9 :=
  (val9_keep V0 main_arg9 (by decide)).trans (val8_main_arg9 V0)
theorem val9_main_arg10 (V0 : Valuation τ sig (Elt F)) : val9 V0 (no_index (Proc.devRef .tc main_arg10)) = (argsOf V0).a10 :=
  (val9_keep V0 main_arg10 (by decide)).trans (val8_main_arg10 V0)
theorem val9_main_arg11 (V0 : Valuation τ sig (Elt F)) : val9 V0 (no_index (Proc.devRef .tc main_arg11)) = (argsOf V0).a11 :=
  (val9_keep V0 main_arg11 (by decide)).trans (val8_main_arg11 V0)
theorem val9_main_arg12 (V0 : Valuation τ sig (Elt F)) : val9 V0 (no_index (Proc.devRef .tc main_arg12)) = (argsOf V0).a12 :=
  (val9_keep V0 main_arg12 (by decide)).trans (val8_main_arg12 V0)
theorem val9_main_arg13 (V0 : Valuation τ sig (Elt F)) : val9 V0 (no_index (Proc.devRef .tc main_arg13)) = (argsOf V0).a13 :=
  (val9_keep V0 main_arg13 (by decide)).trans (val8_main_arg13 V0)
theorem val9_main_arg14 (V0 : Valuation τ sig (Elt F)) : val9 V0 (no_index (Proc.devRef .tc main_arg14)) = (argsOf V0).a14 :=
  (val9_keep V0 main_arg14 (by decide)).trans (val8_main_arg14 V0)
theorem val9_main_arg15 (V0 : Valuation τ sig (Elt F)) : val9 V0 (no_index (Proc.devRef .tc main_arg15)) = (argsOf V0).a15 :=
  (val9_keep V0 main_arg15 (by decide)).trans (val8_main_arg15 V0)
theorem val9_main_v45 (V0 : Valuation τ sig (Elt F)) : val9 V0 (no_index (Proc.devRef .tc main_v45)) = r_main_v45 (argsOf V0) :=
  (val9_keep V0 main_v45 (by decide)).trans (val8_main_v45 V0)
theorem val9_main_v58 (V0 : Valuation τ sig (Elt F)) : val9 V0 (no_index (Proc.devRef .tc main_v58)) = r_main_v58 (argsOf V0) :=
  (val9_keep V0 main_v58 (by decide)).trans (val8_main_v58 V0)

set_option maxRecDepth 8192 in
set_option maxHeartbeats 3000000 in
theorem val9_main_v62 (V0 : Valuation τ sig (Elt F)) : val9 V0 (no_index (Proc.devRef .tc main_v62)) = r_main_v62 (argsOf V0) := by
  unfold val9
  simp only [ops09]
  after_results_simp
  simp only [val8_main_v58]
  rfl

set_option maxRecDepth 8192 in
set_option maxHeartbeats 3000000 in
theorem val9_main_v63 (V0 : Valuation τ sig (Elt F)) : val9 V0 (no_index (Proc.devRef .tc main_v63)) = r_main_v63 (argsOf V0) := by
  unfold val9
  simp only [ops09]
  after_results_simp
  simp only [val8_main_v58]
  rfl

/-- The device's buffer contents after the first 10 stretches. -/
def val10 (V0 : Valuation τ sig (Elt F)) : Valuation τ sig (Elt F) := after ops10 (val9 V0)

/-- A buffer that stretch 10 does not write keeps its contents through it. -/
theorem val10_keep (V0 : Valuation τ sig (Elt F)) (r : Ref sig .tc) (h : r ∉ ops10_W) :
    val10 V0 (Proc.devRef .tc r) = val9 V0 (Proc.devRef .tc r) :=
  after_of_writes_sub ops10 _ ops10_writes h
theorem val10_main_arg0 (V0 : Valuation τ sig (Elt F)) : val10 V0 (no_index (Proc.devRef .tc main_arg0)) = (argsOf V0).a0 :=
  (val10_keep V0 main_arg0 (by decide)).trans (val9_main_arg0 V0)
theorem val10_main_arg1 (V0 : Valuation τ sig (Elt F)) : val10 V0 (no_index (Proc.devRef .tc main_arg1)) = (argsOf V0).a1 :=
  (val10_keep V0 main_arg1 (by decide)).trans (val9_main_arg1 V0)
theorem val10_main_arg2 (V0 : Valuation τ sig (Elt F)) : val10 V0 (no_index (Proc.devRef .tc main_arg2)) = (argsOf V0).a2 :=
  (val10_keep V0 main_arg2 (by decide)).trans (val9_main_arg2 V0)
theorem val10_main_arg3 (V0 : Valuation τ sig (Elt F)) : val10 V0 (no_index (Proc.devRef .tc main_arg3)) = (argsOf V0).a3 :=
  (val10_keep V0 main_arg3 (by decide)).trans (val9_main_arg3 V0)
theorem val10_main_arg4 (V0 : Valuation τ sig (Elt F)) : val10 V0 (no_index (Proc.devRef .tc main_arg4)) = (argsOf V0).a4 :=
  (val10_keep V0 main_arg4 (by decide)).trans (val9_main_arg4 V0)
theorem val10_main_arg5 (V0 : Valuation τ sig (Elt F)) : val10 V0 (no_index (Proc.devRef .tc main_arg5)) = (argsOf V0).a5 :=
  (val10_keep V0 main_arg5 (by decide)).trans (val9_main_arg5 V0)
theorem val10_main_arg6 (V0 : Valuation τ sig (Elt F)) : val10 V0 (no_index (Proc.devRef .tc main_arg6)) = (argsOf V0).a6 :=
  (val10_keep V0 main_arg6 (by decide)).trans (val9_main_arg6 V0)
theorem val10_main_arg7 (V0 : Valuation τ sig (Elt F)) : val10 V0 (no_index (Proc.devRef .tc main_arg7)) = (argsOf V0).a7 :=
  (val10_keep V0 main_arg7 (by decide)).trans (val9_main_arg7 V0)
theorem val10_main_arg8 (V0 : Valuation τ sig (Elt F)) : val10 V0 (no_index (Proc.devRef .tc main_arg8)) = (argsOf V0).a8 :=
  (val10_keep V0 main_arg8 (by decide)).trans (val9_main_arg8 V0)
theorem val10_main_arg9 (V0 : Valuation τ sig (Elt F)) : val10 V0 (no_index (Proc.devRef .tc main_arg9)) = (argsOf V0).a9 :=
  (val10_keep V0 main_arg9 (by decide)).trans (val9_main_arg9 V0)
theorem val10_main_arg10 (V0 : Valuation τ sig (Elt F)) : val10 V0 (no_index (Proc.devRef .tc main_arg10)) = (argsOf V0).a10 :=
  (val10_keep V0 main_arg10 (by decide)).trans (val9_main_arg10 V0)
theorem val10_main_arg11 (V0 : Valuation τ sig (Elt F)) : val10 V0 (no_index (Proc.devRef .tc main_arg11)) = (argsOf V0).a11 :=
  (val10_keep V0 main_arg11 (by decide)).trans (val9_main_arg11 V0)
theorem val10_main_arg12 (V0 : Valuation τ sig (Elt F)) : val10 V0 (no_index (Proc.devRef .tc main_arg12)) = (argsOf V0).a12 :=
  (val10_keep V0 main_arg12 (by decide)).trans (val9_main_arg12 V0)
theorem val10_main_arg13 (V0 : Valuation τ sig (Elt F)) : val10 V0 (no_index (Proc.devRef .tc main_arg13)) = (argsOf V0).a13 :=
  (val10_keep V0 main_arg13 (by decide)).trans (val9_main_arg13 V0)
theorem val10_main_arg14 (V0 : Valuation τ sig (Elt F)) : val10 V0 (no_index (Proc.devRef .tc main_arg14)) = (argsOf V0).a14 :=
  (val10_keep V0 main_arg14 (by decide)).trans (val9_main_arg14 V0)
theorem val10_main_arg15 (V0 : Valuation τ sig (Elt F)) : val10 V0 (no_index (Proc.devRef .tc main_arg15)) = (argsOf V0).a15 :=
  (val10_keep V0 main_arg15 (by decide)).trans (val9_main_arg15 V0)
theorem val10_main_v45 (V0 : Valuation τ sig (Elt F)) : val10 V0 (no_index (Proc.devRef .tc main_v45)) = r_main_v45 (argsOf V0) :=
  (val10_keep V0 main_v45 (by decide)).trans (val9_main_v45 V0)

set_option maxRecDepth 8192 in
set_option maxHeartbeats 1500000 in
theorem val10_main_v77 (V0 : Valuation τ sig (Elt F)) : val10 V0 (no_index (Proc.devRef .tc main_v77)) = r_main_v77 (argsOf V0) := by
  unfold val10
  simp only [ops10]
  after_results_simp
  simp only [val9_main_v58, val9_main_v62, val9_main_v63, val9_main_arg14, val9_main_arg15, val9_main_arg1]
  rfl

/-- The device's buffer contents after the first 11 stretches. -/
def val11 (V0 : Valuation τ sig (Elt F)) : Valuation τ sig (Elt F) := after ops11 (val10 V0)

/-- A buffer that stretch 11 does not write keeps its contents through it. -/
theorem val11_keep (V0 : Valuation τ sig (Elt F)) (r : Ref sig .tc) (h : r ∉ ops11_W) :
    val11 V0 (Proc.devRef .tc r) = val10 V0 (Proc.devRef .tc r) :=
  after_of_writes_sub ops11 _ ops11_writes h
theorem val11_main_arg0 (V0 : Valuation τ sig (Elt F)) : val11 V0 (no_index (Proc.devRef .tc main_arg0)) = (argsOf V0).a0 :=
  (val11_keep V0 main_arg0 (by decide)).trans (val10_main_arg0 V0)
theorem val11_main_arg1 (V0 : Valuation τ sig (Elt F)) : val11 V0 (no_index (Proc.devRef .tc main_arg1)) = (argsOf V0).a1 :=
  (val11_keep V0 main_arg1 (by decide)).trans (val10_main_arg1 V0)
theorem val11_main_arg2 (V0 : Valuation τ sig (Elt F)) : val11 V0 (no_index (Proc.devRef .tc main_arg2)) = (argsOf V0).a2 :=
  (val11_keep V0 main_arg2 (by decide)).trans (val10_main_arg2 V0)
theorem val11_main_arg3 (V0 : Valuation τ sig (Elt F)) : val11 V0 (no_index (Proc.devRef .tc main_arg3)) = (argsOf V0).a3 :=
  (val11_keep V0 main_arg3 (by decide)).trans (val10_main_arg3 V0)
theorem val11_main_arg4 (V0 : Valuation τ sig (Elt F)) : val11 V0 (no_index (Proc.devRef .tc main_arg4)) = (argsOf V0).a4 :=
  (val11_keep V0 main_arg4 (by decide)).trans (val10_main_arg4 V0)
theorem val11_main_arg5 (V0 : Valuation τ sig (Elt F)) : val11 V0 (no_index (Proc.devRef .tc main_arg5)) = (argsOf V0).a5 :=
  (val11_keep V0 main_arg5 (by decide)).trans (val10_main_arg5 V0)
theorem val11_main_arg6 (V0 : Valuation τ sig (Elt F)) : val11 V0 (no_index (Proc.devRef .tc main_arg6)) = (argsOf V0).a6 :=
  (val11_keep V0 main_arg6 (by decide)).trans (val10_main_arg6 V0)
theorem val11_main_arg7 (V0 : Valuation τ sig (Elt F)) : val11 V0 (no_index (Proc.devRef .tc main_arg7)) = (argsOf V0).a7 :=
  (val11_keep V0 main_arg7 (by decide)).trans (val10_main_arg7 V0)
theorem val11_main_arg8 (V0 : Valuation τ sig (Elt F)) : val11 V0 (no_index (Proc.devRef .tc main_arg8)) = (argsOf V0).a8 :=
  (val11_keep V0 main_arg8 (by decide)).trans (val10_main_arg8 V0)
theorem val11_main_arg9 (V0 : Valuation τ sig (Elt F)) : val11 V0 (no_index (Proc.devRef .tc main_arg9)) = (argsOf V0).a9 :=
  (val11_keep V0 main_arg9 (by decide)).trans (val10_main_arg9 V0)
theorem val11_main_arg10 (V0 : Valuation τ sig (Elt F)) : val11 V0 (no_index (Proc.devRef .tc main_arg10)) = (argsOf V0).a10 :=
  (val11_keep V0 main_arg10 (by decide)).trans (val10_main_arg10 V0)
theorem val11_main_arg11 (V0 : Valuation τ sig (Elt F)) : val11 V0 (no_index (Proc.devRef .tc main_arg11)) = (argsOf V0).a11 :=
  (val11_keep V0 main_arg11 (by decide)).trans (val10_main_arg11 V0)
theorem val11_main_arg12 (V0 : Valuation τ sig (Elt F)) : val11 V0 (no_index (Proc.devRef .tc main_arg12)) = (argsOf V0).a12 :=
  (val11_keep V0 main_arg12 (by decide)).trans (val10_main_arg12 V0)
theorem val11_main_arg13 (V0 : Valuation τ sig (Elt F)) : val11 V0 (no_index (Proc.devRef .tc main_arg13)) = (argsOf V0).a13 :=
  (val11_keep V0 main_arg13 (by decide)).trans (val10_main_arg13 V0)
theorem val11_main_arg14 (V0 : Valuation τ sig (Elt F)) : val11 V0 (no_index (Proc.devRef .tc main_arg14)) = (argsOf V0).a14 :=
  (val11_keep V0 main_arg14 (by decide)).trans (val10_main_arg14 V0)
theorem val11_main_arg15 (V0 : Valuation τ sig (Elt F)) : val11 V0 (no_index (Proc.devRef .tc main_arg15)) = (argsOf V0).a15 :=
  (val11_keep V0 main_arg15 (by decide)).trans (val10_main_arg15 V0)
theorem val11_main_v45 (V0 : Valuation τ sig (Elt F)) : val11 V0 (no_index (Proc.devRef .tc main_v45)) = r_main_v45 (argsOf V0) :=
  (val11_keep V0 main_v45 (by decide)).trans (val10_main_v45 V0)
theorem val11_main_v77 (V0 : Valuation τ sig (Elt F)) : val11 V0 (no_index (Proc.devRef .tc main_v77)) = r_main_v77 (argsOf V0) :=
  (val11_keep V0 main_v77 (by decide)).trans (val10_main_v77 V0)

set_option maxRecDepth 8192 in
set_option maxHeartbeats 500000 in
theorem val11_main_v82 (V0 : Valuation τ sig (Elt F)) : val11 V0 (no_index (Proc.devRef .tc main_v82)) = r_main_v82 (argsOf V0) := by
  unfold val11
  simp only [ops11]
  after_results_simp
  simp only [val10_main_arg0, val10_main_arg10, val10_main_arg11]
  rfl

/-- The device's buffer contents after the first 12 stretches. -/
def val12 (V0 : Valuation τ sig (Elt F)) : Valuation τ sig (Elt F) := after ops12 (val11 V0)

/-- A buffer that stretch 12 does not write keeps its contents through it. -/
theorem val12_keep (V0 : Valuation τ sig (Elt F)) (r : Ref sig .tc) (h : r ∉ ops12_W) :
    val12 V0 (Proc.devRef .tc r) = val11 V0 (Proc.devRef .tc r) :=
  after_of_writes_sub ops12 _ ops12_writes h
theorem val12_main_arg0 (V0 : Valuation τ sig (Elt F)) : val12 V0 (no_index (Proc.devRef .tc main_arg0)) = (argsOf V0).a0 :=
  (val12_keep V0 main_arg0 (by decide)).trans (val11_main_arg0 V0)
theorem val12_main_arg1 (V0 : Valuation τ sig (Elt F)) : val12 V0 (no_index (Proc.devRef .tc main_arg1)) = (argsOf V0).a1 :=
  (val12_keep V0 main_arg1 (by decide)).trans (val11_main_arg1 V0)
theorem val12_main_arg2 (V0 : Valuation τ sig (Elt F)) : val12 V0 (no_index (Proc.devRef .tc main_arg2)) = (argsOf V0).a2 :=
  (val12_keep V0 main_arg2 (by decide)).trans (val11_main_arg2 V0)
theorem val12_main_arg3 (V0 : Valuation τ sig (Elt F)) : val12 V0 (no_index (Proc.devRef .tc main_arg3)) = (argsOf V0).a3 :=
  (val12_keep V0 main_arg3 (by decide)).trans (val11_main_arg3 V0)
theorem val12_main_arg4 (V0 : Valuation τ sig (Elt F)) : val12 V0 (no_index (Proc.devRef .tc main_arg4)) = (argsOf V0).a4 :=
  (val12_keep V0 main_arg4 (by decide)).trans (val11_main_arg4 V0)
theorem val12_main_arg5 (V0 : Valuation τ sig (Elt F)) : val12 V0 (no_index (Proc.devRef .tc main_arg5)) = (argsOf V0).a5 :=
  (val12_keep V0 main_arg5 (by decide)).trans (val11_main_arg5 V0)
theorem val12_main_arg6 (V0 : Valuation τ sig (Elt F)) : val12 V0 (no_index (Proc.devRef .tc main_arg6)) = (argsOf V0).a6 :=
  (val12_keep V0 main_arg6 (by decide)).trans (val11_main_arg6 V0)
theorem val12_main_arg7 (V0 : Valuation τ sig (Elt F)) : val12 V0 (no_index (Proc.devRef .tc main_arg7)) = (argsOf V0).a7 :=
  (val12_keep V0 main_arg7 (by decide)).trans (val11_main_arg7 V0)
theorem val12_main_arg8 (V0 : Valuation τ sig (Elt F)) : val12 V0 (no_index (Proc.devRef .tc main_arg8)) = (argsOf V0).a8 :=
  (val12_keep V0 main_arg8 (by decide)).trans (val11_main_arg8 V0)
theorem val12_main_arg9 (V0 : Valuation τ sig (Elt F)) : val12 V0 (no_index (Proc.devRef .tc main_arg9)) = (argsOf V0).a9 :=
  (val12_keep V0 main_arg9 (by decide)).trans (val11_main_arg9 V0)
theorem val12_main_arg10 (V0 : Valuation τ sig (Elt F)) : val12 V0 (no_index (Proc.devRef .tc main_arg10)) = (argsOf V0).a10 :=
  (val12_keep V0 main_arg10 (by decide)).trans (val11_main_arg10 V0)
theorem val12_main_arg11 (V0 : Valuation τ sig (Elt F)) : val12 V0 (no_index (Proc.devRef .tc main_arg11)) = (argsOf V0).a11 :=
  (val12_keep V0 main_arg11 (by decide)).trans (val11_main_arg11 V0)
theorem val12_main_arg12 (V0 : Valuation τ sig (Elt F)) : val12 V0 (no_index (Proc.devRef .tc main_arg12)) = (argsOf V0).a12 :=
  (val12_keep V0 main_arg12 (by decide)).trans (val11_main_arg12 V0)
theorem val12_main_arg13 (V0 : Valuation τ sig (Elt F)) : val12 V0 (no_index (Proc.devRef .tc main_arg13)) = (argsOf V0).a13 :=
  (val12_keep V0 main_arg13 (by decide)).trans (val11_main_arg13 V0)
theorem val12_main_arg14 (V0 : Valuation τ sig (Elt F)) : val12 V0 (no_index (Proc.devRef .tc main_arg14)) = (argsOf V0).a14 :=
  (val12_keep V0 main_arg14 (by decide)).trans (val11_main_arg14 V0)
theorem val12_main_arg15 (V0 : Valuation τ sig (Elt F)) : val12 V0 (no_index (Proc.devRef .tc main_arg15)) = (argsOf V0).a15 :=
  (val12_keep V0 main_arg15 (by decide)).trans (val11_main_arg15 V0)
theorem val12_main_v45 (V0 : Valuation τ sig (Elt F)) : val12 V0 (no_index (Proc.devRef .tc main_v45)) = r_main_v45 (argsOf V0) :=
  (val12_keep V0 main_v45 (by decide)).trans (val11_main_v45 V0)
theorem val12_main_v77 (V0 : Valuation τ sig (Elt F)) : val12 V0 (no_index (Proc.devRef .tc main_v77)) = r_main_v77 (argsOf V0) :=
  (val12_keep V0 main_v77 (by decide)).trans (val11_main_v77 V0)

set_option maxRecDepth 8192 in
set_option maxHeartbeats 1300000 in
theorem val12_main_v87 (V0 : Valuation τ sig (Elt F)) : val12 V0 (no_index (Proc.devRef .tc main_v87)) = r_main_v87 (argsOf V0) := by
  unfold val12
  simp only [ops12]
  after_results_simp
  simp only [val11_main_v82, val11_main_arg12, val11_main_arg13]
  rfl

/-- The device's buffer contents after the first 13 stretches. -/
def val13 (V0 : Valuation τ sig (Elt F)) : Valuation τ sig (Elt F) := after ops13 (val12 V0)

/-- A buffer that stretch 13 does not write keeps its contents through it. -/
theorem val13_keep (V0 : Valuation τ sig (Elt F)) (r : Ref sig .tc) (h : r ∉ ops13_W) :
    val13 V0 (Proc.devRef .tc r) = val12 V0 (Proc.devRef .tc r) :=
  after_of_writes_sub ops13 _ ops13_writes h
theorem val13_main_arg0 (V0 : Valuation τ sig (Elt F)) : val13 V0 (no_index (Proc.devRef .tc main_arg0)) = (argsOf V0).a0 :=
  (val13_keep V0 main_arg0 (by decide)).trans (val12_main_arg0 V0)
theorem val13_main_arg1 (V0 : Valuation τ sig (Elt F)) : val13 V0 (no_index (Proc.devRef .tc main_arg1)) = (argsOf V0).a1 :=
  (val13_keep V0 main_arg1 (by decide)).trans (val12_main_arg1 V0)
theorem val13_main_arg2 (V0 : Valuation τ sig (Elt F)) : val13 V0 (no_index (Proc.devRef .tc main_arg2)) = (argsOf V0).a2 :=
  (val13_keep V0 main_arg2 (by decide)).trans (val12_main_arg2 V0)
theorem val13_main_arg3 (V0 : Valuation τ sig (Elt F)) : val13 V0 (no_index (Proc.devRef .tc main_arg3)) = (argsOf V0).a3 :=
  (val13_keep V0 main_arg3 (by decide)).trans (val12_main_arg3 V0)
theorem val13_main_arg4 (V0 : Valuation τ sig (Elt F)) : val13 V0 (no_index (Proc.devRef .tc main_arg4)) = (argsOf V0).a4 :=
  (val13_keep V0 main_arg4 (by decide)).trans (val12_main_arg4 V0)
theorem val13_main_arg5 (V0 : Valuation τ sig (Elt F)) : val13 V0 (no_index (Proc.devRef .tc main_arg5)) = (argsOf V0).a5 :=
  (val13_keep V0 main_arg5 (by decide)).trans (val12_main_arg5 V0)
theorem val13_main_arg6 (V0 : Valuation τ sig (Elt F)) : val13 V0 (no_index (Proc.devRef .tc main_arg6)) = (argsOf V0).a6 :=
  (val13_keep V0 main_arg6 (by decide)).trans (val12_main_arg6 V0)
theorem val13_main_arg7 (V0 : Valuation τ sig (Elt F)) : val13 V0 (no_index (Proc.devRef .tc main_arg7)) = (argsOf V0).a7 :=
  (val13_keep V0 main_arg7 (by decide)).trans (val12_main_arg7 V0)
theorem val13_main_arg8 (V0 : Valuation τ sig (Elt F)) : val13 V0 (no_index (Proc.devRef .tc main_arg8)) = (argsOf V0).a8 :=
  (val13_keep V0 main_arg8 (by decide)).trans (val12_main_arg8 V0)
theorem val13_main_arg9 (V0 : Valuation τ sig (Elt F)) : val13 V0 (no_index (Proc.devRef .tc main_arg9)) = (argsOf V0).a9 :=
  (val13_keep V0 main_arg9 (by decide)).trans (val12_main_arg9 V0)
theorem val13_main_arg10 (V0 : Valuation τ sig (Elt F)) : val13 V0 (no_index (Proc.devRef .tc main_arg10)) = (argsOf V0).a10 :=
  (val13_keep V0 main_arg10 (by decide)).trans (val12_main_arg10 V0)
theorem val13_main_arg11 (V0 : Valuation τ sig (Elt F)) : val13 V0 (no_index (Proc.devRef .tc main_arg11)) = (argsOf V0).a11 :=
  (val13_keep V0 main_arg11 (by decide)).trans (val12_main_arg11 V0)
theorem val13_main_arg12 (V0 : Valuation τ sig (Elt F)) : val13 V0 (no_index (Proc.devRef .tc main_arg12)) = (argsOf V0).a12 :=
  (val13_keep V0 main_arg12 (by decide)).trans (val12_main_arg12 V0)
theorem val13_main_arg13 (V0 : Valuation τ sig (Elt F)) : val13 V0 (no_index (Proc.devRef .tc main_arg13)) = (argsOf V0).a13 :=
  (val13_keep V0 main_arg13 (by decide)).trans (val12_main_arg13 V0)
theorem val13_main_arg14 (V0 : Valuation τ sig (Elt F)) : val13 V0 (no_index (Proc.devRef .tc main_arg14)) = (argsOf V0).a14 :=
  (val13_keep V0 main_arg14 (by decide)).trans (val12_main_arg14 V0)
theorem val13_main_arg15 (V0 : Valuation τ sig (Elt F)) : val13 V0 (no_index (Proc.devRef .tc main_arg15)) = (argsOf V0).a15 :=
  (val13_keep V0 main_arg15 (by decide)).trans (val12_main_arg15 V0)
theorem val13_main_v45 (V0 : Valuation τ sig (Elt F)) : val13 V0 (no_index (Proc.devRef .tc main_v45)) = r_main_v45 (argsOf V0) :=
  (val13_keep V0 main_v45 (by decide)).trans (val12_main_v45 V0)
theorem val13_main_v77 (V0 : Valuation τ sig (Elt F)) : val13 V0 (no_index (Proc.devRef .tc main_v77)) = r_main_v77 (argsOf V0) :=
  (val13_keep V0 main_v77 (by decide)).trans (val12_main_v77 V0)
theorem val13_main_v87 (V0 : Valuation τ sig (Elt F)) : val13 V0 (no_index (Proc.devRef .tc main_v87)) = r_main_v87 (argsOf V0) :=
  (val13_keep V0 main_v87 (by decide)).trans (val12_main_v87 V0)

set_option maxRecDepth 8192 in
set_option maxHeartbeats 3000000 in
theorem val13_main_v91 (V0 : Valuation τ sig (Elt F)) : val13 V0 (no_index (Proc.devRef .tc main_v91)) = r_main_v91 (argsOf V0) := by
  unfold val13
  simp only [ops13]
  after_results_simp
  simp only [val12_main_v87]
  rfl

set_option maxRecDepth 8192 in
set_option maxHeartbeats 3000000 in
theorem val13_main_v92 (V0 : Valuation τ sig (Elt F)) : val13 V0 (no_index (Proc.devRef .tc main_v92)) = r_main_v92 (argsOf V0) := by
  unfold val13
  simp only [ops13]
  after_results_simp
  simp only [val12_main_v87]
  rfl

/-- The device's buffer contents after the first 14 stretches. -/
def val14 (V0 : Valuation τ sig (Elt F)) : Valuation τ sig (Elt F) := after ops14 (val13 V0)

/-- A buffer that stretch 14 does not write keeps its contents through it. -/
theorem val14_keep (V0 : Valuation τ sig (Elt F)) (r : Ref sig .tc) (h : r ∉ ops14_W) :
    val14 V0 (Proc.devRef .tc r) = val13 V0 (Proc.devRef .tc r) :=
  after_of_writes_sub ops14 _ ops14_writes h
theorem val14_main_arg0 (V0 : Valuation τ sig (Elt F)) : val14 V0 (no_index (Proc.devRef .tc main_arg0)) = (argsOf V0).a0 :=
  (val14_keep V0 main_arg0 (by decide)).trans (val13_main_arg0 V0)
theorem val14_main_arg1 (V0 : Valuation τ sig (Elt F)) : val14 V0 (no_index (Proc.devRef .tc main_arg1)) = (argsOf V0).a1 :=
  (val14_keep V0 main_arg1 (by decide)).trans (val13_main_arg1 V0)
theorem val14_main_arg2 (V0 : Valuation τ sig (Elt F)) : val14 V0 (no_index (Proc.devRef .tc main_arg2)) = (argsOf V0).a2 :=
  (val14_keep V0 main_arg2 (by decide)).trans (val13_main_arg2 V0)
theorem val14_main_arg3 (V0 : Valuation τ sig (Elt F)) : val14 V0 (no_index (Proc.devRef .tc main_arg3)) = (argsOf V0).a3 :=
  (val14_keep V0 main_arg3 (by decide)).trans (val13_main_arg3 V0)
theorem val14_main_arg4 (V0 : Valuation τ sig (Elt F)) : val14 V0 (no_index (Proc.devRef .tc main_arg4)) = (argsOf V0).a4 :=
  (val14_keep V0 main_arg4 (by decide)).trans (val13_main_arg4 V0)
theorem val14_main_arg5 (V0 : Valuation τ sig (Elt F)) : val14 V0 (no_index (Proc.devRef .tc main_arg5)) = (argsOf V0).a5 :=
  (val14_keep V0 main_arg5 (by decide)).trans (val13_main_arg5 V0)
theorem val14_main_arg6 (V0 : Valuation τ sig (Elt F)) : val14 V0 (no_index (Proc.devRef .tc main_arg6)) = (argsOf V0).a6 :=
  (val14_keep V0 main_arg6 (by decide)).trans (val13_main_arg6 V0)
theorem val14_main_arg7 (V0 : Valuation τ sig (Elt F)) : val14 V0 (no_index (Proc.devRef .tc main_arg7)) = (argsOf V0).a7 :=
  (val14_keep V0 main_arg7 (by decide)).trans (val13_main_arg7 V0)
theorem val14_main_arg8 (V0 : Valuation τ sig (Elt F)) : val14 V0 (no_index (Proc.devRef .tc main_arg8)) = (argsOf V0).a8 :=
  (val14_keep V0 main_arg8 (by decide)).trans (val13_main_arg8 V0)
theorem val14_main_arg9 (V0 : Valuation τ sig (Elt F)) : val14 V0 (no_index (Proc.devRef .tc main_arg9)) = (argsOf V0).a9 :=
  (val14_keep V0 main_arg9 (by decide)).trans (val13_main_arg9 V0)
theorem val14_main_arg10 (V0 : Valuation τ sig (Elt F)) : val14 V0 (no_index (Proc.devRef .tc main_arg10)) = (argsOf V0).a10 :=
  (val14_keep V0 main_arg10 (by decide)).trans (val13_main_arg10 V0)
theorem val14_main_arg11 (V0 : Valuation τ sig (Elt F)) : val14 V0 (no_index (Proc.devRef .tc main_arg11)) = (argsOf V0).a11 :=
  (val14_keep V0 main_arg11 (by decide)).trans (val13_main_arg11 V0)
theorem val14_main_arg12 (V0 : Valuation τ sig (Elt F)) : val14 V0 (no_index (Proc.devRef .tc main_arg12)) = (argsOf V0).a12 :=
  (val14_keep V0 main_arg12 (by decide)).trans (val13_main_arg12 V0)
theorem val14_main_arg13 (V0 : Valuation τ sig (Elt F)) : val14 V0 (no_index (Proc.devRef .tc main_arg13)) = (argsOf V0).a13 :=
  (val14_keep V0 main_arg13 (by decide)).trans (val13_main_arg13 V0)
theorem val14_main_arg14 (V0 : Valuation τ sig (Elt F)) : val14 V0 (no_index (Proc.devRef .tc main_arg14)) = (argsOf V0).a14 :=
  (val14_keep V0 main_arg14 (by decide)).trans (val13_main_arg14 V0)
theorem val14_main_arg15 (V0 : Valuation τ sig (Elt F)) : val14 V0 (no_index (Proc.devRef .tc main_arg15)) = (argsOf V0).a15 :=
  (val14_keep V0 main_arg15 (by decide)).trans (val13_main_arg15 V0)
theorem val14_main_v45 (V0 : Valuation τ sig (Elt F)) : val14 V0 (no_index (Proc.devRef .tc main_v45)) = r_main_v45 (argsOf V0) :=
  (val14_keep V0 main_v45 (by decide)).trans (val13_main_v45 V0)
theorem val14_main_v77 (V0 : Valuation τ sig (Elt F)) : val14 V0 (no_index (Proc.devRef .tc main_v77)) = r_main_v77 (argsOf V0) :=
  (val14_keep V0 main_v77 (by decide)).trans (val13_main_v77 V0)

set_option maxRecDepth 8192 in
set_option maxHeartbeats 1100000 in
theorem val14_main_v102 (V0 : Valuation τ sig (Elt F)) : val14 V0 (no_index (Proc.devRef .tc main_v102)) = r_main_v102 (argsOf V0) := by
  unfold val14
  simp only [ops14]
  after_results_simp
  simp only [val13_main_v87, val13_main_v91, val13_main_v92, val13_main_arg14]
  rfl

/-- The device's buffer contents after the first 15 stretches. -/
def val15 (V0 : Valuation τ sig (Elt F)) : Valuation τ sig (Elt F) := after ops15 (val14 V0)

/-- A buffer that stretch 15 does not write keeps its contents through it. -/
theorem val15_keep (V0 : Valuation τ sig (Elt F)) (r : Ref sig .tc) (h : r ∉ ops15_W) :
    val15 V0 (Proc.devRef .tc r) = val14 V0 (Proc.devRef .tc r) :=
  after_of_writes_sub ops15 _ ops15_writes h
theorem val15_main_arg0 (V0 : Valuation τ sig (Elt F)) : val15 V0 (no_index (Proc.devRef .tc main_arg0)) = (argsOf V0).a0 :=
  (val15_keep V0 main_arg0 (by decide)).trans (val14_main_arg0 V0)
theorem val15_main_arg1 (V0 : Valuation τ sig (Elt F)) : val15 V0 (no_index (Proc.devRef .tc main_arg1)) = (argsOf V0).a1 :=
  (val15_keep V0 main_arg1 (by decide)).trans (val14_main_arg1 V0)
theorem val15_main_arg2 (V0 : Valuation τ sig (Elt F)) : val15 V0 (no_index (Proc.devRef .tc main_arg2)) = (argsOf V0).a2 :=
  (val15_keep V0 main_arg2 (by decide)).trans (val14_main_arg2 V0)
theorem val15_main_arg3 (V0 : Valuation τ sig (Elt F)) : val15 V0 (no_index (Proc.devRef .tc main_arg3)) = (argsOf V0).a3 :=
  (val15_keep V0 main_arg3 (by decide)).trans (val14_main_arg3 V0)
theorem val15_main_arg4 (V0 : Valuation τ sig (Elt F)) : val15 V0 (no_index (Proc.devRef .tc main_arg4)) = (argsOf V0).a4 :=
  (val15_keep V0 main_arg4 (by decide)).trans (val14_main_arg4 V0)
theorem val15_main_arg5 (V0 : Valuation τ sig (Elt F)) : val15 V0 (no_index (Proc.devRef .tc main_arg5)) = (argsOf V0).a5 :=
  (val15_keep V0 main_arg5 (by decide)).trans (val14_main_arg5 V0)
theorem val15_main_arg6 (V0 : Valuation τ sig (Elt F)) : val15 V0 (no_index (Proc.devRef .tc main_arg6)) = (argsOf V0).a6 :=
  (val15_keep V0 main_arg6 (by decide)).trans (val14_main_arg6 V0)
theorem val15_main_arg7 (V0 : Valuation τ sig (Elt F)) : val15 V0 (no_index (Proc.devRef .tc main_arg7)) = (argsOf V0).a7 :=
  (val15_keep V0 main_arg7 (by decide)).trans (val14_main_arg7 V0)
theorem val15_main_arg8 (V0 : Valuation τ sig (Elt F)) : val15 V0 (no_index (Proc.devRef .tc main_arg8)) = (argsOf V0).a8 :=
  (val15_keep V0 main_arg8 (by decide)).trans (val14_main_arg8 V0)
theorem val15_main_arg9 (V0 : Valuation τ sig (Elt F)) : val15 V0 (no_index (Proc.devRef .tc main_arg9)) = (argsOf V0).a9 :=
  (val15_keep V0 main_arg9 (by decide)).trans (val14_main_arg9 V0)
theorem val15_main_arg10 (V0 : Valuation τ sig (Elt F)) : val15 V0 (no_index (Proc.devRef .tc main_arg10)) = (argsOf V0).a10 :=
  (val15_keep V0 main_arg10 (by decide)).trans (val14_main_arg10 V0)
theorem val15_main_arg11 (V0 : Valuation τ sig (Elt F)) : val15 V0 (no_index (Proc.devRef .tc main_arg11)) = (argsOf V0).a11 :=
  (val15_keep V0 main_arg11 (by decide)).trans (val14_main_arg11 V0)
theorem val15_main_arg12 (V0 : Valuation τ sig (Elt F)) : val15 V0 (no_index (Proc.devRef .tc main_arg12)) = (argsOf V0).a12 :=
  (val15_keep V0 main_arg12 (by decide)).trans (val14_main_arg12 V0)
theorem val15_main_arg13 (V0 : Valuation τ sig (Elt F)) : val15 V0 (no_index (Proc.devRef .tc main_arg13)) = (argsOf V0).a13 :=
  (val15_keep V0 main_arg13 (by decide)).trans (val14_main_arg13 V0)
theorem val15_main_arg14 (V0 : Valuation τ sig (Elt F)) : val15 V0 (no_index (Proc.devRef .tc main_arg14)) = (argsOf V0).a14 :=
  (val15_keep V0 main_arg14 (by decide)).trans (val14_main_arg14 V0)
theorem val15_main_arg15 (V0 : Valuation τ sig (Elt F)) : val15 V0 (no_index (Proc.devRef .tc main_arg15)) = (argsOf V0).a15 :=
  (val15_keep V0 main_arg15 (by decide)).trans (val14_main_arg15 V0)
theorem val15_main_v45 (V0 : Valuation τ sig (Elt F)) : val15 V0 (no_index (Proc.devRef .tc main_v45)) = r_main_v45 (argsOf V0) :=
  (val15_keep V0 main_v45 (by decide)).trans (val14_main_v45 V0)
theorem val15_main_v77 (V0 : Valuation τ sig (Elt F)) : val15 V0 (no_index (Proc.devRef .tc main_v77)) = r_main_v77 (argsOf V0) :=
  (val15_keep V0 main_v77 (by decide)).trans (val14_main_v77 V0)

set_option maxRecDepth 8192 in
set_option maxHeartbeats 400000 in
theorem val15_main_v106 (V0 : Valuation τ sig (Elt F)) : val15 V0 (no_index (Proc.devRef .tc main_v106)) = r_main_v106 (argsOf V0) := by
  unfold val15
  simp only [ops15]
  after_results_simp
  simp only [val14_main_v102, val14_main_arg15, val14_main_arg0]
  rfl

/-- The contents after the whole program are those after the fifteenth stretch. -/
theorem after_ops (V0 : Valuation τ sig (Elt F)) : after ops V0 = val15 V0 := by
  simp only [ops, after_append]
  rfl

end Cert.ReferenceIdeal.Hand

end
-- ==== Proof.RefRun.lean ====
/-
  The reference program's run.

  From any memory with zero counters every weakly fair execution of @main terminates; it ends with the three
  result buffers at the composition of the program's operations on the sixteen argument arrays, and with the
  arguments unchanged. The composition is read off stretch by stretch (the values `r_‹buffer›`), and is the
  same array function as the one written out operation by operation for the value proof.
-/
import proofs.«117479_j34084860461562_2_alg».proof.Proof.RefRunVals
import proofs.«117479_j34084860461562_2_alg».proof.Proof.RefTailDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result %v106 as a function of the sixteen argument arrays. -/
def resSrc (a0 : (⟨S100000x128, .f32⟩ : BufTy).Contents (Elt F)) (a1 : (⟨S40000x128, .f32⟩ : BufTy).Contents (Elt F)) (a2 : (⟨S500000x128, .f32⟩ : BufTy).Contents (Elt F)) (a3 : (⟨S2x500000, .i32⟩ : BufTy).Contents (Elt F)) (a4 : (⟨S384x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128, .f32⟩ : BufTy).Contents (Elt F)) (a15 : (⟨S128, .f32⟩ : BufTy).Contents (Elt F)) : (⟨S100000x128, .f32⟩ : BufTy).Contents (Elt F) :=
  r_main_v106 ⟨a0, a1, a2, a3, a4, a5, a6, a7, a8, a9, a10, a11, a12, a13, a14, a15⟩

/-- After the whole program the buffer of %v106 holds that function of the arguments' contents. -/
theorem after_main_v106 (V0 : Valuation τ sig (Elt F)) :
    after ops V0 (Proc.devRef .tc main_v106) = resSrc (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  rw [after_ops]; exact val15_main_v106 V0

/-- The result %v77 as a function of the sixteen argument arrays. -/
def resDst (a0 : (⟨S100000x128, .f32⟩ : BufTy).Contents (Elt F)) (a1 : (⟨S40000x128, .f32⟩ : BufTy).Contents (Elt F)) (a2 : (⟨S500000x128, .f32⟩ : BufTy).Contents (Elt F)) (a3 : (⟨S2x500000, .i32⟩ : BufTy).Contents (Elt F)) (a4 : (⟨S384x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128, .f32⟩ : BufTy).Contents (Elt F)) (a15 : (⟨S128, .f32⟩ : BufTy).Contents (Elt F)) : (⟨S40000x128, .f32⟩ : BufTy).Contents (Elt F) :=
  r_main_v77 ⟨a0, a1, a2, a3, a4, a5, a6, a7, a8, a9, a10, a11, a12, a13, a14, a15⟩

/-- After the whole program the buffer of %v77 holds that function of the arguments' contents. -/
theorem after_main_v77 (V0 : Valuation τ sig (Elt F)) :
    after ops V0 (Proc.devRef .tc main_v77) = resDst (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  rw [after_ops]; exact val15_main_v77 V0

/-- The result %v45 as a function of the sixteen argument arrays. -/
def resEdges (a0 : (⟨S100000x128, .f32⟩ : BufTy).Contents (Elt F)) (a1 : (⟨S40000x128, .f32⟩ : BufTy).Contents (Elt F)) (a2 : (⟨S500000x128, .f32⟩ : BufTy).Contents (Elt F)) (a3 : (⟨S2x500000, .i32⟩ : BufTy).Contents (Elt F)) (a4 : (⟨S384x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128, .f32⟩ : BufTy).Contents (Elt F)) (a15 : (⟨S128, .f32⟩ : BufTy).Contents (Elt F)) : (⟨S500000x128, .f32⟩ : BufTy).Contents (Elt F) :=
  r_main_v45 ⟨a0, a1, a2, a3, a4, a5, a6, a7, a8, a9, a10, a11, a12, a13, a14, a15⟩

/-- After the whole program the buffer of %v45 holds that function of the arguments' contents. -/
theorem after_main_v45 (V0 : Valuation τ sig (Elt F)) :
    after ops V0 (Proc.devRef .tc main_v45) = resEdges (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  rw [after_ops]; exact val15_main_v45 V0

theorem after_main_arg0 (V0 : Valuation τ sig (Elt F)) : after ops V0 (Proc.devRef .tc main_arg0) = V0 (Proc.devRef .tc main_arg0) := by
  rw [after_ops]; exact val15_main_arg0 V0

theorem after_main_arg1 (V0 : Valuation τ sig (Elt F)) : after ops V0 (Proc.devRef .tc main_arg1) = V0 (Proc.devRef .tc main_arg1) := by
  rw [after_ops]; exact val15_main_arg1 V0

theorem after_main_arg2 (V0 : Valuation τ sig (Elt F)) : after ops V0 (Proc.devRef .tc main_arg2) = V0 (Proc.devRef .tc main_arg2) := by
  rw [after_ops]; exact val15_main_arg2 V0

theorem after_main_arg3 (V0 : Valuation τ sig (Elt F)) : after ops V0 (Proc.devRef .tc main_arg3) = V0 (Proc.devRef .tc main_arg3) := by
  rw [after_ops]; exact val15_main_arg3 V0

theorem after_main_arg4 (V0 : Valuation τ sig (Elt F)) : after ops V0 (Proc.devRef .tc main_arg4) = V0 (Proc.devRef .tc main_arg4) := by
  rw [after_ops]; exact val15_main_arg4 V0

theorem after_main_arg5 (V0 : Valuation τ sig (Elt F)) : after ops V0 (Proc.devRef .tc main_arg5) = V0 (Proc.devRef .tc main_arg5) := by
  rw [after_ops]; exact val15_main_arg5 V0

theorem after_main_arg6 (V0 : Valuation τ sig (Elt F)) : after ops V0 (Proc.devRef .tc main_arg6) = V0 (Proc.devRef .tc main_arg6) := by
  rw [after_ops]; exact val15_main_arg6 V0

theorem after_main_arg7 (V0 : Valuation τ sig (Elt F)) : after ops V0 (Proc.devRef .tc main_arg7) = V0 (Proc.devRef .tc main_arg7) := by
  rw [after_ops]; exact val15_main_arg7 V0

theorem after_main_arg8 (V0 : Valuation τ sig (Elt F)) : after ops V0 (Proc.devRef .tc main_arg8) = V0 (Proc.devRef .tc main_arg8) := by
  rw [after_ops]; exact val15_main_arg8 V0

theorem after_main_arg9 (V0 : Valuation τ sig (Elt F)) : after ops V0 (Proc.devRef .tc main_arg9) = V0 (Proc.devRef .tc main_arg9) := by
  rw [after_ops]; exact val15_main_arg9 V0

theorem after_main_arg10 (V0 : Valuation τ sig (Elt F)) : after ops V0 (Proc.devRef .tc main_arg10) = V0 (Proc.devRef .tc main_arg10) := by
  rw [after_ops]; exact val15_main_arg10 V0

theorem after_main_arg11 (V0 : Valuation τ sig (Elt F)) : after ops V0 (Proc.devRef .tc main_arg11) = V0 (Proc.devRef .tc main_arg11) := by
  rw [after_ops]; exact val15_main_arg11 V0

theorem after_main_arg12 (V0 : Valuation τ sig (Elt F)) : after ops V0 (Proc.devRef .tc main_arg12) = V0 (Proc.devRef .tc main_arg12) := by
  rw [after_ops]; exact val15_main_arg12 V0

theorem after_main_arg13 (V0 : Valuation τ sig (Elt F)) : after ops V0 (Proc.devRef .tc main_arg13) = V0 (Proc.devRef .tc main_arg13) := by
  rw [after_ops]; exact val15_main_arg13 V0

theorem after_main_arg14 (V0 : Valuation τ sig (Elt F)) : after ops V0 (Proc.devRef .tc main_arg14) = V0 (Proc.devRef .tc main_arg14) := by
  rw [after_ops]; exact val15_main_arg14 V0

theorem after_main_arg15 (V0 : Valuation τ sig (Elt F)) : after ops V0 (Proc.devRef .tc main_arg15) = V0 (Proc.devRef .tc main_arg15) := by
  rw [after_ops]; exact val15_main_arg15 V0

set_option maxRecDepth 16384 in
set_option maxHeartbeats 4000000 in
/-- Stretch by stretch or operation by operation, %v106 is the same composition of the same operations. -/
theorem resSrc_eq (a0 : (⟨S100000x128, .f32⟩ : BufTy).Contents (Elt F)) (a1 : (⟨S40000x128, .f32⟩ : BufTy).Contents (Elt F)) (a2 : (⟨S500000x128, .f32⟩ : BufTy).Contents (Elt F)) (a3 : (⟨S2x500000, .i32⟩ : BufTy).Contents (Elt F)) (a4 : (⟨S384x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128, .f32⟩ : BufTy).Contents (Elt F)) (a15 : (⟨S128, .f32⟩ : BufTy).Contents (Elt F)) : resSrc a0 a1 a2 a3 a4 a5 a6 a7 a8 a9 a10 a11 a12 a13 a14 a15 = Tails.refSrc a0 a1 a2 a3 a4 a5 a6 a7 a8 a9 a10 a11 a12 a13 a14 a15 := rfl

set_option maxRecDepth 16384 in
set_option maxHeartbeats 4000000 in
/-- Stretch by stretch or operation by operation, %v77 is the same composition of the same operations. -/
theorem resDst_eq (a0 : (⟨S100000x128, .f32⟩ : BufTy).Contents (Elt F)) (a1 : (⟨S40000x128, .f32⟩ : BufTy).Contents (Elt F)) (a2 : (⟨S500000x128, .f32⟩ : BufTy).Contents (Elt F)) (a3 : (⟨S2x500000, .i32⟩ : BufTy).Contents (Elt F)) (a4 : (⟨S384x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128, .f32⟩ : BufTy).Contents (Elt F)) (a15 : (⟨S128, .f32⟩ : BufTy).Contents (Elt F)) : resDst a0 a1 a2 a3 a4 a5 a6 a7 a8 a9 a10 a11 a12 a13 a14 a15 = Tails.refDst a0 a1 a2 a3 a4 a5 a6 a7 a8 a9 a10 a11 a12 a13 a14 a15 := rfl

set_option maxRecDepth 16384 in
set_option maxHeartbeats 4000000 in
/-- Stretch by stretch or operation by operation, %v45 is the same composition of the same operations. -/
theorem resEdges_eq (a0 : (⟨S100000x128, .f32⟩ : BufTy).Contents (Elt F)) (a1 : (⟨S40000x128, .f32⟩ : BufTy).Contents (Elt F)) (a2 : (⟨S500000x128, .f32⟩ : BufTy).Contents (Elt F)) (a3 : (⟨S2x500000, .i32⟩ : BufTy).Contents (Elt F)) (a4 : (⟨S384x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128, .f32⟩ : BufTy).Contents (Elt F)) (a15 : (⟨S128, .f32⟩ : BufTy).Contents (Elt F)) : resEdges a0 a1 a2 a3 a4 a5 a6 a7 a8 a9 a10 a11 a12 a13 a14 a15 = Tails.refEdges a0 a1 a2 a3 a4 a5 a6 a7 a8 a9 a10 a11 a12 a13 a14 a15 := rfl

/-- On every device, for any float values, from any memory with zero counters: every weakly fair execution of @main
    terminates with each result at the operations' composition on the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v106) = Tails.refSrc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
        ∧ r.2.mem ((c.tc : Thread nD τ).loc main_v77) = Tails.refDst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
        ∧ r.2.mem ((c.tc : Thread nD τ).loc main_v45) = Tails.refEdges (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15))) :=
  (θ_run defs _ _).mono (fun _ h c =>
      ⟨⟨(h c main_v106).trans ((after_main_v106 (launchContents m c)).trans (resSrc_eq ..)),
        (h c main_v77).trans ((after_main_v77 (launchContents m c)).trans (resDst_eq ..)),
        (h c main_v45).trans ((after_main_v45 (launchContents m c)).trans (resEdges_eq ..))⟩,
       (h c main_arg0).trans (after_main_arg0 (launchContents m c)),
       (h c main_arg1).trans (after_main_arg1 (launchContents m c)),
       (h c main_arg2).trans (after_main_arg2 (launchContents m c)),
       (h c main_arg3).trans (after_main_arg3 (launchContents m c)),
       (h c main_arg4).trans (after_main_arg4 (launchContents m c)),
       (h c main_arg5).trans (after_main_arg5 (launchContents m c)),
       (h c main_arg6).trans (after_main_arg6 (launchContents m c)),
       (h c main_arg7).trans (after_main_arg7 (launchContents m c)),
       (h c main_arg8).trans (after_main_arg8 (launchContents m c)),
       (h c main_arg9).trans (after_main_arg9 (launchContents m c)),
       (h c main_arg10).trans (after_main_arg10 (launchContents m c)),
       (h c main_arg11).trans (after_main_arg11 (launchContents m c)),
       (h c main_arg12).trans (after_main_arg12 (launchContents m c)),
       (h c main_arg13).trans (after_main_arg13 (launchContents m c)),
       (h c main_arg14).trans (after_main_arg14 (launchContents m c)),
       (h c main_arg15).trans (after_main_arg15 (launchContents m c))⟩)
    (run_seq scopedRefs_eq scopedSems_eq defs main (fun _ => ops) main_eq (fun _ => ops_sub) m ρ (fun _ => ops_fresh))

/-- The run's second half alone: @main terminates and leaves its sixteen arguments unchanged. -/
theorem frame_ref (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.ReferenceIdeal.Hand

end
-- ==== Proof.lean ====
/-
  The claim, assembled.

  The three frames. The kernel program (at the word level and idealized: one text in two namespaces, since the ideal pass
  rewrote nothing) runs as five stretches — host operations, the edge kernel's grid, host operations, the two node
  kernels' grids — through which the contents of every unscoped buffer are followed from the launch memory; no stretch
  writes an argument array. The reference is a straight line of host operations; its run leaves every result at the
  operations' composed value and writes no argument.

  The value claim, on the extended reals, with no use of the inputs' finiteness. Row by row both programs compute
    edges_new[e]  = LN( silu( x_dst[dst e]·W1d + x_src[src e]·W1s + edge_attr[e]·W1e + b1 )·W2 + b2 ; γ, β )
    nodes_dst[r]  = LN( silu( x_dst[r]·N1a + (Σ_{e : dst e = r} edges_new[e])·N1b + b1 )·N2 + b2 ; γ, β ) + x_dst[r]
    nodes_src[r]  = LN( silu( x_src[r]·N1a + x_src[r]·N1b + b1 )·N2 + b2 ; γ, β ) + x_src[r].
  The kernels contract the three (two) 128-column blocks of the first layer separately and add the results; the reference
  contracts the concatenated 384 (256) columns at once: the same number, because addition of extended reals is associative
  and commutative. The logistic function is one function whether spelt as the vector unit's operation or as 1/(1+e^(−t)).
  The reference's variance divides by 128 − 0 under a guard 128 − 0 > 0: the divisor is 128 and the guard holds. The row
  gathers and the scatter-add are the same host operations on both sides and are never opened: equal inputs give equal
  outputs. A change of float format is the identity on the extended reals.
  preserves is trivial: the ideal pass recorded no rewrite.
-/
import proofs.«117479_j34084860461562_2_alg».proof.Defs
import proofs.«117479_j34084860461562_2_alg».proof.Proof.Gen.Kernel
import proofs.«117479_j34084860461562_2_alg».proof.Proof.Gen.KernelIdeal
import proofs.«117479_j34084860461562_2_alg».proof.Proof.Gen.ReferenceIdeal
import proofs.«117479_j34084860461562_2_alg».proof.Proof.Gen.Pre_finite_inputs
import proofs.«117479_j34084860461562_2_alg».proof.Proof.KFrame
import proofs.«117479_j34084860461562_2_alg».proof.Proof.BKFrame
import proofs.«117479_j34084860461562_2_alg».proof.Proof.KValue
import proofs.«117479_j34084860461562_2_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame_all (F := Bits) m ρ
/-- The idealized kernel program runs and leaves its arguments unchanged. -/
theorem frame_ki : Cert.frame_KernelIdeal := fun m ρ _ => Cert.KernelIdeal.Hand.frame_all (F := Ideal) m ρ
/-- The idealized reference runs and leaves its arguments unchanged. -/
theorem frame_ri : Cert.frame_ReferenceIdeal := fun m ρ _ => Cert.ReferenceIdeal.Hand.frame_ref (F := Ideal) m ρ
/-- The ideal pass rewrote nothing. -/
theorem preserves : Cert.preserves_Kernel_KernelIdeal := trivial

/-- From memories that agree on the sixteen arguments both idealized programs run, and the three results agree entry by
    entry: each result buffer of the kernel program holds the reference's composed function of the arguments. -/
theorem algebraic : Cert.algebraic_KernelIdeal_ReferenceIdeal := by
  intro m ρ m' ρ' _ hagree
  refine ⟨fun c => Cert.KernelIdeal.Hand.W5 m ρ c (Proc.devRef .tc Cert.KernelIdeal.main_v45),
    fun c => Cert.KernelIdeal.Hand.W5 m ρ c (Proc.devRef .tc Cert.KernelIdeal.main_v44),
    fun c => Cert.KernelIdeal.Hand.W5 m ρ c (Proc.devRef .tc Cert.KernelIdeal.main_v31), ?_, ?_⟩
  · exact (θ_run (Cert.KernelIdeal.defs (F := Ideal)) _ _).mono (fun r h c => ⟨
        h c _ (Cert.KernelIdeal.Hand.mem_ucH Cert.KernelIdeal.main_v45 (by decide)),
        h c _ (Cert.KernelIdeal.Hand.mem_ucH Cert.KernelIdeal.main_v44 (by decide)),
        h c _ (Cert.KernelIdeal.Hand.mem_ucH Cert.KernelIdeal.main_v31 (by decide)),
        (h c _ (Cert.KernelIdeal.Hand.mem_ucH Cert.KernelIdeal.main_arg0 (by decide))).trans (Cert.KernelIdeal.Hand.W5_main_arg0 m ρ c),
        (h c _ (Cert.KernelIdeal.Hand.mem_ucH Cert.KernelIdeal.main_arg1 (by decide))).trans (Cert.KernelIdeal.Hand.W5_main_arg1 m ρ c),
        (h c _ (Cert.KernelIdeal.Hand.mem_ucH Cert.KernelIdeal.main_arg2 (by decide))).trans (Cert.KernelIdeal.Hand.W5_main_arg2 m ρ c),
        (h c _ (Cert.KernelIdeal.Hand.mem_ucH Cert.KernelIdeal.main_arg3 (by decide))).trans (Cert.KernelIdeal.Hand.W5_main_arg3 m ρ c),
        (h c _ (Cert.KernelIdeal.Hand.mem_ucH Cert.KernelIdeal.main_arg4 (by decide))).trans (Cert.KernelIdeal.Hand.W5_main_arg4 m ρ c),
        (h c _ (Cert.KernelIdeal.Hand.mem_ucH Cert.KernelIdeal.main_arg5 (by decide))).trans (Cert.KernelIdeal.Hand.W5_main_arg5 m ρ c),
        (h c _ (Cert.KernelIdeal.Hand.mem_ucH Cert.KernelIdeal.main_arg6 (by decide))).trans (Cert.KernelIdeal.Hand.W5_main_arg6 m ρ c),
        (h c _ (Cert.KernelIdeal.Hand.mem_ucH Cert.KernelIdeal.main_arg7 (by decide))).trans (Cert.KernelIdeal.Hand.W5_main_arg7 m ρ c),
        (h c _ (Cert.KernelIdeal.Hand.mem_ucH Cert.KernelIdeal.main_arg8 (by decide))).trans (Cert.KernelIdeal.Hand.W5_main_arg8 m ρ c),
        (h c _ (Cert.KernelIdeal.Hand.mem_ucH Cert.KernelIdeal.main_arg9 (by decide))).trans (Cert.KernelIdeal.Hand.W5_main_arg9 m ρ c),
        (h c _ (Cert.KernelIdeal.Hand.mem_ucH Cert.KernelIdeal.main_arg10 (by decide))).trans (Cert.KernelIdeal.Hand.W5_main_arg10 m ρ c),
        (h c _ (Cert.KernelIdeal.Hand.mem_ucH Cert.KernelIdeal.main_arg11 (by decide))).trans (Cert.KernelIdeal.Hand.W5_main_arg11 m ρ c),
        (h c _ (Cert.KernelIdeal.Hand.mem_ucH Cert.KernelIdeal.main_arg12 (by decide))).trans (Cert.KernelIdeal.Hand.W5_main_arg12 m ρ c),
        (h c _ (Cert.KernelIdeal.Hand.mem_ucH Cert.KernelIdeal.main_arg13 (by decide))).trans (Cert.KernelIdeal.Hand.W5_main_arg13 m ρ c),
        (h c _ (Cert.KernelIdeal.Hand.mem_ucH Cert.KernelIdeal.main_arg14 (by decide))).trans (Cert.KernelIdeal.Hand.W5_main_arg14 m ρ c),
        (h c _ (Cert.KernelIdeal.Hand.mem_ucH Cert.KernelIdeal.main_arg15 (by decide))).trans (Cert.KernelIdeal.Hand.W5_main_arg15 m ρ c)⟩) (Cert.KernelIdeal.Hand.run_all (F := Ideal) m ρ)
  · refine (θ_run (Cert.ReferenceIdeal.defs (F := Ideal)) _ _).mono (fun r h c => ?_)
      (Cert.ReferenceIdeal.Hand.run (F := Ideal) m' ρ')
    obtain ⟨h0, h1, h2, h3, h4, h5, h6, h7, h8, h9, h10, h11, h12, h13, h14, h15⟩ := hagree c
    obtain ⟨⟨hsrc, hdst, hedg⟩, hargs⟩ := h c
    refine ⟨hsrc.trans ?_, hdst.trans ?_, hedg.trans ?_, hargs⟩
    · rw [h0, h1, h2, h3, h4, h5, h6, h7, h8, h9, h10, h11, h12, h13, h14, h15]; exact (Cert.KernelIdeal.Hand.kSrc_eq m ρ c).symm
    · rw [h0, h1, h2, h3, h4, h5, h6, h7, h8, h9, h10, h11, h12, h13, h14, h15]; exact (Cert.KernelIdeal.Hand.kDst_eq m ρ c).symm
    · rw [h0, h1, h2, h3, h4, h5, h6, h7, h8, h9, h10, h11, h12, h13, h14, h15]; exact (Cert.KernelIdeal.Hand.kEdges_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
